-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg0 main_v4
  let main_c_1 : IVec S_ 32 := constantI S_ 32 99999#32
  let main_v6 : IVec S4096x26 32 := broadcastInDim S4096x26 ![] bcast_S_S4096x26 main_c_1
  let main_v7 : IVec S4096x26 1 := cmpi .sle main_arg0 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S4096x26 : Shape := ⟨2, ![4096, 26]⟩
abbrev S100000x64 : Shape := ⟨2, ![100000, 64]⟩
abbrev S1024x104 : Shape := ⟨2, ![1024, 104]⟩
abbrev S_ : Shape := ⟨0, ![]⟩
abbrev S100000x128 : Shape := ⟨2, ![100000, 128]⟩
abbrev S4096x26x64 : Shape := ⟨3, ![4096, 26, 64]⟩
abbrev S32x104 : Shape := ⟨2, ![32, 104]⟩
abbrev S104x128 : Shape := ⟨2, ![104, 128]⟩
abbrev S104x64 : Shape := ⟨2, ![104, 64]⟩
abbrev S1x104 : Shape := ⟨2, ![1, 104]⟩
abbrev S104 : Shape := ⟨1, ![104]⟩
abbrev S1x16 : Shape := ⟨2, ![1, 16]⟩
abbrev S16 : Shape := ⟨1, ![16]⟩
abbrev S26x64 : Shape := ⟨2, ![26, 64]⟩
abbrev S1x26x64 : Shape := ⟨3, ![1, 26, 64]⟩

abbrev nBuf : Table → Nat
  | .hbm => 7
  | .local .scVector .vmem => 9
  | _ => 0

abbrev bufTy : (tb : Table) → Fin (nBuf tb) → BufTy
  | .hbm, ⟨0, _⟩ => ⟨S4096x26, .i32⟩
  | .hbm, ⟨1, _⟩ => ⟨S100000x64, .f32⟩
  | .hbm, ⟨2, _⟩ => ⟨S1024x104, .i32⟩
  | .hbm, ⟨3, _⟩ => ⟨S_, .i32⟩
  | .hbm, ⟨4, _⟩ => ⟨S_, .f32⟩
  | .hbm, ⟨5, _⟩ => ⟨S100000x128, .f32⟩
  | .hbm, ⟨6, _⟩ => ⟨S4096x26x64, .f32⟩
  | .local .scVector .vmem, ⟨0, _⟩ => ⟨S32x104, .i32⟩
  | .local .scVector .vmem, ⟨1, _⟩ => ⟨S104x128, .f32⟩
  | .local .scVector .vmem, ⟨2, _⟩ => ⟨S104x128, .f32⟩
  | .local .scVector .vmem, ⟨3, _⟩ => ⟨S104x128, .f32⟩
  | .local .scVector .vmem, ⟨4, _⟩ => ⟨S104x128, .f32⟩
  | .local .scVector .vmem, ⟨5, _⟩ => ⟨S104x64, .f32⟩
  | .local .scVector .vmem, ⟨6, _⟩ => ⟨S104x64, .f32⟩
  | .local .scVector .vmem, ⟨7, _⟩ => ⟨S104x64, .f32⟩
  | .local .scVector .vmem, ⟨8, _⟩ => ⟨S104x64, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 2, rfl⟩
abbrev main_v1_scv : Ref sig .scVector := ⟨.hbm, 5, rfl⟩
abbrev main_v2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v3 : BitVec 32 := Scalar.muli v1 c32_i32
  let c0_i32_2665_r0 : BitVec 32 := 0#32
  ![v3.toNat, 0]
@[reducible] def k0_t1_loop : Scf.Loop 32 :=
  let c0_i32_15 : BitVec 32 := 0#32
  let c104_i32 : BitVec 32 := 104#32
  let v16 : BitVec 32 := Scalar.addi c0_i32_15 c104_i32
  let c1_i32_16 : BitVec 32 := 1#32
  ⟨c0_i32_15, v16, c1_i32_16⟩
def k0_off2 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2020 : Index := Scalar.indexCast arg22
  let c0 : Index := 0#32
  ![v2020.toNat, 0]
def k0_off3 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2023 : Index := Scalar.indexCast arg22
  let c0_2665 : Index := 0#32
  ![v2023.toNat, 0]
def k0_off4 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2027 : Index := Scalar.indexCast arg22
  let c16 : Index := 16#32
  ![v2027.toNat, 16]
def k0_off5 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2030 : Index := Scalar.indexCast arg22
  let c16_2666 : Index := 16#32
  ![v2030.toNat, 16]
def k0_off6 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2034 : Index := Scalar.indexCast arg22
  let c32 : Index := 32#32
  ![v2034.toNat, 32]
def k0_off7 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2037 : Index := Scalar.indexCast arg22
  let c32_2667 : Index := 32#32
  ![v2037.toNat, 32]
def k0_off8 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2041 : Index := Scalar.indexCast arg22
  let c48 : Index := 48#32
  ![v2041.toNat, 48]
def k0_off9 (k0_t1 : Fin k0_t1_loop.trips) : Fin 2 → Nat :=
  let c0_i32_15 : BitVec 32 := 0#32
  let c1_i32_16 : BitVec 32 := 1#32
  let arg22 : BitVec 32 := Scf.iv c0_i32_15 c1_i32_16 k0_t1
  let v2044 : Index := Scalar.indexCast arg22
  let c48_2668 : Index := 48#32
  ![v2044.toNat, 48]
def k0_off10 (i : grid0.Coords) (c0_i32_18 : BitVec 32) (c0_i32_19 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v17 : BitVec 32 := Scalar.addi v2 c0_i32_18
  let v18 : BitVec 32 := Scalar.addi v17 c0_i32_19
  let c0_i32_22 : BitVec 32 := 0#32
  let c0_i32_23 : BitVec 32 := 0#32
  ![v18.toNat, 0, 0]
@[reducible] def k0_t2_loop : Scf.Loop 32 :=
  let c0_i32_63 : BitVec 32 := 0#32
  let c104_i32_64 : BitVec 32 := 104#32
  let v55 : BitVec 32 := Scalar.addi c0_i32_63 c104_i32_64
  let c1_i32_65 : BitVec 32 := 1#32
  ⟨c0_i32_63, v55, c1_i32_65⟩
def k0_off11 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2020 : Index := Scalar.indexCast arg22
  let c0 : Index := 0#32
  ![v2020.toNat, 0]
def k0_off12 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2023 : Index := Scalar.indexCast arg22
  let c0_2665 : Index := 0#32
  ![v2023.toNat, 0]
def k0_off13 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2027 : Index := Scalar.indexCast arg22
  let c16 : Index := 16#32
  ![v2027.toNat, 16]
def k0_off14 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2030 : Index := Scalar.indexCast arg22
  let c16_2666 : Index := 16#32
  ![v2030.toNat, 16]
def k0_off15 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2034 : Index := Scalar.indexCast arg22
  let c32 : Index := 32#32
  ![v2034.toNat, 32]
def k0_off16 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2037 : Index := Scalar.indexCast arg22
  let c32_2667 : Index := 32#32
  ![v2037.toNat, 32]
def k0_off17 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2041 : Index := Scalar.indexCast arg22
  let c48 : Index := 48#32
  ![v2041.toNat, 48]
def k0_off18 (k0_t2 : Fin k0_t2_loop.trips) : Fin 2 → Nat :=
  let c0_i32_63 : BitVec 32 := 0#32
  let c1_i32_65 : BitVec 32 := 1#32
  let arg22 : BitVec 32 := Scf.iv c0_i32_63 c1_i32_65 k0_t2
  let v2044 : Index := Scalar.indexCast arg22
  let c48_2668 : Index := 48#32
  ![v2044.toNat, 48]
@[reducible] def k0_t3_loop : Scf.Loop 32 :=
  let c0_i32_115 : BitVec 32 := 0#32
  let c104_i32_116 : BitVec 32 := 104#32
  let v94 : BitVec 32 := Scalar.addi c0_i32_115 c104_i32_116
  let c1_i32_117 : BitVec 32 := 1#32
  ⟨c0_i32_115, v94, c1_i32_117⟩
def k0_off19 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2020 : Index := Scalar.indexCast arg22
  let c0 : Index := 0#32
  ![v2020.toNat, 0]
def k0_off20 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2023 : Index := Scalar.indexCast arg22
  let c0_2665 : Index := 0#32
  ![v2023.toNat, 0]
def k0_off21 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2027 : Index := Scalar.indexCast arg22
  let c16 : Index := 16#32
  ![v2027.toNat, 16]
def k0_off22 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2030 : Index := Scalar.indexCast arg22
  let c16_2666 : Index := 16#32
  ![v2030.toNat, 16]
def k0_off23 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2034 : Index := Scalar.indexCast arg22
  let c32 : Index := 32#32
  ![v2034.toNat, 32]
def k0_off24 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2037 : Index := Scalar.indexCast arg22
  let c32_2667 : Index := 32#32
  ![v2037.toNat, 32]
def k0_off25 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2041 : Index := Scalar.indexCast arg22
  let c48 : Index := 48#32
  ![v2041.toNat, 48]
def k0_off26 (k0_t3 : Fin k0_t3_loop.trips) : Fin 2 → Nat :=
  let c0_i32_115 : BitVec 32 := 0#32
  let c1_i32_117 : BitVec 32 := 1#32
  let arg22 : BitVec 32 := Scf.iv c0_i32_115 c1_i32_117 k0_t3
  let v2044 : Index := Scalar.indexCast arg22
  let c48_2668 : Index := 48#32
  ![v2044.toNat, 48]
@[reducible] def k0_t4_loop : Scf.Loop 32 :=
  let c0_i32_166 : BitVec 32 := 0#32
  let c104_i32_167 : BitVec 32 := 104#32
  let v133 : BitVec 32 := Scalar.addi c0_i32_166 c104_i32_167
  let c1_i32_168 : BitVec 32 := 1#32
  ⟨c0_i32_166, v133, c1_i32_168⟩
def k0_off27 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2020 : Index := Scalar.indexCast arg22
  let c0 : Index := 0#32
  ![v2020.toNat, 0]
def k0_off28 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2023 : Index := Scalar.indexCast arg22
  let c0_2665 : Index := 0#32
  ![v2023.toNat, 0]
def k0_off29 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2027 : Index := Scalar.indexCast arg22
  let c16 : Index := 16#32
  ![v2027.toNat, 16]
def k0_off30 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2030 : Index := Scalar.indexCast arg22
  let c16_2666 : Index := 16#32
  ![v2030.toNat, 16]
def k0_off31 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2034 : Index := Scalar.indexCast arg22
  let c32 : Index := 32#32
  ![v2034.toNat, 32]
def k0_off32 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2037 : Index := Scalar.indexCast arg22
  let c32_2667 : Index := 32#32
  ![v2037.toNat, 32]
def k0_off33 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2041 : Index := Scalar.indexCast arg22
  let c48 : Index := 48#32
  ![v2041.toNat, 48]
def k0_off34 (k0_t4 : Fin k0_t4_loop.trips) : Fin 2 → Nat :=
  let c0_i32_166 : BitVec 32 := 0#32
  let c1_i32_168 : BitVec 32 := 1#32
  let arg22 : BitVec 32 := Scf.iv c0_i32_166 c1_i32_168 k0_t4
  let v2044 : Index := Scalar.indexCast arg22
  let c48_2668 : Index := 48#32
  ![v2044.toNat, 48]
@[reducible] def k0_t5_loop : Scf.Loop 32 :=
  let c0_i32_249 : BitVec 32 := 0#32
  let c104_i32_250 : BitVec 32 := 104#32
  let v196 : BitVec 32 := Scalar.addi c0_i32_249 c104_i32_250
  let c1_i32_251 : BitVec 32 := 1#32
  ⟨c0_i32_249, v196, c1_i32_251⟩
def k0_off35 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2020 : Index := Scalar.indexCast arg22
  let c0 : Index := 0#32
  ![v2020.toNat, 0]
def k0_off36 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2023 : Index := Scalar.indexCast arg22
  let c0_2665 : Index := 0#32
  ![v2023.toNat, 0]
def k0_off37 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2027 : Index := Scalar.indexCast arg22
  let c16 : Index := 16#32
  ![v2027.toNat, 16]
def k0_off38 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2030 : Index := Scalar.indexCast arg22
  let c16_2666 : Index := 16#32
  ![v2030.toNat, 16]
def k0_off39 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2034 : Index := Scalar.indexCast arg22
  let c32 : Index := 32#32
  ![v2034.toNat, 32]
def k0_off40 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2037 : Index := Scalar.indexCast arg22
  let c32_2667 : Index := 32#32
  ![v2037.toNat, 32]
def k0_off41 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2041 : Index := Scalar.indexCast arg22
  let c48 : Index := 48#32
  ![v2041.toNat, 48]
def k0_off42 (k0_t5 : Fin k0_t5_loop.trips) : Fin 2 → Nat :=
  let c0_i32_249 : BitVec 32 := 0#32
  let c1_i32_251 : BitVec 32 := 1#32
  let arg22 : BitVec 32 := Scf.iv c0_i32_249 c1_i32_251 k0_t5
  let v2044 : Index := Scalar.indexCast arg22
  let c48_2668 : Index := 48#32
  ![v2044.toNat, 48]
@[reducible] def k0_t6_loop : Scf.Loop 32 :=
  let c0_i32_332 : BitVec 32 := 0#32
  let c104_i32_333 : BitVec 32 := 104#32
  let v259 : BitVec 32 := Scalar.addi c0_i32_332 c104_i32_333
  let c1_i32_334 : BitVec 32 := 1#32
  ⟨c0_i32_332, v259, c1_i32_334⟩
def k0_off43 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2020 : Index := Scalar.indexCast arg22
  let c0 : Index := 0#32
  ![v2020.toNat, 0]
def k0_off44 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2023 : Index := Scalar.indexCast arg22
  let c0_2665 : Index := 0#32
  ![v2023.toNat, 0]
def k0_off45 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2027 : Index := Scalar.indexCast arg22
  let c16 : Index := 16#32
  ![v2027.toNat, 16]
def k0_off46 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2030 : Index := Scalar.indexCast arg22
  let c16_2666 : Index := 16#32
  ![v2030.toNat, 16]
def k0_off47 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2034 : Index := Scalar.indexCast arg22
  let c32 : Index := 32#32
  ![v2034.toNat, 32]
def k0_off48 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2037 : Index := Scalar.indexCast arg22
  let c32_2667 : Index := 32#32
  ![v2037.toNat, 32]
def k0_off49 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2041 : Index := Scalar.indexCast arg22
  let c48 : Index := 48#32
  ![v2041.toNat, 48]
def k0_off50 (k0_t6 : Fin k0_t6_loop.trips) : Fin 2 → Nat :=
  let c0_i32_332 : BitVec 32 := 0#32
  let c1_i32_334 : BitVec 32 := 1#32
  let arg22 : BitVec 32 := Scf.iv c0_i32_332 c1_i32_334 k0_t6
  let v2044 : Index := Scalar.indexCast arg22
  let c48_2668 : Index := 48#32
  ![v2044.toNat, 48]
@[reducible] def k0_t7_loop : Scf.Loop 32 :=
  let c0_i32_416 : BitVec 32 := 0#32
  let c104_i32_417 : BitVec 32 := 104#32
  let v322 : BitVec 32 := Scalar.addi c0_i32_416 c104_i32_417
  let c1_i32_418 : BitVec 32 := 1#32
  ⟨c0_i32_416, v322, c1_i32_418⟩
def k0_off51 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2020 : Index := Scalar.indexCast arg22
  let c0 : Index := 0#32
  ![v2020.toNat, 0]
def k0_off52 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2023 : Index := Scalar.indexCast arg22
  let c0_2665 : Index := 0#32
  ![v2023.toNat, 0]
def k0_off53 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2027 : Index := Scalar.indexCast arg22
  let c16 : Index := 16#32
  ![v2027.toNat, 16]
def k0_off54 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2030 : Index := Scalar.indexCast arg22
  let c16_2666 : Index := 16#32
  ![v2030.toNat, 16]
def k0_off55 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2034 : Index := Scalar.indexCast arg22
  let c32 : Index := 32#32
  ![v2034.toNat, 32]
def k0_off56 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2037 : Index := Scalar.indexCast arg22
  let c32_2667 : Index := 32#32
  ![v2037.toNat, 32]
def k0_off57 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2041 : Index := Scalar.indexCast arg22
  let c48 : Index := 48#32
  ![v2041.toNat, 48]
def k0_off58 (k0_t7 : Fin k0_t7_loop.trips) : Fin 2 → Nat :=
  let c0_i32_416 : BitVec 32 := 0#32
  let c1_i32_418 : BitVec 32 := 1#32
  let arg22 : BitVec 32 := Scf.iv c0_i32_416 c1_i32_418 k0_t7
  let v2044 : Index := Scalar.indexCast arg22
  let c48_2668 : Index := 48#32
  ![v2044.toNat, 48]
@[reducible] def k0_t8_loop : Scf.Loop 32 :=
  let c0_i32_499 : BitVec 32 := 0#32
  let c104_i32_500 : BitVec 32 := 104#32
  let v385 : BitVec 32 := Scalar.addi c0_i32_499 c104_i32_500
  let c1_i32_501 : BitVec 32 := 1#32
  ⟨c0_i32_499, v385, c1_i32_501⟩
def k0_off59 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2020 : Index := Scalar.indexCast arg22
  let c0 : Index := 0#32
  ![v2020.toNat, 0]
def k0_off60 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2023 : Index := Scalar.indexCast arg22
  let c0_2665 : Index := 0#32
  ![v2023.toNat, 0]
def k0_off61 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2027 : Index := Scalar.indexCast arg22
  let c16 : Index := 16#32
  ![v2027.toNat, 16]
def k0_off62 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2030 : Index := Scalar.indexCast arg22
  let c16_2666 : Index := 16#32
  ![v2030.toNat, 16]
def k0_off63 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2034 : Index := Scalar.indexCast arg22
  let c32 : Index := 32#32
  ![v2034.toNat, 32]
def k0_off64 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2037 : Index := Scalar.indexCast arg22
  let c32_2667 : Index := 32#32
  ![v2037.toNat, 32]
def k0_off65 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2041 : Index := Scalar.indexCast arg22
  let c48 : Index := 48#32
  ![v2041.toNat, 48]
def k0_off66 (k0_t8 : Fin k0_t8_loop.trips) : Fin 2 → Nat :=
  let c0_i32_499 : BitVec 32 := 0#32
  let c1_i32_501 : BitVec 32 := 1#32
  let arg22 : BitVec 32 := Scf.iv c0_i32_499 c1_i32_501 k0_t8
  let v2044 : Index := Scalar.indexCast arg22
  let c48_2668 : Index := 48#32
  ![v2044.toNat, 48]
@[reducible] def k0_t9_loop : Scf.Loop 32 :=
  let c0_i32_582 : BitVec 32 := 0#32
  let c104_i32_583 : BitVec 32 := 104#32
  let v448 : BitVec 32 := Scalar.addi c0_i32_582 c104_i32_583
  let c1_i32_584 : BitVec 32 := 1#32
  ⟨c0_i32_582, v448, c1_i32_584⟩
def k0_off67 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2020 : Index := Scalar.indexCast arg22
  let c0 : Index := 0#32
  ![v2020.toNat, 0]
def k0_off68 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2023 : Index := Scalar.indexCast arg22
  let c0_2665 : Index := 0#32
  ![v2023.toNat, 0]
def k0_off69 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2027 : Index := Scalar.indexCast arg22
  let c16 : Index := 16#32
  ![v2027.toNat, 16]
def k0_off70 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2030 : Index := Scalar.indexCast arg22
  let c16_2666 : Index := 16#32
  ![v2030.toNat, 16]
def k0_off71 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2034 : Index := Scalar.indexCast arg22
  let c32 : Index := 32#32
  ![v2034.toNat, 32]
def k0_off72 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2037 : Index := Scalar.indexCast arg22
  let c32_2667 : Index := 32#32
  ![v2037.toNat, 32]
def k0_off73 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2041 : Index := Scalar.indexCast arg22
  let c48 : Index := 48#32
  ![v2041.toNat, 48]
def k0_off74 (k0_t9 : Fin k0_t9_loop.trips) : Fin 2 → Nat :=
  let c0_i32_582 : BitVec 32 := 0#32
  let c1_i32_584 : BitVec 32 := 1#32
  let arg22 : BitVec 32 := Scf.iv c0_i32_582 c1_i32_584 k0_t9
  let v2044 : Index := Scalar.indexCast arg22
  let c48_2668 : Index := 48#32
  ![v2044.toNat, 48]
@[reducible] def k0_t10_loop : Scf.Loop 32 :=
  let c0_i32_666 : BitVec 32 := 0#32
  let c104_i32_667 : BitVec 32 := 104#32
  let v511 : BitVec 32 := Scalar.addi c0_i32_666 c104_i32_667
  let c1_i32_668 : BitVec 32 := 1#32
  ⟨c0_i32_666, v511, c1_i32_668⟩
def k0_off75 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2020 : Index := Scalar.indexCast arg22
  let c0 : Index := 0#32
  ![v2020.toNat, 0]
def k0_off76 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2023 : Index := Scalar.indexCast arg22
  let c0_2665 : Index := 0#32
  ![v2023.toNat, 0]
def k0_off77 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2027 : Index := Scalar.indexCast arg22
  let c16 : Index := 16#32
  ![v2027.toNat, 16]
def k0_off78 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2030 : Index := Scalar.indexCast arg22
  let c16_2666 : Index := 16#32
  ![v2030.toNat, 16]
def k0_off79 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2034 : Index := Scalar.indexCast arg22
  let c32 : Index := 32#32
  ![v2034.toNat, 32]
def k0_off80 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2037 : Index := Scalar.indexCast arg22
  let c32_2667 : Index := 32#32
  ![v2037.toNat, 32]
def k0_off81 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2041 : Index := Scalar.indexCast arg22
  let c48 : Index := 48#32
  ![v2041.toNat, 48]
def k0_off82 (k0_t10 : Fin k0_t10_loop.trips) : Fin 2 → Nat :=
  let c0_i32_666 : BitVec 32 := 0#32
  let c1_i32_668 : BitVec 32 := 1#32
  let arg22 : BitVec 32 := Scf.iv c0_i32_666 c1_i32_668 k0_t10
  let v2044 : Index := Scalar.indexCast arg22
  let c48_2668 : Index := 48#32
  ![v2044.toNat, 48]
@[reducible] def k0_t11_loop : Scf.Loop 32 :=
  let c0_i32_750 : BitVec 32 := 0#32
  let c104_i32_751 : BitVec 32 := 104#32
  let v574 : BitVec 32 := Scalar.addi c0_i32_750 c104_i32_751
  let c1_i32_752 : BitVec 32 := 1#32
  ⟨c0_i32_750, v574, c1_i32_752⟩
def k0_off83 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2020 : Index := Scalar.indexCast arg22
  let c0 : Index := 0#32
  ![v2020.toNat, 0]
def k0_off84 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2023 : Index := Scalar.indexCast arg22
  let c0_2665 : Index := 0#32
  ![v2023.toNat, 0]
def k0_off85 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2027 : Index := Scalar.indexCast arg22
  let c16 : Index := 16#32
  ![v2027.toNat, 16]
def k0_off86 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2030 : Index := Scalar.indexCast arg22
  let c16_2666 : Index := 16#32
  ![v2030.toNat, 16]
def k0_off87 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2034 : Index := Scalar.indexCast arg22
  let c32 : Index := 32#32
  ![v2034.toNat, 32]
def k0_off88 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2037 : Index := Scalar.indexCast arg22
  let c32_2667 : Index := 32#32
  ![v2037.toNat, 32]
def k0_off89 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2041 : Index := Scalar.indexCast arg22
  let c48 : Index := 48#32
  ![v2041.toNat, 48]
def k0_off90 (k0_t11 : Fin k0_t11_loop.trips) : Fin 2 → Nat :=
  let c0_i32_750 : BitVec 32 := 0#32
  let c1_i32_752 : BitVec 32 := 1#32
  let arg22 : BitVec 32 := Scf.iv c0_i32_750 c1_i32_752 k0_t11
  let v2044 : Index := Scalar.indexCast arg22
  let c48_2668 : Index := 48#32
  ![v2044.toNat, 48]
@[reducible] def k0_t12_loop : Scf.Loop 32 :=
  let c0_i32_833 : BitVec 32 := 0#32
  let c104_i32_834 : BitVec 32 := 104#32
  let v637 : BitVec 32 := Scalar.addi c0_i32_833 c104_i32_834
  let c1_i32_835 : BitVec 32 := 1#32
  ⟨c0_i32_833, v637, c1_i32_835⟩
def k0_off91 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2020 : Index := Scalar.indexCast arg22
  let c0 : Index := 0#32
  ![v2020.toNat, 0]
def k0_off92 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2023 : Index := Scalar.indexCast arg22
  let c0_2665 : Index := 0#32
  ![v2023.toNat, 0]
def k0_off93 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2027 : Index := Scalar.indexCast arg22
  let c16 : Index := 16#32
  ![v2027.toNat, 16]
def k0_off94 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2030 : Index := Scalar.indexCast arg22
  let c16_2666 : Index := 16#32
  ![v2030.toNat, 16]
def k0_off95 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2034 : Index := Scalar.indexCast arg22
  let c32 : Index := 32#32
  ![v2034.toNat, 32]
def k0_off96 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2037 : Index := Scalar.indexCast arg22
  let c32_2667 : Index := 32#32
  ![v2037.toNat, 32]
def k0_off97 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2041 : Index := Scalar.indexCast arg22
  let c48 : Index := 48#32
  ![v2041.toNat, 48]
def k0_off98 (k0_t12 : Fin k0_t12_loop.trips) : Fin 2 → Nat :=
  let c0_i32_833 : BitVec 32 := 0#32
  let c1_i32_835 : BitVec 32 := 1#32
  let arg22 : BitVec 32 := Scf.iv c0_i32_833 c1_i32_835 k0_t12
  let v2044 : Index := Scalar.indexCast arg22
  let c48_2668 : Index := 48#32
  ![v2044.toNat, 48]
@[reducible] def k0_t13_loop : Scf.Loop 32 :=
  let c0_i32_916 : BitVec 32 := 0#32
  let c104_i32_917 : BitVec 32 := 104#32
  let v700 : BitVec 32 := Scalar.addi c0_i32_916 c104_i32_917
  let c1_i32_918 : BitVec 32 := 1#32
  ⟨c0_i32_916, v700, c1_i32_918⟩
def k0_off99 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2020 : Index := Scalar.indexCast arg22
  let c0 : Index := 0#32
  ![v2020.toNat, 0]
def k0_off100 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2023 : Index := Scalar.indexCast arg22
  let c0_2665 : Index := 0#32
  ![v2023.toNat, 0]
def k0_off101 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2027 : Index := Scalar.indexCast arg22
  let c16 : Index := 16#32
  ![v2027.toNat, 16]
def k0_off102 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2030 : Index := Scalar.indexCast arg22
  let c16_2666 : Index := 16#32
  ![v2030.toNat, 16]
def k0_off103 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2034 : Index := Scalar.indexCast arg22
  let c32 : Index := 32#32
  ![v2034.toNat, 32]
def k0_off104 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2037 : Index := Scalar.indexCast arg22
  let c32_2667 : Index := 32#32
  ![v2037.toNat, 32]
def k0_off105 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2041 : Index := Scalar.indexCast arg22
  let c48 : Index := 48#32
  ![v2041.toNat, 48]
def k0_off106 (k0_t13 : Fin k0_t13_loop.trips) : Fin 2 → Nat :=
  let c0_i32_916 : BitVec 32 := 0#32
  let c1_i32_918 : BitVec 32 := 1#32
  let arg22 : BitVec 32 := Scf.iv c0_i32_916 c1_i32_918 k0_t13
  let v2044 : Index := Scalar.indexCast arg22
  let c48_2668 : Index := 48#32
  ![v2044.toNat, 48]
@[reducible] def k0_t14_loop : Scf.Loop 32 :=
  let c0_i32_999 : BitVec 32 := 0#32
  let c104_i32_1000 : BitVec 32 := 104#32
  let v763 : BitVec 32 := Scalar.addi c0_i32_999 c104_i32_1000
  let c1_i32_1001 : BitVec 32 := 1#32
  ⟨c0_i32_999, v763, c1_i32_1001⟩
def k0_off107 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2020 : Index := Scalar.indexCast arg22
  let c0 : Index := 0#32
  ![v2020.toNat, 0]
def k0_off108 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2023 : Index := Scalar.indexCast arg22
  let c0_2665 : Index := 0#32
  ![v2023.toNat, 0]
def k0_off109 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2027 : Index := Scalar.indexCast arg22
  let c16 : Index := 16#32
  ![v2027.toNat, 16]
def k0_off110 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2030 : Index := Scalar.indexCast arg22
  let c16_2666 : Index := 16#32
  ![v2030.toNat, 16]
def k0_off111 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2034 : Index := Scalar.indexCast arg22
  let c32 : Index := 32#32
  ![v2034.toNat, 32]
def k0_off112 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2037 : Index := Scalar.indexCast arg22
  let c32_2667 : Index := 32#32
  ![v2037.toNat, 32]
def k0_off113 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2041 : Index := Scalar.indexCast arg22
  let c48 : Index := 48#32
  ![v2041.toNat, 48]
def k0_off114 (k0_t14 : Fin k0_t14_loop.trips) : Fin 2 → Nat :=
  let c0_i32_999 : BitVec 32 := 0#32
  let c1_i32_1001 : BitVec 32 := 1#32
  let arg22 : BitVec 32 := Scf.iv c0_i32_999 c1_i32_1001 k0_t14
  let v2044 : Index := Scalar.indexCast arg22
  let c48_2668 : Index := 48#32
  ![v2044.toNat, 48]
@[reducible] def k0_t15_loop : Scf.Loop 32 :=
  let c0_i32_1084 : BitVec 32 := 0#32
  let c104_i32_1085 : BitVec 32 := 104#32
  let v826 : BitVec 32 := Scalar.addi c0_i32_1084 c104_i32_1085
  let c1_i32_1086 : BitVec 32 := 1#32
  ⟨c0_i32_1084, v826, c1_i32_1086⟩
def k0_off115 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2020 : Index := Scalar.indexCast arg22
  let c0 : Index := 0#32
  ![v2020.toNat, 0]
def k0_off116 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2023 : Index := Scalar.indexCast arg22
  let c0_2665 : Index := 0#32
  ![v2023.toNat, 0]
def k0_off117 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2027 : Index := Scalar.indexCast arg22
  let c16 : Index := 16#32
  ![v2027.toNat, 16]
def k0_off118 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2030 : Index := Scalar.indexCast arg22
  let c16_2666 : Index := 16#32
  ![v2030.toNat, 16]
def k0_off119 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2034 : Index := Scalar.indexCast arg22
  let c32 : Index := 32#32
  ![v2034.toNat, 32]
def k0_off120 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2037 : Index := Scalar.indexCast arg22
  let c32_2667 : Index := 32#32
  ![v2037.toNat, 32]
def k0_off121 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2041 : Index := Scalar.indexCast arg22
  let c48 : Index := 48#32
  ![v2041.toNat, 48]
def k0_off122 (k0_t15 : Fin k0_t15_loop.trips) : Fin 2 → Nat :=
  let c0_i32_1084 : BitVec 32 := 0#32
  let c1_i32_1086 : BitVec 32 := 1#32
  let arg22 : BitVec 32 := Scf.iv c0_i32_1084 c1_i32_1086 k0_t15
  let v2044 : Index := Scalar.indexCast arg22
  let c48_2668 : Index := 48#32
  ![v2044.toNat, 48]
@[reducible] def k0_t16_loop : Scf.Loop 32 :=
  let c0_i32_1167 : BitVec 32 := 0#32
  let c104_i32_1168 : BitVec 32 := 104#32
  let v889 : BitVec 32 := Scalar.addi c0_i32_1167 c104_i32_1168
  let c1_i32_1169 : BitVec 32 := 1#32
  ⟨c0_i32_1167, v889, c1_i32_1169⟩
def k0_off123 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2020 : Index := Scalar.indexCast arg22
  let c0 : Index := 0#32
  ![v2020.toNat, 0]
def k0_off124 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2023 : Index := Scalar.indexCast arg22
  let c0_2665 : Index := 0#32
  ![v2023.toNat, 0]
def k0_off125 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2027 : Index := Scalar.indexCast arg22
  let c16 : Index := 16#32
  ![v2027.toNat, 16]
def k0_off126 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2030 : Index := Scalar.indexCast arg22
  let c16_2666 : Index := 16#32
  ![v2030.toNat, 16]
def k0_off127 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2034 : Index := Scalar.indexCast arg22
  let c32 : Index := 32#32
  ![v2034.toNat, 32]
def k0_off128 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2037 : Index := Scalar.indexCast arg22
  let c32_2667 : Index := 32#32
  ![v2037.toNat, 32]
def k0_off129 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2041 : Index := Scalar.indexCast arg22
  let c48 : Index := 48#32
  ![v2041.toNat, 48]
def k0_off130 (k0_t16 : Fin k0_t16_loop.trips) : Fin 2 → Nat :=
  let c0_i32_1167 : BitVec 32 := 0#32
  let c1_i32_1169 : BitVec 32 := 1#32
  let arg22 : BitVec 32 := Scf.iv c0_i32_1167 c1_i32_1169 k0_t16
  let v2044 : Index := Scalar.indexCast arg22
  let c48_2668 : Index := 48#32
  ![v2044.toNat, 48]
@[reducible] def k0_t17_loop : Scf.Loop 32 :=
  let c0_i32_1250 : BitVec 32 := 0#32
  let c104_i32_1251 : BitVec 32 := 104#32
  let v952 : BitVec 32 := Scalar.addi c0_i32_1250 c104_i32_1251
  let c1_i32_1252 : BitVec 32 := 1#32
  ⟨c0_i32_1250, v952, c1_i32_1252⟩
def k0_off131 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2020 : Index := Scalar.indexCast arg22
  let c0 : Index := 0#32
  ![v2020.toNat, 0]
def k0_off132 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2023 : Index := Scalar.indexCast arg22
  let c0_2665 : Index := 0#32
  ![v2023.toNat, 0]
def k0_off133 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2027 : Index := Scalar.indexCast arg22
  let c16 : Index := 16#32
  ![v2027.toNat, 16]
def k0_off134 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2030 : Index := Scalar.indexCast arg22
  let c16_2666 : Index := 16#32
  ![v2030.toNat, 16]
def k0_off135 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2034 : Index := Scalar.indexCast arg22
  let c32 : Index := 32#32
  ![v2034.toNat, 32]
def k0_off136 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2037 : Index := Scalar.indexCast arg22
  let c32_2667 : Index := 32#32
  ![v2037.toNat, 32]
def k0_off137 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2041 : Index := Scalar.indexCast arg22
  let c48 : Index := 48#32
  ![v2041.toNat, 48]
def k0_off138 (k0_t17 : Fin k0_t17_loop.trips) : Fin 2 → Nat :=
  let c0_i32_1250 : BitVec 32 := 0#32
  let c1_i32_1252 : BitVec 32 := 1#32
  let arg22 : BitVec 32 := Scf.iv c0_i32_1250 c1_i32_1252 k0_t17
  let v2044 : Index := Scalar.indexCast arg22
  let c48_2668 : Index := 48#32
  ![v2044.toNat, 48]
@[reducible] def k0_t18_loop : Scf.Loop 32 :=
  let c0_i32_1333 : BitVec 32 := 0#32
  let c104_i32_1334 : BitVec 32 := 104#32
  let v1015 : BitVec 32 := Scalar.addi c0_i32_1333 c104_i32_1334
  let c1_i32_1335 : BitVec 32 := 1#32
  ⟨c0_i32_1333, v1015, c1_i32_1335⟩
def k0_off139 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2020 : Index := Scalar.indexCast arg22
  let c0 : Index := 0#32
  ![v2020.toNat, 0]
def k0_off140 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2023 : Index := Scalar.indexCast arg22
  let c0_2665 : Index := 0#32
  ![v2023.toNat, 0]
def k0_off141 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2027 : Index := Scalar.indexCast arg22
  let c16 : Index := 16#32
  ![v2027.toNat, 16]
def k0_off142 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2030 : Index := Scalar.indexCast arg22
  let c16_2666 : Index := 16#32
  ![v2030.toNat, 16]
def k0_off143 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2034 : Index := Scalar.indexCast arg22
  let c32 : Index := 32#32
  ![v2034.toNat, 32]
def k0_off144 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2037 : Index := Scalar.indexCast arg22
  let c32_2667 : Index := 32#32
  ![v2037.toNat, 32]
def k0_off145 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2041 : Index := Scalar.indexCast arg22
  let c48 : Index := 48#32
  ![v2041.toNat, 48]
def k0_off146 (k0_t18 : Fin k0_t18_loop.trips) : Fin 2 → Nat :=
  let c0_i32_1333 : BitVec 32 := 0#32
  let c1_i32_1335 : BitVec 32 := 1#32
  let arg22 : BitVec 32 := Scf.iv c0_i32_1333 c1_i32_1335 k0_t18
  let v2044 : Index := Scalar.indexCast arg22
  let c48_2668 : Index := 48#32
  ![v2044.toNat, 48]
@[reducible] def k0_t19_loop : Scf.Loop 32 :=
  let c0_i32_1417 : BitVec 32 := 0#32
  let c104_i32_1418 : BitVec 32 := 104#32
  let v1078 : BitVec 32 := Scalar.addi c0_i32_1417 c104_i32_1418
  let c1_i32_1419 : BitVec 32 := 1#32
  ⟨c0_i32_1417, v1078, c1_i32_1419⟩
def k0_off147 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2020 : Index := Scalar.indexCast arg22
  let c0 : Index := 0#32
  ![v2020.toNat, 0]
def k0_off148 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2023 : Index := Scalar.indexCast arg22
  let c0_2665 : Index := 0#32
  ![v2023.toNat, 0]
def k0_off149 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2027 : Index := Scalar.indexCast arg22
  let c16 : Index := 16#32
  ![v2027.toNat, 16]
def k0_off150 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2030 : Index := Scalar.indexCast arg22
  let c16_2666 : Index := 16#32
  ![v2030.toNat, 16]
def k0_off151 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2034 : Index := Scalar.indexCast arg22
  let c32 : Index := 32#32
  ![v2034.toNat, 32]
def k0_off152 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2037 : Index := Scalar.indexCast arg22
  let c32_2667 : Index := 32#32
  ![v2037.toNat, 32]
def k0_off153 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2041 : Index := Scalar.indexCast arg22
  let c48 : Index := 48#32
  ![v2041.toNat, 48]
def k0_off154 (k0_t19 : Fin k0_t19_loop.trips) : Fin 2 → Nat :=
  let c0_i32_1417 : BitVec 32 := 0#32
  let c1_i32_1419 : BitVec 32 := 1#32
  let arg22 : BitVec 32 := Scf.iv c0_i32_1417 c1_i32_1419 k0_t19
  let v2044 : Index := Scalar.indexCast arg22
  let c48_2668 : Index := 48#32
  ![v2044.toNat, 48]
@[reducible] def k0_t20_loop : Scf.Loop 32 :=
  let c0_i32_1500 : BitVec 32 := 0#32
  let c104_i32_1501 : BitVec 32 := 104#32
  let v1141 : BitVec 32 := Scalar.addi c0_i32_1500 c104_i32_1501
  let c1_i32_1502 : BitVec 32 := 1#32
  ⟨c0_i32_1500, v1141, c1_i32_1502⟩
def k0_off155 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2020 : Index := Scalar.indexCast arg22
  let c0 : Index := 0#32
  ![v2020.toNat, 0]
def k0_off156 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2023 : Index := Scalar.indexCast arg22
  let c0_2665 : Index := 0#32
  ![v2023.toNat, 0]
def k0_off157 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2027 : Index := Scalar.indexCast arg22
  let c16 : Index := 16#32
  ![v2027.toNat, 16]
def k0_off158 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2030 : Index := Scalar.indexCast arg22
  let c16_2666 : Index := 16#32
  ![v2030.toNat, 16]
def k0_off159 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2034 : Index := Scalar.indexCast arg22
  let c32 : Index := 32#32
  ![v2034.toNat, 32]
def k0_off160 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2037 : Index := Scalar.indexCast arg22
  let c32_2667 : Index := 32#32
  ![v2037.toNat, 32]
def k0_off161 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2041 : Index := Scalar.indexCast arg22
  let c48 : Index := 48#32
  ![v2041.toNat, 48]
def k0_off162 (k0_t20 : Fin k0_t20_loop.trips) : Fin 2 → Nat :=
  let c0_i32_1500 : BitVec 32 := 0#32
  let c1_i32_1502 : BitVec 32 := 1#32
  let arg22 : BitVec 32 := Scf.iv c0_i32_1500 c1_i32_1502 k0_t20
  let v2044 : Index := Scalar.indexCast arg22
  let c48_2668 : Index := 48#32
  ![v2044.toNat, 48]
@[reducible] def k0_t21_loop : Scf.Loop 32 :=
  let c0_i32_1583 : BitVec 32 := 0#32
  let c104_i32_1584 : BitVec 32 := 104#32
  let v1204 : BitVec 32 := Scalar.addi c0_i32_1583 c104_i32_1584
  let c1_i32_1585 : BitVec 32 := 1#32
  ⟨c0_i32_1583, v1204, c1_i32_1585⟩
def k0_off163 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2020 : Index := Scalar.indexCast arg22
  let c0 : Index := 0#32
  ![v2020.toNat, 0]
def k0_off164 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2023 : Index := Scalar.indexCast arg22
  let c0_2665 : Index := 0#32
  ![v2023.toNat, 0]
def k0_off165 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2027 : Index := Scalar.indexCast arg22
  let c16 : Index := 16#32
  ![v2027.toNat, 16]
def k0_off166 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2030 : Index := Scalar.indexCast arg22
  let c16_2666 : Index := 16#32
  ![v2030.toNat, 16]
def k0_off167 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2034 : Index := Scalar.indexCast arg22
  let c32 : Index := 32#32
  ![v2034.toNat, 32]
def k0_off168 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2037 : Index := Scalar.indexCast arg22
  let c32_2667 : Index := 32#32
  ![v2037.toNat, 32]
def k0_off169 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2041 : Index := Scalar.indexCast arg22
  let c48 : Index := 48#32
  ![v2041.toNat, 48]
def k0_off170 (k0_t21 : Fin k0_t21_loop.trips) : Fin 2 → Nat :=
  let c0_i32_1583 : BitVec 32 := 0#32
  let c1_i32_1585 : BitVec 32 := 1#32
  let arg22 : BitVec 32 := Scf.iv c0_i32_1583 c1_i32_1585 k0_t21
  let v2044 : Index := Scalar.indexCast arg22
  let c48_2668 : Index := 48#32
  ![v2044.toNat, 48]
@[reducible] def k0_t22_loop : Scf.Loop 32 :=
  let c0_i32_1666 : BitVec 32 := 0#32
  let c104_i32_1667 : BitVec 32 := 104#32
  let v1267 : BitVec 32 := Scalar.addi c0_i32_1666 c104_i32_1667
  let c1_i32_1668 : BitVec 32 := 1#32
  ⟨c0_i32_1666, v1267, c1_i32_1668⟩
def k0_off171 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2020 : Index := Scalar.indexCast arg22
  let c0 : Index := 0#32
  ![v2020.toNat, 0]
def k0_off172 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2023 : Index := Scalar.indexCast arg22
  let c0_2665 : Index := 0#32
  ![v2023.toNat, 0]
def k0_off173 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2027 : Index := Scalar.indexCast arg22
  let c16 : Index := 16#32
  ![v2027.toNat, 16]
def k0_off174 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2030 : Index := Scalar.indexCast arg22
  let c16_2666 : Index := 16#32
  ![v2030.toNat, 16]
def k0_off175 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2034 : Index := Scalar.indexCast arg22
  let c32 : Index := 32#32
  ![v2034.toNat, 32]
def k0_off176 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2037 : Index := Scalar.indexCast arg22
  let c32_2667 : Index := 32#32
  ![v2037.toNat, 32]
def k0_off177 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2041 : Index := Scalar.indexCast arg22
  let c48 : Index := 48#32
  ![v2041.toNat, 48]
def k0_off178 (k0_t22 : Fin k0_t22_loop.trips) : Fin 2 → Nat :=
  let c0_i32_1666 : BitVec 32 := 0#32
  let c1_i32_1668 : BitVec 32 := 1#32
  let arg22 : BitVec 32 := Scf.iv c0_i32_1666 c1_i32_1668 k0_t22
  let v2044 : Index := Scalar.indexCast arg22
  let c48_2668 : Index := 48#32
  ![v2044.toNat, 48]
@[reducible] def k0_t23_loop : Scf.Loop 32 :=
  let c0_i32_1750 : BitVec 32 := 0#32
  let c104_i32_1751 : BitVec 32 := 104#32
  let v1330 : BitVec 32 := Scalar.addi c0_i32_1750 c104_i32_1751
  let c1_i32_1752 : BitVec 32 := 1#32
  ⟨c0_i32_1750, v1330, c1_i32_1752⟩
def k0_off179 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2020 : Index := Scalar.indexCast arg22
  let c0 : Index := 0#32
  ![v2020.toNat, 0]
def k0_off180 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2023 : Index := Scalar.indexCast arg22
  let c0_2665 : Index := 0#32
  ![v2023.toNat, 0]
def k0_off181 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2027 : Index := Scalar.indexCast arg22
  let c16 : Index := 16#32
  ![v2027.toNat, 16]
def k0_off182 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2030 : Index := Scalar.indexCast arg22
  let c16_2666 : Index := 16#32
  ![v2030.toNat, 16]
def k0_off183 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2034 : Index := Scalar.indexCast arg22
  let c32 : Index := 32#32
  ![v2034.toNat, 32]
def k0_off184 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2037 : Index := Scalar.indexCast arg22
  let c32_2667 : Index := 32#32
  ![v2037.toNat, 32]
def k0_off185 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2041 : Index := Scalar.indexCast arg22
  let c48 : Index := 48#32
  ![v2041.toNat, 48]
def k0_off186 (k0_t23 : Fin k0_t23_loop.trips) : Fin 2 → Nat :=
  let c0_i32_1750 : BitVec 32 := 0#32
  let c1_i32_1752 : BitVec 32 := 1#32
  let arg22 : BitVec 32 := Scf.iv c0_i32_1750 c1_i32_1752 k0_t23
  let v2044 : Index := Scalar.indexCast arg22
  let c48_2668 : Index := 48#32
  ![v2044.toNat, 48]
@[reducible] def k0_t24_loop : Scf.Loop 32 :=
  let c0_i32_1833 : BitVec 32 := 0#32
  let c104_i32_1834 : BitVec 32 := 104#32
  let v1393 : BitVec 32 := Scalar.addi c0_i32_1833 c104_i32_1834
  let c1_i32_1835 : BitVec 32 := 1#32
  ⟨c0_i32_1833, v1393, c1_i32_1835⟩
def k0_off187 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2020 : Index := Scalar.indexCast arg22
  let c0 : Index := 0#32
  ![v2020.toNat, 0]
def k0_off188 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2023 : Index := Scalar.indexCast arg22
  let c0_2665 : Index := 0#32
  ![v2023.toNat, 0]
def k0_off189 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2027 : Index := Scalar.indexCast arg22
  let c16 : Index := 16#32
  ![v2027.toNat, 16]
def k0_off190 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2030 : Index := Scalar.indexCast arg22
  let c16_2666 : Index := 16#32
  ![v2030.toNat, 16]
def k0_off191 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2034 : Index := Scalar.indexCast arg22
  let c32 : Index := 32#32
  ![v2034.toNat, 32]
def k0_off192 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2037 : Index := Scalar.indexCast arg22
  let c32_2667 : Index := 32#32
  ![v2037.toNat, 32]
def k0_off193 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2041 : Index := Scalar.indexCast arg22
  let c48 : Index := 48#32
  ![v2041.toNat, 48]
def k0_off194 (k0_t24 : Fin k0_t24_loop.trips) : Fin 2 → Nat :=
  let c0_i32_1833 : BitVec 32 := 0#32
  let c1_i32_1835 : BitVec 32 := 1#32
  let arg22 : BitVec 32 := Scf.iv c0_i32_1833 c1_i32_1835 k0_t24
  let v2044 : Index := Scalar.indexCast arg22
  let c48_2668 : Index := 48#32
  ![v2044.toNat, 48]
@[reducible] def k0_t25_loop : Scf.Loop 32 :=
  let c0_i32_1917 : BitVec 32 := 0#32
  let c104_i32_1918 : BitVec 32 := 104#32
  let v1456 : BitVec 32 := Scalar.addi c0_i32_1917 c104_i32_1918
  let c1_i32_1919 : BitVec 32 := 1#32
  ⟨c0_i32_1917, v1456, c1_i32_1919⟩
def k0_off195 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2020 : Index := Scalar.indexCast arg22
  let c0 : Index := 0#32
  ![v2020.toNat, 0]
def k0_off196 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2023 : Index := Scalar.indexCast arg22
  let c0_2665 : Index := 0#32
  ![v2023.toNat, 0]
def k0_off197 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2027 : Index := Scalar.indexCast arg22
  let c16 : Index := 16#32
  ![v2027.toNat, 16]
def k0_off198 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2030 : Index := Scalar.indexCast arg22
  let c16_2666 : Index := 16#32
  ![v2030.toNat, 16]
def k0_off199 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2034 : Index := Scalar.indexCast arg22
  let c32 : Index := 32#32
  ![v2034.toNat, 32]
def k0_off200 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2037 : Index := Scalar.indexCast arg22
  let c32_2667 : Index := 32#32
  ![v2037.toNat, 32]
def k0_off201 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2041 : Index := Scalar.indexCast arg22
  let c48 : Index := 48#32
  ![v2041.toNat, 48]
def k0_off202 (k0_t25 : Fin k0_t25_loop.trips) : Fin 2 → Nat :=
  let c0_i32_1917 : BitVec 32 := 0#32
  let c1_i32_1919 : BitVec 32 := 1#32
  let arg22 : BitVec 32 := Scf.iv c0_i32_1917 c1_i32_1919 k0_t25
  let v2044 : Index := Scalar.indexCast arg22
  let c48_2668 : Index := 48#32
  ![v2044.toNat, 48]
@[reducible] def k0_t26_loop : Scf.Loop 32 :=
  let c0_i32_2000 : BitVec 32 := 0#32
  let c104_i32_2001 : BitVec 32 := 104#32
  let v1519 : BitVec 32 := Scalar.addi c0_i32_2000 c104_i32_2001
  let c1_i32_2002 : BitVec 32 := 1#32
  ⟨c0_i32_2000, v1519, c1_i32_2002⟩
def k0_off203 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2020 : Index := Scalar.indexCast arg22
  let c0 : Index := 0#32
  ![v2020.toNat, 0]
def k0_off204 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2023 : Index := Scalar.indexCast arg22
  let c0_2665 : Index := 0#32
  ![v2023.toNat, 0]
def k0_off205 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2027 : Index := Scalar.indexCast arg22
  let c16 : Index := 16#32
  ![v2027.toNat, 16]
def k0_off206 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2030 : Index := Scalar.indexCast arg22
  let c16_2666 : Index := 16#32
  ![v2030.toNat, 16]
def k0_off207 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2034 : Index := Scalar.indexCast arg22
  let c32 : Index := 32#32
  ![v2034.toNat, 32]
def k0_off208 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2037 : Index := Scalar.indexCast arg22
  let c32_2667 : Index := 32#32
  ![v2037.toNat, 32]
def k0_off209 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2041 : Index := Scalar.indexCast arg22
  let c48 : Index := 48#32
  ![v2041.toNat, 48]
def k0_off210 (k0_t26 : Fin k0_t26_loop.trips) : Fin 2 → Nat :=
  let c0_i32_2000 : BitVec 32 := 0#32
  let c1_i32_2002 : BitVec 32 := 1#32
  let arg22 : BitVec 32 := Scf.iv c0_i32_2000 c1_i32_2002 k0_t26
  let v2044 : Index := Scalar.indexCast arg22
  let c48_2668 : Index := 48#32
  ![v2044.toNat, 48]
@[reducible] def k0_t27_loop : Scf.Loop 32 :=
  let c0_i32_2084 : BitVec 32 := 0#32
  let c104_i32_2085 : BitVec 32 := 104#32
  let v1582 : BitVec 32 := Scalar.addi c0_i32_2084 c104_i32_2085
  let c1_i32_2086 : BitVec 32 := 1#32
  ⟨c0_i32_2084, v1582, c1_i32_2086⟩
def k0_off211 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2020 : Index := Scalar.indexCast arg22
  let c0 : Index := 0#32
  ![v2020.toNat, 0]
def k0_off212 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2023 : Index := Scalar.indexCast arg22
  let c0_2665 : Index := 0#32
  ![v2023.toNat, 0]
def k0_off213 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2027 : Index := Scalar.indexCast arg22
  let c16 : Index := 16#32
  ![v2027.toNat, 16]
def k0_off214 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2030 : Index := Scalar.indexCast arg22
  let c16_2666 : Index := 16#32
  ![v2030.toNat, 16]
def k0_off215 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2034 : Index := Scalar.indexCast arg22
  let c32 : Index := 32#32
  ![v2034.toNat, 32]
def k0_off216 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2037 : Index := Scalar.indexCast arg22
  let c32_2667 : Index := 32#32
  ![v2037.toNat, 32]
def k0_off217 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2041 : Index := Scalar.indexCast arg22
  let c48 : Index := 48#32
  ![v2041.toNat, 48]
def k0_off218 (k0_t27 : Fin k0_t27_loop.trips) : Fin 2 → Nat :=
  let c0_i32_2084 : BitVec 32 := 0#32
  let c1_i32_2086 : BitVec 32 := 1#32
  let arg22 : BitVec 32 := Scf.iv c0_i32_2084 c1_i32_2086 k0_t27
  let v2044 : Index := Scalar.indexCast arg22
  let c48_2668 : Index := 48#32
  ![v2044.toNat, 48]
@[reducible] def k0_t28_loop : Scf.Loop 32 :=
  let c0_i32_2168 : BitVec 32 := 0#32
  let c104_i32_2169 : BitVec 32 := 104#32
  let v1645 : BitVec 32 := Scalar.addi c0_i32_2168 c104_i32_2169
  let c1_i32_2170 : BitVec 32 := 1#32
  ⟨c0_i32_2168, v1645, c1_i32_2170⟩
def k0_off219 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2020 : Index := Scalar.indexCast arg22
  let c0 : Index := 0#32
  ![v2020.toNat, 0]
def k0_off220 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2023 : Index := Scalar.indexCast arg22
  let c0_2665 : Index := 0#32
  ![v2023.toNat, 0]
def k0_off221 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2027 : Index := Scalar.indexCast arg22
  let c16 : Index := 16#32
  ![v2027.toNat, 16]
def k0_off222 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2030 : Index := Scalar.indexCast arg22
  let c16_2666 : Index := 16#32
  ![v2030.toNat, 16]
def k0_off223 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2034 : Index := Scalar.indexCast arg22
  let c32 : Index := 32#32
  ![v2034.toNat, 32]
def k0_off224 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2037 : Index := Scalar.indexCast arg22
  let c32_2667 : Index := 32#32
  ![v2037.toNat, 32]
def k0_off225 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2041 : Index := Scalar.indexCast arg22
  let c48 : Index := 48#32
  ![v2041.toNat, 48]
def k0_off226 (k0_t28 : Fin k0_t28_loop.trips) : Fin 2 → Nat :=
  let c0_i32_2168 : BitVec 32 := 0#32
  let c1_i32_2170 : BitVec 32 := 1#32
  let arg22 : BitVec 32 := Scf.iv c0_i32_2168 c1_i32_2170 k0_t28
  let v2044 : Index := Scalar.indexCast arg22
  let c48_2668 : Index := 48#32
  ![v2044.toNat, 48]
@[reducible] def k0_t29_loop : Scf.Loop 32 :=
  let c0_i32_2251 : BitVec 32 := 0#32
  let c104_i32_2252 : BitVec 32 := 104#32
  let v1708 : BitVec 32 := Scalar.addi c0_i32_2251 c104_i32_2252
  let c1_i32_2253 : BitVec 32 := 1#32
  ⟨c0_i32_2251, v1708, c1_i32_2253⟩
def k0_off227 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2020 : Index := Scalar.indexCast arg22
  let c0 : Index := 0#32
  ![v2020.toNat, 0]
def k0_off228 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2023 : Index := Scalar.indexCast arg22
  let c0_2665 : Index := 0#32
  ![v2023.toNat, 0]
def k0_off229 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2027 : Index := Scalar.indexCast arg22
  let c16 : Index := 16#32
  ![v2027.toNat, 16]
def k0_off230 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2030 : Index := Scalar.indexCast arg22
  let c16_2666 : Index := 16#32
  ![v2030.toNat, 16]
def k0_off231 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2034 : Index := Scalar.indexCast arg22
  let c32 : Index := 32#32
  ![v2034.toNat, 32]
def k0_off232 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2037 : Index := Scalar.indexCast arg22
  let c32_2667 : Index := 32#32
  ![v2037.toNat, 32]
def k0_off233 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2041 : Index := Scalar.indexCast arg22
  let c48 : Index := 48#32
  ![v2041.toNat, 48]
def k0_off234 (k0_t29 : Fin k0_t29_loop.trips) : Fin 2 → Nat :=
  let c0_i32_2251 : BitVec 32 := 0#32
  let c1_i32_2253 : BitVec 32 := 1#32
  let arg22 : BitVec 32 := Scf.iv c0_i32_2251 c1_i32_2253 k0_t29
  let v2044 : Index := Scalar.indexCast arg22
  let c48_2668 : Index := 48#32
  ![v2044.toNat, 48]
@[reducible] def k0_t30_loop : Scf.Loop 32 :=
  let c0_i32_2334 : BitVec 32 := 0#32
  let c104_i32_2335 : BitVec 32 := 104#32
  let v1771 : BitVec 32 := Scalar.addi c0_i32_2334 c104_i32_2335
  let c1_i32_2336 : BitVec 32 := 1#32
  ⟨c0_i32_2334, v1771, c1_i32_2336⟩
def k0_off235 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2020 : Index := Scalar.indexCast arg22
  let c0 : Index := 0#32
  ![v2020.toNat, 0]
def k0_off236 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2023 : Index := Scalar.indexCast arg22
  let c0_2665 : Index := 0#32
  ![v2023.toNat, 0]
def k0_off237 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2027 : Index := Scalar.indexCast arg22
  let c16 : Index := 16#32
  ![v2027.toNat, 16]
def k0_off238 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2030 : Index := Scalar.indexCast arg22
  let c16_2666 : Index := 16#32
  ![v2030.toNat, 16]
def k0_off239 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2034 : Index := Scalar.indexCast arg22
  let c32 : Index := 32#32
  ![v2034.toNat, 32]
def k0_off240 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2037 : Index := Scalar.indexCast arg22
  let c32_2667 : Index := 32#32
  ![v2037.toNat, 32]
def k0_off241 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2041 : Index := Scalar.indexCast arg22
  let c48 : Index := 48#32
  ![v2041.toNat, 48]
def k0_off242 (k0_t30 : Fin k0_t30_loop.trips) : Fin 2 → Nat :=
  let c0_i32_2334 : BitVec 32 := 0#32
  let c1_i32_2336 : BitVec 32 := 1#32
  let arg22 : BitVec 32 := Scf.iv c0_i32_2334 c1_i32_2336 k0_t30
  let v2044 : Index := Scalar.indexCast arg22
  let c48_2668 : Index := 48#32
  ![v2044.toNat, 48]
@[reducible] def k0_t31_loop : Scf.Loop 32 :=
  let c0_i32_2414 : BitVec 32 := 0#32
  let c104_i32_2415 : BitVec 32 := 104#32
  let v1831 : BitVec 32 := Scalar.addi c0_i32_2414 c104_i32_2415
  let c1_i32_2416 : BitVec 32 := 1#32
  ⟨c0_i32_2414, v1831, c1_i32_2416⟩
def k0_off243 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2020 : Index := Scalar.indexCast arg22
  let c0 : Index := 0#32
  ![v2020.toNat, 0]
def k0_off244 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2023 : Index := Scalar.indexCast arg22
  let c0_2665 : Index := 0#32
  ![v2023.toNat, 0]
def k0_off245 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2027 : Index := Scalar.indexCast arg22
  let c16 : Index := 16#32
  ![v2027.toNat, 16]
def k0_off246 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2030 : Index := Scalar.indexCast arg22
  let c16_2666 : Index := 16#32
  ![v2030.toNat, 16]
def k0_off247 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2034 : Index := Scalar.indexCast arg22
  let c32 : Index := 32#32
  ![v2034.toNat, 32]
def k0_off248 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2037 : Index := Scalar.indexCast arg22
  let c32_2667 : Index := 32#32
  ![v2037.toNat, 32]
def k0_off249 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2041 : Index := Scalar.indexCast arg22
  let c48 : Index := 48#32
  ![v2041.toNat, 48]
def k0_off250 (k0_t31 : Fin k0_t31_loop.trips) : Fin 2 → Nat :=
  let c0_i32_2414 : BitVec 32 := 0#32
  let c1_i32_2416 : BitVec 32 := 1#32
  let arg22 : BitVec 32 := Scf.iv c0_i32_2414 c1_i32_2416 k0_t31
  let v2044 : Index := Scalar.indexCast arg22
  let c48_2668 : Index := 48#32
  ![v2044.toNat, 48]
@[reducible] def k0_t32_loop : Scf.Loop 32 :=
  let c0_i32_2494 : BitVec 32 := 0#32
  let c104_i32_2495 : BitVec 32 := 104#32
  let v1891 : BitVec 32 := Scalar.addi c0_i32_2494 c104_i32_2495
  let c1_i32_2496 : BitVec 32 := 1#32
  ⟨c0_i32_2494, v1891, c1_i32_2496⟩
def k0_off251 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2020 : Index := Scalar.indexCast arg22
  let c0 : Index := 0#32
  ![v2020.toNat, 0]
def k0_off252 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2023 : Index := Scalar.indexCast arg22
  let c0_2665 : Index := 0#32
  ![v2023.toNat, 0]
def k0_off253 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2027 : Index := Scalar.indexCast arg22
  let c16 : Index := 16#32
  ![v2027.toNat, 16]
def k0_off254 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2030 : Index := Scalar.indexCast arg22
  let c16_2666 : Index := 16#32
  ![v2030.toNat, 16]
def k0_off255 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2034 : Index := Scalar.indexCast arg22
  let c32 : Index := 32#32
  ![v2034.toNat, 32]
def k0_off256 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2037 : Index := Scalar.indexCast arg22
  let c32_2667 : Index := 32#32
  ![v2037.toNat, 32]
def k0_off257 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2041 : Index := Scalar.indexCast arg22
  let c48 : Index := 48#32
  ![v2041.toNat, 48]
def k0_off258 (k0_t32 : Fin k0_t32_loop.trips) : Fin 2 → Nat :=
  let c0_i32_2494 : BitVec 32 := 0#32
  let c1_i32_2496 : BitVec 32 := 1#32
  let arg22 : BitVec 32 := Scf.iv c0_i32_2494 c1_i32_2496 k0_t32
  let v2044 : Index := Scalar.indexCast arg22
  let c48_2668 : Index := 48#32
  ![v2044.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x26_S1024x104 : S4096x26.ShapeCasts S1024x104
  pads_S100000x64_S100000x128_000_0640 : S100000x64.Pads (![0, 0] : Fin 2 → Nat) ![0, 64] ![0, 0] S100000x128
  h_S_ : 0 < S_.numel
  inb_S32x104_S1x104_0_0 : ∀ a, (![0, 0] : Fin 2 → Nat) a + S1x104.size a ≤ S32x104.size a
  squeezes_S1x104_S104 : S1x104.Squeezes S104
  inb_S100000x128_S100000x128_0_0 : ∀ a, (![0, 0] : Fin 2 → Nat) a + S100000x128.size a ≤ S100000x128.size a
  gathers_S100000x128_S104x128 : S100000x128.Gathers 0 S104x128
  inb_S32x104_S1x104_1_0 : ∀ a, (![1, 0] : Fin 2 → Nat) a + S1x104.size a ≤ S32x104.size a
  inb_S32x104_S1x104_2_0 : ∀ a, (![2, 0] : Fin 2 → Nat) a + S1x104.size a ≤ S32x104.size a
  h_S1x16 : 0 < S1x16.numel
  shapeCasts_S1x16_S16 : S1x16.ShapeCasts S16
  shapeCasts_S16_S1x16 : S16.ShapeCasts S1x16
  inb_S104x64_S26x64_0_0 : ∀ a, (![0, 0] : Fin 2 → Nat) a + S26x64.size a ≤ S104x64.size a
  squeezes_S1x26x64_S26x64 : S1x26x64.Squeezes S26x64
  inb_S104x64_S26x64_26_0 : ∀ a, (![26, 0] : Fin 2 → Nat) a + S26x64.size a ≤ S104x64.size a
  inb_S104x64_S26x64_52_0 : ∀ a, (![52, 0] : Fin 2 → Nat) a + S26x64.size a ≤ S104x64.size a
  inb_S104x64_S26x64_78_0 : ∀ a, (![78, 0] : Fin 2 → Nat) a + S26x64.size a ≤ S104x64.size a
  inb_S32x104_S1x104_3_0 : ∀ a, (![3, 0] : Fin 2 → Nat) a + S1x104.size a ≤ S32x104.size a
  inb_S32x104_S1x104_4_0 : ∀ a, (![4, 0] : Fin 2 → Nat) a + S1x104.size a ≤ S32x104.size a
  inb_S32x104_S1x104_5_0 : ∀ a, (![5, 0] : Fin 2 → Nat) a + S1x104.size a ≤ S32x104.size a
  inb_S32x104_S1x104_6_0 : ∀ a, (![6, 0] : Fin 2 → Nat) a + S1x104.size a ≤ S32x104.size a
  inb_S32x104_S1x104_7_0 : ∀ a, (![7, 0] : Fin 2 → Nat) a + S1x104.size a ≤ S32x104.size a
  inb_S32x104_S1x104_8_0 : ∀ a, (![8, 0] : Fin 2 → Nat) a + S1x104.size a ≤ S32x104.size a
  inb_S32x104_S1x104_9_0 : ∀ a, (![9, 0] : Fin 2 → Nat) a + S1x104.size a ≤ S32x104.size a
  inb_S32x104_S1x104_10_0 : ∀ a, (![10, 0] : Fin 2 → Nat) a + S1x104.size a ≤ S32x104.size a
  inb_S32x104_S1x104_11_0 : ∀ a, (![11, 0] : Fin 2 → Nat) a + S1x104.size a ≤ S32x104.size a
  inb_S32x104_S1x104_12_0 : ∀ a, (![12, 0] : Fin 2 → Nat) a + S1x104.size a ≤ S32x104.size a
  inb_S32x104_S1x104_13_0 : ∀ a, (![13, 0] : Fin 2 → Nat) a + S1x104.size a ≤ S32x104.size a
  inb_S32x104_S1x104_14_0 : ∀ a, (![14, 0] : Fin 2 → Nat) a + S1x104.size a ≤ S32x104.size a
  inb_S32x104_S1x104_15_0 : ∀ a, (![15, 0] : Fin 2 → Nat) a + S1x104.size a ≤ S32x104.size a
  inb_S32x104_S1x104_16_0 : ∀ a, (![16, 0] : Fin 2 → Nat) a + S1x104.size a ≤ S32x104.size a
  inb_S32x104_S1x104_17_0 : ∀ a, (![17, 0] : Fin 2 → Nat) a + S1x104.size a ≤ S32x104.size a
  inb_S32x104_S1x104_18_0 : ∀ a, (![18, 0] : Fin 2 → Nat) a + S1x104.size a ≤ S32x104.size a
  inb_S32x104_S1x104_19_0 : ∀ a, (![19, 0] : Fin 2 → Nat) a + S1x104.size a ≤ S32x104.size a
  inb_S32x104_S1x104_20_0 : ∀ a, (![20, 0] : Fin 2 → Nat) a + S1x104.size a ≤ S32x104.size a
  inb_S32x104_S1x104_21_0 : ∀ a, (![21, 0] : Fin 2 → Nat) a + S1x104.size a ≤ S32x104.size a
  inb_S32x104_S1x104_22_0 : ∀ a, (![22, 0] : Fin 2 → Nat) a + S1x104.size a ≤ S32x104.size a
  inb_S32x104_S1x104_23_0 : ∀ a, (![23, 0] : Fin 2 → Nat) a + S1x104.size a ≤ S32x104.size a
  inb_S32x104_S1x104_24_0 : ∀ a, (![24, 0] : Fin 2 → Nat) a + S1x104.size a ≤ S32x104.size a
  inb_S32x104_S1x104_25_0 : ∀ a, (![25, 0] : Fin 2 → Nat) a + S1x104.size a ≤ S32x104.size a
  inb_S32x104_S1x104_26_0 : ∀ a, (![26, 0] : Fin 2 → Nat) a + S1x104.size a ≤ S32x104.size a
  inb_S32x104_S1x104_27_0 : ∀ a, (![27, 0] : Fin 2 → Nat) a + S1x104.size a ≤ S32x104.size a
  inb_S32x104_S1x104_28_0 : ∀ a, (![28, 0] : Fin 2 → Nat) a + S1x104.size a ≤ S32x104.size a
  inb_S32x104_S1x104_29_0 : ∀ a, (![29, 0] : Fin 2 → Nat) a + S1x104.size a ≤ S32x104.size a
  inb_S32x104_S1x104_30_0 : ∀ a, (![30, 0] : Fin 2 → Nat) a + S1x104.size a ≤ S32x104.size a
  inb_S32x104_S1x104_31_0 : ∀ a, (![31, 0] : Fin 2 → Nat) a + S1x104.size a ≤ S32x104.size a
  hcc0_scratch9 : 0 + S_.numel ≤ 9
  hcc0_scratch10 : 1 + S_.numel ≤ 9
  hcc0_scratch11 : 2 + S_.numel ≤ 9
  hcc0_scratch12 : 3 + S_.numel ≤ 9
  hcc0_scratch13 : 4 + S_.numel ≤ 9
  hcc0_scratch14 : 5 + S_.numel ≤ 9
  hcc0_scratch15 : 6 + S_.numel ≤ 9
  hcc0_scratch16 : 7 + S_.numel ≤ 9
  hcc0_scoped0 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32x104.size a ≤ S1024x104.size a
  k0_t1_ok : k0_t1_loop.OK
  k0_off2_inb : ∀ k0_t1 : Fin k0_t1_loop.trips, ∀ a, (k0_off2 k0_t1) a + S1x16.size a ≤ S104x128.size a
  k0_off3_inb : ∀ k0_t1 : Fin k0_t1_loop.trips, ∀ a, (k0_off3 k0_t1) a + S1x16.size a ≤ S104x64.size a
  k0_off4_inb : ∀ k0_t1 : Fin k0_t1_loop.trips, ∀ a, (k0_off4 k0_t1) a + S1x16.size a ≤ S104x128.size a
  k0_off5_inb : ∀ k0_t1 : Fin k0_t1_loop.trips, ∀ a, (k0_off5 k0_t1) a + S1x16.size a ≤ S104x64.size a
  k0_off6_inb : ∀ k0_t1 : Fin k0_t1_loop.trips, ∀ a, (k0_off6 k0_t1) a + S1x16.size a ≤ S104x128.size a
  k0_off7_inb : ∀ k0_t1 : Fin k0_t1_loop.trips, ∀ a, (k0_off7 k0_t1) a + S1x16.size a ≤ S104x64.size a
  k0_off8_inb : ∀ k0_t1 : Fin k0_t1_loop.trips, ∀ a, (k0_off8 k0_t1) a + S1x16.size a ≤ S104x128.size a
  k0_off9_inb : ∀ k0_t1 : Fin k0_t1_loop.trips, ∀ a, (k0_off9 k0_t1) a + S1x16.size a ≤ S104x64.size a
  k0_off10_inb : ∀ i : grid0.Coords, ∀ (r₁ : Fin 32) (r₂ : Fin 4), ∀ a, (k0_off10 i (BitVec.ofNat 32 (4 * r₁.val)) (BitVec.ofNat 32 r₂.val)) a + S1x26x64.size a ≤ S4096x26x64.size a
  k0_t2_ok : k0_t2_loop.OK
  k0_off11_inb : ∀ k0_t2 : Fin k0_t2_loop.trips, ∀ a, (k0_off11 k0_t2) a + S1x16.size a ≤ S104x128.size a
  k0_off12_inb : ∀ k0_t2 : Fin k0_t2_loop.trips, ∀ a, (k0_off12 k0_t2) a + S1x16.size a ≤ S104x64.size a
  k0_off13_inb : ∀ k0_t2 : Fin k0_t2_loop.trips, ∀ a, (k0_off13 k0_t2) a + S1x16.size a ≤ S104x128.size a
  k0_off14_inb : ∀ k0_t2 : Fin k0_t2_loop.trips, ∀ a, (k0_off14 k0_t2) a + S1x16.size a ≤ S104x64.size a
  k0_off15_inb : ∀ k0_t2 : Fin k0_t2_loop.trips, ∀ a, (k0_off15 k0_t2) a + S1x16.size a ≤ S104x128.size a
  k0_off16_inb : ∀ k0_t2 : Fin k0_t2_loop.trips, ∀ a, (k0_off16 k0_t2) a + S1x16.size a ≤ S104x64.size a
  k0_off17_inb : ∀ k0_t2 : Fin k0_t2_loop.trips, ∀ a, (k0_off17 k0_t2) a + S1x16.size a ≤ S104x128.size a
  k0_off18_inb : ∀ k0_t2 : Fin k0_t2_loop.trips, ∀ a, (k0_off18 k0_t2) a + S1x16.size a ≤ S104x64.size a
  k0_t3_ok : k0_t3_loop.OK
  k0_off19_inb : ∀ k0_t3 : Fin k0_t3_loop.trips, ∀ a, (k0_off19 k0_t3) a + S1x16.size a ≤ S104x128.size a
  k0_off20_inb : ∀ k0_t3 : Fin k0_t3_loop.trips, ∀ a, (k0_off20 k0_t3) a + S1x16.size a ≤ S104x64.size a
  k0_off21_inb : ∀ k0_t3 : Fin k0_t3_loop.trips, ∀ a, (k0_off21 k0_t3) a + S1x16.size a ≤ S104x128.size a
  k0_off22_inb : ∀ k0_t3 : Fin k0_t3_loop.trips, ∀ a, (k0_off22 k0_t3) a + S1x16.size a ≤ S104x64.size a
  k0_off23_inb : ∀ k0_t3 : Fin k0_t3_loop.trips, ∀ a, (k0_off23 k0_t3) a + S1x16.size a ≤ S104x128.size a
  k0_off24_inb : ∀ k0_t3 : Fin k0_t3_loop.trips, ∀ a, (k0_off24 k0_t3) a + S1x16.size a ≤ S104x64.size a
  k0_off25_inb : ∀ k0_t3 : Fin k0_t3_loop.trips, ∀ a, (k0_off25 k0_t3) a + S1x16.size a ≤ S104x128.size a
  k0_off26_inb : ∀ k0_t3 : Fin k0_t3_loop.trips, ∀ a, (k0_off26 k0_t3) a + S1x16.size a ≤ S104x64.size a
  k0_t4_ok : k0_t4_loop.OK
  k0_off27_inb : ∀ k0_t4 : Fin k0_t4_loop.trips, ∀ a, (k0_off27 k0_t4) a + S1x16.size a ≤ S104x128.size a
  k0_off28_inb : ∀ k0_t4 : Fin k0_t4_loop.trips, ∀ a, (k0_off28 k0_t4) a + S1x16.size a ≤ S104x64.size a
  k0_off29_inb : ∀ k0_t4 : Fin k0_t4_loop.trips, ∀ a, (k0_off29 k0_t4) a + S1x16.size a ≤ S104x128.size a
  k0_off30_inb : ∀ k0_t4 : Fin k0_t4_loop.trips, ∀ a, (k0_off30 k0_t4) a + S1x16.size a ≤ S104x64.size a
  k0_off31_inb : ∀ k0_t4 : Fin k0_t4_loop.trips, ∀ a, (k0_off31 k0_t4) a + S1x16.size a ≤ S104x128.size a
  k0_off32_inb : ∀ k0_t4 : Fin k0_t4_loop.trips, ∀ a, (k0_off32 k0_t4) a + S1x16.size a ≤ S104x64.size a
  k0_off33_inb : ∀ k0_t4 : Fin k0_t4_loop.trips, ∀ a, (k0_off33 k0_t4) a + S1x16.size a ≤ S104x128.size a
  k0_off34_inb : ∀ k0_t4 : Fin k0_t4_loop.trips, ∀ a, (k0_off34 k0_t4) a + S1x16.size a ≤ S104x64.size a
  k0_t5_ok : k0_t5_loop.OK
  k0_off35_inb : ∀ k0_t5 : Fin k0_t5_loop.trips, ∀ a, (k0_off35 k0_t5) a + S1x16.size a ≤ S104x128.size a
  k0_off36_inb : ∀ k0_t5 : Fin k0_t5_loop.trips, ∀ a, (k0_off36 k0_t5) a + S1x16.size a ≤ S104x64.size a
  k0_off37_inb : ∀ k0_t5 : Fin k0_t5_loop.trips, ∀ a, (k0_off37 k0_t5) a + S1x16.size a ≤ S104x128.size a
  k0_off38_inb : ∀ k0_t5 : Fin k0_t5_loop.trips, ∀ a, (k0_off38 k0_t5) a + S1x16.size a ≤ S104x64.size a
  k0_off39_inb : ∀ k0_t5 : Fin k0_t5_loop.trips, ∀ a, (k0_off39 k0_t5) a + S1x16.size a ≤ S104x128.size a
  k0_off40_inb : ∀ k0_t5 : Fin k0_t5_loop.trips, ∀ a, (k0_off40 k0_t5) a + S1x16.size a ≤ S104x64.size a
  k0_off41_inb : ∀ k0_t5 : Fin k0_t5_loop.trips, ∀ a, (k0_off41 k0_t5) a + S1x16.size a ≤ S104x128.size a
  k0_off42_inb : ∀ k0_t5 : Fin k0_t5_loop.trips, ∀ a, (k0_off42 k0_t5) a + S1x16.size a ≤ S104x64.size a
  k0_t6_ok : k0_t6_loop.OK
  k0_off43_inb : ∀ k0_t6 : Fin k0_t6_loop.trips, ∀ a, (k0_off43 k0_t6) a + S1x16.size a ≤ S104x128.size a
  k0_off44_inb : ∀ k0_t6 : Fin k0_t6_loop.trips, ∀ a, (k0_off44 k0_t6) a + S1x16.size a ≤ S104x64.size a
  k0_off45_inb : ∀ k0_t6 : Fin k0_t6_loop.trips, ∀ a, (k0_off45 k0_t6) a + S1x16.size a ≤ S104x128.size a
  k0_off46_inb : ∀ k0_t6 : Fin k0_t6_loop.trips, ∀ a, (k0_off46 k0_t6) a + S1x16.size a ≤ S104x64.size a
  k0_off47_inb : ∀ k0_t6 : Fin k0_t6_loop.trips, ∀ a, (k0_off47 k0_t6) a + S1x16.size a ≤ S104x128.size a
  k0_off48_inb : ∀ k0_t6 : Fin k0_t6_loop.trips, ∀ a, (k0_off48 k0_t6) a + S1x16.size a ≤ S104x64.size a
  k0_off49_inb : ∀ k0_t6 : Fin k0_t6_loop.trips, ∀ a, (k0_off49 k0_t6) a + S1x16.size a ≤ S104x128.size a
  k0_off50_inb : ∀ k0_t6 : Fin k0_t6_loop.trips, ∀ a, (k0_off50 k0_t6) a + S1x16.size a ≤ S104x64.size a
  k0_t7_ok : k0_t7_loop.OK
  k0_off51_inb : ∀ k0_t7 : Fin k0_t7_loop.trips, ∀ a, (k0_off51 k0_t7) a + S1x16.size a ≤ S104x128.size a
  k0_off52_inb : ∀ k0_t7 : Fin k0_t7_loop.trips, ∀ a, (k0_off52 k0_t7) a + S1x16.size a ≤ S104x64.size a
  k0_off53_inb : ∀ k0_t7 : Fin k0_t7_loop.trips, ∀ a, (k0_off53 k0_t7) a + S1x16.size a ≤ S104x128.size a
  k0_off54_inb : ∀ k0_t7 : Fin k0_t7_loop.trips, ∀ a, (k0_off54 k0_t7) a + S1x16.size a ≤ S104x64.size a
  k0_off55_inb : ∀ k0_t7 : Fin k0_t7_loop.trips, ∀ a, (k0_off55 k0_t7) a + S1x16.size a ≤ S104x128.size a
  k0_off56_inb : ∀ k0_t7 : Fin k0_t7_loop.trips, ∀ a, (k0_off56 k0_t7) a + S1x16.size a ≤ S104x64.size a
  k0_off57_inb : ∀ k0_t7 : Fin k0_t7_loop.trips, ∀ a, (k0_off57 k0_t7) a + S1x16.size a ≤ S104x128.size a
  k0_off58_inb : ∀ k0_t7 : Fin k0_t7_loop.trips, ∀ a, (k0_off58 k0_t7) a + S1x16.size a ≤ S104x64.size a
  k0_t8_ok : k0_t8_loop.OK
  k0_off59_inb : ∀ k0_t8 : Fin k0_t8_loop.trips, ∀ a, (k0_off59 k0_t8) a + S1x16.size a ≤ S104x128.size a
  k0_off60_inb : ∀ k0_t8 : Fin k0_t8_loop.trips, ∀ a, (k0_off60 k0_t8) a + S1x16.size a ≤ S104x64.size a
  k0_off61_inb : ∀ k0_t8 : Fin k0_t8_loop.trips, ∀ a, (k0_off61 k0_t8) a + S1x16.size a ≤ S104x128.size a
  k0_off62_inb : ∀ k0_t8 : Fin k0_t8_loop.trips, ∀ a, (k0_off62 k0_t8) a + S1x16.size a ≤ S104x64.size a
  k0_off63_inb : ∀ k0_t8 : Fin k0_t8_loop.trips, ∀ a, (k0_off63 k0_t8) a + S1x16.size a ≤ S104x128.size a
  k0_off64_inb : ∀ k0_t8 : Fin k0_t8_loop.trips, ∀ a, (k0_off64 k0_t8) a + S1x16.size a ≤ S104x64.size a
  k0_off65_inb : ∀ k0_t8 : Fin k0_t8_loop.trips, ∀ a, (k0_off65 k0_t8) a + S1x16.size a ≤ S104x128.size a
  k0_off66_inb : ∀ k0_t8 : Fin k0_t8_loop.trips, ∀ a, (k0_off66 k0_t8) a + S1x16.size a ≤ S104x64.size a
  k0_t9_ok : k0_t9_loop.OK
  k0_off67_inb : ∀ k0_t9 : Fin k0_t9_loop.trips, ∀ a, (k0_off67 k0_t9) a + S1x16.size a ≤ S104x128.size a
  k0_off68_inb : ∀ k0_t9 : Fin k0_t9_loop.trips, ∀ a, (k0_off68 k0_t9) a + S1x16.size a ≤ S104x64.size a
  k0_off69_inb : ∀ k0_t9 : Fin k0_t9_loop.trips, ∀ a, (k0_off69 k0_t9) a + S1x16.size a ≤ S104x128.size a
  k0_off70_inb : ∀ k0_t9 : Fin k0_t9_loop.trips, ∀ a, (k0_off70 k0_t9) a + S1x16.size a ≤ S104x64.size a
  k0_off71_inb : ∀ k0_t9 : Fin k0_t9_loop.trips, ∀ a, (k0_off71 k0_t9) a + S1x16.size a ≤ S104x128.size a
  k0_off72_inb : ∀ k0_t9 : Fin k0_t9_loop.trips, ∀ a, (k0_off72 k0_t9) a + S1x16.size a ≤ S104x64.size a
  k0_off73_inb : ∀ k0_t9 : Fin k0_t9_loop.trips, ∀ a, (k0_off73 k0_t9) a + S1x16.size a ≤ S104x128.size a
  k0_off74_inb : ∀ k0_t9 : Fin k0_t9_loop.trips, ∀ a, (k0_off74 k0_t9) a + S1x16.size a ≤ S104x64.size a
  k0_t10_ok : k0_t10_loop.OK
  k0_off75_inb : ∀ k0_t10 : Fin k0_t10_loop.trips, ∀ a, (k0_off75 k0_t10) a + S1x16.size a ≤ S104x128.size a
  k0_off76_inb : ∀ k0_t10 : Fin k0_t10_loop.trips, ∀ a, (k0_off76 k0_t10) a + S1x16.size a ≤ S104x64.size a
  k0_off77_inb : ∀ k0_t10 : Fin k0_t10_loop.trips, ∀ a, (k0_off77 k0_t10) a + S1x16.size a ≤ S104x128.size a
  k0_off78_inb : ∀ k0_t10 : Fin k0_t10_loop.trips, ∀ a, (k0_off78 k0_t10) a + S1x16.size a ≤ S104x64.size a
  k0_off79_inb : ∀ k0_t10 : Fin k0_t10_loop.trips, ∀ a, (k0_off79 k0_t10) a + S1x16.size a ≤ S104x128.size a
  k0_off80_inb : ∀ k0_t10 : Fin k0_t10_loop.trips, ∀ a, (k0_off80 k0_t10) a + S1x16.size a ≤ S104x64.size a
  k0_off81_inb : ∀ k0_t10 : Fin k0_t10_loop.trips, ∀ a, (k0_off81 k0_t10) a + S1x16.size a ≤ S104x128.size a
  k0_off82_inb : ∀ k0_t10 : Fin k0_t10_loop.trips, ∀ a, (k0_off82 k0_t10) a + S1x16.size a ≤ S104x64.size a
  k0_t11_ok : k0_t11_loop.OK
  k0_off83_inb : ∀ k0_t11 : Fin k0_t11_loop.trips, ∀ a, (k0_off83 k0_t11) a + S1x16.size a ≤ S104x128.size a
  k0_off84_inb : ∀ k0_t11 : Fin k0_t11_loop.trips, ∀ a, (k0_off84 k0_t11) a + S1x16.size a ≤ S104x64.size a
  k0_off85_inb : ∀ k0_t11 : Fin k0_t11_loop.trips, ∀ a, (k0_off85 k0_t11) a + S1x16.size a ≤ S104x128.size a
  k0_off86_inb : ∀ k0_t11 : Fin k0_t11_loop.trips, ∀ a, (k0_off86 k0_t11) a + S1x16.size a ≤ S104x64.size a
  k0_off87_inb : ∀ k0_t11 : Fin k0_t11_loop.trips, ∀ a, (k0_off87 k0_t11) a + S1x16.size a ≤ S104x128.size a
  k0_off88_inb : ∀ k0_t11 : Fin k0_t11_loop.trips, ∀ a, (k0_off88 k0_t11) a + S1x16.size a ≤ S104x64.size a
  k0_off89_inb : ∀ k0_t11 : Fin k0_t11_loop.trips, ∀ a, (k0_off89 k0_t11) a + S1x16.size a ≤ S104x128.size a
  k0_off90_inb : ∀ k0_t11 : Fin k0_t11_loop.trips, ∀ a, (k0_off90 k0_t11) a + S1x16.size a ≤ S104x64.size a
  k0_t12_ok : k0_t12_loop.OK
  k0_off91_inb : ∀ k0_t12 : Fin k0_t12_loop.trips, ∀ a, (k0_off91 k0_t12) a + S1x16.size a ≤ S104x128.size a
  k0_off92_inb : ∀ k0_t12 : Fin k0_t12_loop.trips, ∀ a, (k0_off92 k0_t12) a + S1x16.size a ≤ S104x64.size a
  k0_off93_inb : ∀ k0_t12 : Fin k0_t12_loop.trips, ∀ a, (k0_off93 k0_t12) a + S1x16.size a ≤ S104x128.size a
  k0_off94_inb : ∀ k0_t12 : Fin k0_t12_loop.trips, ∀ a, (k0_off94 k0_t12) a + S1x16.size a ≤ S104x64.size a
  k0_off95_inb : ∀ k0_t12 : Fin k0_t12_loop.trips, ∀ a, (k0_off95 k0_t12) a + S1x16.size a ≤ S104x128.size a
  k0_off96_inb : ∀ k0_t12 : Fin k0_t12_loop.trips, ∀ a, (k0_off96 k0_t12) a + S1x16.size a ≤ S104x64.size a
  k0_off97_inb : ∀ k0_t12 : Fin k0_t12_loop.trips, ∀ a, (k0_off97 k0_t12) a + S1x16.size a ≤ S104x128.size a
  k0_off98_inb : ∀ k0_t12 : Fin k0_t12_loop.trips, ∀ a, (k0_off98 k0_t12) a + S1x16.size a ≤ S104x64.size a
  k0_t13_ok : k0_t13_loop.OK
  k0_off99_inb : ∀ k0_t13 : Fin k0_t13_loop.trips, ∀ a, (k0_off99 k0_t13) a + S1x16.size a ≤ S104x128.size a
  k0_off100_inb : ∀ k0_t13 : Fin k0_t13_loop.trips, ∀ a, (k0_off100 k0_t13) a + S1x16.size a ≤ S104x64.size a
  k0_off101_inb : ∀ k0_t13 : Fin k0_t13_loop.trips, ∀ a, (k0_off101 k0_t13) a + S1x16.size a ≤ S104x128.size a
  k0_off102_inb : ∀ k0_t13 : Fin k0_t13_loop.trips, ∀ a, (k0_off102 k0_t13) a + S1x16.size a ≤ S104x64.size a
  k0_off103_inb : ∀ k0_t13 : Fin k0_t13_loop.trips, ∀ a, (k0_off103 k0_t13) a + S1x16.size a ≤ S104x128.size a
  k0_off104_inb : ∀ k0_t13 : Fin k0_t13_loop.trips, ∀ a, (k0_off104 k0_t13) a + S1x16.size a ≤ S104x64.size a
  k0_off105_inb : ∀ k0_t13 : Fin k0_t13_loop.trips, ∀ a, (k0_off105 k0_t13) a + S1x16.size a ≤ S104x128.size a
  k0_off106_inb : ∀ k0_t13 : Fin k0_t13_loop.trips, ∀ a, (k0_off106 k0_t13) a + S1x16.size a ≤ S104x64.size a
  k0_t14_ok : k0_t14_loop.OK
  k0_off107_inb : ∀ k0_t14 : Fin k0_t14_loop.trips, ∀ a, (k0_off107 k0_t14) a + S1x16.size a ≤ S104x128.size a
  k0_off108_inb : ∀ k0_t14 : Fin k0_t14_loop.trips, ∀ a, (k0_off108 k0_t14) a + S1x16.size a ≤ S104x64.size a
  k0_off109_inb : ∀ k0_t14 : Fin k0_t14_loop.trips, ∀ a, (k0_off109 k0_t14) a + S1x16.size a ≤ S104x128.size a
  k0_off110_inb : ∀ k0_t14 : Fin k0_t14_loop.trips, ∀ a, (k0_off110 k0_t14) a + S1x16.size a ≤ S104x64.size a
  k0_off111_inb : ∀ k0_t14 : Fin k0_t14_loop.trips, ∀ a, (k0_off111 k0_t14) a + S1x16.size a ≤ S104x128.size a
  k0_off112_inb : ∀ k0_t14 : Fin k0_t14_loop.trips, ∀ a, (k0_off112 k0_t14) a + S1x16.size a ≤ S104x64.size a
  k0_off113_inb : ∀ k0_t14 : Fin k0_t14_loop.trips, ∀ a, (k0_off113 k0_t14) a + S1x16.size a ≤ S104x128.size a
  k0_off114_inb : ∀ k0_t14 : Fin k0_t14_loop.trips, ∀ a, (k0_off114 k0_t14) a + S1x16.size a ≤ S104x64.size a
  k0_t15_ok : k0_t15_loop.OK
  k0_off115_inb : ∀ k0_t15 : Fin k0_t15_loop.trips, ∀ a, (k0_off115 k0_t15) a + S1x16.size a ≤ S104x128.size a
  k0_off116_inb : ∀ k0_t15 : Fin k0_t15_loop.trips, ∀ a, (k0_off116 k0_t15) a + S1x16.size a ≤ S104x64.size a
  k0_off117_inb : ∀ k0_t15 : Fin k0_t15_loop.trips, ∀ a, (k0_off117 k0_t15) a + S1x16.size a ≤ S104x128.size a
  k0_off118_inb : ∀ k0_t15 : Fin k0_t15_loop.trips, ∀ a, (k0_off118 k0_t15) a + S1x16.size a ≤ S104x64.size a
  k0_off119_inb : ∀ k0_t15 : Fin k0_t15_loop.trips, ∀ a, (k0_off119 k0_t15) a + S1x16.size a ≤ S104x128.size a
  k0_off120_inb : ∀ k0_t15 : Fin k0_t15_loop.trips, ∀ a, (k0_off120 k0_t15) a + S1x16.size a ≤ S104x64.size a
  k0_off121_inb : ∀ k0_t15 : Fin k0_t15_loop.trips, ∀ a, (k0_off121 k0_t15) a + S1x16.size a ≤ S104x128.size a
  k0_off122_inb : ∀ k0_t15 : Fin k0_t15_loop.trips, ∀ a, (k0_off122 k0_t15) a + S1x16.size a ≤ S104x64.size a
  k0_t16_ok : k0_t16_loop.OK
  k0_off123_inb : ∀ k0_t16 : Fin k0_t16_loop.trips, ∀ a, (k0_off123 k0_t16) a + S1x16.size a ≤ S104x128.size a
  k0_off124_inb : ∀ k0_t16 : Fin k0_t16_loop.trips, ∀ a, (k0_off124 k0_t16) a + S1x16.size a ≤ S104x64.size a
  k0_off125_inb : ∀ k0_t16 : Fin k0_t16_loop.trips, ∀ a, (k0_off125 k0_t16) a + S1x16.size a ≤ S104x128.size a
  k0_off126_inb : ∀ k0_t16 : Fin k0_t16_loop.trips, ∀ a, (k0_off126 k0_t16) a + S1x16.size a ≤ S104x64.size a
  k0_off127_inb : ∀ k0_t16 : Fin k0_t16_loop.trips, ∀ a, (k0_off127 k0_t16) a + S1x16.size a ≤ S104x128.size a
  k0_off128_inb : ∀ k0_t16 : Fin k0_t16_loop.trips, ∀ a, (k0_off128 k0_t16) a + S1x16.size a ≤ S104x64.size a
  k0_off129_inb : ∀ k0_t16 : Fin k0_t16_loop.trips, ∀ a, (k0_off129 k0_t16) a + S1x16.size a ≤ S104x128.size a
  k0_off130_inb : ∀ k0_t16 : Fin k0_t16_loop.trips, ∀ a, (k0_off130 k0_t16) a + S1x16.size a ≤ S104x64.size a
  k0_t17_ok : k0_t17_loop.OK
  k0_off131_inb : ∀ k0_t17 : Fin k0_t17_loop.trips, ∀ a, (k0_off131 k0_t17) a + S1x16.size a ≤ S104x128.size a
  k0_off132_inb : ∀ k0_t17 : Fin k0_t17_loop.trips, ∀ a, (k0_off132 k0_t17) a + S1x16.size a ≤ S104x64.size a
  k0_off133_inb : ∀ k0_t17 : Fin k0_t17_loop.trips, ∀ a, (k0_off133 k0_t17) a + S1x16.size a ≤ S104x128.size a
  k0_off134_inb : ∀ k0_t17 : Fin k0_t17_loop.trips, ∀ a, (k0_off134 k0_t17) a + S1x16.size a ≤ S104x64.size a
  k0_off135_inb : ∀ k0_t17 : Fin k0_t17_loop.trips, ∀ a, (k0_off135 k0_t17) a + S1x16.size a ≤ S104x128.size a
  k0_off136_inb : ∀ k0_t17 : Fin k0_t17_loop.trips, ∀ a, (k0_off136 k0_t17) a + S1x16.size a ≤ S104x64.size a
  k0_off137_inb : ∀ k0_t17 : Fin k0_t17_loop.trips, ∀ a, (k0_off137 k0_t17) a + S1x16.size a ≤ S104x128.size a
  k0_off138_inb : ∀ k0_t17 : Fin k0_t17_loop.trips, ∀ a, (k0_off138 k0_t17) a + S1x16.size a ≤ S104x64.size a
  k0_t18_ok : k0_t18_loop.OK
  k0_off139_inb : ∀ k0_t18 : Fin k0_t18_loop.trips, ∀ a, (k0_off139 k0_t18) a + S1x16.size a ≤ S104x128.size a
  k0_off140_inb : ∀ k0_t18 : Fin k0_t18_loop.trips, ∀ a, (k0_off140 k0_t18) a + S1x16.size a ≤ S104x64.size a
  k0_off141_inb : ∀ k0_t18 : Fin k0_t18_loop.trips, ∀ a, (k0_off141 k0_t18) a + S1x16.size a ≤ S104x128.size a
  k0_off142_inb : ∀ k0_t18 : Fin k0_t18_loop.trips, ∀ a, (k0_off142 k0_t18) a + S1x16.size a ≤ S104x64.size a
  k0_off143_inb : ∀ k0_t18 : Fin k0_t18_loop.trips, ∀ a, (k0_off143 k0_t18) a + S1x16.size a ≤ S104x128.size a
  k0_off144_inb : ∀ k0_t18 : Fin k0_t18_loop.trips, ∀ a, (k0_off144 k0_t18) a + S1x16.size a ≤ S104x64.size a
  k0_off145_inb : ∀ k0_t18 : Fin k0_t18_loop.trips, ∀ a, (k0_off145 k0_t18) a + S1x16.size a ≤ S104x128.size a
  k0_off146_inb : ∀ k0_t18 : Fin k0_t18_loop.trips, ∀ a, (k0_off146 k0_t18) a + S1x16.size a ≤ S104x64.size a
  k0_t19_ok : k0_t19_loop.OK
  k0_off147_inb : ∀ k0_t19 : Fin k0_t19_loop.trips, ∀ a, (k0_off147 k0_t19) a + S1x16.size a ≤ S104x128.size a
  k0_off148_inb : ∀ k0_t19 : Fin k0_t19_loop.trips, ∀ a, (k0_off148 k0_t19) a + S1x16.size a ≤ S104x64.size a
  k0_off149_inb : ∀ k0_t19 : Fin k0_t19_loop.trips, ∀ a, (k0_off149 k0_t19) a + S1x16.size a ≤ S104x128.size a
  k0_off150_inb : ∀ k0_t19 : Fin k0_t19_loop.trips, ∀ a, (k0_off150 k0_t19) a + S1x16.size a ≤ S104x64.size a
  k0_off151_inb : ∀ k0_t19 : Fin k0_t19_loop.trips, ∀ a, (k0_off151 k0_t19) a + S1x16.size a ≤ S104x128.size a
  k0_off152_inb : ∀ k0_t19 : Fin k0_t19_loop.trips, ∀ a, (k0_off152 k0_t19) a + S1x16.size a ≤ S104x64.size a
  k0_off153_inb : ∀ k0_t19 : Fin k0_t19_loop.trips, ∀ a, (k0_off153 k0_t19) a + S1x16.size a ≤ S104x128.size a
  k0_off154_inb : ∀ k0_t19 : Fin k0_t19_loop.trips, ∀ a, (k0_off154 k0_t19) a + S1x16.size a ≤ S104x64.size a
  k0_t20_ok : k0_t20_loop.OK
  k0_off155_inb : ∀ k0_t20 : Fin k0_t20_loop.trips, ∀ a, (k0_off155 k0_t20) a + S1x16.size a ≤ S104x128.size a
  k0_off156_inb : ∀ k0_t20 : Fin k0_t20_loop.trips, ∀ a, (k0_off156 k0_t20) a + S1x16.size a ≤ S104x64.size a
  k0_off157_inb : ∀ k0_t20 : Fin k0_t20_loop.trips, ∀ a, (k0_off157 k0_t20) a + S1x16.size a ≤ S104x128.size a
  k0_off158_inb : ∀ k0_t20 : Fin k0_t20_loop.trips, ∀ a, (k0_off158 k0_t20) a + S1x16.size a ≤ S104x64.size a
  k0_off159_inb : ∀ k0_t20 : Fin k0_t20_loop.trips, ∀ a, (k0_off159 k0_t20) a + S1x16.size a ≤ S104x128.size a
  k0_off160_inb : ∀ k0_t20 : Fin k0_t20_loop.trips, ∀ a, (k0_off160 k0_t20) a + S1x16.size a ≤ S104x64.size a
  k0_off161_inb : ∀ k0_t20 : Fin k0_t20_loop.trips, ∀ a, (k0_off161 k0_t20) a + S1x16.size a ≤ S104x128.size a
  k0_off162_inb : ∀ k0_t20 : Fin k0_t20_loop.trips, ∀ a, (k0_off162 k0_t20) a + S1x16.size a ≤ S104x64.size a
  k0_t21_ok : k0_t21_loop.OK
  k0_off163_inb : ∀ k0_t21 : Fin k0_t21_loop.trips, ∀ a, (k0_off163 k0_t21) a + S1x16.size a ≤ S104x128.size a
  k0_off164_inb : ∀ k0_t21 : Fin k0_t21_loop.trips, ∀ a, (k0_off164 k0_t21) a + S1x16.size a ≤ S104x64.size a
  k0_off165_inb : ∀ k0_t21 : Fin k0_t21_loop.trips, ∀ a, (k0_off165 k0_t21) a + S1x16.size a ≤ S104x128.size a
  k0_off166_inb : ∀ k0_t21 : Fin k0_t21_loop.trips, ∀ a, (k0_off166 k0_t21) a + S1x16.size a ≤ S104x64.size a
  k0_off167_inb : ∀ k0_t21 : Fin k0_t21_loop.trips, ∀ a, (k0_off167 k0_t21) a + S1x16.size a ≤ S104x128.size a
  k0_off168_inb : ∀ k0_t21 : Fin k0_t21_loop.trips, ∀ a, (k0_off168 k0_t21) a + S1x16.size a ≤ S104x64.size a
  k0_off169_inb : ∀ k0_t21 : Fin k0_t21_loop.trips, ∀ a, (k0_off169 k0_t21) a + S1x16.size a ≤ S104x128.size a
  k0_off170_inb : ∀ k0_t21 : Fin k0_t21_loop.trips, ∀ a, (k0_off170 k0_t21) a + S1x16.size a ≤ S104x64.size a
  k0_t22_ok : k0_t22_loop.OK
  k0_off171_inb : ∀ k0_t22 : Fin k0_t22_loop.trips, ∀ a, (k0_off171 k0_t22) a + S1x16.size a ≤ S104x128.size a
  k0_off172_inb : ∀ k0_t22 : Fin k0_t22_loop.trips, ∀ a, (k0_off172 k0_t22) a + S1x16.size a ≤ S104x64.size a
  k0_off173_inb : ∀ k0_t22 : Fin k0_t22_loop.trips, ∀ a, (k0_off173 k0_t22) a + S1x16.size a ≤ S104x128.size a
  k0_off174_inb : ∀ k0_t22 : Fin k0_t22_loop.trips, ∀ a, (k0_off174 k0_t22) a + S1x16.size a ≤ S104x64.size a
  k0_off175_inb : ∀ k0_t22 : Fin k0_t22_loop.trips, ∀ a, (k0_off175 k0_t22) a + S1x16.size a ≤ S104x128.size a
  k0_off176_inb : ∀ k0_t22 : Fin k0_t22_loop.trips, ∀ a, (k0_off176 k0_t22) a + S1x16.size a ≤ S104x64.size a
  k0_off177_inb : ∀ k0_t22 : Fin k0_t22_loop.trips, ∀ a, (k0_off177 k0_t22) a + S1x16.size a ≤ S104x128.size a
  k0_off178_inb : ∀ k0_t22 : Fin k0_t22_loop.trips, ∀ a, (k0_off178 k0_t22) a + S1x16.size a ≤ S104x64.size a
  k0_t23_ok : k0_t23_loop.OK
  k0_off179_inb : ∀ k0_t23 : Fin k0_t23_loop.trips, ∀ a, (k0_off179 k0_t23) a + S1x16.size a ≤ S104x128.size a
  k0_off180_inb : ∀ k0_t23 : Fin k0_t23_loop.trips, ∀ a, (k0_off180 k0_t23) a + S1x16.size a ≤ S104x64.size a
  k0_off181_inb : ∀ k0_t23 : Fin k0_t23_loop.trips, ∀ a, (k0_off181 k0_t23) a + S1x16.size a ≤ S104x128.size a
  k0_off182_inb : ∀ k0_t23 : Fin k0_t23_loop.trips, ∀ a, (k0_off182 k0_t23) a + S1x16.size a ≤ S104x64.size a
  k0_off183_inb : ∀ k0_t23 : Fin k0_t23_loop.trips, ∀ a, (k0_off183 k0_t23) a + S1x16.size a ≤ S104x128.size a
  k0_off184_inb : ∀ k0_t23 : Fin k0_t23_loop.trips, ∀ a, (k0_off184 k0_t23) a + S1x16.size a ≤ S104x64.size a
  k0_off185_inb : ∀ k0_t23 : Fin k0_t23_loop.trips, ∀ a, (k0_off185 k0_t23) a + S1x16.size a ≤ S104x128.size a
  k0_off186_inb : ∀ k0_t23 : Fin k0_t23_loop.trips, ∀ a, (k0_off186 k0_t23) a + S1x16.size a ≤ S104x64.size a
  k0_t24_ok : k0_t24_loop.OK
  k0_off187_inb : ∀ k0_t24 : Fin k0_t24_loop.trips, ∀ a, (k0_off187 k0_t24) a + S1x16.size a ≤ S104x128.size a
  k0_off188_inb : ∀ k0_t24 : Fin k0_t24_loop.trips, ∀ a, (k0_off188 k0_t24) a + S1x16.size a ≤ S104x64.size a
  k0_off189_inb : ∀ k0_t24 : Fin k0_t24_loop.trips, ∀ a, (k0_off189 k0_t24) a + S1x16.size a ≤ S104x128.size a
  k0_off190_inb : ∀ k0_t24 : Fin k0_t24_loop.trips, ∀ a, (k0_off190 k0_t24) a + S1x16.size a ≤ S104x64.size a
  k0_off191_inb : ∀ k0_t24 : Fin k0_t24_loop.trips, ∀ a, (k0_off191 k0_t24) a + S1x16.size a ≤ S104x128.size a
  k0_off192_inb : ∀ k0_t24 : Fin k0_t24_loop.trips, ∀ a, (k0_off192 k0_t24) a + S1x16.size a ≤ S104x64.size a
  k0_off193_inb : ∀ k0_t24 : Fin k0_t24_loop.trips, ∀ a, (k0_off193 k0_t24) a + S1x16.size a ≤ S104x128.size a
  k0_off194_inb : ∀ k0_t24 : Fin k0_t24_loop.trips, ∀ a, (k0_off194 k0_t24) a + S1x16.size a ≤ S104x64.size a
  k0_t25_ok : k0_t25_loop.OK
  k0_off195_inb : ∀ k0_t25 : Fin k0_t25_loop.trips, ∀ a, (k0_off195 k0_t25) a + S1x16.size a ≤ S104x128.size a
  k0_off196_inb : ∀ k0_t25 : Fin k0_t25_loop.trips, ∀ a, (k0_off196 k0_t25) a + S1x16.size a ≤ S104x64.size a
  k0_off197_inb : ∀ k0_t25 : Fin k0_t25_loop.trips, ∀ a, (k0_off197 k0_t25) a + S1x16.size a ≤ S104x128.size a
  k0_off198_inb : ∀ k0_t25 : Fin k0_t25_loop.trips, ∀ a, (k0_off198 k0_t25) a + S1x16.size a ≤ S104x64.size a
  k0_off199_inb : ∀ k0_t25 : Fin k0_t25_loop.trips, ∀ a, (k0_off199 k0_t25) a + S1x16.size a ≤ S104x128.size a
  k0_off200_inb : ∀ k0_t25 : Fin k0_t25_loop.trips, ∀ a, (k0_off200 k0_t25) a + S1x16.size a ≤ S104x64.size a
  k0_off201_inb : ∀ k0_t25 : Fin k0_t25_loop.trips, ∀ a, (k0_off201 k0_t25) a + S1x16.size a ≤ S104x128.size a
  k0_off202_inb : ∀ k0_t25 : Fin k0_t25_loop.trips, ∀ a, (k0_off202 k0_t25) a + S1x16.size a ≤ S104x64.size a
  k0_t26_ok : k0_t26_loop.OK
  k0_off203_inb : ∀ k0_t26 : Fin k0_t26_loop.trips, ∀ a, (k0_off203 k0_t26) a + S1x16.size a ≤ S104x128.size a
  k0_off204_inb : ∀ k0_t26 : Fin k0_t26_loop.trips, ∀ a, (k0_off204 k0_t26) a + S1x16.size a ≤ S104x64.size a
  k0_off205_inb : ∀ k0_t26 : Fin k0_t26_loop.trips, ∀ a, (k0_off205 k0_t26) a + S1x16.size a ≤ S104x128.size a
  k0_off206_inb : ∀ k0_t26 : Fin k0_t26_loop.trips, ∀ a, (k0_off206 k0_t26) a + S1x16.size a ≤ S104x64.size a
  k0_off207_inb : ∀ k0_t26 : Fin k0_t26_loop.trips, ∀ a, (k0_off207 k0_t26) a + S1x16.size a ≤ S104x128.size a
  k0_off208_inb : ∀ k0_t26 : Fin k0_t26_loop.trips, ∀ a, (k0_off208 k0_t26) a + S1x16.size a ≤ S104x64.size a
  k0_off209_inb : ∀ k0_t26 : Fin k0_t26_loop.trips, ∀ a, (k0_off209 k0_t26) a + S1x16.size a ≤ S104x128.size a
  k0_off210_inb : ∀ k0_t26 : Fin k0_t26_loop.trips, ∀ a, (k0_off210 k0_t26) a + S1x16.size a ≤ S104x64.size a
  k0_t27_ok : k0_t27_loop.OK
  k0_off211_inb : ∀ k0_t27 : Fin k0_t27_loop.trips, ∀ a, (k0_off211 k0_t27) a + S1x16.size a ≤ S104x128.size a
  k0_off212_inb : ∀ k0_t27 : Fin k0_t27_loop.trips, ∀ a, (k0_off212 k0_t27) a + S1x16.size a ≤ S104x64.size a
  k0_off213_inb : ∀ k0_t27 : Fin k0_t27_loop.trips, ∀ a, (k0_off213 k0_t27) a + S1x16.size a ≤ S104x128.size a
  k0_off214_inb : ∀ k0_t27 : Fin k0_t27_loop.trips, ∀ a, (k0_off214 k0_t27) a + S1x16.size a ≤ S104x64.size a
  k0_off215_inb : ∀ k0_t27 : Fin k0_t27_loop.trips, ∀ a, (k0_off215 k0_t27) a + S1x16.size a ≤ S104x128.size a
  k0_off216_inb : ∀ k0_t27 : Fin k0_t27_loop.trips, ∀ a, (k0_off216 k0_t27) a + S1x16.size a ≤ S104x64.size a
  k0_off217_inb : ∀ k0_t27 : Fin k0_t27_loop.trips, ∀ a, (k0_off217 k0_t27) a + S1x16.size a ≤ S104x128.size a
  k0_off218_inb : ∀ k0_t27 : Fin k0_t27_loop.trips, ∀ a, (k0_off218 k0_t27) a + S1x16.size a ≤ S104x64.size a
  k0_t28_ok : k0_t28_loop.OK
  k0_off219_inb : ∀ k0_t28 : Fin k0_t28_loop.trips, ∀ a, (k0_off219 k0_t28) a + S1x16.size a ≤ S104x128.size a
  k0_off220_inb : ∀ k0_t28 : Fin k0_t28_loop.trips, ∀ a, (k0_off220 k0_t28) a + S1x16.size a ≤ S104x64.size a
  k0_off221_inb : ∀ k0_t28 : Fin k0_t28_loop.trips, ∀ a, (k0_off221 k0_t28) a + S1x16.size a ≤ S104x128.size a
  k0_off222_inb : ∀ k0_t28 : Fin k0_t28_loop.trips, ∀ a, (k0_off222 k0_t28) a + S1x16.size a ≤ S104x64.size a
  k0_off223_inb : ∀ k0_t28 : Fin k0_t28_loop.trips, ∀ a, (k0_off223 k0_t28) a + S1x16.size a ≤ S104x128.size a
  k0_off224_inb : ∀ k0_t28 : Fin k0_t28_loop.trips, ∀ a, (k0_off224 k0_t28) a + S1x16.size a ≤ S104x64.size a
  k0_off225_inb : ∀ k0_t28 : Fin k0_t28_loop.trips, ∀ a, (k0_off225 k0_t28) a + S1x16.size a ≤ S104x128.size a
  k0_off226_inb : ∀ k0_t28 : Fin k0_t28_loop.trips, ∀ a, (k0_off226 k0_t28) a + S1x16.size a ≤ S104x64.size a
  k0_t29_ok : k0_t29_loop.OK
  k0_off227_inb : ∀ k0_t29 : Fin k0_t29_loop.trips, ∀ a, (k0_off227 k0_t29) a + S1x16.size a ≤ S104x128.size a
  k0_off228_inb : ∀ k0_t29 : Fin k0_t29_loop.trips, ∀ a, (k0_off228 k0_t29) a + S1x16.size a ≤ S104x64.size a
  k0_off229_inb : ∀ k0_t29 : Fin k0_t29_loop.trips, ∀ a, (k0_off229 k0_t29) a + S1x16.size a ≤ S104x128.size a
  k0_off230_inb : ∀ k0_t29 : Fin k0_t29_loop.trips, ∀ a, (k0_off230 k0_t29) a + S1x16.size a ≤ S104x64.size a
  k0_off231_inb : ∀ k0_t29 : Fin k0_t29_loop.trips, ∀ a, (k0_off231 k0_t29) a + S1x16.size a ≤ S104x128.size a
  k0_off232_inb : ∀ k0_t29 : Fin k0_t29_loop.trips, ∀ a, (k0_off232 k0_t29) a + S1x16.size a ≤ S104x64.size a
  k0_off233_inb : ∀ k0_t29 : Fin k0_t29_loop.trips, ∀ a, (k0_off233 k0_t29) a + S1x16.size a ≤ S104x128.size a
  k0_off234_inb : ∀ k0_t29 : Fin k0_t29_loop.trips, ∀ a, (k0_off234 k0_t29) a + S1x16.size a ≤ S104x64.size a
  k0_t30_ok : k0_t30_loop.OK
  k0_off235_inb : ∀ k0_t30 : Fin k0_t30_loop.trips, ∀ a, (k0_off235 k0_t30) a + S1x16.size a ≤ S104x128.size a
  k0_off236_inb : ∀ k0_t30 : Fin k0_t30_loop.trips, ∀ a, (k0_off236 k0_t30) a + S1x16.size a ≤ S104x64.size a
  k0_off237_inb : ∀ k0_t30 : Fin k0_t30_loop.trips, ∀ a, (k0_off237 k0_t30) a + S1x16.size a ≤ S104x128.size a
  k0_off238_inb : ∀ k0_t30 : Fin k0_t30_loop.trips, ∀ a, (k0_off238 k0_t30) a + S1x16.size a ≤ S104x64.size a
  k0_off239_inb : ∀ k0_t30 : Fin k0_t30_loop.trips, ∀ a, (k0_off239 k0_t30) a + S1x16.size a ≤ S104x128.size a
  k0_off240_inb : ∀ k0_t30 : Fin k0_t30_loop.trips, ∀ a, (k0_off240 k0_t30) a + S1x16.size a ≤ S104x64.size a
  k0_off241_inb : ∀ k0_t30 : Fin k0_t30_loop.trips, ∀ a, (k0_off241 k0_t30) a + S1x16.size a ≤ S104x128.size a
  k0_off242_inb : ∀ k0_t30 : Fin k0_t30_loop.trips, ∀ a, (k0_off242 k0_t30) a + S1x16.size a ≤ S104x64.size a
  k0_t31_ok : k0_t31_loop.OK
  k0_off243_inb : ∀ k0_t31 : Fin k0_t31_loop.trips, ∀ a, (k0_off243 k0_t31) a + S1x16.size a ≤ S104x128.size a
  k0_off244_inb : ∀ k0_t31 : Fin k0_t31_loop.trips, ∀ a, (k0_off244 k0_t31) a + S1x16.size a ≤ S104x64.size a
  k0_off245_inb : ∀ k0_t31 : Fin k0_t31_loop.trips, ∀ a, (k0_off245 k0_t31) a + S1x16.size a ≤ S104x128.size a
  k0_off246_inb : ∀ k0_t31 : Fin k0_t31_loop.trips, ∀ a, (k0_off246 k0_t31) a + S1x16.size a ≤ S104x64.size a
  k0_off247_inb : ∀ k0_t31 : Fin k0_t31_loop.trips, ∀ a, (k0_off247 k0_t31) a + S1x16.size a ≤ S104x128.size a
  k0_off248_inb : ∀ k0_t31 : Fin k0_t31_loop.trips, ∀ a, (k0_off248 k0_t31) a + S1x16.size a ≤ S104x64.size a
  k0_off249_inb : ∀ k0_t31 : Fin k0_t31_loop.trips, ∀ a, (k0_off249 k0_t31) a + S1x16.size a ≤ S104x128.size a
  k0_off250_inb : ∀ k0_t31 : Fin k0_t31_loop.trips, ∀ a, (k0_off250 k0_t31) a + S1x16.size a ≤ S104x64.size a
  k0_t32_ok : k0_t32_loop.OK
  k0_off251_inb : ∀ k0_t32 : Fin k0_t32_loop.trips, ∀ a, (k0_off251 k0_t32) a + S1x16.size a ≤ S104x128.size a
  k0_off252_inb : ∀ k0_t32 : Fin k0_t32_loop.trips, ∀ a, (k0_off252 k0_t32) a + S1x16.size a ≤ S104x64.size a
  k0_off253_inb : ∀ k0_t32 : Fin k0_t32_loop.trips, ∀ a, (k0_off253 k0_t32) a + S1x16.size a ≤ S104x128.size a
  k0_off254_inb : ∀ k0_t32 : Fin k0_t32_loop.trips, ∀ a, (k0_off254 k0_t32) a + S1x16.size a ≤ S104x64.size a
  k0_off255_inb : ∀ k0_t32 : Fin k0_t32_loop.trips, ∀ a, (k0_off255 k0_t32) a + S1x16.size a ≤ S104x128.size a
  k0_off256_inb : ∀ k0_t32 : Fin k0_t32_loop.trips, ∀ a, (k0_off256 k0_t32) a + S1x16.size a ≤ S104x64.size a
  k0_off257_inb : ∀ k0_t32 : Fin k0_t32_loop.trips, ∀ a, (k0_off257 k0_t32) a + S1x16.size a ≤ S104x128.size a
  k0_off258_inb : ∀ k0_t32 : Fin k0_t32_loop.trips, ∀ a, (k0_off258 k0_t32) a + S1x16.size a ≤ S104x64.size a

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scoped0 : DmaSems sig S_ := SemArray.consecutive 8 S_ hcc0_scoped0

class Facts : Prop extends Facts₀ where

variable [Facts]
-- ==== ReferenceIdeal.lean ====
abbrev S4096x26 : Shape := ⟨2, ![4096, 26]⟩
abbrev S100000x64 : Shape := ⟨2, ![100000, 64]⟩
abbrev S_ : Shape := ⟨0, ![]⟩
abbrev S4096x26x1 : Shape := ⟨3, ![4096, 26, 1]⟩
abbrev S1 : Shape := ⟨1, ![1]⟩
abbrev S1x1x1 : Shape := ⟨3, ![1, 1, 1]⟩
abbrev S4096x26x64 : Shape := ⟨3, ![4096, 26, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S100000x64, .f32⟩
  | .hbm, ⟨2, _⟩ => ⟨S_, .i32⟩
  | .hbm, ⟨3, _⟩ => ⟨S4096x26, .i32⟩
  | .hbm, ⟨4, _⟩ => ⟨S4096x26, .i1⟩
  | .hbm, ⟨5, _⟩ => ⟨S_, .i32⟩
  | .hbm, ⟨6, _⟩ => ⟨S4096x26, .i32⟩
  | .hbm, ⟨7, _⟩ => ⟨S4096x26, .i32⟩
  | .hbm, ⟨8, _⟩ => ⟨S4096x26, .i32⟩
  | .hbm, ⟨9, _⟩ => ⟨S4096x26x1, .i32⟩
  | .hbm, ⟨10, _⟩ => ⟨S1, .i32⟩
  | .hbm, ⟨11, _⟩ => ⟨S_, .i32⟩
  | .hbm, ⟨12, _⟩ => ⟨S4096x26x1, .i32⟩
  | .hbm, ⟨13, _⟩ => ⟨S4096x26x1, .i1⟩
  | .hbm, ⟨14, _⟩ => ⟨S1x1x1, .i32⟩
  | .hbm, ⟨15, _⟩ => ⟨S4096x26x1, .i32⟩
  | .hbm, ⟨16, _⟩ => ⟨S4096x26x1, .i1⟩
  | .hbm, ⟨17, _⟩ => ⟨S4096x26x1, .i1⟩
  | .hbm, ⟨18, _⟩ => ⟨S_, .i1⟩
  | .hbm, ⟨19, _⟩ => ⟨S4096x26, .i1⟩
  | .hbm, ⟨20, _⟩ => ⟨S4096x26x64, .f32⟩
  | .hbm, ⟨21, _⟩ => ⟨S4096x26x64, .i1⟩
  | .hbm, ⟨22, _⟩ => ⟨S_, .f32⟩
  | .hbm, ⟨23, _⟩ => ⟨S4096x26x64, .f32⟩
  | .hbm, ⟨24, _⟩ => ⟨S4096x26x64, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x26 : S_.BroadcastsInDim S4096x26 (![] : Fin 0 → Fin S4096x26.rank)
  bcast_S4096x26_S4096x26x1_0_1 : S4096x26.BroadcastsInDim S4096x26x1 (![0, 1] : Fin 2 → Fin S4096x26x1.rank)
  bcast_S_S4096x26x1 : S_.BroadcastsInDim S4096x26x1 (![] : Fin 0 → Fin S4096x26x1.rank)
  bcast_S1_S1x1x1_2 : S1.BroadcastsInDim S1x1x1 (![2] : Fin 1 → Fin S1x1x1.rank)
  bcast_S1x1x1_S4096x26x1_0_1_2 : S1x1x1.BroadcastsInDim S4096x26x1 (![0, 1, 2] : Fin 3 → Fin S4096x26x1.rank)
  reducesTo_S4096x26x1_S4096x26_d2 : S4096x26x1.ReducesTo [2] S4096x26
  h_S_ : 0 < S_.numel
  bcast_S4096x26_S4096x26x64_0_1 : S4096x26.BroadcastsInDim S4096x26x64 (![0, 1] : Fin 2 → Fin S4096x26x64.rank)
  bcast_S_S4096x26x64 : S_.BroadcastsInDim S4096x26x64 (![] : Fin 0 → Fin S4096x26x64.rank)
  gather_S100000x64_S4096x26x1_S4096x26x64_2_0_n_n_0_2_164_wf : GatherDims.WF S100000x64 S4096x26x1 S4096x26x64 [2] [0] [] [0] [] 2 ![1, 64]

variable [Facts₀]

def gather_S100000x64_S4096x26x1_S4096x26x64_2_0_n_n_0_2_164 : GatherDims S100000x64 S4096x26x1 S4096x26x64 where
  offsetDims := [2]
  collapsedSliceDims := [0]
  operandBatchingDims := []
  startIndicesBatchingDims := []
  startIndexMap := [0]
  indexVectorDim := 2
  sliceSizes := ![1, 64]
  wf := gather_S100000x64_S4096x26x1_S4096x26x64_2_0_n_n_0_2_164_wf

class Facts : Prop extends Facts₀ where

variable [Facts]
-- ==== Proof.LibTileDeal.lean ====
/-
  An array dealt to the thirty-two tiles of two SparseCores, and a read-only array's share dealt likewise.

  Two SparseCores of sixteen tiles each work on an array side by side. Where every tile has its own part —
  the array cut into thirty-two equal parts along one axis, tile i of SparseCore c taking part number 2 i + c —
  a points-to of the whole array is the separating product of the thirty-two parts', at any one contents; read
  back at other contents it is how the tiles' results, each the restriction of ONE whole-array function, join
  into the array at that function. Where every tile may read all of the array, a share q of it is dealt as a
  read token per SparseCore, each dealt again as a read token per tile; what is left over at either level stays
  with whoever dealt.
-/
import Idealize.ShloMosaic.Lib.Transfers

noncomputable section

namespace Idealize.ShloMosaic.Transfers

open Idealize.SL
open Idealize.SL.BI (sProp bigSep bigSep_congr bigSep_univ_prod)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Tile `i` of SparseCore `c` is number `2 i + c` of the thirty-two. -/
def tileNo (c : Fin 2) (i : Fin 16) : Fin 32 := ⟨2 * i.val + c.val, by omega⟩

theorem tileNo_val (c : Fin 2) (i : Fin 16) : (tileNo c i).val = 2 * i.val + c.val := rfl

theorem tileNo_inj {c c' : Fin 2} {i i' : Fin 16} (h : tileNo c i = tileNo c' i') : c = c' ∧ i = i' := by
  have := congrArg Fin.val h
  simp only [tileNo_val] at this
  exact ⟨Fin.ext (by omega), Fin.ext (by omega)⟩

theorem tileNo_surj (k : Fin 32) : ∃ c i, tileNo c i = k :=
  ⟨⟨k.val % 2, Nat.mod_lt _ (by omega)⟩, ⟨k.val / 2, by omega⟩, Fin.ext (by simp only [tileNo_val]; omega)⟩

section Deal

variable {ℓ : Loc nD τ sig} {q : PosShare TreeShare}

/-- An array whose elements are dealt to the tiles, a set of them to each, pairwise disjoint and covering it: its
    points-to at contents `f` is the tiles' points-tos, each on its set at `f`. -/
theorem pointsTo_tiles (A : Fin 2 → Fin 16 → Finset (Idx ℓ))
    (hdisj : ∀ c i c' i', (c, i) ≠ (c', i') → Disjoint (A c i) (A c' i'))
    (hcov : ∀ x : Idx ℓ, ∃ c i, x ∈ A c i) (f : Buf Val ℓ) :
    (ℓ ↦{q} f : sProp 𝕄) = bigSep Finset.univ fun c : Fin 2 => bigSep Finset.univ fun i : Fin 16 => ℓ ↦[A c i]{q} f := by
  rw [← bigSep_univ_prod (fun p : Fin 2 × Fin 16 => (ℓ ↦[A p.1 p.2]{q} f : sProp 𝕄)),
    ← pointsTo_biUnion Finset.univ (fun p : Fin 2 × Fin 16 => A p.1 p.2) fun p _ p' _ h => hdisj p.1 p.2 p'.1 p'.2 h]
  congr 1
  ext x
  simp only [Finset.mem_univ, Finset.mem_biUnion, true_and, true_iff]
  obtain ⟨c, i, h⟩ := hcov x
  exact ⟨(c, i), h⟩

/-- The thirty-two equal parts of a shape along an axis, numbered by the tiles, are pairwise disjoint -/
theorem tileParts_disjoint {s : Shape} {a₀ : Fin s.rank} (hdiv : 32 ∣ s.size a₀) (c : Fin 2) (i : Fin 16) (c' : Fin 2) (i' : Fin 16)
    (h : (c, i) ≠ (c', i')) : Disjoint (Rect.part hdiv (tileNo c i)).set (Rect.part hdiv (tileNo c' i')).set :=
  Rect.part_disjoint hdiv fun e => h (by obtain ⟨h1, h2⟩ := tileNo_inj e; rw [h1, h2])

/-- and cover it. -/
theorem tileParts_cover {s : Shape} {a₀ : Fin s.rank} (hdiv : 32 ∣ s.size a₀) (x : s.Idx) : ∃ c i, x ∈ (Rect.part hdiv (tileNo c i)).set := by
  obtain ⟨k, hk⟩ := Rect.exists_mem_part hdiv x
  obtain ⟨c, i, rfl⟩ := tileNo_surj k
  exact ⟨c, i, hk⟩

/-- A share `q` of an array every tile reads: a token per SparseCore, of it a token per tile, and what is left at
    each level. -/
theorem pointsTo_deal (S : Finset (Idx ℓ)) (f : Buf Val ℓ) :
    (ℓ ↦[S]{q} f : sProp 𝕄) = iprop((ℓ ↦[S]{shareDrop q 2} f)
      ∗ bigSep Finset.univ fun c : Fin 2 => iprop((ℓ ↦[S]{shareDrop (shareTok q 2 c) 16} f)
          ∗ bigSep Finset.univ fun i : Fin 16 => ℓ ↦[S]{shareTok (shareTok q 2 c) 16 i} f)) := by
  have h2 := pointsTo_toks (Ix := Ix) (Name := Name) (U := U) (Lvl := Lvl) (ℓ := ℓ) (S := S) (f := f) q 2
  rw [BI.equiv_iff.mp ⟨h2.1, h2.2⟩]
  congr 1
  exact bigSep_congr fun c _ => by
    have h16 := pointsTo_toks (Ix := Ix) (Name := Name) (U := U) (Lvl := Lvl) (ℓ := ℓ) (S := S) (f := f) (shareTok q 2 c) 16
    exact BI.equiv_iff.mp ⟨h16.1, h16.2⟩

end Deal

end Idealize.ShloMosaic.Transfers

end
-- ==== Proof.KIdeal.Common.lean ====
/-
  The gather kernel as the launch theorem sees it, and what its handshakes carry.

  Thirty-two tiles (two SparseCores of sixteen) each take one thirty-second of the batch: tile i of SparseCore c is
  number 2 i + c. A tile reads its own thirty-two rows of the re-laid index table (1024 x 104), reads the padded
  embedding table (100000 x 128) whole, and writes its own 128 batch rows of the result (4096 x 26 x 64). So the index
  table and the result are dealt by parts along their first axis, the padded table as one read token per tile; on the
  way back the result's parts are at ONE whole-array function. The contents are parameters here: the index table's
  and the padded table's (VI, VW), the result's before (VO) and after (GO).
-/
import proofs.«206479_g70076686402233_cont_9to1c4b_78_46_alg».proof.KernelIdeal
import proofs.«206479_g70076686402233_cont_9to1c4b_78_46_alg».proof.Proof.Gen.KernelIdeal
import proofs.«206479_g70076686402233_cont_9to1c4b_78_46_alg».proof.Proof.LibTileDeal
import Idealize.ShloMosaic.Lib.SparseCore.Launch
import Idealize.ShloMosaic.Lib.Pipeline.Kit

noncomputable section

namespace Cert.Proof.KIdeal

open Cert.KernelIdeal Cert.KernelIdeal.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their parts -/

/-- The re-laid index table, the padded embedding table, the result: as locations of device `d`. -/
abbrev iLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

theorem hdivI : 32 ∣ S1024x104.size 0 := ⟨32, rfl⟩
theorem hdivO : 32 ∣ S4096x26x64.size 0 := ⟨128, rfl⟩

/-- Tile (c, i)'s thirty-two rows of the index table, and its 128 batch rows of the result. -/
abbrev iPart (c : Fin 2) (i : Fin 16) : Finset S1024x104.Idx := (Rect.part (s := S1024x104) (a₀ := 0) hdivI (tileNo c i)).set
abbrev oPart (c : Fin 2) (i : Fin 16) : Finset S4096x26x64.Idx := (Rect.part (s := S4096x26x64) (a₀ := 0) hdivO (tileNo c i)).set
/-- Tile (c, i)'s read token of the padded table. -/
abbrev wShare (c : Fin 2) (i : Fin 16) : PosShare TreeShare := shareTok (shareTok fullShare 2 c) 16 i

/-! ## What the handshakes carry -/

variable (VI : (d : Dev nD) → Buf (Elt F) (iLoc d)) (VW : (d : Dev nD) → Buf (Elt F) (wLoc d))
variable (VO GO : (d : Dev nD) → Buf (Elt F) (oLoc d))

/-- What tile (c, i) is handed, the result's part at `f`. -/
abbrev tileRes (d : Dev nD) (c : Fin 2) (i : Fin 16) (f : Buf (Elt F) (oLoc d)) : sProp 𝕄 :=
  iprop((iLoc d ↦[iPart c i]{fullShare} VI d) ∗ (wLoc d ↦{wShare c i} VW d) ∗ (oLoc d ↦[oPart c i]{fullShare} f))

/-- The one call: each SparseCore is handed its sixteen tiles' resources, the result's parts as the call found them,
    and hands them back with the result's parts at `GO`; each tile likewise its own. -/
def P : (K (F := F)).Pay (nD := nD) (Val := Elt F) (Name := ℕ) (U := UU) where
  st := fun q d c => match q with
    | 0 => bigSep Finset.univ fun i : Fin 16 => tileRes VI VW d (Fin.cast nCore_zero c) i (VO d)
  dn := fun q d c => match q with
    | 0 => bigSep Finset.univ fun i : Fin 16 => tileRes VI VW d (Fin.cast nCore_zero c) i (GO d)
  go := fun q d c i => match q with
    | 0 => tileRes VI VW d (Fin.cast nCore_zero c) (Fin.cast nSub_zero i) (VO d)
  td := fun q d c i => match q with
    | 0 => tileRes VI VW d (Fin.cast nCore_zero c) (Fin.cast nSub_zero i) (GO d)
  x := fun _ _ => iprop(emp)

instance P_storable : (P (F := F) VI VW VO GO).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KIdeal

end
-- ==== Proof.LibOwnSplit.lean ====
/-
  A SparseCore thread's own scoped semaphore cells and own buffers, with a chosen LIST of them pulled out in front:
  `bigSep` over the whole family is the chain over the listed members, one by one, and the `bigSep` over the rest.
-/
import Idealize.ShloMosaic.Lib.SparseCore.Launch
import Idealize.ShloMosaic.Lib.Pipeline.Kit

noncomputable section

namespace Cert.Lib.OwnSplit

open Idealize.ShloMosaic
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The chain over a mapped list is the chain over the list of the composed family. -/
theorem bigSepL_map {I J : Type} {M : Type} [URA M] (f : I → J) (l : List I) (Φ : J → sProp M) :
    bigSepL (l.map f) Φ = bigSepL l (fun i => Φ (f i)) := by
  induction l with
  | nil => rfl
  | cons i l ih => rw [List.map_cons, bigSepL_cons, bigSepL_cons, ih]

/-- A family over a finite set with a duplicate-free list of its members in front. -/
theorem bigSep_split_list {I : Type} [DecidableEq I] {M : Type} [URA M] (s : Finset I) (l : List I) (hl : l.Nodup) (hs : ∀ i ∈ l, i ∈ s)
    (Φ : I → sProp M) : bigSep s Φ = iprop(bigSepL l Φ ∗ bigSep (s \ l.toFinset) Φ) := by
  rw [BI.bigSep_sdiff_split (t := l.toFinset) (fun i hi => hs i (List.mem_toFinset.mp hi)), bigSep_eq_bigSepL l hl Φ]; rfl

/-- A thread's own scoped cells at zero, the listed ones in front. -/
theorem ownSems0_split (thr : Thread nD τ) (l : List (SemLoc sig)) (hl : l.Nodup)
    (hs : ∀ s ∈ l, s.isScoped thr.2.kind = true) :
    (ownSems0 thr : sProp 𝕄)
      = iprop(bigSepL l (fun s => semVal ((thr, s) : GSem nD τ sig) 0)
          ∗ bigSep (ownCells thr \ (l.map fun s => ((thr, s) : GSem nD τ sig)).toFinset) fun g => semVal g 0) := by
  unfold SparseCore.Cfg.ownSems0
  rw [bigSep_split_list (ownCells thr) (l.map fun s => ((thr, s) : GSem nD τ sig))
      (hl.map (fun a b e => (Prod.mk.inj e).2))
      (fun g hg => by
        obtain ⟨s, hsl, rfl⟩ := List.mem_map.mp hg
        exact mem_ownCells.mpr ⟨rfl, hs s hsl⟩),
    bigSepL_map]

/-- A thread's own buffers, each whole at some contents, the listed ones in front. -/
theorem ownBufs_split (thr : Thread nD τ) (l : List (DevRef τ sig)) (hl : l.Nodup) (hs : ∀ b ∈ l, b.owner.home = thr.2) :
    (ownBufs thr : sProp 𝕄)
      = iprop(bigSepL l (fun b => iprop(∃ f, ((thr.1, b) : Loc nD τ sig) ↦{fullShare} f))
          ∗ bigSep (ownRefs thr.2 \ l.toFinset) fun b => iprop(∃ f, ((thr.1, b) : Loc nD τ sig) ↦{fullShare} f)) := by
  unfold SparseCore.Cfg.ownBufs
  exact bigSep_split_list (ownRefs thr.2) l hl (fun b hb => mem_ownRefs.mpr (hs b hb)) _

end Cert.Lib.OwnSplit

end
-- ==== Proof.KIdeal.Rows.lean ====
/-
  The result's part of one tile, row by row, and a packed buffer, block by block.

  Tile number t = 2 i + c of the thirty-two writes batch rows 128 t … 128 t + 127 of the result. It writes them one
  batch row at a time: row 128 t + 4 r₁ + r₂ for r₁ < 32, r₂ < 4, each through a view of the result that is one row
  (a 1 × 26 × 64 rectangle, its unit axis dropped). The 128 rows are pairwise disjoint and together are the tile's
  part, so at ANY contents the tile's part of the result is the separating product of its 128 rows.  Likewise a
  packed buffer of 104 rows is copied out in four blocks of 26 rows, pairwise disjoint and covering it.
-/
import proofs.«206479_g70076686402233_cont_9to1c4b_78_46_alg».proof.Proof.KIdeal.Common

noncomputable section

namespace Cert.Proof.KIdeal

open Cert.KernelIdeal Cert.KernelIdeal.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The 128 rows of a tile, listed -/

/-- The pairs (chunk r₁ < 32, row r₂ < 4 within the chunk), in the order the tile writes them. -/
def rowsList : List (Fin 32 × Fin 4) :=
  [
    (0, 0), (0, 1), (0, 2), (0, 3), (1, 0), (1, 1), (1, 2), (1, 3),
    (2, 0), (2, 1), (2, 2), (2, 3), (3, 0), (3, 1), (3, 2), (3, 3),
    (4, 0), (4, 1), (4, 2), (4, 3), (5, 0), (5, 1), (5, 2), (5, 3),
    (6, 0), (6, 1), (6, 2), (6, 3), (7, 0), (7, 1), (7, 2), (7, 3),
    (8, 0), (8, 1), (8, 2), (8, 3), (9, 0), (9, 1), (9, 2), (9, 3),
    (10, 0), (10, 1), (10, 2), (10, 3), (11, 0), (11, 1), (11, 2), (11, 3),
    (12, 0), (12, 1), (12, 2), (12, 3), (13, 0), (13, 1), (13, 2), (13, 3),
    (14, 0), (14, 1), (14, 2), (14, 3), (15, 0), (15, 1), (15, 2), (15, 3),
    (16, 0), (16, 1), (16, 2), (16, 3), (17, 0), (17, 1), (17, 2), (17, 3),
    (18, 0), (18, 1), (18, 2), (18, 3), (19, 0), (19, 1), (19, 2), (19, 3),
    (20, 0), (20, 1), (20, 2), (20, 3), (21, 0), (21, 1), (21, 2), (21, 3),
    (22, 0), (22, 1), (22, 2), (22, 3), (23, 0), (23, 1), (23, 2), (23, 3),
    (24, 0), (24, 1), (24, 2), (24, 3), (25, 0), (25, 1), (25, 2), (25, 3),
    (26, 0), (26, 1), (26, 2), (26, 3), (27, 0), (27, 1), (27, 2), (27, 3),
    (28, 0), (28, 1), (28, 2), (28, 3), (29, 0), (29, 1), (29, 2), (29, 3),
    (30, 0), (30, 1), (30, 2), (30, 3), (31, 0), (31, 1), (31, 2), (31, 3) ]

theorem rowsList_eq : rowsList = List.finRange 32 ×ˢ List.finRange 4 := by decide

theorem rowsList_nodup : rowsList.Nodup := by
  rw [rowsList_eq]
  exact List.Nodup.product (List.nodup_finRange 32) (List.nodup_finRange 4)

theorem mem_rowsList (p : Fin 32 × Fin 4) : p ∈ rowsList := by
  rw [rowsList_eq]
  exact List.mem_product.2 ⟨List.mem_finRange _, List.mem_finRange _⟩

/-! ## One row of the result -/

section Row

variable (L : grid0.Coords)

/-- The batch row the tile at L writes for (r₁, r₂). -/
def rowNo (r₁ : Fin 32) (r₂ : Fin 4) : Nat := 256 * (L 1).val + 128 * (L 0).val + 4 * r₁.val + r₂.val

/-- That row as a rectangle of the result: one batch row, all fields, all columns. -/
abbrev oRect (r₁ : Fin 32) (r₂ : Fin 4) : Rect S4096x26x64 :=
  Rect.unit (s := S4096x26x64) (k0_off10 L (BitVec.ofNat 32 (4 * r₁.val)) (BitVec.ofNat 32 r₂.val)) S1x26x64.size (k0_off10_inb L r₁ r₂)

/-- The view the kernel writes the row through, spelt as the program spells it. -/
abbrev oRowM (r₁ : Fin 32) (r₂ : Fin 4) : Memref sig .scVector .hbm S26x64 .f32 :=
  ((Memref.whole main_v2_scv : Memref sig .scVector .hbm S4096x26x64 .f32).slice (Rect.unit (s := S4096x26x64) (k0_off10 L (BitVec.ofNat 32 (4 * r₁.val)) (BitVec.ofNat 32 r₂.val)) S1x26x64.size (k0_off10_inb L r₁ r₂)) (fun _ => rfl)).squeeze S26x64 Facts₀.squeezes_S1x26x64_S26x64

/-- An index of the result lies in the row's rectangle exactly when its batch coordinate is the row's number. -/
theorem mem_oRect (r₁ : Fin 32) (r₂ : Fin 4) (x : S4096x26x64.Idx) :
    x ∈ (oRect L r₁ r₂).set ↔ (x 0).val = rowNo L r₁ r₂ := by
  rw [Rect.mem_set_unit, k0_off10_eq]
  have h1 := (x 1).isLt
  have h2 := (x 2).isLt
  constructor
  · intro h
    have h0 := h 0
    simp only [rowNo] at h0 ⊢
    change 256 * (L 1).val + 128 * (L 0).val + 4 * r₁.val + r₂.val ≤ (x 0).val
      ∧ (x 0).val < 256 * (L 1).val + 128 * (L 0).val + 4 * r₁.val + r₂.val + 1 at h0
    omega
  · intro h a
    match a with
    | ⟨0, _⟩ =>
      change 256 * (L 1).val + 128 * (L 0).val + 4 * r₁.val + r₂.val ≤ (x 0).val
        ∧ (x 0).val < 256 * (L 1).val + 128 * (L 0).val + 4 * r₁.val + r₂.val + 1
      simp only [rowNo] at h
      omega
    | ⟨1, _⟩ =>
      change 0 ≤ (x 1).val ∧ (x 1).val < 0 + 26
      change (x 1).val < 26 at h1
      omega
    | ⟨2, _⟩ =>
      change 0 ≤ (x 2).val ∧ (x 2).val < 0 + 64
      change (x 2).val < 64 at h2
      omega

/-- The view's elements are the rectangle's. -/
theorem set_oRowM (r₁ : Fin 32) (r₂ : Fin 4) : (oRowM L r₁ r₂).view.set = (oRect L r₁ r₂).set := by
  show (((View.whole main_v2_scv : View sig .scVector .hbm S4096x26x64 .f32).slice (oRect L r₁ r₂)).reshape S26x64
    Facts₀.squeezes_S1x26x64_S26x64.numel_eq).set = _
  rw [View.set_reshape]
  exact View.set_slice_whole main_v2_scv (oRect L r₁ r₂)

end Row

/-! ## The tile's part is its 128 rows -/

section Part

variable (L : grid0.Coords)

/-- The tile at L, as the launch numbers it: SparseCore L 0 of two, tile L 1 of sixteen. -/
abbrev rcL : Fin 2 := Fin.cast (rfl : grid0.bound 0 = 2) (L 0)
abbrev rjL : Fin 16 := Fin.cast (rfl : grid0.bound 1 = 16) (L 1)

/-- The tile's part of the result: the 128 batch rows from 128 (2 i + c) on. -/
theorem mem_oPart (x : S4096x26x64.Idx) :
    x ∈ oPart (rcL L) (rjL L)
      ↔ 256 * (L 1).val + 128 * (L 0).val ≤ (x 0).val ∧ (x 0).val < 256 * (L 1).val + 128 * (L 0).val + 128 := by
  rw [Rect.mem_set_unit]
  have h1 := (x 1).isLt
  have h2 := (x 2).isLt
  constructor
  · intro h
    have h0 := h 0
    change (2 * (L 1).val + (L 0).val) * 128 ≤ (x 0).val ∧ (x 0).val < (2 * (L 1).val + (L 0).val) * 128 + 128 at h0
    omega
  · intro h a
    match a with
    | ⟨0, _⟩ =>
      change (2 * (L 1).val + (L 0).val) * 128 ≤ (x 0).val ∧ (x 0).val < (2 * (L 1).val + (L 0).val) * 128 + 128
      omega
    | ⟨1, _⟩ =>
      change 0 * 26 ≤ (x 1).val ∧ (x 1).val < 0 * 26 + 26
      change (x 1).val < 26 at h1
      omega
    | ⟨2, _⟩ =>
      change 0 * 64 ≤ (x 2).val ∧ (x 2).val < 0 * 64 + 64
      change (x 2).val < 64 at h2
      omega

/-- Different rows are disjoint. -/
theorem oRect_disjoint (p p' : Fin 32 × Fin 4) (h : p ≠ p') :
    Disjoint (oRect L p.1 p.2).set (oRect L p'.1 p'.2).set := by
  rw [Finset.disjoint_left]
  intro x hx hx'
  rw [mem_oRect] at hx hx'
  apply h
  simp only [rowNo] at hx hx'
  have := p.2.isLt
  have := p'.2.isLt
  exact Prod.ext (Fin.ext (by omega)) (Fin.ext (by omega))

/-- The 128 rows cover the tile's part and nothing else. -/
theorem oPart_eq_biUnion :
    oPart (rcL L) (rjL L) = rowsList.toFinset.biUnion fun p => (oRect L p.1 p.2).set := by
  ext x
  rw [mem_oPart, Finset.mem_biUnion]
  constructor
  · rintro ⟨hlo, hhi⟩
    refine ⟨(⟨((x 0).val - (256 * (L 1).val + 128 * (L 0).val)) / 4, by omega⟩,
      ⟨((x 0).val - (256 * (L 1).val + 128 * (L 0).val)) % 4, by omega⟩), List.mem_toFinset.2 (mem_rowsList _), ?_⟩
    rw [mem_oRect]
    simp only [rowNo]
    omega
  · rintro ⟨p, -, hp⟩
    rw [mem_oRect] at hp
    simp only [rowNo] at hp
    have := p.1.isLt
    have := p.2.isLt
    omega

/-- THE EQUATION: at any contents, the tile's part of the result is the separating product of its 128 rows,
    each as the kernel's view of it spells it. -/
theorem pts_rows (d : Dev nD) (f : Buf (Elt F) (oLoc d)) :
    (oLoc d ↦[oPart (rcL L) (rjL L)]{fullShare} f : sProp 𝕄)
      = bigSepL rowsList fun p => ((oRowM L p.1 p.2).view.loc (V d ((L 0).castLE hcore0) ((L 1).castLE hsub0))
          ↦[(oRowM L p.1 p.2).view.set]{fullShare} f) := by
  have h1 : (fun p : Fin 32 × Fin 4 => ((oRowM L p.1 p.2).view.loc (V d ((L 0).castLE hcore0) ((L 1).castLE hsub0))
        ↦[(oRowM L p.1 p.2).view.set]{fullShare} f : sProp 𝕄))
      = fun p => (oLoc d ↦[(oRect L p.1 p.2).set]{fullShare} f : sProp 𝕄) :=
    funext fun p => by rw [set_oRowM]
  rw [h1, ← bigSep_eq_bigSepL rowsList rowsList_nodup,
    ← pointsTo_biUnion _ _ (fun p _ p' _ h => oRect_disjoint L p p' h), oPart_eq_biUnion]

end Part

/-! ## A packed buffer is its four blocks of 26 rows -/

section Blocks

/-- A points-to of a whole buffer split along four pairwise disjoint element sets that cover it. -/
theorem pts_four {ℓ : Loc nD τ sig} (A0 A1 A2 A3 : Finset (Idx ℓ))
    (h01 : Disjoint A0 A1) (h02 : Disjoint A0 A2) (h03 : Disjoint A0 A3)
    (h12 : Disjoint A1 A2) (h13 : Disjoint A1 A3) (h23 : Disjoint A2 A3)
    (hc : Finset.univ = A0 ∪ (A1 ∪ (A2 ∪ A3))) (f : Buf (Elt F) ℓ) :
    (ℓ ↦{fullShare} f : sProp 𝕄)
      = iprop((ℓ ↦[A0]{fullShare} f) ∗ (ℓ ↦[A1]{fullShare} f) ∗ (ℓ ↦[A2]{fullShare} f) ∗ (ℓ ↦[A3]{fullShare} f)) := by
  have u1 : (ℓ ↦[A0 ∪ (A1 ∪ (A2 ∪ A3))]{fullShare} f : sProp 𝕄)
      = iprop((ℓ ↦[A0]{fullShare} f) ∗ ℓ ↦[A1 ∪ (A2 ∪ A3)]{fullShare} f) := by
    have hu : (ℓ ↦[A0 ∪ (A1 ∪ (A2 ∪ A3))]{fullShare} f : sProp 𝕄)
        ⊣⊢ iprop((ℓ ↦[A0]{fullShare} f) ∗ ℓ ↦[A1 ∪ (A2 ∪ A3)]{fullShare} f) :=
      pointsTo_union (Finset.disjoint_union_right.2 ⟨h01, Finset.disjoint_union_right.2 ⟨h02, h03⟩⟩)
    exact BI.equiv_iff.mp ⟨hu.1, hu.2⟩
  have u2 : (ℓ ↦[A1 ∪ (A2 ∪ A3)]{fullShare} f : sProp 𝕄)
      = iprop((ℓ ↦[A1]{fullShare} f) ∗ ℓ ↦[A2 ∪ A3]{fullShare} f) := by
    have hu : (ℓ ↦[A1 ∪ (A2 ∪ A3)]{fullShare} f : sProp 𝕄)
        ⊣⊢ iprop((ℓ ↦[A1]{fullShare} f) ∗ ℓ ↦[A2 ∪ A3]{fullShare} f) :=
      pointsTo_union (Finset.disjoint_union_right.2 ⟨h12, h13⟩)
    exact BI.equiv_iff.mp ⟨hu.1, hu.2⟩
  have u3 : (ℓ ↦[A2 ∪ A3]{fullShare} f : sProp 𝕄) = iprop((ℓ ↦[A2]{fullShare} f) ∗ ℓ ↦[A3]{fullShare} f) := by
    have hu : (ℓ ↦[A2 ∪ A3]{fullShare} f : sProp 𝕄) ⊣⊢ iprop((ℓ ↦[A2]{fullShare} f) ∗ ℓ ↦[A3]{fullShare} f) :=
      pointsTo_union h23
    exact BI.equiv_iff.mp ⟨hu.1, hu.2⟩
  show (ℓ ↦[Finset.univ]{fullShare} f : sProp 𝕄) = _
  rw [hc, u1, u2, u3]

/-- The block of 26 rows from row o of a 104-row buffer. -/
abbrev blkRect (o : Nat) (inb : ∀ a, (![o, 0] : Fin 2 → Nat) a + S26x64.size a ≤ S104x64.size a) : Rect S104x64 :=
  Rect.unit (s := S104x64) ![o, 0] S26x64.size inb

theorem mem_blkRect (o : Nat) (inb) (x : S104x64.Idx) :
    x ∈ (blkRect o inb).set ↔ o ≤ (x 0).val ∧ (x 0).val < o + 26 := by
  rw [Rect.mem_set_unit]
  have h1 := (x 1).isLt
  constructor
  · intro h
    have h0 := h 0
    change o ≤ (x 0).val ∧ (x 0).val < o + 26 at h0
    exact h0
  · intro h a
    match a with
    | ⟨0, _⟩ =>
      change o ≤ (x 0).val ∧ (x 0).val < o + 26
      exact h
    | ⟨1, _⟩ =>
      change 0 ≤ (x 1).val ∧ (x 1).val < 0 + 64
      change (x 1).val < 64 at h1
      omega

theorem blk_disjoint (o o' : Nat) (inb inb') (h : o + 26 ≤ o' ∨ o' + 26 ≤ o) :
    Disjoint (blkRect o inb).set (blkRect o' inb').set := by
  rw [Finset.disjoint_left]
  intro x hx hx'
  rw [mem_blkRect] at hx hx'
  omega

theorem blk_cover : (Finset.univ : Finset S104x64.Idx)
    = (blkRect 0 inb_S104x64_S26x64_0_0).set ∪ ((blkRect 26 inb_S104x64_S26x64_26_0).set
        ∪ ((blkRect 52 inb_S104x64_S26x64_52_0).set ∪ (blkRect 78 inb_S104x64_S26x64_78_0).set)) := by
  ext x
  simp only [Finset.mem_univ, Finset.mem_union, mem_blkRect, true_iff]
  have h0 := (x 0).isLt
  change (x 0).val < 104 at h0
  omega

/-- Packed buffer 1 of four, and its four blocks of 26 rows as the program's copies-out spell them. -/
abbrev pM5 : Memref sig .scVector .vmem S104x64 .f32 := Memref.whole cc0_scratch5
abbrev blk5_0 : Memref sig .scVector .vmem S26x64 .f32 := (Memref.whole cc0_scratch5 : Memref sig .scVector .vmem S104x64 .f32).slice (Rect.unit (s := S104x64) ![0, 0] S26x64.size inb_S104x64_S26x64_0_0) (fun _ => rfl)
abbrev blk5_1 : Memref sig .scVector .vmem S26x64 .f32 := (Memref.whole cc0_scratch5 : Memref sig .scVector .vmem S104x64 .f32).slice (Rect.unit (s := S104x64) ![26, 0] S26x64.size inb_S104x64_S26x64_26_0) (fun _ => rfl)
abbrev blk5_2 : Memref sig .scVector .vmem S26x64 .f32 := (Memref.whole cc0_scratch5 : Memref sig .scVector .vmem S104x64 .f32).slice (Rect.unit (s := S104x64) ![52, 0] S26x64.size inb_S104x64_S26x64_52_0) (fun _ => rfl)
abbrev blk5_3 : Memref sig .scVector .vmem S26x64 .f32 := (Memref.whole cc0_scratch5 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks5 (d : Dev nD) (c : Fin τ.nSC) (i : Fin τ.nSub) (f : Buf (Elt F) ((pM5).view.loc (V d c i))) :
    ((pM5).view.loc (V d c i) ↦{fullShare} f : sProp 𝕄)
      = iprop(((blk5_0).view.loc (V d c i) ↦[(blk5_0).view.set]{fullShare} f)
          ∗ ((blk5_1).view.loc (V d c i) ↦[(blk5_1).view.set]{fullShare} f)
          ∗ ((blk5_2).view.loc (V d c i) ↦[(blk5_2).view.set]{fullShare} f)
          ∗ ((blk5_3).view.loc (V d c i) ↦[(blk5_3).view.set]{fullShare} f)) := by
  have s0 : (blk5_0).view.set = (blkRect 0 inb_S104x64_S26x64_0_0).set := View.set_slice_whole cc0_scratch5 _
  have s1 : (blk5_1).view.set = (blkRect 26 inb_S104x64_S26x64_26_0).set := View.set_slice_whole cc0_scratch5 _
  have s2 : (blk5_2).view.set = (blkRect 52 inb_S104x64_S26x64_52_0).set := View.set_slice_whole cc0_scratch5 _
  have s3 : (blk5_3).view.set = (blkRect 78 inb_S104x64_S26x64_78_0).set := View.set_slice_whole cc0_scratch5 _
  rw [s0, s1, s2, s3]
  exact pts_four (ℓ := (pM5).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

/-- Packed buffer 2 of four, and its four blocks of 26 rows as the program's copies-out spell them. -/
abbrev pM6 : Memref sig .scVector .vmem S104x64 .f32 := Memref.whole cc0_scratch6
abbrev blk6_0 : Memref sig .scVector .vmem S26x64 .f32 := (Memref.whole cc0_scratch6 : Memref sig .scVector .vmem S104x64 .f32).slice (Rect.unit (s := S104x64) ![0, 0] S26x64.size inb_S104x64_S26x64_0_0) (fun _ => rfl)
abbrev blk6_1 : Memref sig .scVector .vmem S26x64 .f32 := (Memref.whole cc0_scratch6 : Memref sig .scVector .vmem S104x64 .f32).slice (Rect.unit (s := S104x64) ![26, 0] S26x64.size inb_S104x64_S26x64_26_0) (fun _ => rfl)
abbrev blk6_2 : Memref sig .scVector .vmem S26x64 .f32 := (Memref.whole cc0_scratch6 : Memref sig .scVector .vmem S104x64 .f32).slice (Rect.unit (s := S104x64) ![52, 0] S26x64.size inb_S104x64_S26x64_52_0) (fun _ => rfl)
abbrev blk6_3 : Memref sig .scVector .vmem S26x64 .f32 := (Memref.whole cc0_scratch6 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks6 (d : Dev nD) (c : Fin τ.nSC) (i : Fin τ.nSub) (f : Buf (Elt F) ((pM6).view.loc (V d c i))) :
    ((pM6).view.loc (V d c i) ↦{fullShare} f : sProp 𝕄)
      = iprop(((blk6_0).view.loc (V d c i) ↦[(blk6_0).view.set]{fullShare} f)
          ∗ ((blk6_1).view.loc (V d c i) ↦[(blk6_1).view.set]{fullShare} f)
          ∗ ((blk6_2).view.loc (V d c i) ↦[(blk6_2).view.set]{fullShare} f)
          ∗ ((blk6_3).view.loc (V d c i) ↦[(blk6_3).view.set]{fullShare} f)) := by
  have s0 : (blk6_0).view.set = (blkRect 0 inb_S104x64_S26x64_0_0).set := View.set_slice_whole cc0_scratch6 _
  have s1 : (blk6_1).view.set = (blkRect 26 inb_S104x64_S26x64_26_0).set := View.set_slice_whole cc0_scratch6 _
  have s2 : (blk6_2).view.set = (blkRect 52 inb_S104x64_S26x64_52_0).set := View.set_slice_whole cc0_scratch6 _
  have s3 : (blk6_3).view.set = (blkRect 78 inb_S104x64_S26x64_78_0).set := View.set_slice_whole cc0_scratch6 _
  rw [s0, s1, s2, s3]
  exact pts_four (ℓ := (pM6).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

/-- Packed buffer 3 of four, and its four blocks of 26 rows as the program's copies-out spell them. -/
abbrev pM7 : Memref sig .scVector .vmem S104x64 .f32 := Memref.whole cc0_scratch7
abbrev blk7_0 : Memref sig .scVector .vmem S26x64 .f32 := (Memref.whole cc0_scratch7 : Memref sig .scVector .vmem S104x64 .f32).slice (Rect.unit (s := S104x64) ![0, 0] S26x64.size inb_S104x64_S26x64_0_0) (fun _ => rfl)
abbrev blk7_1 : Memref sig .scVector .vmem S26x64 .f32 := (Memref.whole cc0_scratch7 : Memref sig .scVector .vmem S104x64 .f32).slice (Rect.unit (s := S104x64) ![26, 0] S26x64.size inb_S104x64_S26x64_26_0) (fun _ => rfl)
abbrev blk7_2 : Memref sig .scVector .vmem S26x64 .f32 := (Memref.whole cc0_scratch7 : Memref sig .scVector .vmem S104x64 .f32).slice (Rect.unit (s := S104x64) ![52, 0] S26x64.size inb_S104x64_S26x64_52_0) (fun _ => rfl)
abbrev blk7_3 : Memref sig .scVector .vmem S26x64 .f32 := (Memref.whole cc0_scratch7 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks7 (d : Dev nD) (c : Fin τ.nSC) (i : Fin τ.nSub) (f : Buf (Elt F) ((pM7).view.loc (V d c i))) :
    ((pM7).view.loc (V d c i) ↦{fullShare} f : sProp 𝕄)
      = iprop(((blk7_0).view.loc (V d c i) ↦[(blk7_0).view.set]{fullShare} f)
          ∗ ((blk7_1).view.loc (V d c i) ↦[(blk7_1).view.set]{fullShare} f)
          ∗ ((blk7_2).view.loc (V d c i) ↦[(blk7_2).view.set]{fullShare} f)
          ∗ ((blk7_3).view.loc (V d c i) ↦[(blk7_3).view.set]{fullShare} f)) := by
  have s0 : (blk7_0).view.set = (blkRect 0 inb_S104x64_S26x64_0_0).set := View.set_slice_whole cc0_scratch7 _
  have s1 : (blk7_1).view.set = (blkRect 26 inb_S104x64_S26x64_26_0).set := View.set_slice_whole cc0_scratch7 _
  have s2 : (blk7_2).view.set = (blkRect 52 inb_S104x64_S26x64_52_0).set := View.set_slice_whole cc0_scratch7 _
  have s3 : (blk7_3).view.set = (blkRect 78 inb_S104x64_S26x64_78_0).set := View.set_slice_whole cc0_scratch7 _
  rw [s0, s1, s2, s3]
  exact pts_four (ℓ := (pM7).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

/-- Packed buffer 4 of four, and its four blocks of 26 rows as the program's copies-out spell them. -/
abbrev pM8 : Memref sig .scVector .vmem S104x64 .f32 := Memref.whole cc0_scratch8
abbrev blk8_0 : Memref sig .scVector .vmem S26x64 .f32 := (Memref.whole cc0_scratch8 : Memref sig .scVector .vmem S104x64 .f32).slice (Rect.unit (s := S104x64) ![0, 0] S26x64.size inb_S104x64_S26x64_0_0) (fun _ => rfl)
abbrev blk8_1 : Memref sig .scVector .vmem S26x64 .f32 := (Memref.whole cc0_scratch8 : Memref sig .scVector .vmem S104x64 .f32).slice (Rect.unit (s := S104x64) ![26, 0] S26x64.size inb_S104x64_S26x64_26_0) (fun _ => rfl)
abbrev blk8_2 : Memref sig .scVector .vmem S26x64 .f32 := (Memref.whole cc0_scratch8 : Memref sig .scVector .vmem S104x64 .f32).slice (Rect.unit (s := S104x64) ![52, 0] S26x64.size inb_S104x64_S26x64_52_0) (fun _ => rfl)
abbrev blk8_3 : Memref sig .scVector .vmem S26x64 .f32 := (Memref.whole cc0_scratch8 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks8 (d : Dev nD) (c : Fin τ.nSC) (i : Fin τ.nSub) (f : Buf (Elt F) ((pM8).view.loc (V d c i))) :
    ((pM8).view.loc (V d c i) ↦{fullShare} f : sProp 𝕄)
      = iprop(((blk8_0).view.loc (V d c i) ↦[(blk8_0).view.set]{fullShare} f)
          ∗ ((blk8_1).view.loc (V d c i) ↦[(blk8_1).view.set]{fullShare} f)
          ∗ ((blk8_2).view.loc (V d c i) ↦[(blk8_2).view.set]{fullShare} f)
          ∗ ((blk8_3).view.loc (V d c i) ↦[(blk8_3).view.set]{fullShare} f)) := by
  have s0 : (blk8_0).view.set = (blkRect 0 inb_S104x64_S26x64_0_0).set := View.set_slice_whole cc0_scratch8 _
  have s1 : (blk8_1).view.set = (blkRect 26 inb_S104x64_S26x64_26_0).set := View.set_slice_whole cc0_scratch8 _
  have s2 : (blk8_2).view.set = (blkRect 52 inb_S104x64_S26x64_52_0).set := View.set_slice_whole cc0_scratch8 _
  have s3 : (blk8_3).view.set = (blkRect 78 inb_S104x64_S26x64_78_0).set := View.set_slice_whole cc0_scratch8 _
  rw [s0, s1, s2, s3]
  exact pts_four (ℓ := (pM8).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

end Blocks

end Cert.Proof.KIdeal

end
-- ==== Proof.KIdeal.Chain.lean ====
/-
  One tile's task of the gather kernel: its resources as the kernel addresses them.

  Tile number t = 2 i + c holds rows 32 t … 32 t + 31 of the re-laid index table (each row: four batch rows' 26
  indices), a read token of the padded embedding table, and batch rows 128 t … 128 t + 127 of the result. It copies
  its index rows into its own memory, then for each of its 32 index rows k: gathers the 104 table rows the row names
  into a row buffer (four such buffers, three gathers ahead), copies columns 0…63 of each gathered row into a packed
  buffer (four such), and copies the packed buffer's four blocks of 26 rows out to batch rows 128 t + 4 k + j,
  j < 4, of the result, all four on one semaphore; a packed buffer is written again only after its four copies
  out have all been waited for. So result[128 t + 4 k + j, f, :] = table[index row (32 t + k) at 26 j + f, 0…63].
-/
import proofs.«206479_g70076686402233_cont_9to1c4b_78_46_alg».proof.Proof.KIdeal.Common
import proofs.«206479_g70076686402233_cont_9to1c4b_78_46_alg».proof.Proof.Gen.KernelIdeal.Skeleton
import proofs.«206479_g70076686402233_cont_9to1c4b_78_46_alg».proof.Proof.LibOwnSplit
import proofs.«206479_g70076686402233_cont_9to1c4b_78_46_alg».proof.Proof.KIdeal.Rows
import Idealize.ShloMosaic.Lib.SparseCore.Ops
import Idealize.ShloMosaic.Lib.StableHlo.Run
import Idealize.ShloMosaic.Lib.Tactic

noncomputable section

namespace Cert.Proof.KIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lib.OwnSplit

variable {F : FTy → Type}

local notation "𝕄" => MT nD τ sig (HIx 1) (Elt F) ℕ UU ℕ

variable (VI : (d : Dev nD) → Buf (Elt F) (iLoc d)) (VW : (d : Dev nD) → Buf (Elt F) (wLoc d))
variable (VO GO : (d : Dev nD) → Buf (Elt F) (oLoc d))
variable [FloatOps F]

omit [FloatOps F] in
/-- The separating product and its unit as the list products spell them are the connectives. -/
theorem sep_spell {M : Type} [URA M] (A B : sProp M) : BI.sep A B = iprop(A ∗ B) := rfl
omit [FloatOps F] in
theorem emp_spell {M : Type} [URA M] : (BI.emp : sProp M) = iprop(emp) := rfl

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := rcL L
abbrev jL (L : grid0.Coords) : Fin 16 := rjL L

/-- The tile's thread. -/
abbrev thr : Thread nD τ := V d (cV L) (jV L)

/-- The tile's nine scoped DMA semaphores: the four gathers', the four copies-out', the index copy's. -/
abbrev semList : List (SemLoc sig) :=
  [.dma cc0_scratch9.sem, .dma cc0_scratch10.sem, .dma cc0_scratch11.sem, .dma cc0_scratch12.sem,
   .dma cc0_scratch13.sem, .dma cc0_scratch14.sem, .dma cc0_scratch15.sem, .dma cc0_scratch16.sem, .dma cc0_scoped0.sem]

/-- The tile's nine scratch buffers: the index rows, the four row buffers, the four packed buffers. -/
abbrev bufList : List (DevRef τ sig) :=
  [(Proc.scVector (cV L) (jV L)).devRef cc0_scratch0, (Proc.scVector (cV L) (jV L)).devRef cc0_scratch1,
   (Proc.scVector (cV L) (jV L)).devRef cc0_scratch2, (Proc.scVector (cV L) (jV L)).devRef cc0_scratch3,
   (Proc.scVector (cV L) (jV L)).devRef cc0_scratch4, (Proc.scVector (cV L) (jV L)).devRef cc0_scratch5,
   (Proc.scVector (cV L) (jV L)).devRef cc0_scratch6, (Proc.scVector (cV L) (jV L)).devRef cc0_scratch7,
   (Proc.scVector (cV L) (jV L)).devRef cc0_scratch8]

omit [FloatOps F] in
theorem semList_nodup : (semList).Nodup := by decide
omit [FloatOps F] in
theorem semList_scoped : ∀ s ∈ semList, s.isScoped Kind.scVector = true := by decide

omit [FloatOps F] in
theorem bufList_nodup : (bufList L).Nodup := by
  unfold bufList
  refine List.Nodup.map_on ?_ (l := [cc0_scratch0, cc0_scratch1, cc0_scratch2, cc0_scratch3, cc0_scratch4, cc0_scratch5, cc0_scratch6, cc0_scratch7, cc0_scratch8])
    (f := fun b : Ref sig .scVector => (Proc.scVector (cV L) (jV L)).devRef b) (by decide)
  intro a _ b _ e; exact Proc.devRef_injective _ e
omit [FloatOps F] in
theorem bufList_own : ∀ b ∈ bufList L, b.owner.home = (thr d L).2 := by
  intro b hb
  simp only [bufList, List.mem_cons, List.mem_nil_iff, or_false] at hb
  rcases hb with rfl | rfl | rfl | rfl | rfl | rfl | rfl | rfl | rfl <;> rfl

/-! ### The tile's index rows, as the kernel slices them -/

abbrev iSl (L : grid0.Coords) : Memref sig .scVector .hbm S32x104 .i32 :=
  (Memref.whole main_v0_scv : Memref sig .scVector .hbm S1024x104 .i32).slice
    (Rect.unit (s := S1024x104) (k0_off1 L) S32x104.size (k0_off1_inb L)) (fun _ => rfl)

omit [FloatOps F] in
/-- Rows 32 (2 j + c) … of the index table are part number 2 j + c of its thirty-two. -/
theorem iRect_eq : Rect.unit (s := S1024x104) (k0_off1 L) S32x104.size (k0_off1_inb L)
    = Rect.part (s := S1024x104) (a₀ := 0) hdivI (tileNo (cL L) (jL L)) := by
  unfold Rect.part Rect.block
  congr 1 <;> funext a
  · rw [k0_off1_eq]
    match a with
    | 0 =>
      have h1 : (cL L).val = (L 0).val := rfl
      have h2 : (jL L).val = (L 1).val := rfl
      simp [Shape.partIx, Shape.partSize, Transfers.tileNo_val]; omega
    | 1 => simp [Shape.partIx, Shape.partSize]
  · match a with
    | 0 => simp [Shape.partSize]
    | 1 => simp [Shape.partSize]

omit [FloatOps F] in
theorem set_iSl : (iSl L).view.set = iPart (cL L) (jL L) := by
  show ((View.whole main_v0_scv).slice (Rect.unit (s := S1024x104) (k0_off1 L) S32x104.size (k0_off1_inb L))).set = _
  rw [View.set_slice_whole]
  exact congrArg (fun r : Rect S1024x104 => r.set) (iRect_eq L)

omit [FloatOps F] in
theorem pts_iSl (f : Buf (Elt F) (iLoc d)) :
    ((iSl L).view.loc (thr d L) ↦[(iSl L).view.set]{fullShare} f : sProp 𝕄) = iLoc d ↦[iPart (cL L) (jL L)]{fullShare} f := by
  rw [set_iSl]

omit [FloatOps F] in
/-- A share of an array as four numbered read tokens and what is left. -/
theorem toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

/-- Between trips of a packing loop over buffer pair 0: the row buffer and the packed buffer, each held whole. -/
def packInv0 (_ : Nat) (_ : PUnit) : sProp 𝕄 :=
  iprop((∃ R, (Memref.whole cc0_scratch1 : Memref sig .scVector .vmem S104x128 .f32).view.loc (thr d L) ↦{fullShare} R)
    ∗ ∃ p, (Memref.whole cc0_scratch5 : Memref sig .scVector .vmem S104x64 .f32).view.loc (thr d L) ↦{fullShare} p)

/-- Between trips of a packing loop over buffer pair 1: the row buffer and the packed buffer, each held whole. -/
def packInv1 (_ : Nat) (_ : PUnit) : sProp 𝕄 :=
  iprop((∃ R, (Memref.whole cc0_scratch2 : Memref sig .scVector .vmem S104x128 .f32).view.loc (thr d L) ↦{fullShare} R)
    ∗ ∃ p, (Memref.whole cc0_scratch6 : Memref sig .scVector .vmem S104x64 .f32).view.loc (thr d L) ↦{fullShare} p)

/-- Between trips of a packing loop over buffer pair 2: the row buffer and the packed buffer, each held whole. -/
def packInv2 (_ : Nat) (_ : PUnit) : sProp 𝕄 :=
  iprop((∃ R, (Memref.whole cc0_scratch3 : Memref sig .scVector .vmem S104x128 .f32).view.loc (thr d L) ↦{fullShare} R)
    ∗ ∃ p, (Memref.whole cc0_scratch7 : Memref sig .scVector .vmem S104x64 .f32).view.loc (thr d L) ↦{fullShare} p)

/-- Between trips of a packing loop over buffer pair 3: the row buffer and the packed buffer, each held whole. -/
def packInv3 (_ : Nat) (_ : PUnit) : sProp 𝕄 :=
  iprop((∃ R, (Memref.whole cc0_scratch4 : Memref sig .scVector .vmem S104x128 .f32).view.loc (thr d L) ↦{fullShare} R)
    ∗ ∃ p, (Memref.whole cc0_scratch8 : Memref sig .scVector .vmem S104x64 .f32).view.loc (thr d L) ↦{fullShare} p)

set_option maxHeartbeats 4000000 in
omit [FloatOps F] in
/-- The tile's part of the result as the product of its 128 batch rows, at any contents. -/
theorem rows_chain (f : Buf (Elt F) (oLoc d)) :
    (oLoc d ↦[oPart (cL L) (jL L)]{fullShare} f : sProp 𝕄)
      = iprop(((oRowM L 0 0).view.loc (thr d L) ↦[(oRowM L 0 0).view.set]{fullShare} f)
        ∗ ((oRowM L 0 1).view.loc (thr d L) ↦[(oRowM L 0 1).view.set]{fullShare} f)
        ∗ ((oRowM L 0 2).view.loc (thr d L) ↦[(oRowM L 0 2).view.set]{fullShare} f)
        ∗ ((oRowM L 0 3).view.loc (thr d L) ↦[(oRowM L 0 3).view.set]{fullShare} f)
        ∗ ((oRowM L 1 0).view.loc (thr d L) ↦[(oRowM L 1 0).view.set]{fullShare} f)
        ∗ ((oRowM L 1 1).view.loc (thr d L) ↦[(oRowM L 1 1).view.set]{fullShare} f)
        ∗ ((oRowM L 1 2).view.loc (thr d L) ↦[(oRowM L 1 2).view.set]{fullShare} f)
        ∗ ((oRowM L 1 3).view.loc (thr d L) ↦[(oRowM L 1 3).view.set]{fullShare} f)
        ∗ ((oRowM L 2 0).view.loc (thr d L) ↦[(oRowM L 2 0).view.set]{fullShare} f)
        ∗ ((oRowM L 2 1).view.loc (thr d L) ↦[(oRowM L 2 1).view.set]{fullShare} f)
        ∗ ((oRowM L 2 2).view.loc (thr d L) ↦[(oRowM L 2 2).view.set]{fullShare} f)
        ∗ ((oRowM L 2 3).view.loc (thr d L) ↦[(oRowM L 2 3).view.set]{fullShare} f)
        ∗ ((oRowM L 3 0).view.loc (thr d L) ↦[(oRowM L 3 0).view.set]{fullShare} f)
        ∗ ((oRowM L 3 1).view.loc (thr d L) ↦[(oRowM L 3 1).view.set]{fullShare} f)
        ∗ ((oRowM L 3 2).view.loc (thr d L) ↦[(oRowM L 3 2).view.set]{fullShare} f)
        ∗ ((oRowM L 3 3).view.loc (thr d L) ↦[(oRowM L 3 3).view.set]{fullShare} f)
        ∗ ((oRowM L 4 0).view.loc (thr d L) ↦[(oRowM L 4 0).view.set]{fullShare} f)
        ∗ ((oRowM L 4 1).view.loc (thr d L) ↦[(oRowM L 4 1).view.set]{fullShare} f)
        ∗ ((oRowM L 4 2).view.loc (thr d L) ↦[(oRowM L 4 2).view.set]{fullShare} f)
        ∗ ((oRowM L 4 3).view.loc (thr d L) ↦[(oRowM L 4 3).view.set]{fullShare} f)
        ∗ ((oRowM L 5 0).view.loc (thr d L) ↦[(oRowM L 5 0).view.set]{fullShare} f)
        ∗ ((oRowM L 5 1).view.loc (thr d L) ↦[(oRowM L 5 1).view.set]{fullShare} f)
        ∗ ((oRowM L 5 2).view.loc (thr d L) ↦[(oRowM L 5 2).view.set]{fullShare} f)
        ∗ ((oRowM L 5 3).view.loc (thr d L) ↦[(oRowM L 5 3).view.set]{fullShare} f)
        ∗ ((oRowM L 6 0).view.loc (thr d L) ↦[(oRowM L 6 0).view.set]{fullShare} f)
        ∗ ((oRowM L 6 1).view.loc (thr d L) ↦[(oRowM L 6 1).view.set]{fullShare} f)
        ∗ ((oRowM L 6 2).view.loc (thr d L) ↦[(oRowM L 6 2).view.set]{fullShare} f)
        ∗ ((oRowM L 6 3).view.loc (thr d L) ↦[(oRowM L 6 3).view.set]{fullShare} f)
        ∗ ((oRowM L 7 0).view.loc (thr d L) ↦[(oRowM L 7 0).view.set]{fullShare} f)
        ∗ ((oRowM L 7 1).view.loc (thr d L) ↦[(oRowM L 7 1).view.set]{fullShare} f)
        ∗ ((oRowM L 7 2).view.loc (thr d L) ↦[(oRowM L 7 2).view.set]{fullShare} f)
        ∗ ((oRowM L 7 3).view.loc (thr d L) ↦[(oRowM L 7 3).view.set]{fullShare} f)
        ∗ ((oRowM L 8 0).view.loc (thr d L) ↦[(oRowM L 8 0).view.set]{fullShare} f)
        ∗ ((oRowM L 8 1).view.loc (thr d L) ↦[(oRowM L 8 1).view.set]{fullShare} f)
        ∗ ((oRowM L 8 2).view.loc (thr d L) ↦[(oRowM L 8 2).view.set]{fullShare} f)
        ∗ ((oRowM L 8 3).view.loc (thr d L) ↦[(oRowM L 8 3).view.set]{fullShare} f)
        ∗ ((oRowM L 9 0).view.loc (thr d L) ↦[(oRowM L 9 0).view.set]{fullShare} f)
        ∗ ((oRowM L 9 1).view.loc (thr d L) ↦[(oRowM L 9 1).view.set]{fullShare} f)
        ∗ ((oRowM L 9 2).view.loc (thr d L) ↦[(oRowM L 9 2).view.set]{fullShare} f)
        ∗ ((oRowM L 9 3).view.loc (thr d L) ↦[(oRowM L 9 3).view.set]{fullShare} f)
        ∗ ((oRowM L 10 0).view.loc (thr d L) ↦[(oRowM L 10 0).view.set]{fullShare} f)
        ∗ ((oRowM L 10 1).view.loc (thr d L) ↦[(oRowM L 10 1).view.set]{fullShare} f)
        ∗ ((oRowM L 10 2).view.loc (thr d L) ↦[(oRowM L 10 2).view.set]{fullShare} f)
        ∗ ((oRowM L 10 3).view.loc (thr d L) ↦[(oRowM L 10 3).view.set]{fullShare} f)
        ∗ ((oRowM L 11 0).view.loc (thr d L) ↦[(oRowM L 11 0).view.set]{fullShare} f)
        ∗ ((oRowM L 11 1).view.loc (thr d L) ↦[(oRowM L 11 1).view.set]{fullShare} f)
        ∗ ((oRowM L 11 2).view.loc (thr d L) ↦[(oRowM L 11 2).view.set]{fullShare} f)
        ∗ ((oRowM L 11 3).view.loc (thr d L) ↦[(oRowM L 11 3).view.set]{fullShare} f)
        ∗ ((oRowM L 12 0).view.loc (thr d L) ↦[(oRowM L 12 0).view.set]{fullShare} f)
        ∗ ((oRowM L 12 1).view.loc (thr d L) ↦[(oRowM L 12 1).view.set]{fullShare} f)
        ∗ ((oRowM L 12 2).view.loc (thr d L) ↦[(oRowM L 12 2).view.set]{fullShare} f)
        ∗ ((oRowM L 12 3).view.loc (thr d L) ↦[(oRowM L 12 3).view.set]{fullShare} f)
        ∗ ((oRowM L 13 0).view.loc (thr d L) ↦[(oRowM L 13 0).view.set]{fullShare} f)
        ∗ ((oRowM L 13 1).view.loc (thr d L) ↦[(oRowM L 13 1).view.set]{fullShare} f)
        ∗ ((oRowM L 13 2).view.loc (thr d L) ↦[(oRowM L 13 2).view.set]{fullShare} f)
        ∗ ((oRowM L 13 3).view.loc (thr d L) ↦[(oRowM L 13 3).view.set]{fullShare} f)
        ∗ ((oRowM L 14 0).view.loc (thr d L) ↦[(oRowM L 14 0).view.set]{fullShare} f)
        ∗ ((oRowM L 14 1).view.loc (thr d L) ↦[(oRowM L 14 1).view.set]{fullShare} f)
        ∗ ((oRowM L 14 2).view.loc (thr d L) ↦[(oRowM L 14 2).view.set]{fullShare} f)
        ∗ ((oRowM L 14 3).view.loc (thr d L) ↦[(oRowM L 14 3).view.set]{fullShare} f)
        ∗ ((oRowM L 15 0).view.loc (thr d L) ↦[(oRowM L 15 0).view.set]{fullShare} f)
        ∗ ((oRowM L 15 1).view.loc (thr d L) ↦[(oRowM L 15 1).view.set]{fullShare} f)
        ∗ ((oRowM L 15 2).view.loc (thr d L) ↦[(oRowM L 15 2).view.set]{fullShare} f)
        ∗ ((oRowM L 15 3).view.loc (thr d L) ↦[(oRowM L 15 3).view.set]{fullShare} f)
        ∗ ((oRowM L 16 0).view.loc (thr d L) ↦[(oRowM L 16 0).view.set]{fullShare} f)
        ∗ ((oRowM L 16 1).view.loc (thr d L) ↦[(oRowM L 16 1).view.set]{fullShare} f)
        ∗ ((oRowM L 16 2).view.loc (thr d L) ↦[(oRowM L 16 2).view.set]{fullShare} f)
        ∗ ((oRowM L 16 3).view.loc (thr d L) ↦[(oRowM L 16 3).view.set]{fullShare} f)
        ∗ ((oRowM L 17 0).view.loc (thr d L) ↦[(oRowM L 17 0).view.set]{fullShare} f)
        ∗ ((oRowM L 17 1).view.loc (thr d L) ↦[(oRowM L 17 1).view.set]{fullShare} f)
        ∗ ((oRowM L 17 2).view.loc (thr d L) ↦[(oRowM L 17 2).view.set]{fullShare} f)
        ∗ ((oRowM L 17 3).view.loc (thr d L) ↦[(oRowM L 17 3).view.set]{fullShare} f)
        ∗ ((oRowM L 18 0).view.loc (thr d L) ↦[(oRowM L 18 0).view.set]{fullShare} f)
        ∗ ((oRowM L 18 1).view.loc (thr d L) ↦[(oRowM L 18 1).view.set]{fullShare} f)
        ∗ ((oRowM L 18 2).view.loc (thr d L) ↦[(oRowM L 18 2).view.set]{fullShare} f)
        ∗ ((oRowM L 18 3).view.loc (thr d L) ↦[(oRowM L 18 3).view.set]{fullShare} f)
        ∗ ((oRowM L 19 0).view.loc (thr d L) ↦[(oRowM L 19 0).view.set]{fullShare} f)
        ∗ ((oRowM L 19 1).view.loc (thr d L) ↦[(oRowM L 19 1).view.set]{fullShare} f)
        ∗ ((oRowM L 19 2).view.loc (thr d L) ↦[(oRowM L 19 2).view.set]{fullShare} f)
        ∗ ((oRowM L 19 3).view.loc (thr d L) ↦[(oRowM L 19 3).view.set]{fullShare} f)
        ∗ ((oRowM L 20 0).view.loc (thr d L) ↦[(oRowM L 20 0).view.set]{fullShare} f)
        ∗ ((oRowM L 20 1).view.loc (thr d L) ↦[(oRowM L 20 1).view.set]{fullShare} f)
        ∗ ((oRowM L 20 2).view.loc (thr d L) ↦[(oRowM L 20 2).view.set]{fullShare} f)
        ∗ ((oRowM L 20 3).view.loc (thr d L) ↦[(oRowM L 20 3).view.set]{fullShare} f)
        ∗ ((oRowM L 21 0).view.loc (thr d L) ↦[(oRowM L 21 0).view.set]{fullShare} f)
        ∗ ((oRowM L 21 1).view.loc (thr d L) ↦[(oRowM L 21 1).view.set]{fullShare} f)
        ∗ ((oRowM L 21 2).view.loc (thr d L) ↦[(oRowM L 21 2).view.set]{fullShare} f)
        ∗ ((oRowM L 21 3).view.loc (thr d L) ↦[(oRowM L 21 3).view.set]{fullShare} f)
        ∗ ((oRowM L 22 0).view.loc (thr d L) ↦[(oRowM L 22 0).view.set]{fullShare} f)
        ∗ ((oRowM L 22 1).view.loc (thr d L) ↦[(oRowM L 22 1).view.set]{fullShare} f)
        ∗ ((oRowM L 22 2).view.loc (thr d L) ↦[(oRowM L 22 2).view.set]{fullShare} f)
        ∗ ((oRowM L 22 3).view.loc (thr d L) ↦[(oRowM L 22 3).view.set]{fullShare} f)
        ∗ ((oRowM L 23 0).view.loc (thr d L) ↦[(oRowM L 23 0).view.set]{fullShare} f)
        ∗ ((oRowM L 23 1).view.loc (thr d L) ↦[(oRowM L 23 1).view.set]{fullShare} f)
        ∗ ((oRowM L 23 2).view.loc (thr d L) ↦[(oRowM L 23 2).view.set]{fullShare} f)
        ∗ ((oRowM L 23 3).view.loc (thr d L) ↦[(oRowM L 23 3).view.set]{fullShare} f)
        ∗ ((oRowM L 24 0).view.loc (thr d L) ↦[(oRowM L 24 0).view.set]{fullShare} f)
        ∗ ((oRowM L 24 1).view.loc (thr d L) ↦[(oRowM L 24 1).view.set]{fullShare} f)
        ∗ ((oRowM L 24 2).view.loc (thr d L) ↦[(oRowM L 24 2).view.set]{fullShare} f)
        ∗ ((oRowM L 24 3).view.loc (thr d L) ↦[(oRowM L 24 3).view.set]{fullShare} f)
        ∗ ((oRowM L 25 0).view.loc (thr d L) ↦[(oRowM L 25 0).view.set]{fullShare} f)
        ∗ ((oRowM L 25 1).view.loc (thr d L) ↦[(oRowM L 25 1).view.set]{fullShare} f)
        ∗ ((oRowM L 25 2).view.loc (thr d L) ↦[(oRowM L 25 2).view.set]{fullShare} f)
        ∗ ((oRowM L 25 3).view.loc (thr d L) ↦[(oRowM L 25 3).view.set]{fullShare} f)
        ∗ ((oRowM L 26 0).view.loc (thr d L) ↦[(oRowM L 26 0).view.set]{fullShare} f)
        ∗ ((oRowM L 26 1).view.loc (thr d L) ↦[(oRowM L 26 1).view.set]{fullShare} f)
        ∗ ((oRowM L 26 2).view.loc (thr d L) ↦[(oRowM L 26 2).view.set]{fullShare} f)
        ∗ ((oRowM L 26 3).view.loc (thr d L) ↦[(oRowM L 26 3).view.set]{fullShare} f)
        ∗ ((oRowM L 27 0).view.loc (thr d L) ↦[(oRowM L 27 0).view.set]{fullShare} f)
        ∗ ((oRowM L 27 1).view.loc (thr d L) ↦[(oRowM L 27 1).view.set]{fullShare} f)
        ∗ ((oRowM L 27 2).view.loc (thr d L) ↦[(oRowM L 27 2).view.set]{fullShare} f)
        ∗ ((oRowM L 27 3).view.loc (thr d L) ↦[(oRowM L 27 3).view.set]{fullShare} f)
        ∗ ((oRowM L 28 0).view.loc (thr d L) ↦[(oRowM L 28 0).view.set]{fullShare} f)
        ∗ ((oRowM L 28 1).view.loc (thr d L) ↦[(oRowM L 28 1).view.set]{fullShare} f)
        ∗ ((oRowM L 28 2).view.loc (thr d L) ↦[(oRowM L 28 2).view.set]{fullShare} f)
        ∗ ((oRowM L 28 3).view.loc (thr d L) ↦[(oRowM L 28 3).view.set]{fullShare} f)
        ∗ ((oRowM L 29 0).view.loc (thr d L) ↦[(oRowM L 29 0).view.set]{fullShare} f)
        ∗ ((oRowM L 29 1).view.loc (thr d L) ↦[(oRowM L 29 1).view.set]{fullShare} f)
        ∗ ((oRowM L 29 2).view.loc (thr d L) ↦[(oRowM L 29 2).view.set]{fullShare} f)
        ∗ ((oRowM L 29 3).view.loc (thr d L) ↦[(oRowM L 29 3).view.set]{fullShare} f)
        ∗ ((oRowM L 30 0).view.loc (thr d L) ↦[(oRowM L 30 0).view.set]{fullShare} f)
        ∗ ((oRowM L 30 1).view.loc (thr d L) ↦[(oRowM L 30 1).view.set]{fullShare} f)
        ∗ ((oRowM L 30 2).view.loc (thr d L) ↦[(oRowM L 30 2).view.set]{fullShare} f)
        ∗ ((oRowM L 30 3).view.loc (thr d L) ↦[(oRowM L 30 3).view.set]{fullShare} f)
        ∗ ((oRowM L 31 0).view.loc (thr d L) ↦[(oRowM L 31 0).view.set]{fullShare} f)
        ∗ ((oRowM L 31 1).view.loc (thr d L) ↦[(oRowM L 31 1).view.set]{fullShare} f)
        ∗ ((oRowM L 31 2).view.loc (thr d L) ↦[(oRowM L 31 2).view.set]{fullShare} f)
        ∗ ((oRowM L 31 3).view.loc (thr d L) ↦[(oRowM L 31 3).view.set]{fullShare} f)
        ∗ emp) := by
  rw [pts_rows (F := F) L d f]
  simp only [rowsList, bigSepL_cons, bigSepL_nil, sep_spell, emp_spell]

end Tile

end Cert.Proof.KIdeal

end
-- ==== Proof.Spec.lean ====
/-
  The specification both programs are compared against: the row gather as a total function.

  For an index array `idx : [4096, 26]` of 32-bit words and a table `w : [100000, 64]`, the
  result at `(b, f, c)` is the table's row `idx[b, f] mod 100000` at column `c`.  The word is read
  as a natural number; on the input domain (every index in `[0, 99999]`) the reduction modulo
  100000 is the identity, and it is there only to make the function total.
-/
import Idealize.ShloMosaic.Lib.ValueIdx

namespace Cert.Proof.Spec

open Idealize.ShloMosaic Idealize.ShloMosaic.ValueIdx

/-- The table row an index word selects: the word as a natural number, modulo the number of rows. -/
def rowOf (v : BitVec 32) : Fin 100000 := ⟨v.toNat % 100000, Nat.mod_lt _ (by decide)⟩

/-- `out[b, f, c] = w[idx[b, f] mod 100000, c]`. -/
def takeRows {α : Type} (idx : (⟨2, ![4096, 26]⟩ : Shape).Idx → BitVec 32)
    (w : (⟨2, ![100000, 64]⟩ : Shape).Idx → α) : (⟨3, ![4096, 26, 64]⟩ : Shape).Idx → α :=
  fun x => w (ix2 (rowOf (idx (ix2 (x 0) (x 1)))) (x 2))

/-- A word below the number of rows selects the row it names. -/
theorem rowOf_val_of_lt {v : BitVec 32} (h : v.toNat < 100000) : (rowOf v).val = v.toNat :=
  Nat.mod_eq_of_lt h

theorem takeRows_apply {α : Type} (idx : (⟨2, ![4096, 26]⟩ : Shape).Idx → BitVec 32)
    (w : (⟨2, ![100000, 64]⟩ : Shape).Idx → α) (b : Fin 4096) (f : Fin 26) (c : Fin 64) :
    takeRows idx w (ix3 b f c) = w (ix2 (rowOf (idx (ix2 b f))) c) := rfl

end Cert.Proof.Spec
-- ==== Proof.Gath.lean ====
/-
  The row gather read off the kernel's own operands.

  The kernel is handed the index array re-laid as [1024, 104] (four batch rows' 26 indices side by side: batch row b,
  field f sits at row b / 4, column 26 (b mod 4) + f) and the table padded to 128 columns. Its result at (b, f, c),
  c < 64, is the padded table's row I[b / 4, 26 (b mod 4) + f] mod 100000 at column c.
-/
import proofs.«206479_g70076686402233_cont_9to1c4b_78_46_alg».proof.Proof.Spec

namespace Cert.Proof.Spec

open Idealize.ShloMosaic Idealize.ShloMosaic.ValueIdx

/-- Where batch row b, field f sits in the re-laid index table. -/
def relaid (x : (⟨3, ![4096, 26, 64]⟩ : Shape).Idx) : (⟨2, ![1024, 104]⟩ : Shape).Idx :=
  ix2 ⟨(x 0).val / 4, by have h : (x 0).val < 4096 := (x 0).isLt; omega⟩
    ⟨((x 0).val % 4) * 26 + (x 1).val, by have h : (x 1).val < 26 := (x 1).isLt; omega⟩

/-- Column c < 64 among the padded table's 128. -/
def col128 (x : (⟨3, ![4096, 26, 64]⟩ : Shape).Idx) : Fin 128 :=
  ⟨(x 2).val, by have h : (x 2).val < 64 := (x 2).isLt; omega⟩

/-- out[b, f, c] = Wt[I[b / 4, 26 (b mod 4) + f] mod 100000, c]. -/
def gath {α : Type} (I : (⟨2, ![1024, 104]⟩ : Shape).Idx → BitVec 32) (Wt : (⟨2, ![100000, 128]⟩ : Shape).Idx → α) :
    (⟨3, ![4096, 26, 64]⟩ : Shape).Idx → α :=
  fun x => Wt (ix2 (rowOf (I (relaid x))) (col128 x))

end Cert.Proof.Spec
-- ==== Proof.KIdeal.ValDefs.lean ====
/-
  The values a tile's buffers hold, as plain functions.

  For tile (c, i), number t = 2 i + c, and its k-th index row (row 32 t + k of the re-laid index table I): the gather
  fills the row buffer with row z₀ := the padded table's row I[32 t + k, z₀] mod 100000, all 128 columns; the packing
  loop copies columns 0…63 of each row, so after k' trips the packed buffer agrees with the row buffer on rows below
  k'.
-/
import proofs.«206479_g70076686402233_cont_9to1c4b_78_46_alg».proof.Proof.KIdeal.Rows
import proofs.«206479_g70076686402233_cont_9to1c4b_78_46_alg».proof.Proof.Gath

noncomputable section

namespace Cert.Proof.KIdeal

open Cert.KernelIdeal Cert.KernelIdeal.Gen
open Idealize.ShloMosaic Idealize.ShloMosaic.ValueIdx
open Cert.Proof.Spec (rowOf gath relaid col128)

/-- Column c < 64 of a packed row, among the row buffer's 128 columns. -/
def widen (y : S104x64.Idx) : S104x128.Idx :=
  ix2 (y 0) ⟨(y 1).val, by have h : (y 1).val < 64 := (y 1).isLt; omega⟩

/-- The packed buffer agrees with the row buffer, columns 0…63, on the rows below k. -/
def PackedUpTo {α : Type} (k : Nat) (p : S104x64.Idx → α) (R : S104x128.Idx → α) : Prop :=
  ∀ y : S104x64.Idx, (y 0).val < k → p y = R (widen y)

/-- The first of tile L's rows of the re-laid index table: 32 (2 i + c). -/
def idxRow0 (L : grid0.Coords) : Nat := 64 * (L 1).val + 32 * (L 0).val

theorem idxRow_lt (L : grid0.Coords) (k : Fin 32) : idxRow0 L + k.val < 1024 := by
  have h0 : (L 0).val < 2 := (L 0).isLt
  have h1 : (L 1).val < 16 := (L 1).isLt
  have hk := k.isLt
  unfold idxRow0; omega

/-- What the row buffer holds after the gather for the tile's k-th index row: row z₀ is the padded table's row
    I[32 t + k, z₀] mod 100000. -/
def gathered {α : Type} (L : grid0.Coords) (k : Fin 32) (I : S1024x104.Idx → BitVec 32) (W : S100000x128.Idx → α) : S104x128.Idx → α :=
  fun z => W (ix2 (rowOf (I (ix2 ⟨idxRow0 L + k.val, idxRow_lt L k⟩ (z 0)))) (z 1))

end Cert.Proof.KIdeal

end
-- ==== Proof.KIdeal.PackStep.lean ====
/-
  One trip of the packing loop.

  Trip k copies row k of the row buffer (128 columns), columns 0…63, into row k of the packed buffer (64 columns), in
  four pieces of 16 columns; each piece is loaded as a 1 × 16 block, cast to a vector of 16 and back (the same
  elements in the same order), and stored at the same row and columns.  The four pieces lie in row k and cover its
  64 columns, so after the trip the packed buffer agrees with the row buffer on row k, and on the rows below k it
  is as it was.
-/
import proofs.«206479_g70076686402233_cont_9to1c4b_78_46_alg».proof.Proof.KIdeal.ValDefs
import Idealize.ShloMosaic.Lib.Writes
import Idealize.ShloMosaic.Lib.Pipeline.Value

noncomputable section

namespace Cert.Proof.KIdeal

open Cert.KernelIdeal Cert.KernelIdeal.Gen
open Idealize.ShloMosaic Idealize.ShloMosaic.ValueIdx
open Idealize.ShloMosaic.SparseCore (S V T)

/-! ## The agreement, at its two ends -/

/-- Before the first trip nothing is asked. -/
theorem packed_zero {α : Type} (p : S104x64.Idx → α) (R : S104x128.Idx → α) : PackedUpTo 0 p R :=
  fun _ h => absurd h (Nat.not_lt_zero _)

/-- After the last trip the packed buffer is the row buffer's columns 0…63. -/
theorem PackedUpTo.all {α : Type} {p : S104x64.Idx → α} {R : S104x128.Idx → α} (h : PackedUpTo 104 p R)
    (y : S104x64.Idx) : p y = R (widen y) :=
  h y (y 0).isLt

/-! ## One trip, through any two views -/

section Gen

variable {sig : RefSig} {κ κ' : Kind} {sp sp' : Space} {Val : EltTy → Type}

/-- A 1 × 16 piece of row k at column o of the packed buffer holds exactly the indices of row k with column in
    [o, o + 16). -/
theorem mem_piece (k o : Nat) (h : ∀ a, (![k, o] : Fin 2 → Nat) a + S1x16.size a ≤ S104x64.size a) (y : S104x64.Idx) :
    y ∈ (Rect.unit (s := S104x64) ![k, o] S1x16.size h).set ↔ (y 0).val = k ∧ o ≤ (y 1).val ∧ (y 1).val < o + 16 := by
  rw [Rect.mem_set_unit]
  constructor
  · intro hy
    have h0 := hy 0
    have h1 := hy 1
    change k ≤ (y 0).val ∧ (y 0).val < k + 1 at h0
    change o ≤ (y 1).val ∧ (y 1).val < o + 16 at h1
    omega
  · intro hy a
    match a with
    | ⟨0, _⟩ =>
      change k ≤ (y 0).val ∧ (y 0).val < k + 1
      omega
    | ⟨1, _⟩ =>
      change o ≤ (y 1).val ∧ (y 1).val < o + 16
      omega

/-- The piece loaded at [k, o] of the row buffer, cast to a vector and back, is the row buffer at the widened
    index of where it is stored in the packed buffer. -/
theorem piece_val (v' : View sig κ' sp' S104x128 .f32) (R : v'.ty.Contents Val) (k o : Nat)
    (hs : ∀ a, (![k, o] : Fin 2 → Nat) a + S1x16.size a ≤ S104x64.size a)
    (hl : ∀ a, (![k, o] : Fin 2 → Nat) a + S1x16.size a ≤ S104x128.size a)
    (c1 : S1x16.ShapeCasts S16) (c2 : S16.ShapeCasts S1x16)
    (x : (Rect.unit (s := S104x64) ![k, o] S1x16.size hs).shape.Idx) :
    shapeCast S1x16 (shapeCast S16 (v'.readAt Val (Rect.unit (s := S104x128) ![k, o] S1x16.size hl).toLoadRect R) c1) c2 x
      = v'.read Val R (widen ((Rect.unit (s := S104x64) ![k, o] S1x16.size hs).emb x)) := by
  rw [shapeCast_shapeCast]
  show v'.read Val R ((Rect.unit (s := S104x128) ![k, o] S1x16.size hl).toLoadRect.idx x) = _
  refine congrArg (v'.read Val R) (funext fun a => Fin.ext ?_)
  match a with
  | ⟨0, _⟩ => rfl
  | ⟨1, _⟩ => rfl

/-- ONE TRIP: if the packed buffer agrees with the row buffer below row k, then after the four stores of trip k
    it agrees below row k + 1. -/
theorem pack_step_gen (v : View sig κ sp S104x64 .f32) (v' : View sig κ' sp' S104x128 .f32)
    (k : Nat) (hk : k < 104) (R : v'.ty.Contents Val) (p : v.ty.Contents Val)
    (h2 : ∀ a, (![k, 0] : Fin 2 → Nat) a + S1x16.size a ≤ S104x128.size a)
    (h3 : ∀ a, (![k, 0] : Fin 2 → Nat) a + S1x16.size a ≤ S104x64.size a)
    (h4 : ∀ a, (![k, 16] : Fin 2 → Nat) a + S1x16.size a ≤ S104x128.size a)
    (h5 : ∀ a, (![k, 16] : Fin 2 → Nat) a + S1x16.size a ≤ S104x64.size a)
    (h6 : ∀ a, (![k, 32] : Fin 2 → Nat) a + S1x16.size a ≤ S104x128.size a)
    (h7 : ∀ a, (![k, 32] : Fin 2 → Nat) a + S1x16.size a ≤ S104x64.size a)
    (h8 : ∀ a, (![k, 48] : Fin 2 → Nat) a + S1x16.size a ≤ S104x128.size a)
    (h9 : ∀ a, (![k, 48] : Fin 2 → Nat) a + S1x16.size a ≤ S104x64.size a)
    (c1 : S1x16.ShapeCasts S16) (c2 : S16.ShapeCasts S1x16)
    (hp : ∀ y : S104x64.Idx, (y 0).val < k → v.read Val p y = v'.read Val R (widen y)) :
    ∀ y : S104x64.Idx, (y 0).val < k + 1 →
      v.read Val (v.writes Val p
        [⟨Rect.unit (s := S104x64) ![k, 48] S1x16.size h9, shapeCast S1x16 (shapeCast S16 (v'.readAt Val (Rect.unit (s := S104x128) ![k, 48] S1x16.size h8).toLoadRect R) c1) c2⟩,
         ⟨Rect.unit (s := S104x64) ![k, 32] S1x16.size h7, shapeCast S1x16 (shapeCast S16 (v'.readAt Val (Rect.unit (s := S104x128) ![k, 32] S1x16.size h6).toLoadRect R) c1) c2⟩,
         ⟨Rect.unit (s := S104x64) ![k, 16] S1x16.size h5, shapeCast S1x16 (shapeCast S16 (v'.readAt Val (Rect.unit (s := S104x128) ![k, 16] S1x16.size h4).toLoadRect R) c1) c2⟩,
         ⟨Rect.unit (s := S104x64) ![k, 0] S1x16.size h3, shapeCast S1x16 (shapeCast S16 (v'.readAt Val (Rect.unit (s := S104x128) ![k, 0] S1x16.size h2).toLoadRect R) c1) c2⟩]) y = v'.read Val R (widen y) := by
  intro y hy
  by_cases hlt : (y 0).val < k
  · rw [View.read_writes_apply_of_forall_not_mem v p y _ (fun pc hpc => ?_)]
    · exact hp y hlt
    · simp only [List.mem_cons, List.not_mem_nil, or_false] at hpc
      rcases hpc with rfl | rfl | rfl | rfl <;> (rw [mem_piece]; omega)
  · have hk0 : (y 0).val = k := by omega
    have h1 : (y 1).val < 64 := (y 1).isLt
    refine View.read_writes_apply_of_pieces v p (fun y => v'.read Val R (widen y)) _ (fun pc hpc x => ?_) y ?_
    · simp only [List.mem_cons, List.not_mem_nil, or_false] at hpc
      rcases hpc with rfl | rfl | rfl | rfl
      · exact piece_val v' R k 48 h9 h8 c1 c2 x
      · exact piece_val v' R k 32 h7 h6 c1 c2 x
      · exact piece_val v' R k 16 h5 h4 c1 c2 x
      · exact piece_val v' R k 0 h3 h2 c1 c2 x
    · by_cases g3 : 48 ≤ (y 1).val
      · exact ⟨_, List.mem_cons_self, (mem_piece k 48 h9 y).2 (by omega)⟩
      · by_cases g2 : 32 ≤ (y 1).val
        · exact ⟨_, List.mem_cons_of_mem _ List.mem_cons_self, (mem_piece k 32 h7 y).2 (by omega)⟩
        · by_cases g1 : 16 ≤ (y 1).val
          · exact ⟨_, List.mem_cons_of_mem _ (List.mem_cons_of_mem _ List.mem_cons_self), (mem_piece k 16 h5 y).2 (by omega)⟩
          · exact ⟨_, List.mem_cons_of_mem _ (List.mem_cons_of_mem _ (List.mem_cons_of_mem _ List.mem_cons_self)),
              (mem_piece k 0 h3 y).2 (by omega)⟩

end Gen

/-! ## One trip, over the program's buffers -/

section Prog

variable {F : FTy → Type} [FloatOps F]

/-- One trip of the packing loop from row buffer 1 into packed buffer 1, over the printed offset chains
    (given their closed forms) and the program's own evidence. -/
theorem pack_step1 (d : Dev nD) (c : Fin τ.nSC) (i : Fin τ.nSub) (k : Nat) (hk : k < 104)
    (R : Buf (Elt F) ((Memref.whole cc0_scratch1 : Memref sig .scVector .vmem S104x128 .f32).view.loc (V d c i)))
    (p : Buf (Elt F) ((Memref.whole cc0_scratch5 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch5 : Memref sig .scVector .vmem S104x64 .f32).view.writes (Elt F) p
        [⟨Rect.unit (s := S104x64) o9 S1x16.size h9, shapeCast S1x16 (shapeCast S16 ((Memref.whole cc0_scratch1 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch1 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch1 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch1 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch5) (View.whole cc0_scratch1) k hk R p h2 h3 h4 h5 h6 h7 h8 h9 c1 c2 hp

/-- One trip of the packing loop from row buffer 2 into packed buffer 2, over the printed offset chains
    (given their closed forms) and the program's own evidence. -/
theorem pack_step2 (d : Dev nD) (c : Fin τ.nSC) (i : Fin τ.nSub) (k : Nat) (hk : k < 104)
    (R : Buf (Elt F) ((Memref.whole cc0_scratch2 : Memref sig .scVector .vmem S104x128 .f32).view.loc (V d c i)))
    (p : Buf (Elt F) ((Memref.whole cc0_scratch6 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch6 : Memref sig .scVector .vmem S104x64 .f32).view.writes (Elt F) p
        [⟨Rect.unit (s := S104x64) o9 S1x16.size h9, shapeCast S1x16 (shapeCast S16 ((Memref.whole cc0_scratch2 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch2 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch2 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch2 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch6) (View.whole cc0_scratch2) k hk R p h2 h3 h4 h5 h6 h7 h8 h9 c1 c2 hp

/-- One trip of the packing loop from row buffer 3 into packed buffer 3, over the printed offset chains
    (given their closed forms) and the program's own evidence. -/
theorem pack_step3 (d : Dev nD) (c : Fin τ.nSC) (i : Fin τ.nSub) (k : Nat) (hk : k < 104)
    (R : Buf (Elt F) ((Memref.whole cc0_scratch3 : Memref sig .scVector .vmem S104x128 .f32).view.loc (V d c i)))
    (p : Buf (Elt F) ((Memref.whole cc0_scratch7 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch7 : Memref sig .scVector .vmem S104x64 .f32).view.writes (Elt F) p
        [⟨Rect.unit (s := S104x64) o9 S1x16.size h9, shapeCast S1x16 (shapeCast S16 ((Memref.whole cc0_scratch3 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch3 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch3 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch3 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch7) (View.whole cc0_scratch3) k hk R p h2 h3 h4 h5 h6 h7 h8 h9 c1 c2 hp

/-- One trip of the packing loop from row buffer 4 into packed buffer 4, over the printed offset chains
    (given their closed forms) and the program's own evidence. -/
theorem pack_step4 (d : Dev nD) (c : Fin τ.nSC) (i : Fin τ.nSub) (k : Nat) (hk : k < 104)
    (R : Buf (Elt F) ((Memref.whole cc0_scratch4 : Memref sig .scVector .vmem S104x128 .f32).view.loc (V d c i)))
    (p : Buf (Elt F) ((Memref.whole cc0_scratch8 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch8 : Memref sig .scVector .vmem S104x64 .f32).view.writes (Elt F) p
        [⟨Rect.unit (s := S104x64) o9 S1x16.size h9, shapeCast S1x16 (shapeCast S16 ((Memref.whole cc0_scratch4 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch4 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch4 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch4 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch8) (View.whole cc0_scratch4) k hk R p h2 h3 h4 h5 h6 h7 h8 h9 c1 c2 hp

end Prog

end Cert.Proof.KIdeal

end
-- ==== Proof.KIdeal.EndFacts.lean ====
/-
  Small facts the tile's proof closes its ends with.

  Each of the thirty-two packing loops runs 104 trips (one per row of a row buffer): its bounds are the literals 0
  and 0 + 104, its step 1.  A points-to names its contents.  And the semaphore waits a tile records: every wait it
  adds is at the index "none", so every recorded wait is either one it was handed or at that index.
-/
import proofs.«206479_g70076686402233_cont_9to1c4b_78_46_alg».proof.Proof.KIdeal.ValDefs
import proofs.«206479_g70076686402233_cont_9to1c4b_78_46_alg».proof.Proof.Gen.KernelIdeal

noncomputable section

namespace Cert.Proof.KIdeal

open Cert.KernelIdeal Cert.KernelIdeal.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The packing loops' trip counts -/

theorem trips_1 : Scf.trips k0_t1_loop.lb k0_t1_loop.ub k0_t1_loop.st = 104 := by decide
theorem trips_2 : Scf.trips k0_t2_loop.lb k0_t2_loop.ub k0_t2_loop.st = 104 := by decide
theorem trips_3 : Scf.trips k0_t3_loop.lb k0_t3_loop.ub k0_t3_loop.st = 104 := by decide
theorem trips_4 : Scf.trips k0_t4_loop.lb k0_t4_loop.ub k0_t4_loop.st = 104 := by decide
theorem trips_5 : Scf.trips k0_t5_loop.lb k0_t5_loop.ub k0_t5_loop.st = 104 := by decide
theorem trips_6 : Scf.trips k0_t6_loop.lb k0_t6_loop.ub k0_t6_loop.st = 104 := by decide
theorem trips_7 : Scf.trips k0_t7_loop.lb k0_t7_loop.ub k0_t7_loop.st = 104 := by decide
theorem trips_8 : Scf.trips k0_t8_loop.lb k0_t8_loop.ub k0_t8_loop.st = 104 := by decide
theorem trips_9 : Scf.trips k0_t9_loop.lb k0_t9_loop.ub k0_t9_loop.st = 104 := by decide
theorem trips_10 : Scf.trips k0_t10_loop.lb k0_t10_loop.ub k0_t10_loop.st = 104 := by decide
theorem trips_11 : Scf.trips k0_t11_loop.lb k0_t11_loop.ub k0_t11_loop.st = 104 := by decide
theorem trips_12 : Scf.trips k0_t12_loop.lb k0_t12_loop.ub k0_t12_loop.st = 104 := by decide
theorem trips_13 : Scf.trips k0_t13_loop.lb k0_t13_loop.ub k0_t13_loop.st = 104 := by decide
theorem trips_14 : Scf.trips k0_t14_loop.lb k0_t14_loop.ub k0_t14_loop.st = 104 := by decide
theorem trips_15 : Scf.trips k0_t15_loop.lb k0_t15_loop.ub k0_t15_loop.st = 104 := by decide
theorem trips_16 : Scf.trips k0_t16_loop.lb k0_t16_loop.ub k0_t16_loop.st = 104 := by decide
theorem trips_17 : Scf.trips k0_t17_loop.lb k0_t17_loop.ub k0_t17_loop.st = 104 := by decide
theorem trips_18 : Scf.trips k0_t18_loop.lb k0_t18_loop.ub k0_t18_loop.st = 104 := by decide
theorem trips_19 : Scf.trips k0_t19_loop.lb k0_t19_loop.ub k0_t19_loop.st = 104 := by decide
theorem trips_20 : Scf.trips k0_t20_loop.lb k0_t20_loop.ub k0_t20_loop.st = 104 := by decide
theorem trips_21 : Scf.trips k0_t21_loop.lb k0_t21_loop.ub k0_t21_loop.st = 104 := by decide
theorem trips_22 : Scf.trips k0_t22_loop.lb k0_t22_loop.ub k0_t22_loop.st = 104 := by decide
theorem trips_23 : Scf.trips k0_t23_loop.lb k0_t23_loop.ub k0_t23_loop.st = 104 := by decide
theorem trips_24 : Scf.trips k0_t24_loop.lb k0_t24_loop.ub k0_t24_loop.st = 104 := by decide
theorem trips_25 : Scf.trips k0_t25_loop.lb k0_t25_loop.ub k0_t25_loop.st = 104 := by decide
theorem trips_26 : Scf.trips k0_t26_loop.lb k0_t26_loop.ub k0_t26_loop.st = 104 := by decide
theorem trips_27 : Scf.trips k0_t27_loop.lb k0_t27_loop.ub k0_t27_loop.st = 104 := by decide
theorem trips_28 : Scf.trips k0_t28_loop.lb k0_t28_loop.ub k0_t28_loop.st = 104 := by decide
theorem trips_29 : Scf.trips k0_t29_loop.lb k0_t29_loop.ub k0_t29_loop.st = 104 := by decide
theorem trips_30 : Scf.trips k0_t30_loop.lb k0_t30_loop.ub k0_t30_loop.st = 104 := by decide
theorem trips_31 : Scf.trips k0_t31_loop.lb k0_t31_loop.ub k0_t31_loop.st = 104 := by decide
theorem trips_32 : Scf.trips k0_t32_loop.lb k0_t32_loop.ub k0_t32_loop.st = 104 := by decide

/-! ## A points-to names its contents -/

theorem pts_name {ℓ : Loc nD τ sig} {q : PosShare TreeShare} (X : Buf (Elt F) ℓ) :
    (ℓ ↦{q} X : sProp 𝕄) ⊢ iprop(∃ R, ⌜R = X⌝ ∗ ℓ ↦{q} R) := by
  iintro H
  iexists X
  isplitr
  · ipureintro
    rfl
  · iexact H

/-! ## The recorded waits -/

section Waits

variable {sig' : RefSig} {Q : Nat}

/-- Every wait already there is one that was handed over. -/
theorem waits_base {W : Waits sig' (HIx Q)} : ∀ p ∈ W, p ∈ W ∨ p.2 = none :=
  fun _ h => Or.inl h

/-- One more wait at the index "none" keeps the property. -/
theorem waits_insert {W' W : Waits sig' (HIx Q)} {a : SemLoc sig' × HIx Q} (ha : a.2 = none)
    (h : ∀ p ∈ W', p ∈ W ∨ p.2 = none) : ∀ p ∈ insert a W', p ∈ W ∨ p.2 = none := by
  intro p hp
  rcases Finset.mem_insert.mp hp with rfl | hp
  · exact Or.inr ha
  · exact h p hp

end Waits

end Cert.Proof.KIdeal

end
-- ==== Proof.KIdeal.RowVal.lean ====
/-
  One row of the result through the kernel's view of it, index by index.

  The view of batch row n = 128 t + 4 r₁ + r₂ is the 1 × 26 × 64 rectangle at (n, 0, 0) with its unit axis dropped:
  its element (f, c) is element (n, f, c) of the result, and the result's elements under it are exactly those whose
  batch coordinate is n.
-/
import proofs.«206479_g70076686402233_cont_9to1c4b_78_46_alg».proof.Proof.KIdeal.Rows
import Idealize.ShloMosaic.Lib.ValueIdx

noncomputable section

namespace Cert.Proof.KIdeal

open Cert.KernelIdeal Cert.KernelIdeal.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section RowIndex

open Idealize.ShloMosaic.ValueIdx

variable (L : grid0.Coords)

/-- A tile's row number is a batch row of the result. -/
theorem rowNo_lt (r₁ : Fin 32) (r₂ : Fin 4) : rowNo L r₁ r₂ < 4096 := by
  have h0 : (L 0).val < 2 := (L 0).isLt
  have h1 : (L 1).val < 16 := (L 1).isLt
  have := r₁.isLt
  have := r₂.isLt
  simp only [rowNo]
  omega

/-- The elements under the row's view are those of its batch row. -/
theorem mem_set_oRowM (r₁ : Fin 32) (r₂ : Fin 4) (x : S4096x26x64.Idx) :
    x ∈ (oRowM L r₁ r₂).view.set ↔ (x 0).val = rowNo L r₁ r₂ := by
  rw [set_oRowM, mem_oRect]

/-- Element (f, c) of the row's view is element (row, f, c) of the result. -/
theorem emb_oRowM (r₁ : Fin 32) (r₂ : Fin 4) (y : S26x64.Idx) :
    ((oRowM L r₁ r₂).view.emb y : S4096x26x64.Idx) = ix3 ⟨rowNo L r₁ r₂, rowNo_lt L r₁ r₂⟩ (y 0) (y 1) := by
  have hj : Shape.reshapeEquiv Facts₀.squeezes_S1x26x64_S26x64.numel_eq y
      = (ix3 ⟨0, Nat.one_pos⟩ (y 0) (y 1) : (oRect L r₁ r₂).shape.Idx) := by
    apply Shape.reshapeEquiv_eq_of_rowMajor
    rw [Shape.rowMajor_val_three, Shape.rowMajor_val_two]
    show (0 * 26 + (y 0).val) * 64 + (y 1).val = (y 0).val * 64 + (y 1).val
    omega
  show (oRect L r₁ r₂).emb (Shape.reshapeEquiv Facts₀.squeezes_S1x26x64_S26x64.numel_eq y) = _
  rw [hj]
  funext a
  apply Fin.ext
  rw [Rect.emb_apply]
  show (k0_off10 L (BitVec.ofNat 32 (4 * r₁.val)) (BitVec.ofNat 32 r₂.val)) a + 1 * _ = _
  rw [k0_off10_eq]
  match a with
  | ⟨0, _⟩ =>
    show 256 * (L 1).val + 128 * (L 0).val + 4 * r₁.val + r₂.val + 1 * 0 = rowNo L r₁ r₂
    simp only [rowNo]
    omega
  | ⟨1, _⟩ =>
    show 0 + 1 * (y 0).val = (y 0).val
    omega
  | ⟨2, _⟩ =>
    show 0 + 1 * (y 1).val = (y 1).val
    omega

end RowIndex

end Cert.Proof.KIdeal

end
-- ==== Proof.KIdeal.GatherVal.lean ====
/-
  The values a gather delivers and a result row ends with.

  A gather for the tile's k-th index row reads that row of the tile's own copy of its index rows — which holds rows
  32 t … 32 t + 31 of the re-laid index table — and fills the row buffer, row z₀, with the padded table's row named by
  the word at position z₀; every word is a row number, so reducing it modulo the table's height changes nothing. A
  packed buffer that agrees with that row buffer on columns 0 … 63, copied out in four blocks of 26 rows to the four
  batch rows 4 (32 t + k) + j, leaves in each the row gather of the re-laid operands.
-/
import proofs.«206479_g70076686402233_cont_9to1c4b_78_46_alg».proof.Proof.KIdeal.ValDefs
import proofs.«206479_g70076686402233_cont_9to1c4b_78_46_alg».proof.Proof.KIdeal.RowVal
import Idealize.ShloMosaic.Lib.SparseCore.Stream
import Idealize.ShloMosaic.Lib.Writes
import Idealize.ShloMosaic.Lib.ValueIdx

noncomputable section

namespace Cert.Proof.KIdeal

open Cert.KernelIdeal Cert.KernelIdeal.Gen
open Idealize.ShloMosaic Idealize.ShloMosaic.ValueIdx
open Cert.Proof.Spec (rowOf gath relaid col128)

variable {F : FTy → Type}

/-! ## What a gather delivers -/

section Gather

variable (L : grid0.Coords) (k : Fin 32)

/-- The tile's thirty-two rows of the re-laid index table, as the kernel's copy reads them. -/
abbrev iView : View sig .scVector .hbm S32x104 .i32 :=
  ((Memref.whole main_v0_scv : Memref sig .scVector .hbm S1024x104 .i32).slice (Rect.unit (s := S1024x104) (k0_off1 L) S32x104.size (k0_off1_inb L)) (fun _ => rfl)).view

/-- Its element (r, c) is element (32 t + r, c) of the table. -/
theorem emb_iView (y : S32x104.Idx) :
    ((iView L).emb y : S1024x104.Idx) = ix2 ⟨idxRow0 L + (y 0).val, idxRow_lt L (y 0)⟩ (y 1) := by
  show (Rect.unit (s := S1024x104) (k0_off1 L) S32x104.size (k0_off1_inb L)).emb y = _
  funext a
  apply Fin.ext
  rw [Rect.emb_apply]
  have h := k0_off1_eq L
  match a with
  | ⟨0, _⟩ =>
    have h0 : k0_off1 L 0 = 64 * (L 1).val + 32 * (L 0).val := by rw [h]; rfl
    show k0_off1 L 0 + 1 * (y 0).val = idxRow0 L + (y 0).val
    unfold idxRow0
    omega
  | ⟨1, _⟩ =>
    have h1 : k0_off1 L 1 = 0 := by rw [h]; rfl
    show k0_off1 L 1 + 1 * (y 1).val = (y 1).val
    omega

/-- Row k of the tile's own copy of its index rows, as the gather's offset list. -/
abbrev offView (hk : ∀ a, (![k.val, 0] : Fin 2 → Nat) a + S1x104.size a ≤ S32x104.size a) (hsq : S1x104.Squeezes S104) :
    View sig .scVector .vmem S104 .i32 :=
  (((Memref.whole cc0_scratch0 : Memref sig .scVector .vmem S32x104 .i32).slice (Rect.unit (s := S32x104) ![k.val, 0] S1x104.size hk) (fun _ => rfl)).squeeze S104 hsq).view

/-- Its entry j is element (k, j) of the copy. -/
theorem emb_offView (hk) (hsq : S1x104.Squeezes S104) (j : S104.Idx) :
    ((offView k hk hsq).emb j : S32x104.Idx) = ix2 k (j 0) := by
  have hj : Shape.reshapeEquiv hsq.numel_eq j
      = (ix2 ⟨0, Nat.one_pos⟩ (j 0) : (Rect.unit (s := S32x104) ![k.val, 0] S1x104.size hk).shape.Idx) := by
    apply Shape.reshapeEquiv_eq_of_rowMajor
    rw [Shape.rowMajor_val_two, Shape.rowMajor_val_one]
    show 0 * 104 + (j 0).val = (j 0).val
    omega
  show (Rect.unit (s := S32x104) ![k.val, 0] S1x104.size hk).emb (Shape.reshapeEquiv hsq.numel_eq j) = _
  rw [hj]
  funext a
  apply Fin.ext
  rw [Rect.emb_apply]
  match a with
  | ⟨0, _⟩ =>
    show k.val + 1 * 0 = k.val
    omega
  | ⟨1, _⟩ =>
    show 0 + 1 * (j 0).val = (j 0).val
    omega

/-- The padded table whole, as the gather's source. -/
abbrev wView (hw : ∀ a, (![0, 0] : Fin 2 → Nat) a + S100000x128.size a ≤ S100000x128.size a) : View sig .scVector .hbm S100000x128 .f32 :=
  ((Memref.whole main_v1_scv : Memref sig .scVector .hbm S100000x128 .f32).slice (Rect.unit (s := S100000x128) ![0, 0] S100000x128.size hw) (fun _ => rfl)).view

theorem emb_wView (hw) (x : S100000x128.Idx) : ((wView hw).emb x : S100000x128.Idx) = x := by
  show (Rect.unit (s := S100000x128) ![0, 0] S100000x128.size hw).emb x = _
  funext a
  apply Fin.ext
  rw [Rect.emb_apply]
  match a with
  | ⟨0, _⟩ =>
    show 0 + 1 * (x 0).val = (x 0).val
    omega
  | ⟨1, _⟩ =>
    show 0 + 1 * (x 1).val = (x 1).val
    omega

/-- The offset list's entry j is the re-laid index table's word at (32 t + k, j). -/
theorem offs_apply (I : S1024x104.Idx → BitVec 32) (hk) (hsq : S1x104.Squeezes S104) (j : S104.Idx) :
    View.read (Elt F) (offView k hk hsq) (ReadAs.same.apply (View.read (Elt F) (iView L) I)) j
      = I (ix2 ⟨idxRow0 L + k.val, idxRow_lt L k⟩ (j 0)) := by
  rw [View.read_apply]
  show View.read (Elt F) (iView L) I ((offView k hk hsq).emb j) = _
  rw [View.read_apply, emb_offView k hk hsq j]
  show I ((iView L).emb (ix2 k (j 0))) = _
  rw [emb_iView L (ix2 k (j 0))]
  rfl

/-- WHAT A GATHER DELIVERS: the row buffer's row z₀ is the padded table's row named by the word at (32 t + k, z₀). -/
theorem gather_val (I : S1024x104.Idx → BitVec 32) (W : S100000x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin)
      = gathered L k I W := by
  funext z
  unfold SparseCore.gatherPayload gathered
  rw [View.read_apply]
  show W ((wView hw).emb _) = _
  rw [emb_wView hw]
  refine congrArg W ?_
  -- the word the offset list holds at the row's position
  obtain ⟨j, hj⟩ : ∃ j : S104.Idx, j = (Shape.rowMajor S104).symm (Fin.cast hn.symm (z hg.axis')) := ⟨_, rfl⟩
  have h2 : Shape.rowMajor S104 j = Fin.cast hn.symm (z hg.axis') := by rw [hj]; exact Equiv.apply_symm_apply _ _
  have hval : (j 0).val = (z 0).val := by rw [← Shape.rowMajor_val_one j, h2]; rfl
  have e : (j 0 : Fin 104) = z 0 := Fin.ext hval
  have hword := (offs_apply (F := F) L k I hk hsq j).trans
    (congrArg (fun t : Fin 104 => I (ix2 ⟨idxRow0 L + k.val, idxRow_lt L k⟩ t)) e)
  have hlt := hin j
  funext a
  apply Fin.ext
  match a with
  | ⟨0, _⟩ =>
    rw [Shape.Gathers.idx_axis]
    unfold SparseCore.rows
    show (View.read (Elt F) (offView k hk hsq) (ReadAs.same.apply (View.read (Elt F) (iView L) I)) ((Shape.rowMajor S104).symm (Fin.cast hn.symm (z hg.axis')))).toNat = _
    rw [← hj, hword]
    rw [hword] at hlt
    show _ = (I (ix2 ⟨idxRow0 L + k.val, idxRow_lt L k⟩ (z 0))).toNat % 100000
    exact (Nat.mod_eq_of_lt hlt).symm
  | ⟨1, _⟩ =>
    exact Shape.Gathers.idx_of_ne hg _ z ⟨1, by decide⟩ (by decide)

end Gather

/-! ## A buffer written whole holds what was written -/

section Whole

/-- One write through the whole rectangle of a whole buffer replaces the contents by the payload. -/
theorem writes_whole_single {κ : Kind} {Val : EltTy → Type} (b : Ref sig κ) (f : b.ty.Contents Val)
    (w : (Rect.whole b.ty.shape).shape.Idx → Val b.ty.elt) :
    (View.whole b).writes Val f [⟨Rect.whole b.ty.shape, w⟩] = w := by
  funext i
  have h := View.read_writes_cons_emb (View.whole b) f (Rect.whole b.ty.shape) w [] i
  rw [Rect.emb_whole_apply] at h
  exact h

variable (L : grid0.Coords) (k : Fin 32)

/-- Row buffer 1 after the gather for the tile's k-th index row. -/
theorem gather_buf1 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch1 : Memref sig .scVector .vmem S104x128 .f32).view.writes (Elt F) b
        [⟨Rect.whole cc0_scratch1.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch1 b _).trans (gather_val L k I W hg hw hk hsq hn hin)

/-- Row buffer 2 after the gather for the tile's k-th index row. -/
theorem gather_buf2 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch2 : Memref sig .scVector .vmem S104x128 .f32).view.writes (Elt F) b
        [⟨Rect.whole cc0_scratch2.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch2 b _).trans (gather_val L k I W hg hw hk hsq hn hin)

/-- Row buffer 3 after the gather for the tile's k-th index row. -/
theorem gather_buf3 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch3 : Memref sig .scVector .vmem S104x128 .f32).view.writes (Elt F) b
        [⟨Rect.whole cc0_scratch3.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch3 b _).trans (gather_val L k I W hg hw hk hsq hn hin)

/-- Row buffer 4 after the gather for the tile's k-th index row. -/
theorem gather_buf4 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch4 : Memref sig .scVector .vmem S104x128 .f32).view.writes (Elt F) b
        [⟨Rect.whole cc0_scratch4.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch4 b _).trans (gather_val L k I W hg hw hk hsq hn hin)

end Whole

/-! ## What a result row ends with -/

section Row

variable (L : grid0.Coords)

/-- Element (r, c) of the block of 26 rows from row o of a packed buffer is the buffer's element (o + r, c). -/
theorem emb_blkRect (o : Nat) (inb) (ho : o + 26 ≤ 104) (y : S26x64.Idx) :
    ((blkRect o inb).emb y : S104x64.Idx) = ix2 ⟨o + (y 0).val, by have := (y 0).isLt; change (y 0).val < 26 at this; omega⟩ (y 1) := by
  funext a
  apply Fin.ext
  rw [Rect.emb_apply]
  match a with
  | ⟨0, _⟩ =>
    show o + 1 * (y 0).val = o + (y 0).val
    omega
  | ⟨1, _⟩ =>
    show 0 + 1 * (y 1).val = (y 1).val
    omega

/-- A result row written whole with block j of a packed buffer that agrees with the row buffer of chunk r₁: on the
    row's elements the result is the row gather of the re-laid operands. -/
theorem row_val_core (r₁ : Fin 32) (j : Fin 4) (I : S1024x104.Idx → BitVec 32) (W : S100000x128.Idx → Elt F .f32)
    (p : S104x64.Idx → Elt F .f32) (hp : PackedUpTo 104 p (gathered L r₁ I W)) (V : S4096x26x64.Idx → Elt F .f32)
    (inb) (w : S26x64.Idx → Elt F .f32) (hw : ∀ y : S26x64.Idx, w y = p ((blkRect (26 * j.val) inb).emb y)) :
    ∀ x ∈ (oRowM L r₁ j).view.set,
      ((oRowM L r₁ j).view.writes (Elt F) V [⟨Rect.whole S26x64, w⟩]) x = gath I W x := by
  intro x hx
  obtain ⟨y, -, rfl⟩ := Finset.mem_map.mp hx
  have h1 := View.read_writes_cons_emb (oRowM L r₁ j).view V (Rect.whole S26x64) w [] y
  rw [Rect.emb_whole_apply] at h1
  have h2 : ((oRowM L r₁ j).view.writes (Elt F) V [⟨Rect.whole S26x64, w⟩]) ((oRowM L r₁ j).view.emb y) = w y := h1
  have hj := j.isLt
  have hy0 : (y 0).val < 26 := (y 0).isLt
  have hy1 : (y 1).val < 64 := (y 1).isLt
  have hlt : 26 * j.val + (y 0).val < 104 := by omega
  have hr1 := r₁.isLt
  have hL0 : (L 0).val < 2 := (L 0).isLt
  have hL1 : (L 1).val < 16 := (L 1).isLt
  rw [h2, hw y, emb_blkRect (26 * j.val) inb (by omega) y]
  refine (hp _ ?_).trans ?_
  · show 26 * j.val + (y 0).val < 104
    omega
  rw [emb_oRowM L r₁ j y]
  unfold gathered gath
  refine congrArg W ?_
  have hI : (ix2 ⟨idxRow0 L + r₁.val, idxRow_lt L r₁⟩ (⟨26 * j.val + (y 0).val, hlt⟩ : Fin 104) : S1024x104.Idx)
      = relaid (ix3 ⟨rowNo L r₁ j, rowNo_lt L r₁ j⟩ (y 0) (y 1)) := by
    funext a
    apply Fin.ext
    match a with
    | ⟨0, _⟩ =>
      show idxRow0 L + r₁.val = rowNo L r₁ j / 4
      unfold idxRow0 rowNo
      omega
    | ⟨1, _⟩ =>
      show 26 * j.val + (y 0).val = (rowNo L r₁ j % 4) * 26 + (y 0).val
      unfold rowNo
      omega
  funext a
  apply Fin.ext
  match a with
  | ⟨0, _⟩ => exact congrArg (fun t => (rowOf (I t)).val) hI
  | ⟨1, _⟩ => rfl

theorem row_val5_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk5_0).view p)⟩]) x = gath I W x :=
  row_val_core L r₁ 0 I W p hp V inb_S104x64_S26x64_0_0 _ (fun _ => rfl)

theorem row_val5_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk5_1).view p)⟩]) x = gath I W x :=
  row_val_core L r₁ 1 I W p hp V inb_S104x64_S26x64_26_0 _ (fun _ => rfl)

theorem row_val5_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk5_2).view p)⟩]) x = gath I W x :=
  row_val_core L r₁ 2 I W p hp V inb_S104x64_S26x64_52_0 _ (fun _ => rfl)

theorem row_val5_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk5_3).view p)⟩]) x = gath I W x :=
  row_val_core L r₁ 3 I W p hp V inb_S104x64_S26x64_78_0 _ (fun _ => rfl)

theorem row_val6_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk6_0).view p)⟩]) x = gath I W x :=
  row_val_core L r₁ 0 I W p hp V inb_S104x64_S26x64_0_0 _ (fun _ => rfl)

theorem row_val6_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk6_1).view p)⟩]) x = gath I W x :=
  row_val_core L r₁ 1 I W p hp V inb_S104x64_S26x64_26_0 _ (fun _ => rfl)

theorem row_val6_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk6_2).view p)⟩]) x = gath I W x :=
  row_val_core L r₁ 2 I W p hp V inb_S104x64_S26x64_52_0 _ (fun _ => rfl)

theorem row_val6_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk6_3).view p)⟩]) x = gath I W x :=
  row_val_core L r₁ 3 I W p hp V inb_S104x64_S26x64_78_0 _ (fun _ => rfl)

theorem row_val7_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk7_0).view p)⟩]) x = gath I W x :=
  row_val_core L r₁ 0 I W p hp V inb_S104x64_S26x64_0_0 _ (fun _ => rfl)

theorem row_val7_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk7_1).view p)⟩]) x = gath I W x :=
  row_val_core L r₁ 1 I W p hp V inb_S104x64_S26x64_26_0 _ (fun _ => rfl)

theorem row_val7_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk7_2).view p)⟩]) x = gath I W x :=
  row_val_core L r₁ 2 I W p hp V inb_S104x64_S26x64_52_0 _ (fun _ => rfl)

theorem row_val7_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk7_3).view p)⟩]) x = gath I W x :=
  row_val_core L r₁ 3 I W p hp V inb_S104x64_S26x64_78_0 _ (fun _ => rfl)

theorem row_val8_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk8_0).view p)⟩]) x = gath I W x :=
  row_val_core L r₁ 0 I W p hp V inb_S104x64_S26x64_0_0 _ (fun _ => rfl)

theorem row_val8_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk8_1).view p)⟩]) x = gath I W x :=
  row_val_core L r₁ 1 I W p hp V inb_S104x64_S26x64_26_0 _ (fun _ => rfl)

theorem row_val8_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk8_2).view p)⟩]) x = gath I W x :=
  row_val_core L r₁ 2 I W p hp V inb_S104x64_S26x64_52_0 _ (fun _ => rfl)

theorem row_val8_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk8_3).view p)⟩]) x = gath I W x :=
  row_val_core L r₁ 3 I W p hp V inb_S104x64_S26x64_78_0 _ (fun _ => rfl)

end Row

end Cert.Proof.KIdeal

end
-- ==== Proof.KIdeal.Body.lean ====
/-
  One tile's task of the gather kernel.

  Tile number t = 2 i + c holds rows 32 t … 32 t + 31 of the re-laid index table (each row: four batch rows' 26
  indices), a read token of the padded embedding table, and batch rows 128 t … 128 t + 127 of the result. It copies
  its index rows into its own memory, then for each of its 32 index rows k: gathers the 104 table rows the row names
  into a row buffer (four such buffers, three gathers ahead), copies columns 0…63 of each gathered row into a packed
  buffer (four such), and copies the packed buffer's four blocks of 26 rows out to batch rows 128 t + 4 k + j,
  j < 4, of the result, all four on one semaphore; a packed buffer is written again only after its four copies
  out have all been waited for. So result[128 t + 4 k + j, f, :] = table[index row (32 t + k) at 26 j + f, 0…63].
-/
import proofs.«206479_g70076686402233_cont_9to1c4b_78_46_alg».proof.Proof.KIdeal.Chain
import proofs.«206479_g70076686402233_cont_9to1c4b_78_46_alg».proof.Proof.KIdeal.PackStep
import proofs.«206479_g70076686402233_cont_9to1c4b_78_46_alg».proof.Proof.KIdeal.EndFacts
import proofs.«206479_g70076686402233_cont_9to1c4b_78_46_alg».proof.Proof.KIdeal.GatherVal

noncomputable section

namespace Cert.Proof.KIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lib.OwnSplit

variable {F : FTy → Type}

local notation "𝕄" => MT nD τ sig (HIx 1) (Elt F) ℕ UU ℕ

variable (VI : (d : Dev nD) → Buf (Elt F) (iLoc d)) (VW : (d : Dev nD) → Buf (Elt F) (wLoc d))
variable (VO GO : (d : Dev nD) → Buf (Elt F) (oLoc d))
variable [FloatOps F]

section Tile

variable (d : Dev nD) (L : grid0.Coords)

/-- Between trips of a packing loop over buffer pair 0: the row buffer at R, the packed buffer agreeing with it on the rows
    copied so far. -/
def packV0 (R : Buf (Elt F) ((Memref.whole cc0_scratch1 : Memref sig .scVector .vmem S104x128 .f32).view.loc (thr d L))) (k : Nat) (_ : PUnit) : sProp 𝕄 :=
  iprop(((Memref.whole cc0_scratch1 : Memref sig .scVector .vmem S104x128 .f32).view.loc (thr d L) ↦{fullShare} R)
    ∗ ∃ p : Buf (Elt F) ((Memref.whole cc0_scratch5 : Memref sig .scVector .vmem S104x64 .f32).view.loc (thr d L)),
        ⌜PackedUpTo k p R⌝ ∗ ((Memref.whole cc0_scratch5 : Memref sig .scVector .vmem S104x64 .f32).view.loc (thr d L) ↦{fullShare} p))

/-- Between trips of a packing loop over buffer pair 1: the row buffer at R, the packed buffer agreeing with it on the rows
    copied so far. -/
def packV1 (R : Buf (Elt F) ((Memref.whole cc0_scratch2 : Memref sig .scVector .vmem S104x128 .f32).view.loc (thr d L))) (k : Nat) (_ : PUnit) : sProp 𝕄 :=
  iprop(((Memref.whole cc0_scratch2 : Memref sig .scVector .vmem S104x128 .f32).view.loc (thr d L) ↦{fullShare} R)
    ∗ ∃ p : Buf (Elt F) ((Memref.whole cc0_scratch6 : Memref sig .scVector .vmem S104x64 .f32).view.loc (thr d L)),
        ⌜PackedUpTo k p R⌝ ∗ ((Memref.whole cc0_scratch6 : Memref sig .scVector .vmem S104x64 .f32).view.loc (thr d L) ↦{fullShare} p))

/-- Between trips of a packing loop over buffer pair 2: the row buffer at R, the packed buffer agreeing with it on the rows
    copied so far. -/
def packV2 (R : Buf (Elt F) ((Memref.whole cc0_scratch3 : Memref sig .scVector .vmem S104x128 .f32).view.loc (thr d L))) (k : Nat) (_ : PUnit) : sProp 𝕄 :=
  iprop(((Memref.whole cc0_scratch3 : Memref sig .scVector .vmem S104x128 .f32).view.loc (thr d L) ↦{fullShare} R)
    ∗ ∃ p : Buf (Elt F) ((Memref.whole cc0_scratch7 : Memref sig .scVector .vmem S104x64 .f32).view.loc (thr d L)),
        ⌜PackedUpTo k p R⌝ ∗ ((Memref.whole cc0_scratch7 : Memref sig .scVector .vmem S104x64 .f32).view.loc (thr d L) ↦{fullShare} p))

/-- Between trips of a packing loop over buffer pair 3: the row buffer at R, the packed buffer agreeing with it on the rows
    copied so far. -/
def packV3 (R : Buf (Elt F) ((Memref.whole cc0_scratch4 : Memref sig .scVector .vmem S104x128 .f32).view.loc (thr d L))) (k : Nat) (_ : PUnit) : sProp 𝕄 :=
  iprop(((Memref.whole cc0_scratch4 : Memref sig .scVector .vmem S104x128 .f32).view.loc (thr d L) ↦{fullShare} R)
    ∗ ∃ p : Buf (Elt F) ((Memref.whole cc0_scratch8 : Memref sig .scVector .vmem S104x64 .f32).view.loc (thr d L)),
        ⌜PackedUpTo k p R⌝ ∗ ((Memref.whole cc0_scratch8 : Memref sig .scVector .vmem S104x64 .f32).view.loc (thr d L) ↦{fullShare} p))

set_option maxHeartbeats 0 in
theorem tile_body (hVI : ∀ y, (VI d y).toNat < 100000) (hGO : GO d = Cert.Proof.Spec.gath (VI d) (VW d)) (O : CellTallies nD τ sig (HIx 1)) (W : Waits sig (HIx 1)) (hO : ∀ g, O g none = 0) :
    iprop(levAts (K (F := F)).L (K (F := F)).lev ∗ emp ∗ tileRes VI VW d (cL L) (jL L) (VO d)
        ∗ scopedBufs (thr d L) ∗ scopedSems0 (thr d L) ∗ owes (thr d L) O W)
      ⊢ wp frame (wpE (defs₀ (F := F)) 𝒱₀ (thr d L) none) Set.univ
          (cc0_gather_kernel L (Memref.whole main_v0_scv) (Memref.isWhole_whole _) (Memref.whole main_v1_scv) (Memref.isWhole_whole _)
            (Memref.whole main_v2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scratch11 cc0_scratch12 cc0_scratch13 cc0_scratch14 cc0_scratch15 cc0_scratch16 cc0_scoped0)
          fun _ => iprop(tileRes VI VW d (cL L) (jL L) (GO d) ∗ scopedBufs (thr d L) ∗ scopedSems0 (thr d L)
            ∗ ∃ W', ⌜∀ p ∈ W', p ∈ W ∨ p.2 = none⌝ ∗ owes (thr d L) O W') := by
  rw [hGO]
  simp only [cc0_gather_kernel_eq_skeleton]; unfold cc0_gather_kernel_skel
  rw [(K (F := F)).scopedBufs_V facts d (cV L) (jV L), SparseCore.Cfg.scopedSems0_V (Val := Elt F) d (cV L) (jV L),
    ownSems0_split (thr d L) semList semList_nodup semList_scoped, ownBufs_split (thr d L) (bufList L) (bufList_nodup L) (bufList_own d L)]
  simp only [bigSepL_cons, bigSepL_nil, sep_spell, emp_spell]
  iintro ⟨#Hlv, -, ⟨Hi, Hw, Ho⟩, ⟨Hbl, Hbrest⟩, ⟨Hsl, Hsrest⟩, HO⟩
  icases Hbl with ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, -⟩
  icases Hsl with ⟨Hg0, Hg1, Hg2, Hg3, Hs0, Hs1, Hs2, Hs3, Hsc, -⟩
  have e0 : (((d, (Proc.scVector (cV L) (jV L)).devRef cc0_scratch0) : Loc nD τ sig) ↦{fullShare} f0 : sProp 𝕄)
      = ((Memref.whole cc0_scratch0 : Memref sig .scVector .vmem S32x104 .i32).view.loc (thr d L) ↦{fullShare} f0) := rfl
  ihave Hr0 := (Entails.of_eq e0) $$ Hb0
  have e1 : (((d, (Proc.scVector (cV L) (jV L)).devRef cc0_scratch1) : Loc nD τ sig) ↦{fullShare} f1 : sProp 𝕄)
      = ((Memref.whole cc0_scratch1 : Memref sig .scVector .vmem S104x128 .f32).view.loc (thr d L) ↦{fullShare} f1) := rfl
  ihave Hr1 := (Entails.of_eq e1) $$ Hb1
  have e2 : (((d, (Proc.scVector (cV L) (jV L)).devRef cc0_scratch2) : Loc nD τ sig) ↦{fullShare} f2 : sProp 𝕄)
      = ((Memref.whole cc0_scratch2 : Memref sig .scVector .vmem S104x128 .f32).view.loc (thr d L) ↦{fullShare} f2) := rfl
  ihave Hr2 := (Entails.of_eq e2) $$ Hb2
  have e3 : (((d, (Proc.scVector (cV L) (jV L)).devRef cc0_scratch3) : Loc nD τ sig) ↦{fullShare} f3 : sProp 𝕄)
      = ((Memref.whole cc0_scratch3 : Memref sig .scVector .vmem S104x128 .f32).view.loc (thr d L) ↦{fullShare} f3) := rfl
  ihave Hr3 := (Entails.of_eq e3) $$ Hb3
  have e4 : (((d, (Proc.scVector (cV L) (jV L)).devRef cc0_scratch4) : Loc nD τ sig) ↦{fullShare} f4 : sProp 𝕄)
      = ((Memref.whole cc0_scratch4 : Memref sig .scVector .vmem S104x128 .f32).view.loc (thr d L) ↦{fullShare} f4) := rfl
  ihave Hr4 := (Entails.of_eq e4) $$ Hb4
  have e5 : (((d, (Proc.scVector (cV L) (jV L)).devRef cc0_scratch5) : Loc nD τ sig) ↦{fullShare} f5 : sProp 𝕄)
      = ((Memref.whole cc0_scratch5 : Memref sig .scVector .vmem S104x64 .f32).view.loc (thr d L) ↦{fullShare} f5) := rfl
  ihave Hr5 := (Entails.of_eq e5) $$ Hb5
  have e6 : (((d, (Proc.scVector (cV L) (jV L)).devRef cc0_scratch6) : Loc nD τ sig) ↦{fullShare} f6 : sProp 𝕄)
      = ((Memref.whole cc0_scratch6 : Memref sig .scVector .vmem S104x64 .f32).view.loc (thr d L) ↦{fullShare} f6) := rfl
  ihave Hr6 := (Entails.of_eq e6) $$ Hb6
  have e7 : (((d, (Proc.scVector (cV L) (jV L)).devRef cc0_scratch7) : Loc nD τ sig) ↦{fullShare} f7 : sProp 𝕄)
      = ((Memref.whole cc0_scratch7 : Memref sig .scVector .vmem S104x64 .f32).view.loc (thr d L) ↦{fullShare} f7) := rfl
  ihave Hr7 := (Entails.of_eq e7) $$ Hb7
  have e8 : (((d, (Proc.scVector (cV L) (jV L)).devRef cc0_scratch8) : Loc nD τ sig) ↦{fullShare} f8 : sProp 𝕄)
      = ((Memref.whole cc0_scratch8 : Memref sig .scVector .vmem S104x64 .f32).view.loc (thr d L) ↦{fullShare} f8) := rfl
  ihave Hr8 := (Entails.of_eq e8) $$ Hb8
  ihave Hmw := ((K (F := F)).mayWaits_none (thr := thr d L) hO) $$ Hlv
  ihave Hi := (Entails.of_eq (pts_iSl (F := F) d L _).symm) $$ Hi
  ihave Hw := (toks4 (F := F) _ _).1 $$ Hw
  icases Hw with ⟨Hwr, Hw0, Hw1, Hw2, Hw3⟩
  have ew (q : PosShare TreeShare) : ((wLoc d) ↦{q} VW d : sProp 𝕄)
      = ((Memref.whole main_v1_scv : Memref sig .scVector .hbm S100000x128 .f32).view.loc (thr d L) ↦{q} VW d) := rfl
  ihave Hw0 := (Entails.of_eq (ew _)) $$ Hw0
  ihave Hw1 := (Entails.of_eq (ew _)) $$ Hw1
  ihave Hw2 := (Entails.of_eq (ew _)) $$ Hw2
  ihave Hw3 := (Entails.of_eq (ew _)) $$ Hw3
  sl_exec_parts
  have hw0 : View.write (Elt F) (Memref.whole cc0_scratch0 : Memref sig .scVector .vmem S32x104 .i32).view f0 (tile_body.sl.dma0 VI d L) Finset.univ
      = tile_body.sl.dma0 VI d L := View.write_whole_univ _ _ _
  rw [hw0]
  have hFO : ∀ y, ((tile_body.sl.dma0 VI d L) y).toNat < 100000 := by
    intro y
    show (View.read (Elt F) (iSl L).view (VI d) y).toNat < 100000
    rw [(View.read_apply _ _).trans (cast_eq _ _)]
    exact hVI _
  have hinAll : ∀ (k : Nat) (hk : ∀ a, (![k, 0] : Fin 2 → Nat) a + S1x104.size a ≤ S32x104.size a) x,
      ((((Memref.whole cc0_scratch0 : Memref sig .scVector .vmem S32x104 .i32).slice (Rect.unit (s := S32x104) ![k, 0] S1x104.size hk) (fun _ => rfl)).squeeze S104
        Facts₀.squeezes_S1x104_S104).view.read (Elt F) (tile_body.sl.dma0 VI d L) x).toNat < 100000 := by
    intro k hk x
    rw [(View.read_apply _ _).trans (cast_eq _ _)]
    exact hFO _
  ihave Ho := (Entails.of_eq (rows_chain (F := F) d L _)) $$ Ho
  icases Ho with ⟨Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3, Ho5_0, Ho5_1, Ho5_2, Ho5_3, Ho6_0, Ho6_1, Ho6_2, Ho6_3, Ho7_0, Ho7_1, Ho7_2, Ho7_3, Ho8_0, Ho8_1, Ho8_2, Ho8_3, Ho9_0, Ho9_1, Ho9_2, Ho9_3, Ho10_0, Ho10_1, Ho10_2, Ho10_3, Ho11_0, Ho11_1, Ho11_2, Ho11_3, Ho12_0, Ho12_1, Ho12_2, Ho12_3, Ho13_0, Ho13_1, Ho13_2, Ho13_3, Ho14_0, Ho14_1, Ho14_2, Ho14_3, Ho15_0, Ho15_1, Ho15_2, Ho15_3, Ho16_0, Ho16_1, Ho16_2, Ho16_3, Ho17_0, Ho17_1, Ho17_2, Ho17_3, Ho18_0, Ho18_1, Ho18_2, Ho18_3, Ho19_0, Ho19_1, Ho19_2, Ho19_3, Ho20_0, Ho20_1, Ho20_2, Ho20_3, Ho21_0, Ho21_1, Ho21_2, Ho21_3, Ho22_0, Ho22_1, Ho22_2, Ho22_3, Ho23_0, Ho23_1, Ho23_2, Ho23_3, Ho24_0, Ho24_1, Ho24_2, Ho24_3, Ho25_0, Ho25_1, Ho25_2, Ho25_3, Ho26_0, Ho26_1, Ho26_2, Ho26_3, Ho27_0, Ho27_1, Ho27_2, Ho27_3, Ho28_0, Ho28_1, Ho28_2, Ho28_3, Ho29_0, Ho29_1, Ho29_2, Ho29_3, Ho30_0, Ho30_1, Ho30_2, Ho30_3, Ho31_0, Ho31_1, Ho31_2, Ho31_3, -⟩
  have hbs0 : Transfers.BatchOf (thr d L) (SemLoc.dma cc0_scratch13.sem) 4 := trivial
  have hbs1 : Transfers.BatchOf (thr d L) (SemLoc.dma cc0_scratch14.sem) 4 := trivial
  have hbs2 : Transfers.BatchOf (thr d L) (SemLoc.dma cc0_scratch15.sem) 4 := trivial
  have hbs3 : Transfers.BatchOf (thr d L) (SemLoc.dma cc0_scratch16.sem) 4 := trivial
  -- chunk 0
  sl_exec_parts
  ihave Hn := (pts_name (F := F) _) $$ Hr1
  icases Hn with ⟨%R0, %hR0, Hr1⟩
  sl_for (packV0 (F := F) d L R0) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t1_abs.2.1) R0 p _ _ _ _ _ _ _ _ _ _ _ _ _ _ _ _ _ _
        (k0_off2_eq k) (k0_off3_eq k) (k0_off4_eq k) (k0_off5_eq k) (k0_off6_eq k) (k0_off7_eq k) (k0_off8_eq k) (k0_off9_eq k) hp
  · unfold packV0
    isplitl [Hr1]; · iexact Hr1
    iexists _; isplitr; swap
    · iexact Hr5
    · ipureintro; exact packed_zero _ _
  iintro %_ HI
  unfold packV0
  icases HI with ⟨Hr1, %p0, %hp0, Hr5⟩
  ihave Hp := (Entails.of_eq (pts_blocks5 (F := F) d (cV L) (jV L) _)) $$ Hr5
  icases Hp with ⟨Hp0_0, Hp0_1, Hp0_2, Hp0_3⟩
  have hq0 : PackedUpTo 104 p0 (gathered L 0 (VI d) (VW d)) := by
    have h := hp0
    rw [trips_1] at h
    exact (hR0.trans (gather_buf1 (F := F) L 0 (VI d) (VW d) _ _ _ _ _ _ _)) ▸ h
  -- chunk 1
  sl_exec_parts
  ihave Hn := (pts_name (F := F) _) $$ Hr2
  icases Hn with ⟨%R1, %hR1, Hr2⟩
  sl_for (packV1 (F := F) d L R1) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t2_abs.2.1) R1 p _ _ _ _ _ _ _ _ _ _ _ _ _ _ _ _ _ _
        (k0_off11_eq k) (k0_off12_eq k) (k0_off13_eq k) (k0_off14_eq k) (k0_off15_eq k) (k0_off16_eq k) (k0_off17_eq k) (k0_off18_eq k) hp
  · unfold packV1
    isplitl [Hr2]; · iexact Hr2
    iexists _; isplitr; swap
    · iexact Hr6
    · ipureintro; exact packed_zero _ _
  iintro %_ HI
  unfold packV1
  icases HI with ⟨Hr2, %p1, %hp1, Hr6⟩
  ihave Hp := (Entails.of_eq (pts_blocks6 (F := F) d (cV L) (jV L) _)) $$ Hr6
  icases Hp with ⟨Hp1_0, Hp1_1, Hp1_2, Hp1_3⟩
  have hq1 : PackedUpTo 104 p1 (gathered L 1 (VI d) (VW d)) := by
    have h := hp1
    rw [trips_2] at h
    exact (hR1.trans (gather_buf2 (F := F) L 1 (VI d) (VW d) _ _ _ _ _ _ _)) ▸ h
  -- chunk 2
  sl_exec_parts
  ihave Hn := (pts_name (F := F) _) $$ Hr3
  icases Hn with ⟨%R2, %hR2, Hr3⟩
  sl_for (packV2 (F := F) d L R2) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t3_abs.2.1) R2 p _ _ _ _ _ _ _ _ _ _ _ _ _ _ _ _ _ _
        (k0_off19_eq k) (k0_off20_eq k) (k0_off21_eq k) (k0_off22_eq k) (k0_off23_eq k) (k0_off24_eq k) (k0_off25_eq k) (k0_off26_eq k) hp
  · unfold packV2
    isplitl [Hr3]; · iexact Hr3
    iexists _; isplitr; swap
    · iexact Hr7
    · ipureintro; exact packed_zero _ _
  iintro %_ HI
  unfold packV2
  icases HI with ⟨Hr3, %p2, %hp2, Hr7⟩
  ihave Hp := (Entails.of_eq (pts_blocks7 (F := F) d (cV L) (jV L) _)) $$ Hr7
  icases Hp with ⟨Hp2_0, Hp2_1, Hp2_2, Hp2_3⟩
  have hq2 : PackedUpTo 104 p2 (gathered L 2 (VI d) (VW d)) := by
    have h := hp2
    rw [trips_3] at h
    exact (hR2.trans (gather_buf3 (F := F) L 2 (VI d) (VW d) _ _ _ _ _ _ _)) ▸ h
  -- chunk 3
  sl_exec_parts
  ihave Hn := (pts_name (F := F) _) $$ Hr4
  icases Hn with ⟨%R3, %hR3, Hr4⟩
  sl_for (packV3 (F := F) d L R3) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t4_abs.2.1) R3 p _ _ _ _ _ _ _ _ _ _ _ _ _ _ _ _ _ _
        (k0_off27_eq k) (k0_off28_eq k) (k0_off29_eq k) (k0_off30_eq k) (k0_off31_eq k) (k0_off32_eq k) (k0_off33_eq k) (k0_off34_eq k) hp
  · unfold packV3
    isplitl [Hr4]; · iexact Hr4
    iexists _; isplitr; swap
    · iexact Hr8
    · ipureintro; exact packed_zero _ _
  iintro %_ HI
  unfold packV3
  icases HI with ⟨Hr4, %p3, %hp3, Hr8⟩
  ihave Hp := (Entails.of_eq (pts_blocks8 (F := F) d (cV L) (jV L) _)) $$ Hr8
  icases Hp with ⟨Hp3_0, Hp3_1, Hp3_2, Hp3_3⟩
  have hq3 : PackedUpTo 104 p3 (gathered L 3 (VI d) (VW d)) := by
    have h := hp3
    rw [trips_4] at h
    exact (hR3.trans (gather_buf4 (F := F) L 3 (VI d) (VW d) _ _ _ _ _ _ _)) ▸ h
  -- chunk 4
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R4, %hR4, Hr1⟩
  sl_for (packV0 (F := F) d L R4) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t5_abs.2.1) R4 p _ _ _ _ _ _ _ _ _ _ _ _ _ _ _ _ _ _
        (k0_off35_eq k) (k0_off36_eq k) (k0_off37_eq k) (k0_off38_eq k) (k0_off39_eq k) (k0_off40_eq k) (k0_off41_eq k) (k0_off42_eq k) hp
  · unfold packV0
    isplitl [Hr1]; · iexact Hr1
    iexists _; isplitr; swap
    · iexact Hr5
    · ipureintro; exact packed_zero _ _
  iintro %_ HI
  unfold packV0
  icases HI with ⟨Hr1, %p4, %hp4, Hr5⟩
  ihave Hp := (Entails.of_eq (pts_blocks5 (F := F) d (cV L) (jV L) _)) $$ Hr5
  icases Hp with ⟨Hp0_0, Hp0_1, Hp0_2, Hp0_3⟩
  have hq4 : PackedUpTo 104 p4 (gathered L 4 (VI d) (VW d)) := by
    have h := hp4
    rw [trips_5] at h
    exact (hR4.trans (gather_buf1 (F := F) L 4 (VI d) (VW d) _ _ _ _ _ _ _)) ▸ h
  -- chunk 5
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R5, %hR5, Hr2⟩
  sl_for (packV1 (F := F) d L R5) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t6_abs.2.1) R5 p _ _ _ _ _ _ _ _ _ _ _ _ _ _ _ _ _ _
        (k0_off43_eq k) (k0_off44_eq k) (k0_off45_eq k) (k0_off46_eq k) (k0_off47_eq k) (k0_off48_eq k) (k0_off49_eq k) (k0_off50_eq k) hp
  · unfold packV1
    isplitl [Hr2]; · iexact Hr2
    iexists _; isplitr; swap
    · iexact Hr6
    · ipureintro; exact packed_zero _ _
  iintro %_ HI
  unfold packV1
  icases HI with ⟨Hr2, %p5, %hp5, Hr6⟩
  ihave Hp := (Entails.of_eq (pts_blocks6 (F := F) d (cV L) (jV L) _)) $$ Hr6
  icases Hp with ⟨Hp1_0, Hp1_1, Hp1_2, Hp1_3⟩
  have hq5 : PackedUpTo 104 p5 (gathered L 5 (VI d) (VW d)) := by
    have h := hp5
    rw [trips_6] at h
    exact (hR5.trans (gather_buf2 (F := F) L 5 (VI d) (VW d) _ _ _ _ _ _ _)) ▸ h
  -- chunk 6
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R6, %hR6, Hr3⟩
  sl_for (packV2 (F := F) d L R6) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t7_abs.2.1) R6 p _ _ _ _ _ _ _ _ _ _ _ _ _ _ _ _ _ _
        (k0_off51_eq k) (k0_off52_eq k) (k0_off53_eq k) (k0_off54_eq k) (k0_off55_eq k) (k0_off56_eq k) (k0_off57_eq k) (k0_off58_eq k) hp
  · unfold packV2
    isplitl [Hr3]; · iexact Hr3
    iexists _; isplitr; swap
    · iexact Hr7
    · ipureintro; exact packed_zero _ _
  iintro %_ HI
  unfold packV2
  icases HI with ⟨Hr3, %p6, %hp6, Hr7⟩
  ihave Hp := (Entails.of_eq (pts_blocks7 (F := F) d (cV L) (jV L) _)) $$ Hr7
  icases Hp with ⟨Hp2_0, Hp2_1, Hp2_2, Hp2_3⟩
  have hq6 : PackedUpTo 104 p6 (gathered L 6 (VI d) (VW d)) := by
    have h := hp6
    rw [trips_7] at h
    exact (hR6.trans (gather_buf3 (F := F) L 6 (VI d) (VW d) _ _ _ _ _ _ _)) ▸ h
  -- chunk 7
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R7, %hR7, Hr4⟩
  sl_for (packV3 (F := F) d L R7) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t8_abs.2.1) R7 p _ _ _ _ _ _ _ _ _ _ _ _ _ _ _ _ _ _
        (k0_off59_eq k) (k0_off60_eq k) (k0_off61_eq k) (k0_off62_eq k) (k0_off63_eq k) (k0_off64_eq k) (k0_off65_eq k) (k0_off66_eq k) hp
  · unfold packV3
    isplitl [Hr4]; · iexact Hr4
    iexists _; isplitr; swap
    · iexact Hr8
    · ipureintro; exact packed_zero _ _
  iintro %_ HI
  unfold packV3
  icases HI with ⟨Hr4, %p7, %hp7, Hr8⟩
  ihave Hp := (Entails.of_eq (pts_blocks8 (F := F) d (cV L) (jV L) _)) $$ Hr8
  icases Hp with ⟨Hp3_0, Hp3_1, Hp3_2, Hp3_3⟩
  have hq7 : PackedUpTo 104 p7 (gathered L 7 (VI d) (VW d)) := by
    have h := hp7
    rw [trips_8] at h
    exact (hR7.trans (gather_buf4 (F := F) L 7 (VI d) (VW d) _ _ _ _ _ _ _)) ▸ h
  -- chunk 8
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R8, %hR8, Hr1⟩
  sl_for (packV0 (F := F) d L R8) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t9_abs.2.1) R8 p _ _ _ _ _ _ _ _ _ _ _ _ _ _ _ _ _ _
        (k0_off67_eq k) (k0_off68_eq k) (k0_off69_eq k) (k0_off70_eq k) (k0_off71_eq k) (k0_off72_eq k) (k0_off73_eq k) (k0_off74_eq k) hp
  · unfold packV0
    isplitl [Hr1]; · iexact Hr1
    iexists _; isplitr; swap
    · iexact Hr5
    · ipureintro; exact packed_zero _ _
  iintro %_ HI
  unfold packV0
  icases HI with ⟨Hr1, %p8, %hp8, Hr5⟩
  ihave Hp := (Entails.of_eq (pts_blocks5 (F := F) d (cV L) (jV L) _)) $$ Hr5
  icases Hp with ⟨Hp0_0, Hp0_1, Hp0_2, Hp0_3⟩
  have hq8 : PackedUpTo 104 p8 (gathered L 8 (VI d) (VW d)) := by
    have h := hp8
    rw [trips_9] at h
    exact (hR8.trans (gather_buf1 (F := F) L 8 (VI d) (VW d) _ _ _ _ _ _ _)) ▸ h
  -- chunk 9
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R9, %hR9, Hr2⟩
  sl_for (packV1 (F := F) d L R9) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t10_abs.2.1) R9 p _ _ _ _ _ _ _ _ _ _ _ _ _ _ _ _ _ _
        (k0_off75_eq k) (k0_off76_eq k) (k0_off77_eq k) (k0_off78_eq k) (k0_off79_eq k) (k0_off80_eq k) (k0_off81_eq k) (k0_off82_eq k) hp
  · unfold packV1
    isplitl [Hr2]; · iexact Hr2
    iexists _; isplitr; swap
    · iexact Hr6
    · ipureintro; exact packed_zero _ _
  iintro %_ HI
  unfold packV1
  icases HI with ⟨Hr2, %p9, %hp9, Hr6⟩
  ihave Hp := (Entails.of_eq (pts_blocks6 (F := F) d (cV L) (jV L) _)) $$ Hr6
  icases Hp with ⟨Hp1_0, Hp1_1, Hp1_2, Hp1_3⟩
  have hq9 : PackedUpTo 104 p9 (gathered L 9 (VI d) (VW d)) := by
    have h := hp9
    rw [trips_10] at h
    exact (hR9.trans (gather_buf2 (F := F) L 9 (VI d) (VW d) _ _ _ _ _ _ _)) ▸ h
  -- chunk 10
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R10, %hR10, Hr3⟩
  sl_for (packV2 (F := F) d L R10) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t11_abs.2.1) R10 p _ _ _ _ _ _ _ _ _ _ _ _ _ _ _ _ _ _
        (k0_off83_eq k) (k0_off84_eq k) (k0_off85_eq k) (k0_off86_eq k) (k0_off87_eq k) (k0_off88_eq k) (k0_off89_eq k) (k0_off90_eq k) hp
  · unfold packV2
    isplitl [Hr3]; · iexact Hr3
    iexists _; isplitr; swap
    · iexact Hr7
    · ipureintro; exact packed_zero _ _
  iintro %_ HI
  unfold packV2
  icases HI with ⟨Hr3, %p10, %hp10, Hr7⟩
  ihave Hp := (Entails.of_eq (pts_blocks7 (F := F) d (cV L) (jV L) _)) $$ Hr7
  icases Hp with ⟨Hp2_0, Hp2_1, Hp2_2, Hp2_3⟩
  have hq10 : PackedUpTo 104 p10 (gathered L 10 (VI d) (VW d)) := by
    have h := hp10
    rw [trips_11] at h
    exact (hR10.trans (gather_buf3 (F := F) L 10 (VI d) (VW d) _ _ _ _ _ _ _)) ▸ h
  -- chunk 11
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R11, %hR11, Hr4⟩
  sl_for (packV3 (F := F) d L R11) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t12_abs.2.1) R11 p _ _ _ _ _ _ _ _ _ _ _ _ _ _ _ _ _ _
        (k0_off91_eq k) (k0_off92_eq k) (k0_off93_eq k) (k0_off94_eq k) (k0_off95_eq k) (k0_off96_eq k) (k0_off97_eq k) (k0_off98_eq k) hp
  · unfold packV3
    isplitl [Hr4]; · iexact Hr4
    iexists _; isplitr; swap
    · iexact Hr8
    · ipureintro; exact packed_zero _ _
  iintro %_ HI
  unfold packV3
  icases HI with ⟨Hr4, %p11, %hp11, Hr8⟩
  ihave Hp := (Entails.of_eq (pts_blocks8 (F := F) d (cV L) (jV L) _)) $$ Hr8
  icases Hp with ⟨Hp3_0, Hp3_1, Hp3_2, Hp3_3⟩
  have hq11 : PackedUpTo 104 p11 (gathered L 11 (VI d) (VW d)) := by
    have h := hp11
    rw [trips_12] at h
    exact (hR11.trans (gather_buf4 (F := F) L 11 (VI d) (VW d) _ _ _ _ _ _ _)) ▸ h
  -- chunk 12
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R12, %hR12, Hr1⟩
  sl_for (packV0 (F := F) d L R12) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t13_abs.2.1) R12 p _ _ _ _ _ _ _ _ _ _ _ _ _ _ _ _ _ _
        (k0_off99_eq k) (k0_off100_eq k) (k0_off101_eq k) (k0_off102_eq k) (k0_off103_eq k) (k0_off104_eq k) (k0_off105_eq k) (k0_off106_eq k) hp
  · unfold packV0
    isplitl [Hr1]; · iexact Hr1
    iexists _; isplitr; swap
    · iexact Hr5
    · ipureintro; exact packed_zero _ _
  iintro %_ HI
  unfold packV0
  icases HI with ⟨Hr1, %p12, %hp12, Hr5⟩
  ihave Hp := (Entails.of_eq (pts_blocks5 (F := F) d (cV L) (jV L) _)) $$ Hr5
  icases Hp with ⟨Hp0_0, Hp0_1, Hp0_2, Hp0_3⟩
  have hq12 : PackedUpTo 104 p12 (gathered L 12 (VI d) (VW d)) := by
    have h := hp12
    rw [trips_13] at h
    exact (hR12.trans (gather_buf1 (F := F) L 12 (VI d) (VW d) _ _ _ _ _ _ _)) ▸ h
  -- chunk 13
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R13, %hR13, Hr2⟩
  sl_for (packV1 (F := F) d L R13) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t14_abs.2.1) R13 p _ _ _ _ _ _ _ _ _ _ _ _ _ _ _ _ _ _
        (k0_off107_eq k) (k0_off108_eq k) (k0_off109_eq k) (k0_off110_eq k) (k0_off111_eq k) (k0_off112_eq k) (k0_off113_eq k) (k0_off114_eq k) hp
  · unfold packV1
    isplitl [Hr2]; · iexact Hr2
    iexists _; isplitr; swap
    · iexact Hr6
    · ipureintro; exact packed_zero _ _
  iintro %_ HI
  unfold packV1
  icases HI with ⟨Hr2, %p13, %hp13, Hr6⟩
  ihave Hp := (Entails.of_eq (pts_blocks6 (F := F) d (cV L) (jV L) _)) $$ Hr6
  icases Hp with ⟨Hp1_0, Hp1_1, Hp1_2, Hp1_3⟩
  have hq13 : PackedUpTo 104 p13 (gathered L 13 (VI d) (VW d)) := by
    have h := hp13
    rw [trips_14] at h
    exact (hR13.trans (gather_buf2 (F := F) L 13 (VI d) (VW d) _ _ _ _ _ _ _)) ▸ h
  -- chunk 14
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R14, %hR14, Hr3⟩
  sl_for (packV2 (F := F) d L R14) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t15_abs.2.1) R14 p _ _ _ _ _ _ _ _ _ _ _ _ _ _ _ _ _ _
        (k0_off115_eq k) (k0_off116_eq k) (k0_off117_eq k) (k0_off118_eq k) (k0_off119_eq k) (k0_off120_eq k) (k0_off121_eq k) (k0_off122_eq k) hp
  · unfold packV2
    isplitl [Hr3]; · iexact Hr3
    iexists _; isplitr; swap
    · iexact Hr7
    · ipureintro; exact packed_zero _ _
  iintro %_ HI
  unfold packV2
  icases HI with ⟨Hr3, %p14, %hp14, Hr7⟩
  ihave Hp := (Entails.of_eq (pts_blocks7 (F := F) d (cV L) (jV L) _)) $$ Hr7
  icases Hp with ⟨Hp2_0, Hp2_1, Hp2_2, Hp2_3⟩
  have hq14 : PackedUpTo 104 p14 (gathered L 14 (VI d) (VW d)) := by
    have h := hp14
    rw [trips_15] at h
    exact (hR14.trans (gather_buf3 (F := F) L 14 (VI d) (VW d) _ _ _ _ _ _ _)) ▸ h
  -- chunk 15
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R15, %hR15, Hr4⟩
  sl_for (packV3 (F := F) d L R15) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t16_abs.2.1) R15 p _ _ _ _ _ _ _ _ _ _ _ _ _ _ _ _ _ _
        (k0_off123_eq k) (k0_off124_eq k) (k0_off125_eq k) (k0_off126_eq k) (k0_off127_eq k) (k0_off128_eq k) (k0_off129_eq k) (k0_off130_eq k) hp
  · unfold packV3
    isplitl [Hr4]; · iexact Hr4
    iexists _; isplitr; swap
    · iexact Hr8
    · ipureintro; exact packed_zero _ _
  iintro %_ HI
  unfold packV3
  icases HI with ⟨Hr4, %p15, %hp15, Hr8⟩
  ihave Hp := (Entails.of_eq (pts_blocks8 (F := F) d (cV L) (jV L) _)) $$ Hr8
  icases Hp with ⟨Hp3_0, Hp3_1, Hp3_2, Hp3_3⟩
  have hq15 : PackedUpTo 104 p15 (gathered L 15 (VI d) (VW d)) := by
    have h := hp15
    rw [trips_16] at h
    exact (hR15.trans (gather_buf4 (F := F) L 15 (VI d) (VW d) _ _ _ _ _ _ _)) ▸ h
  -- chunk 16
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R16, %hR16, Hr1⟩
  sl_for (packV0 (F := F) d L R16) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t17_abs.2.1) R16 p _ _ _ _ _ _ _ _ _ _ _ _ _ _ _ _ _ _
        (k0_off131_eq k) (k0_off132_eq k) (k0_off133_eq k) (k0_off134_eq k) (k0_off135_eq k) (k0_off136_eq k) (k0_off137_eq k) (k0_off138_eq k) hp
  · unfold packV0
    isplitl [Hr1]; · iexact Hr1
    iexists _; isplitr; swap
    · iexact Hr5
    · ipureintro; exact packed_zero _ _
  iintro %_ HI
  unfold packV0
  icases HI with ⟨Hr1, %p16, %hp16, Hr5⟩
  ihave Hp := (Entails.of_eq (pts_blocks5 (F := F) d (cV L) (jV L) _)) $$ Hr5
  icases Hp with ⟨Hp0_0, Hp0_1, Hp0_2, Hp0_3⟩
  have hq16 : PackedUpTo 104 p16 (gathered L 16 (VI d) (VW d)) := by
    have h := hp16
    rw [trips_17] at h
    exact (hR16.trans (gather_buf1 (F := F) L 16 (VI d) (VW d) _ _ _ _ _ _ _)) ▸ h
  -- chunk 17
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R17, %hR17, Hr2⟩
  sl_for (packV1 (F := F) d L R17) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t18_abs.2.1) R17 p _ _ _ _ _ _ _ _ _ _ _ _ _ _ _ _ _ _
        (k0_off139_eq k) (k0_off140_eq k) (k0_off141_eq k) (k0_off142_eq k) (k0_off143_eq k) (k0_off144_eq k) (k0_off145_eq k) (k0_off146_eq k) hp
  · unfold packV1
    isplitl [Hr2]; · iexact Hr2
    iexists _; isplitr; swap
    · iexact Hr6
    · ipureintro; exact packed_zero _ _
  iintro %_ HI
  unfold packV1
  icases HI with ⟨Hr2, %p17, %hp17, Hr6⟩
  ihave Hp := (Entails.of_eq (pts_blocks6 (F := F) d (cV L) (jV L) _)) $$ Hr6
  icases Hp with ⟨Hp1_0, Hp1_1, Hp1_2, Hp1_3⟩
  have hq17 : PackedUpTo 104 p17 (gathered L 17 (VI d) (VW d)) := by
    have h := hp17
    rw [trips_18] at h
    exact (hR17.trans (gather_buf2 (F := F) L 17 (VI d) (VW d) _ _ _ _ _ _ _)) ▸ h
  -- chunk 18
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R18, %hR18, Hr3⟩
  sl_for (packV2 (F := F) d L R18) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t19_abs.2.1) R18 p _ _ _ _ _ _ _ _ _ _ _ _ _ _ _ _ _ _
        (k0_off147_eq k) (k0_off148_eq k) (k0_off149_eq k) (k0_off150_eq k) (k0_off151_eq k) (k0_off152_eq k) (k0_off153_eq k) (k0_off154_eq k) hp
  · unfold packV2
    isplitl [Hr3]; · iexact Hr3
    iexists _; isplitr; swap
    · iexact Hr7
    · ipureintro; exact packed_zero _ _
  iintro %_ HI
  unfold packV2
  icases HI with ⟨Hr3, %p18, %hp18, Hr7⟩
  ihave Hp := (Entails.of_eq (pts_blocks7 (F := F) d (cV L) (jV L) _)) $$ Hr7
  icases Hp with ⟨Hp2_0, Hp2_1, Hp2_2, Hp2_3⟩
  have hq18 : PackedUpTo 104 p18 (gathered L 18 (VI d) (VW d)) := by
    have h := hp18
    rw [trips_19] at h
    exact (hR18.trans (gather_buf3 (F := F) L 18 (VI d) (VW d) _ _ _ _ _ _ _)) ▸ h
  -- chunk 19
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R19, %hR19, Hr4⟩
  sl_for (packV3 (F := F) d L R19) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t20_abs.2.1) R19 p _ _ _ _ _ _ _ _ _ _ _ _ _ _ _ _ _ _
        (k0_off155_eq k) (k0_off156_eq k) (k0_off157_eq k) (k0_off158_eq k) (k0_off159_eq k) (k0_off160_eq k) (k0_off161_eq k) (k0_off162_eq k) hp
  · unfold packV3
    isplitl [Hr4]; · iexact Hr4
    iexists _; isplitr; swap
    · iexact Hr8
    · ipureintro; exact packed_zero _ _
  iintro %_ HI
  unfold packV3
  icases HI with ⟨Hr4, %p19, %hp19, Hr8⟩
  ihave Hp := (Entails.of_eq (pts_blocks8 (F := F) d (cV L) (jV L) _)) $$ Hr8
  icases Hp with ⟨Hp3_0, Hp3_1, Hp3_2, Hp3_3⟩
  have hq19 : PackedUpTo 104 p19 (gathered L 19 (VI d) (VW d)) := by
    have h := hp19
    rw [trips_20] at h
    exact (hR19.trans (gather_buf4 (F := F) L 19 (VI d) (VW d) _ _ _ _ _ _ _)) ▸ h
  -- chunk 20
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R20, %hR20, Hr1⟩
  sl_for (packV0 (F := F) d L R20) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t21_abs.2.1) R20 p _ _ _ _ _ _ _ _ _ _ _ _ _ _ _ _ _ _
        (k0_off163_eq k) (k0_off164_eq k) (k0_off165_eq k) (k0_off166_eq k) (k0_off167_eq k) (k0_off168_eq k) (k0_off169_eq k) (k0_off170_eq k) hp
  · unfold packV0
    isplitl [Hr1]; · iexact Hr1
    iexists _; isplitr; swap
    · iexact Hr5
    · ipureintro; exact packed_zero _ _
  iintro %_ HI
  unfold packV0
  icases HI with ⟨Hr1, %p20, %hp20, Hr5⟩
  ihave Hp := (Entails.of_eq (pts_blocks5 (F := F) d (cV L) (jV L) _)) $$ Hr5
  icases Hp with ⟨Hp0_0, Hp0_1, Hp0_2, Hp0_3⟩
  have hq20 : PackedUpTo 104 p20 (gathered L 20 (VI d) (VW d)) := by
    have h := hp20
    rw [trips_21] at h
    exact (hR20.trans (gather_buf1 (F := F) L 20 (VI d) (VW d) _ _ _ _ _ _ _)) ▸ h
  -- chunk 21
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R21, %hR21, Hr2⟩
  sl_for (packV1 (F := F) d L R21) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t22_abs.2.1) R21 p _ _ _ _ _ _ _ _ _ _ _ _ _ _ _ _ _ _
        (k0_off171_eq k) (k0_off172_eq k) (k0_off173_eq k) (k0_off174_eq k) (k0_off175_eq k) (k0_off176_eq k) (k0_off177_eq k) (k0_off178_eq k) hp
  · unfold packV1
    isplitl [Hr2]; · iexact Hr2
    iexists _; isplitr; swap
    · iexact Hr6
    · ipureintro; exact packed_zero _ _
  iintro %_ HI
  unfold packV1
  icases HI with ⟨Hr2, %p21, %hp21, Hr6⟩
  ihave Hp := (Entails.of_eq (pts_blocks6 (F := F) d (cV L) (jV L) _)) $$ Hr6
  icases Hp with ⟨Hp1_0, Hp1_1, Hp1_2, Hp1_3⟩
  have hq21 : PackedUpTo 104 p21 (gathered L 21 (VI d) (VW d)) := by
    have h := hp21
    rw [trips_22] at h
    exact (hR21.trans (gather_buf2 (F := F) L 21 (VI d) (VW d) _ _ _ _ _ _ _)) ▸ h
  -- chunk 22
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R22, %hR22, Hr3⟩
  sl_for (packV2 (F := F) d L R22) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t23_abs.2.1) R22 p _ _ _ _ _ _ _ _ _ _ _ _ _ _ _ _ _ _
        (k0_off179_eq k) (k0_off180_eq k) (k0_off181_eq k) (k0_off182_eq k) (k0_off183_eq k) (k0_off184_eq k) (k0_off185_eq k) (k0_off186_eq k) hp
  · unfold packV2
    isplitl [Hr3]; · iexact Hr3
    iexists _; isplitr; swap
    · iexact Hr7
    · ipureintro; exact packed_zero _ _
  iintro %_ HI
  unfold packV2
  icases HI with ⟨Hr3, %p22, %hp22, Hr7⟩
  ihave Hp := (Entails.of_eq (pts_blocks7 (F := F) d (cV L) (jV L) _)) $$ Hr7
  icases Hp with ⟨Hp2_0, Hp2_1, Hp2_2, Hp2_3⟩
  have hq22 : PackedUpTo 104 p22 (gathered L 22 (VI d) (VW d)) := by
    have h := hp22
    rw [trips_23] at h
    exact (hR22.trans (gather_buf3 (F := F) L 22 (VI d) (VW d) _ _ _ _ _ _ _)) ▸ h
  -- chunk 23
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R23, %hR23, Hr4⟩
  sl_for (packV3 (F := F) d L R23) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t24_abs.2.1) R23 p _ _ _ _ _ _ _ _ _ _ _ _ _ _ _ _ _ _
        (k0_off187_eq k) (k0_off188_eq k) (k0_off189_eq k) (k0_off190_eq k) (k0_off191_eq k) (k0_off192_eq k) (k0_off193_eq k) (k0_off194_eq k) hp
  · unfold packV3
    isplitl [Hr4]; · iexact Hr4
    iexists _; isplitr; swap
    · iexact Hr8
    · ipureintro; exact packed_zero _ _
  iintro %_ HI
  unfold packV3
  icases HI with ⟨Hr4, %p23, %hp23, Hr8⟩
  ihave Hp := (Entails.of_eq (pts_blocks8 (F := F) d (cV L) (jV L) _)) $$ Hr8
  icases Hp with ⟨Hp3_0, Hp3_1, Hp3_2, Hp3_3⟩
  have hq23 : PackedUpTo 104 p23 (gathered L 23 (VI d) (VW d)) := by
    have h := hp23
    rw [trips_24] at h
    exact (hR23.trans (gather_buf4 (F := F) L 23 (VI d) (VW d) _ _ _ _ _ _ _)) ▸ h
  -- chunk 24
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R24, %hR24, Hr1⟩
  sl_for (packV0 (F := F) d L R24) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t25_abs.2.1) R24 p _ _ _ _ _ _ _ _ _ _ _ _ _ _ _ _ _ _
        (k0_off195_eq k) (k0_off196_eq k) (k0_off197_eq k) (k0_off198_eq k) (k0_off199_eq k) (k0_off200_eq k) (k0_off201_eq k) (k0_off202_eq k) hp
  · unfold packV0
    isplitl [Hr1]; · iexact Hr1
    iexists _; isplitr; swap
    · iexact Hr5
    · ipureintro; exact packed_zero _ _
  iintro %_ HI
  unfold packV0
  icases HI with ⟨Hr1, %p24, %hp24, Hr5⟩
  ihave Hp := (Entails.of_eq (pts_blocks5 (F := F) d (cV L) (jV L) _)) $$ Hr5
  icases Hp with ⟨Hp0_0, Hp0_1, Hp0_2, Hp0_3⟩
  have hq24 : PackedUpTo 104 p24 (gathered L 24 (VI d) (VW d)) := by
    have h := hp24
    rw [trips_25] at h
    exact (hR24.trans (gather_buf1 (F := F) L 24 (VI d) (VW d) _ _ _ _ _ _ _)) ▸ h
  -- chunk 25
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R25, %hR25, Hr2⟩
  sl_for (packV1 (F := F) d L R25) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t26_abs.2.1) R25 p _ _ _ _ _ _ _ _ _ _ _ _ _ _ _ _ _ _
        (k0_off203_eq k) (k0_off204_eq k) (k0_off205_eq k) (k0_off206_eq k) (k0_off207_eq k) (k0_off208_eq k) (k0_off209_eq k) (k0_off210_eq k) hp
  · unfold packV1
    isplitl [Hr2]; · iexact Hr2
    iexists _; isplitr; swap
    · iexact Hr6
    · ipureintro; exact packed_zero _ _
  iintro %_ HI
  unfold packV1
  icases HI with ⟨Hr2, %p25, %hp25, Hr6⟩
  ihave Hp := (Entails.of_eq (pts_blocks6 (F := F) d (cV L) (jV L) _)) $$ Hr6
  icases Hp with ⟨Hp1_0, Hp1_1, Hp1_2, Hp1_3⟩
  have hq25 : PackedUpTo 104 p25 (gathered L 25 (VI d) (VW d)) := by
    have h := hp25
    rw [trips_26] at h
    exact (hR25.trans (gather_buf2 (F := F) L 25 (VI d) (VW d) _ _ _ _ _ _ _)) ▸ h
  -- chunk 26
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R26, %hR26, Hr3⟩
  sl_for (packV2 (F := F) d L R26) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t27_abs.2.1) R26 p _ _ _ _ _ _ _ _ _ _ _ _ _ _ _ _ _ _
        (k0_off211_eq k) (k0_off212_eq k) (k0_off213_eq k) (k0_off214_eq k) (k0_off215_eq k) (k0_off216_eq k) (k0_off217_eq k) (k0_off218_eq k) hp
  · unfold packV2
    isplitl [Hr3]; · iexact Hr3
    iexists _; isplitr; swap
    · iexact Hr7
    · ipureintro; exact packed_zero _ _
  iintro %_ HI
  unfold packV2
  icases HI with ⟨Hr3, %p26, %hp26, Hr7⟩
  ihave Hp := (Entails.of_eq (pts_blocks7 (F := F) d (cV L) (jV L) _)) $$ Hr7
  icases Hp with ⟨Hp2_0, Hp2_1, Hp2_2, Hp2_3⟩
  have hq26 : PackedUpTo 104 p26 (gathered L 26 (VI d) (VW d)) := by
    have h := hp26
    rw [trips_27] at h
    exact (hR26.trans (gather_buf3 (F := F) L 26 (VI d) (VW d) _ _ _ _ _ _ _)) ▸ h
  -- chunk 27
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R27, %hR27, Hr4⟩
  sl_for (packV3 (F := F) d L R27) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t28_abs.2.1) R27 p _ _ _ _ _ _ _ _ _ _ _ _ _ _ _ _ _ _
        (k0_off219_eq k) (k0_off220_eq k) (k0_off221_eq k) (k0_off222_eq k) (k0_off223_eq k) (k0_off224_eq k) (k0_off225_eq k) (k0_off226_eq k) hp
  · unfold packV3
    isplitl [Hr4]; · iexact Hr4
    iexists _; isplitr; swap
    · iexact Hr8
    · ipureintro; exact packed_zero _ _
  iintro %_ HI
  unfold packV3
  icases HI with ⟨Hr4, %p27, %hp27, Hr8⟩
  ihave Hp := (Entails.of_eq (pts_blocks8 (F := F) d (cV L) (jV L) _)) $$ Hr8
  icases Hp with ⟨Hp3_0, Hp3_1, Hp3_2, Hp3_3⟩
  have hq27 : PackedUpTo 104 p27 (gathered L 27 (VI d) (VW d)) := by
    have h := hp27
    rw [trips_28] at h
    exact (hR27.trans (gather_buf4 (F := F) L 27 (VI d) (VW d) _ _ _ _ _ _ _)) ▸ h
  -- chunk 28
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R28, %hR28, Hr1⟩
  sl_for (packV0 (F := F) d L R28) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t29_abs.2.1) R28 p _ _ _ _ _ _ _ _ _ _ _ _ _ _ _ _ _ _
        (k0_off227_eq k) (k0_off228_eq k) (k0_off229_eq k) (k0_off230_eq k) (k0_off231_eq k) (k0_off232_eq k) (k0_off233_eq k) (k0_off234_eq k) hp
  · unfold packV0
    isplitl [Hr1]; · iexact Hr1
    iexists _; isplitr; swap
    · iexact Hr5
    · ipureintro; exact packed_zero _ _
  iintro %_ HI
  unfold packV0
  icases HI with ⟨Hr1, %p28, %hp28, Hr5⟩
  ihave Hp := (Entails.of_eq (pts_blocks5 (F := F) d (cV L) (jV L) _)) $$ Hr5
  icases Hp with ⟨Hp0_0, Hp0_1, Hp0_2, Hp0_3⟩
  have hq28 : PackedUpTo 104 p28 (gathered L 28 (VI d) (VW d)) := by
    have h := hp28
    rw [trips_29] at h
    exact (hR28.trans (gather_buf1 (F := F) L 28 (VI d) (VW d) _ _ _ _ _ _ _)) ▸ h
  -- chunk 29
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R29, %hR29, Hr2⟩
  sl_for (packV1 (F := F) d L R29) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t30_abs.2.1) R29 p _ _ _ _ _ _ _ _ _ _ _ _ _ _ _ _ _ _
        (k0_off235_eq k) (k0_off236_eq k) (k0_off237_eq k) (k0_off238_eq k) (k0_off239_eq k) (k0_off240_eq k) (k0_off241_eq k) (k0_off242_eq k) hp
  · unfold packV1
    isplitl [Hr2]; · iexact Hr2
    iexists _; isplitr; swap
    · iexact Hr6
    · ipureintro; exact packed_zero _ _
  iintro %_ HI
  unfold packV1
  icases HI with ⟨Hr2, %p29, %hp29, Hr6⟩
  ihave Hp := (Entails.of_eq (pts_blocks6 (F := F) d (cV L) (jV L) _)) $$ Hr6
  icases Hp with ⟨Hp1_0, Hp1_1, Hp1_2, Hp1_3⟩
  have hq29 : PackedUpTo 104 p29 (gathered L 29 (VI d) (VW d)) := by
    have h := hp29
    rw [trips_30] at h
    exact (hR29.trans (gather_buf2 (F := F) L 29 (VI d) (VW d) _ _ _ _ _ _ _)) ▸ h
  -- chunk 30
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R30, %hR30, Hr3⟩
  sl_for (packV2 (F := F) d L R30) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t31_abs.2.1) R30 p _ _ _ _ _ _ _ _ _ _ _ _ _ _ _ _ _ _
        (k0_off243_eq k) (k0_off244_eq k) (k0_off245_eq k) (k0_off246_eq k) (k0_off247_eq k) (k0_off248_eq k) (k0_off249_eq k) (k0_off250_eq k) hp
  · unfold packV2
    isplitl [Hr3]; · iexact Hr3
    iexists _; isplitr; swap
    · iexact Hr7
    · ipureintro; exact packed_zero _ _
  iintro %_ HI
  unfold packV2
  icases HI with ⟨Hr3, %p30, %hp30, Hr7⟩
  ihave Hp := (Entails.of_eq (pts_blocks7 (F := F) d (cV L) (jV L) _)) $$ Hr7
  icases Hp with ⟨Hp2_0, Hp2_1, Hp2_2, Hp2_3⟩
  have hq30 : PackedUpTo 104 p30 (gathered L 30 (VI d) (VW d)) := by
    have h := hp30
    rw [trips_31] at h
    exact (hR30.trans (gather_buf3 (F := F) L 30 (VI d) (VW d) _ _ _ _ _ _ _)) ▸ h
  -- chunk 31
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R31, %hR31, Hr4⟩
  sl_for (packV3 (F := F) d L R31) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t32_abs.2.1) R31 p _ _ _ _ _ _ _ _ _ _ _ _ _ _ _ _ _ _
        (k0_off251_eq k) (k0_off252_eq k) (k0_off253_eq k) (k0_off254_eq k) (k0_off255_eq k) (k0_off256_eq k) (k0_off257_eq k) (k0_off258_eq k) hp
  · unfold packV3
    isplitl [Hr4]; · iexact Hr4
    iexists _; isplitr; swap
    · iexact Hr8
    · ipureintro; exact packed_zero _ _
  iintro %_ HI
  unfold packV3
  icases HI with ⟨Hr4, %p31, %hp31, Hr8⟩
  ihave Hp := (Entails.of_eq (pts_blocks8 (F := F) d (cV L) (jV L) _)) $$ Hr8
  icases Hp with ⟨Hp3_0, Hp3_1, Hp3_2, Hp3_3⟩
  have hq31 : PackedUpTo 104 p31 (gathered L 31 (VI d) (VW d)) := by
    have h := hp31
    rw [trips_32] at h
    exact (hR31.trans (gather_buf4 (F := F) L 31 (VI d) (VW d) _ _ _ _ _ _ _)) ▸ h
  sl_exec_parts
  -- the kernel's return
  sl_step
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Ho0_0 := (Entails.of_eq (pointsTo_congr (row_val5_0 (F := F) L 0 (VI d) (VW d) p0 hq0 _))) $$ Ho0_0
  ihave Ho0_1 := (Entails.of_eq (pointsTo_congr (row_val5_1 (F := F) L 0 (VI d) (VW d) p0 hq0 _))) $$ Ho0_1
  ihave Ho0_2 := (Entails.of_eq (pointsTo_congr (row_val5_2 (F := F) L 0 (VI d) (VW d) p0 hq0 _))) $$ Ho0_2
  ihave Ho0_3 := (Entails.of_eq (pointsTo_congr (row_val5_3 (F := F) L 0 (VI d) (VW d) p0 hq0 _))) $$ Ho0_3
  ihave Ho1_0 := (Entails.of_eq (pointsTo_congr (row_val6_0 (F := F) L 1 (VI d) (VW d) p1 hq1 _))) $$ Ho1_0
  ihave Ho1_1 := (Entails.of_eq (pointsTo_congr (row_val6_1 (F := F) L 1 (VI d) (VW d) p1 hq1 _))) $$ Ho1_1
  ihave Ho1_2 := (Entails.of_eq (pointsTo_congr (row_val6_2 (F := F) L 1 (VI d) (VW d) p1 hq1 _))) $$ Ho1_2
  ihave Ho1_3 := (Entails.of_eq (pointsTo_congr (row_val6_3 (F := F) L 1 (VI d) (VW d) p1 hq1 _))) $$ Ho1_3
  ihave Ho2_0 := (Entails.of_eq (pointsTo_congr (row_val7_0 (F := F) L 2 (VI d) (VW d) p2 hq2 _))) $$ Ho2_0
  ihave Ho2_1 := (Entails.of_eq (pointsTo_congr (row_val7_1 (F := F) L 2 (VI d) (VW d) p2 hq2 _))) $$ Ho2_1
  ihave Ho2_2 := (Entails.of_eq (pointsTo_congr (row_val7_2 (F := F) L 2 (VI d) (VW d) p2 hq2 _))) $$ Ho2_2
  ihave Ho2_3 := (Entails.of_eq (pointsTo_congr (row_val7_3 (F := F) L 2 (VI d) (VW d) p2 hq2 _))) $$ Ho2_3
  ihave Ho3_0 := (Entails.of_eq (pointsTo_congr (row_val8_0 (F := F) L 3 (VI d) (VW d) p3 hq3 _))) $$ Ho3_0
  ihave Ho3_1 := (Entails.of_eq (pointsTo_congr (row_val8_1 (F := F) L 3 (VI d) (VW d) p3 hq3 _))) $$ Ho3_1
  ihave Ho3_2 := (Entails.of_eq (pointsTo_congr (row_val8_2 (F := F) L 3 (VI d) (VW d) p3 hq3 _))) $$ Ho3_2
  ihave Ho3_3 := (Entails.of_eq (pointsTo_congr (row_val8_3 (F := F) L 3 (VI d) (VW d) p3 hq3 _))) $$ Ho3_3
  ihave Ho4_0 := (Entails.of_eq (pointsTo_congr (row_val5_0 (F := F) L 4 (VI d) (VW d) p4 hq4 _))) $$ Ho4_0
  ihave Ho4_1 := (Entails.of_eq (pointsTo_congr (row_val5_1 (F := F) L 4 (VI d) (VW d) p4 hq4 _))) $$ Ho4_1
  ihave Ho4_2 := (Entails.of_eq (pointsTo_congr (row_val5_2 (F := F) L 4 (VI d) (VW d) p4 hq4 _))) $$ Ho4_2
  ihave Ho4_3 := (Entails.of_eq (pointsTo_congr (row_val5_3 (F := F) L 4 (VI d) (VW d) p4 hq4 _))) $$ Ho4_3
  ihave Ho5_0 := (Entails.of_eq (pointsTo_congr (row_val6_0 (F := F) L 5 (VI d) (VW d) p5 hq5 _))) $$ Ho5_0
  ihave Ho5_1 := (Entails.of_eq (pointsTo_congr (row_val6_1 (F := F) L 5 (VI d) (VW d) p5 hq5 _))) $$ Ho5_1
  ihave Ho5_2 := (Entails.of_eq (pointsTo_congr (row_val6_2 (F := F) L 5 (VI d) (VW d) p5 hq5 _))) $$ Ho5_2
  ihave Ho5_3 := (Entails.of_eq (pointsTo_congr (row_val6_3 (F := F) L 5 (VI d) (VW d) p5 hq5 _))) $$ Ho5_3
  ihave Ho6_0 := (Entails.of_eq (pointsTo_congr (row_val7_0 (F := F) L 6 (VI d) (VW d) p6 hq6 _))) $$ Ho6_0
  ihave Ho6_1 := (Entails.of_eq (pointsTo_congr (row_val7_1 (F := F) L 6 (VI d) (VW d) p6 hq6 _))) $$ Ho6_1
  ihave Ho6_2 := (Entails.of_eq (pointsTo_congr (row_val7_2 (F := F) L 6 (VI d) (VW d) p6 hq6 _))) $$ Ho6_2
  ihave Ho6_3 := (Entails.of_eq (pointsTo_congr (row_val7_3 (F := F) L 6 (VI d) (VW d) p6 hq6 _))) $$ Ho6_3
  ihave Ho7_0 := (Entails.of_eq (pointsTo_congr (row_val8_0 (F := F) L 7 (VI d) (VW d) p7 hq7 _))) $$ Ho7_0
  ihave Ho7_1 := (Entails.of_eq (pointsTo_congr (row_val8_1 (F := F) L 7 (VI d) (VW d) p7 hq7 _))) $$ Ho7_1
  ihave Ho7_2 := (Entails.of_eq (pointsTo_congr (row_val8_2 (F := F) L 7 (VI d) (VW d) p7 hq7 _))) $$ Ho7_2
  ihave Ho7_3 := (Entails.of_eq (pointsTo_congr (row_val8_3 (F := F) L 7 (VI d) (VW d) p7 hq7 _))) $$ Ho7_3
  ihave Ho8_0 := (Entails.of_eq (pointsTo_congr (row_val5_0 (F := F) L 8 (VI d) (VW d) p8 hq8 _))) $$ Ho8_0
  ihave Ho8_1 := (Entails.of_eq (pointsTo_congr (row_val5_1 (F := F) L 8 (VI d) (VW d) p8 hq8 _))) $$ Ho8_1
  ihave Ho8_2 := (Entails.of_eq (pointsTo_congr (row_val5_2 (F := F) L 8 (VI d) (VW d) p8 hq8 _))) $$ Ho8_2
  ihave Ho8_3 := (Entails.of_eq (pointsTo_congr (row_val5_3 (F := F) L 8 (VI d) (VW d) p8 hq8 _))) $$ Ho8_3
  ihave Ho9_0 := (Entails.of_eq (pointsTo_congr (row_val6_0 (F := F) L 9 (VI d) (VW d) p9 hq9 _))) $$ Ho9_0
  ihave Ho9_1 := (Entails.of_eq (pointsTo_congr (row_val6_1 (F := F) L 9 (VI d) (VW d) p9 hq9 _))) $$ Ho9_1
  ihave Ho9_2 := (Entails.of_eq (pointsTo_congr (row_val6_2 (F := F) L 9 (VI d) (VW d) p9 hq9 _))) $$ Ho9_2
  ihave Ho9_3 := (Entails.of_eq (pointsTo_congr (row_val6_3 (F := F) L 9 (VI d) (VW d) p9 hq9 _))) $$ Ho9_3
  ihave Ho10_0 := (Entails.of_eq (pointsTo_congr (row_val7_0 (F := F) L 10 (VI d) (VW d) p10 hq10 _))) $$ Ho10_0
  ihave Ho10_1 := (Entails.of_eq (pointsTo_congr (row_val7_1 (F := F) L 10 (VI d) (VW d) p10 hq10 _))) $$ Ho10_1
  ihave Ho10_2 := (Entails.of_eq (pointsTo_congr (row_val7_2 (F := F) L 10 (VI d) (VW d) p10 hq10 _))) $$ Ho10_2
  ihave Ho10_3 := (Entails.of_eq (pointsTo_congr (row_val7_3 (F := F) L 10 (VI d) (VW d) p10 hq10 _))) $$ Ho10_3
  ihave Ho11_0 := (Entails.of_eq (pointsTo_congr (row_val8_0 (F := F) L 11 (VI d) (VW d) p11 hq11 _))) $$ Ho11_0
  ihave Ho11_1 := (Entails.of_eq (pointsTo_congr (row_val8_1 (F := F) L 11 (VI d) (VW d) p11 hq11 _))) $$ Ho11_1
  ihave Ho11_2 := (Entails.of_eq (pointsTo_congr (row_val8_2 (F := F) L 11 (VI d) (VW d) p11 hq11 _))) $$ Ho11_2
  ihave Ho11_3 := (Entails.of_eq (pointsTo_congr (row_val8_3 (F := F) L 11 (VI d) (VW d) p11 hq11 _))) $$ Ho11_3
  ihave Ho12_0 := (Entails.of_eq (pointsTo_congr (row_val5_0 (F := F) L 12 (VI d) (VW d) p12 hq12 _))) $$ Ho12_0
  ihave Ho12_1 := (Entails.of_eq (pointsTo_congr (row_val5_1 (F := F) L 12 (VI d) (VW d) p12 hq12 _))) $$ Ho12_1
  ihave Ho12_2 := (Entails.of_eq (pointsTo_congr (row_val5_2 (F := F) L 12 (VI d) (VW d) p12 hq12 _))) $$ Ho12_2
  ihave Ho12_3 := (Entails.of_eq (pointsTo_congr (row_val5_3 (F := F) L 12 (VI d) (VW d) p12 hq12 _))) $$ Ho12_3
  ihave Ho13_0 := (Entails.of_eq (pointsTo_congr (row_val6_0 (F := F) L 13 (VI d) (VW d) p13 hq13 _))) $$ Ho13_0
  ihave Ho13_1 := (Entails.of_eq (pointsTo_congr (row_val6_1 (F := F) L 13 (VI d) (VW d) p13 hq13 _))) $$ Ho13_1
  ihave Ho13_2 := (Entails.of_eq (pointsTo_congr (row_val6_2 (F := F) L 13 (VI d) (VW d) p13 hq13 _))) $$ Ho13_2
  ihave Ho13_3 := (Entails.of_eq (pointsTo_congr (row_val6_3 (F := F) L 13 (VI d) (VW d) p13 hq13 _))) $$ Ho13_3
  ihave Ho14_0 := (Entails.of_eq (pointsTo_congr (row_val7_0 (F := F) L 14 (VI d) (VW d) p14 hq14 _))) $$ Ho14_0
  ihave Ho14_1 := (Entails.of_eq (pointsTo_congr (row_val7_1 (F := F) L 14 (VI d) (VW d) p14 hq14 _))) $$ Ho14_1
  ihave Ho14_2 := (Entails.of_eq (pointsTo_congr (row_val7_2 (F := F) L 14 (VI d) (VW d) p14 hq14 _))) $$ Ho14_2
  ihave Ho14_3 := (Entails.of_eq (pointsTo_congr (row_val7_3 (F := F) L 14 (VI d) (VW d) p14 hq14 _))) $$ Ho14_3
  ihave Ho15_0 := (Entails.of_eq (pointsTo_congr (row_val8_0 (F := F) L 15 (VI d) (VW d) p15 hq15 _))) $$ Ho15_0
  ihave Ho15_1 := (Entails.of_eq (pointsTo_congr (row_val8_1 (F := F) L 15 (VI d) (VW d) p15 hq15 _))) $$ Ho15_1
  ihave Ho15_2 := (Entails.of_eq (pointsTo_congr (row_val8_2 (F := F) L 15 (VI d) (VW d) p15 hq15 _))) $$ Ho15_2
  ihave Ho15_3 := (Entails.of_eq (pointsTo_congr (row_val8_3 (F := F) L 15 (VI d) (VW d) p15 hq15 _))) $$ Ho15_3
  ihave Ho16_0 := (Entails.of_eq (pointsTo_congr (row_val5_0 (F := F) L 16 (VI d) (VW d) p16 hq16 _))) $$ Ho16_0
  ihave Ho16_1 := (Entails.of_eq (pointsTo_congr (row_val5_1 (F := F) L 16 (VI d) (VW d) p16 hq16 _))) $$ Ho16_1
  ihave Ho16_2 := (Entails.of_eq (pointsTo_congr (row_val5_2 (F := F) L 16 (VI d) (VW d) p16 hq16 _))) $$ Ho16_2
  ihave Ho16_3 := (Entails.of_eq (pointsTo_congr (row_val5_3 (F := F) L 16 (VI d) (VW d) p16 hq16 _))) $$ Ho16_3
  ihave Ho17_0 := (Entails.of_eq (pointsTo_congr (row_val6_0 (F := F) L 17 (VI d) (VW d) p17 hq17 _))) $$ Ho17_0
  ihave Ho17_1 := (Entails.of_eq (pointsTo_congr (row_val6_1 (F := F) L 17 (VI d) (VW d) p17 hq17 _))) $$ Ho17_1
  ihave Ho17_2 := (Entails.of_eq (pointsTo_congr (row_val6_2 (F := F) L 17 (VI d) (VW d) p17 hq17 _))) $$ Ho17_2
  ihave Ho17_3 := (Entails.of_eq (pointsTo_congr (row_val6_3 (F := F) L 17 (VI d) (VW d) p17 hq17 _))) $$ Ho17_3
  ihave Ho18_0 := (Entails.of_eq (pointsTo_congr (row_val7_0 (F := F) L 18 (VI d) (VW d) p18 hq18 _))) $$ Ho18_0
  ihave Ho18_1 := (Entails.of_eq (pointsTo_congr (row_val7_1 (F := F) L 18 (VI d) (VW d) p18 hq18 _))) $$ Ho18_1
  ihave Ho18_2 := (Entails.of_eq (pointsTo_congr (row_val7_2 (F := F) L 18 (VI d) (VW d) p18 hq18 _))) $$ Ho18_2
  ihave Ho18_3 := (Entails.of_eq (pointsTo_congr (row_val7_3 (F := F) L 18 (VI d) (VW d) p18 hq18 _))) $$ Ho18_3
  ihave Ho19_0 := (Entails.of_eq (pointsTo_congr (row_val8_0 (F := F) L 19 (VI d) (VW d) p19 hq19 _))) $$ Ho19_0
  ihave Ho19_1 := (Entails.of_eq (pointsTo_congr (row_val8_1 (F := F) L 19 (VI d) (VW d) p19 hq19 _))) $$ Ho19_1
  ihave Ho19_2 := (Entails.of_eq (pointsTo_congr (row_val8_2 (F := F) L 19 (VI d) (VW d) p19 hq19 _))) $$ Ho19_2
  ihave Ho19_3 := (Entails.of_eq (pointsTo_congr (row_val8_3 (F := F) L 19 (VI d) (VW d) p19 hq19 _))) $$ Ho19_3
  ihave Ho20_0 := (Entails.of_eq (pointsTo_congr (row_val5_0 (F := F) L 20 (VI d) (VW d) p20 hq20 _))) $$ Ho20_0
  ihave Ho20_1 := (Entails.of_eq (pointsTo_congr (row_val5_1 (F := F) L 20 (VI d) (VW d) p20 hq20 _))) $$ Ho20_1
  ihave Ho20_2 := (Entails.of_eq (pointsTo_congr (row_val5_2 (F := F) L 20 (VI d) (VW d) p20 hq20 _))) $$ Ho20_2
  ihave Ho20_3 := (Entails.of_eq (pointsTo_congr (row_val5_3 (F := F) L 20 (VI d) (VW d) p20 hq20 _))) $$ Ho20_3
  ihave Ho21_0 := (Entails.of_eq (pointsTo_congr (row_val6_0 (F := F) L 21 (VI d) (VW d) p21 hq21 _))) $$ Ho21_0
  ihave Ho21_1 := (Entails.of_eq (pointsTo_congr (row_val6_1 (F := F) L 21 (VI d) (VW d) p21 hq21 _))) $$ Ho21_1
  ihave Ho21_2 := (Entails.of_eq (pointsTo_congr (row_val6_2 (F := F) L 21 (VI d) (VW d) p21 hq21 _))) $$ Ho21_2
  ihave Ho21_3 := (Entails.of_eq (pointsTo_congr (row_val6_3 (F := F) L 21 (VI d) (VW d) p21 hq21 _))) $$ Ho21_3
  ihave Ho22_0 := (Entails.of_eq (pointsTo_congr (row_val7_0 (F := F) L 22 (VI d) (VW d) p22 hq22 _))) $$ Ho22_0
  ihave Ho22_1 := (Entails.of_eq (pointsTo_congr (row_val7_1 (F := F) L 22 (VI d) (VW d) p22 hq22 _))) $$ Ho22_1
  ihave Ho22_2 := (Entails.of_eq (pointsTo_congr (row_val7_2 (F := F) L 22 (VI d) (VW d) p22 hq22 _))) $$ Ho22_2
  ihave Ho22_3 := (Entails.of_eq (pointsTo_congr (row_val7_3 (F := F) L 22 (VI d) (VW d) p22 hq22 _))) $$ Ho22_3
  ihave Ho23_0 := (Entails.of_eq (pointsTo_congr (row_val8_0 (F := F) L 23 (VI d) (VW d) p23 hq23 _))) $$ Ho23_0
  ihave Ho23_1 := (Entails.of_eq (pointsTo_congr (row_val8_1 (F := F) L 23 (VI d) (VW d) p23 hq23 _))) $$ Ho23_1
  ihave Ho23_2 := (Entails.of_eq (pointsTo_congr (row_val8_2 (F := F) L 23 (VI d) (VW d) p23 hq23 _))) $$ Ho23_2
  ihave Ho23_3 := (Entails.of_eq (pointsTo_congr (row_val8_3 (F := F) L 23 (VI d) (VW d) p23 hq23 _))) $$ Ho23_3
  ihave Ho24_0 := (Entails.of_eq (pointsTo_congr (row_val5_0 (F := F) L 24 (VI d) (VW d) p24 hq24 _))) $$ Ho24_0
  ihave Ho24_1 := (Entails.of_eq (pointsTo_congr (row_val5_1 (F := F) L 24 (VI d) (VW d) p24 hq24 _))) $$ Ho24_1
  ihave Ho24_2 := (Entails.of_eq (pointsTo_congr (row_val5_2 (F := F) L 24 (VI d) (VW d) p24 hq24 _))) $$ Ho24_2
  ihave Ho24_3 := (Entails.of_eq (pointsTo_congr (row_val5_3 (F := F) L 24 (VI d) (VW d) p24 hq24 _))) $$ Ho24_3
  ihave Ho25_0 := (Entails.of_eq (pointsTo_congr (row_val6_0 (F := F) L 25 (VI d) (VW d) p25 hq25 _))) $$ Ho25_0
  ihave Ho25_1 := (Entails.of_eq (pointsTo_congr (row_val6_1 (F := F) L 25 (VI d) (VW d) p25 hq25 _))) $$ Ho25_1
  ihave Ho25_2 := (Entails.of_eq (pointsTo_congr (row_val6_2 (F := F) L 25 (VI d) (VW d) p25 hq25 _))) $$ Ho25_2
  ihave Ho25_3 := (Entails.of_eq (pointsTo_congr (row_val6_3 (F := F) L 25 (VI d) (VW d) p25 hq25 _))) $$ Ho25_3
  ihave Ho26_0 := (Entails.of_eq (pointsTo_congr (row_val7_0 (F := F) L 26 (VI d) (VW d) p26 hq26 _))) $$ Ho26_0
  ihave Ho26_1 := (Entails.of_eq (pointsTo_congr (row_val7_1 (F := F) L 26 (VI d) (VW d) p26 hq26 _))) $$ Ho26_1
  ihave Ho26_2 := (Entails.of_eq (pointsTo_congr (row_val7_2 (F := F) L 26 (VI d) (VW d) p26 hq26 _))) $$ Ho26_2
  ihave Ho26_3 := (Entails.of_eq (pointsTo_congr (row_val7_3 (F := F) L 26 (VI d) (VW d) p26 hq26 _))) $$ Ho26_3
  ihave Ho27_0 := (Entails.of_eq (pointsTo_congr (row_val8_0 (F := F) L 27 (VI d) (VW d) p27 hq27 _))) $$ Ho27_0
  ihave Ho27_1 := (Entails.of_eq (pointsTo_congr (row_val8_1 (F := F) L 27 (VI d) (VW d) p27 hq27 _))) $$ Ho27_1
  ihave Ho27_2 := (Entails.of_eq (pointsTo_congr (row_val8_2 (F := F) L 27 (VI d) (VW d) p27 hq27 _))) $$ Ho27_2
  ihave Ho27_3 := (Entails.of_eq (pointsTo_congr (row_val8_3 (F := F) L 27 (VI d) (VW d) p27 hq27 _))) $$ Ho27_3
  ihave Ho28_0 := (Entails.of_eq (pointsTo_congr (row_val5_0 (F := F) L 28 (VI d) (VW d) p28 hq28 _))) $$ Ho28_0
  ihave Ho28_1 := (Entails.of_eq (pointsTo_congr (row_val5_1 (F := F) L 28 (VI d) (VW d) p28 hq28 _))) $$ Ho28_1
  ihave Ho28_2 := (Entails.of_eq (pointsTo_congr (row_val5_2 (F := F) L 28 (VI d) (VW d) p28 hq28 _))) $$ Ho28_2
  ihave Ho28_3 := (Entails.of_eq (pointsTo_congr (row_val5_3 (F := F) L 28 (VI d) (VW d) p28 hq28 _))) $$ Ho28_3
  ihave Ho29_0 := (Entails.of_eq (pointsTo_congr (row_val6_0 (F := F) L 29 (VI d) (VW d) p29 hq29 _))) $$ Ho29_0
  ihave Ho29_1 := (Entails.of_eq (pointsTo_congr (row_val6_1 (F := F) L 29 (VI d) (VW d) p29 hq29 _))) $$ Ho29_1
  ihave Ho29_2 := (Entails.of_eq (pointsTo_congr (row_val6_2 (F := F) L 29 (VI d) (VW d) p29 hq29 _))) $$ Ho29_2
  ihave Ho29_3 := (Entails.of_eq (pointsTo_congr (row_val6_3 (F := F) L 29 (VI d) (VW d) p29 hq29 _))) $$ Ho29_3
  ihave Ho30_0 := (Entails.of_eq (pointsTo_congr (row_val7_0 (F := F) L 30 (VI d) (VW d) p30 hq30 _))) $$ Ho30_0
  ihave Ho30_1 := (Entails.of_eq (pointsTo_congr (row_val7_1 (F := F) L 30 (VI d) (VW d) p30 hq30 _))) $$ Ho30_1
  ihave Ho30_2 := (Entails.of_eq (pointsTo_congr (row_val7_2 (F := F) L 30 (VI d) (VW d) p30 hq30 _))) $$ Ho30_2
  ihave Ho30_3 := (Entails.of_eq (pointsTo_congr (row_val7_3 (F := F) L 30 (VI d) (VW d) p30 hq30 _))) $$ Ho30_3
  ihave Ho31_0 := (Entails.of_eq (pointsTo_congr (row_val8_0 (F := F) L 31 (VI d) (VW d) p31 hq31 _))) $$ Ho31_0
  ihave Ho31_1 := (Entails.of_eq (pointsTo_congr (row_val8_1 (F := F) L 31 (VI d) (VW d) p31 hq31 _))) $$ Ho31_1
  ihave Ho31_2 := (Entails.of_eq (pointsTo_congr (row_val8_2 (F := F) L 31 (VI d) (VW d) p31 hq31 _))) $$ Ho31_2
  ihave Ho31_3 := (Entails.of_eq (pointsTo_congr (row_val8_3 (F := F) L 31 (VI d) (VW d) p31 hq31 _))) $$ Ho31_3
  ihave Ho := (Entails.of_eq (rows_chain (F := F) d L (Cert.Proof.Spec.gath (VI d) (VW d))).symm) $$ [Ho0_0 Ho0_1 Ho0_2 Ho0_3 Ho1_0 Ho1_1 Ho1_2 Ho1_3 Ho2_0 Ho2_1 Ho2_2 Ho2_3 Ho3_0 Ho3_1 Ho3_2 Ho3_3 Ho4_0 Ho4_1 Ho4_2 Ho4_3 Ho5_0 Ho5_1 Ho5_2 Ho5_3 Ho6_0 Ho6_1 Ho6_2 Ho6_3 Ho7_0 Ho7_1 Ho7_2 Ho7_3 Ho8_0 Ho8_1 Ho8_2 Ho8_3 Ho9_0 Ho9_1 Ho9_2 Ho9_3 Ho10_0 Ho10_1 Ho10_2 Ho10_3 Ho11_0 Ho11_1 Ho11_2 Ho11_3 Ho12_0 Ho12_1 Ho12_2 Ho12_3 Ho13_0 Ho13_1 Ho13_2 Ho13_3 Ho14_0 Ho14_1 Ho14_2 Ho14_3 Ho15_0 Ho15_1 Ho15_2 Ho15_3 Ho16_0 Ho16_1 Ho16_2 Ho16_3 Ho17_0 Ho17_1 Ho17_2 Ho17_3 Ho18_0 Ho18_1 Ho18_2 Ho18_3 Ho19_0 Ho19_1 Ho19_2 Ho19_3 Ho20_0 Ho20_1 Ho20_2 Ho20_3 Ho21_0 Ho21_1 Ho21_2 Ho21_3 Ho22_0 Ho22_1 Ho22_2 Ho22_3 Ho23_0 Ho23_1 Ho23_2 Ho23_3 Ho24_0 Ho24_1 Ho24_2 Ho24_3 Ho25_0 Ho25_1 Ho25_2 Ho25_3 Ho26_0 Ho26_1 Ho26_2 Ho26_3 Ho27_0 Ho27_1 Ho27_2 Ho27_3 Ho28_0 Ho28_1 Ho28_2 Ho28_3 Ho29_0 Ho29_1 Ho29_2 Ho29_3 Ho30_0 Ho30_1 Ho30_2 Ho30_3 Ho31_0 Ho31_1 Ho31_2 Ho31_3]
  · isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Ho3_0]; · iexact Ho3_0
    isplitl [Ho3_1]; · iexact Ho3_1
    isplitl [Ho3_2]; · iexact Ho3_2
    isplitl [Ho3_3]; · iexact Ho3_3
    isplitl [Ho4_0]; · iexact Ho4_0
    isplitl [Ho4_1]; · iexact Ho4_1
    isplitl [Ho4_2]; · iexact Ho4_2
    isplitl [Ho4_3]; · iexact Ho4_3
    isplitl [Ho5_0]; · iexact Ho5_0
    isplitl [Ho5_1]; · iexact Ho5_1
    isplitl [Ho5_2]; · iexact Ho5_2
    isplitl [Ho5_3]; · iexact Ho5_3
    isplitl [Ho6_0]; · iexact Ho6_0
    isplitl [Ho6_1]; · iexact Ho6_1
    isplitl [Ho6_2]; · iexact Ho6_2
    isplitl [Ho6_3]; · iexact Ho6_3
    isplitl [Ho7_0]; · iexact Ho7_0
    isplitl [Ho7_1]; · iexact Ho7_1
    isplitl [Ho7_2]; · iexact Ho7_2
    isplitl [Ho7_3]; · iexact Ho7_3
    isplitl [Ho8_0]; · iexact Ho8_0
    isplitl [Ho8_1]; · iexact Ho8_1
    isplitl [Ho8_2]; · iexact Ho8_2
    isplitl [Ho8_3]; · iexact Ho8_3
    isplitl [Ho9_0]; · iexact Ho9_0
    isplitl [Ho9_1]; · iexact Ho9_1
    isplitl [Ho9_2]; · iexact Ho9_2
    isplitl [Ho9_3]; · iexact Ho9_3
    isplitl [Ho10_0]; · iexact Ho10_0
    isplitl [Ho10_1]; · iexact Ho10_1
    isplitl [Ho10_2]; · iexact Ho10_2
    isplitl [Ho10_3]; · iexact Ho10_3
    isplitl [Ho11_0]; · iexact Ho11_0
    isplitl [Ho11_1]; · iexact Ho11_1
    isplitl [Ho11_2]; · iexact Ho11_2
    isplitl [Ho11_3]; · iexact Ho11_3
    isplitl [Ho12_0]; · iexact Ho12_0
    isplitl [Ho12_1]; · iexact Ho12_1
    isplitl [Ho12_2]; · iexact Ho12_2
    isplitl [Ho12_3]; · iexact Ho12_3
    isplitl [Ho13_0]; · iexact Ho13_0
    isplitl [Ho13_1]; · iexact Ho13_1
    isplitl [Ho13_2]; · iexact Ho13_2
    isplitl [Ho13_3]; · iexact Ho13_3
    isplitl [Ho14_0]; · iexact Ho14_0
    isplitl [Ho14_1]; · iexact Ho14_1
    isplitl [Ho14_2]; · iexact Ho14_2
    isplitl [Ho14_3]; · iexact Ho14_3
    isplitl [Ho15_0]; · iexact Ho15_0
    isplitl [Ho15_1]; · iexact Ho15_1
    isplitl [Ho15_2]; · iexact Ho15_2
    isplitl [Ho15_3]; · iexact Ho15_3
    isplitl [Ho16_0]; · iexact Ho16_0
    isplitl [Ho16_1]; · iexact Ho16_1
    isplitl [Ho16_2]; · iexact Ho16_2
    isplitl [Ho16_3]; · iexact Ho16_3
    isplitl [Ho17_0]; · iexact Ho17_0
    isplitl [Ho17_1]; · iexact Ho17_1
    isplitl [Ho17_2]; · iexact Ho17_2
    isplitl [Ho17_3]; · iexact Ho17_3
    isplitl [Ho18_0]; · iexact Ho18_0
    isplitl [Ho18_1]; · iexact Ho18_1
    isplitl [Ho18_2]; · iexact Ho18_2
    isplitl [Ho18_3]; · iexact Ho18_3
    isplitl [Ho19_0]; · iexact Ho19_0
    isplitl [Ho19_1]; · iexact Ho19_1
    isplitl [Ho19_2]; · iexact Ho19_2
    isplitl [Ho19_3]; · iexact Ho19_3
    isplitl [Ho20_0]; · iexact Ho20_0
    isplitl [Ho20_1]; · iexact Ho20_1
    isplitl [Ho20_2]; · iexact Ho20_2
    isplitl [Ho20_3]; · iexact Ho20_3
    isplitl [Ho21_0]; · iexact Ho21_0
    isplitl [Ho21_1]; · iexact Ho21_1
    isplitl [Ho21_2]; · iexact Ho21_2
    isplitl [Ho21_3]; · iexact Ho21_3
    isplitl [Ho22_0]; · iexact Ho22_0
    isplitl [Ho22_1]; · iexact Ho22_1
    isplitl [Ho22_2]; · iexact Ho22_2
    isplitl [Ho22_3]; · iexact Ho22_3
    isplitl [Ho23_0]; · iexact Ho23_0
    isplitl [Ho23_1]; · iexact Ho23_1
    isplitl [Ho23_2]; · iexact Ho23_2
    isplitl [Ho23_3]; · iexact Ho23_3
    isplitl [Ho24_0]; · iexact Ho24_0
    isplitl [Ho24_1]; · iexact Ho24_1
    isplitl [Ho24_2]; · iexact Ho24_2
    isplitl [Ho24_3]; · iexact Ho24_3
    isplitl [Ho25_0]; · iexact Ho25_0
    isplitl [Ho25_1]; · iexact Ho25_1
    isplitl [Ho25_2]; · iexact Ho25_2
    isplitl [Ho25_3]; · iexact Ho25_3
    isplitl [Ho26_0]; · iexact Ho26_0
    isplitl [Ho26_1]; · iexact Ho26_1
    isplitl [Ho26_2]; · iexact Ho26_2
    isplitl [Ho26_3]; · iexact Ho26_3
    isplitl [Ho27_0]; · iexact Ho27_0
    isplitl [Ho27_1]; · iexact Ho27_1
    isplitl [Ho27_2]; · iexact Ho27_2
    isplitl [Ho27_3]; · iexact Ho27_3
    isplitl [Ho28_0]; · iexact Ho28_0
    isplitl [Ho28_1]; · iexact Ho28_1
    isplitl [Ho28_2]; · iexact Ho28_2
    isplitl [Ho28_3]; · iexact Ho28_3
    isplitl [Ho29_0]; · iexact Ho29_0
    isplitl [Ho29_1]; · iexact Ho29_1
    isplitl [Ho29_2]; · iexact Ho29_2
    isplitl [Ho29_3]; · iexact Ho29_3
    isplitl [Ho30_0]; · iexact Ho30_0
    isplitl [Ho30_1]; · iexact Ho30_1
    isplitl [Ho30_2]; · iexact Ho30_2
    isplitl [Ho30_3]; · iexact Ho30_3
    isplitl [Ho31_0]; · iexact Ho31_0
    isplitl [Ho31_1]; · iexact Ho31_1
    isplitl [Ho31_2]; · iexact Ho31_2
    isplitl [Ho31_3]; · iexact Ho31_3
    iempintro
  ihave Hw := (toks4 (F := F) (wShare (cL L) (jL L)) (VW d)).2 $$ [Hwr Hw0 Hw1 Hw2 Hw3]
  · isplitl [Hwr]; · iexact Hwr
    isplitl [Hw0]; · iexact Hw0
    isplitl [Hw1]; · iexact Hw1
    isplitl [Hw2]; · iexact Hw2
    iexact Hw3
  ihave Hi := (Entails.of_eq (pts_iSl (F := F) d L _)) $$ Hi
  -- what the tile hands back
  isplitl [Hi Hw Ho]
  · isplitl [Hi]; · iexact Hi
    isplitl [Hw]; · iexact Hw
    iexact Ho
  isplitl [Hr0 Hr1 Hr2 Hr3 Hr4 Hr5 Hr6 Hr7 Hr8 Hbrest]
  · isplitr [Hbrest]
    · isplitl [Hr0]; · iexists _; iexact Hr0
      isplitl [Hr1]; · iexists _; iexact Hr1
      isplitl [Hr2]; · iexists _; iexact Hr2
      isplitl [Hr3]; · iexists _; iexact Hr3
      isplitl [Hr4]; · iexists _; iexact Hr4
      isplitl [Hr5]; · iexists _; iexact Hr5
      isplitl [Hr6]; · iexists _; iexact Hr6
      isplitl [Hr7]; · iexists _; iexact Hr7
      isplitl [Hr8]; · iexists _; iexact Hr8
      iempintro
    · iexact Hbrest
  isplitl [Hg0 Hg1 Hg2 Hg3 Hs0 Hs1 Hs2 Hs3 Hsc Hsrest]
  · isplitr [Hsrest]
    · isplitl [Hg0]; · iexact Hg0
      isplitl [Hg1]; · iexact Hg1
      isplitl [Hg2]; · iexact Hg2
      isplitl [Hg3]; · iexact Hg3
      isplitl [Hs0]; · iexact Hs0
      isplitl [Hs1]; · iexact Hs1
      isplitl [Hs2]; · iexact Hs2
      isplitl [Hs3]; · iexact Hs3
      isplitl [Hsc]; · iexact Hsc
      iempintro
    · iexact Hsrest
  iexists _; isplitr; swap
  · iexact HO
  · ipureintro
    repeat (first | exact waits_base | refine waits_insert rfl ?_)

end Tile

end Cert.Proof.KIdeal

end
-- ==== Proof.KIdeal.Launch.lean ====
/-
  The launch of the gather kernel: how one tile's task, proved once at a symbolic place, becomes the run of the
  whole program.

  @main on the TensorCore re-lays the index table (4096 x 26 read as 1024 x 104), pads the embedding table from 64
  to 128 columns with a converted zero, and calls the one vector-subcore kernel on both SparseCores. The call takes
  the re-laid index table and the result whole, dealt to the thirty-two tiles by parts along the first axis, and of
  the padded table one read token per tile; what is left of that table's share stays with the TensorCore across the
  call. Every tile hands its parts back, the result's at ONE whole-array function, so the three equations that dealt
  the arrays, read backwards at the new contents, join them again. The final memory then reads: both arguments as
  at the launch, the result at that function.
-/
import proofs.«206479_g70076686402233_cont_9to1c4b_78_46_alg».proof.Proof.KIdeal.Common
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KIdeal

open Cert.KernelIdeal Cert.KernelIdeal.Gen

open Idealize.ShloMosaic
open Idealize.ShloMosaic.SparseCore (S V T)
open Idealize.ShloMosaic.SparseCore.Cfg (HIx Pay)
open Idealize.ShloMosaic.Transfers (tileNo shareTok pointsTo_tiles tileParts_disjoint tileParts_cover pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The payloads as equations, and the sums over the grid's own index types -/

section Pay

variable (VI : (d : Dev nD) → Buf (Elt F) (iLoc d)) (VW : (d : Dev nD) → Buf (Elt F) (wLoc d))
variable (VO GO : (d : Dev nD) → Buf (Elt F) (oLoc d))

theorem P_st (d : Dev nD) (c : Fin ((K (F := F)).nCore 0)) :
    (P VI VW VO GO).st 0 d c = bigSep Finset.univ fun i : Fin 16 => tileRes VI VW d (Fin.cast nCore_zero c) i (VO d) := rfl
theorem P_dn (d : Dev nD) (c : Fin ((K (F := F)).nCore 0)) :
    (P VI VW VO GO).dn 0 d c = bigSep Finset.univ fun i : Fin 16 => tileRes VI VW d (Fin.cast nCore_zero c) i (GO d) := rfl
theorem P_go (d : Dev nD) (c : Fin ((K (F := F)).nCore 0)) (i : Fin ((K (F := F)).nSub 0)) :
    (P VI VW VO GO).go 0 d c i = tileRes VI VW d (Fin.cast nCore_zero c) (Fin.cast nSub_zero i) (VO d) := rfl
theorem P_td (d : Dev nD) (c : Fin ((K (F := F)).nCore 0)) (i : Fin ((K (F := F)).nSub 0)) :
    (P VI VW VO GO).td 0 d c i = tileRes VI VW d (Fin.cast nCore_zero c) (Fin.cast nSub_zero i) (GO d) := rfl

/-- A sum over the call's tiles of one SparseCore is the sum over sixteen, -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- and one over the call's SparseCores the sum over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands ARE its sixteen tiles' operands, and its results theirs: nothing to split or to join. -/
theorem vecSplit' : (K (F := F)).VecSplit' (P VI VW VO GO) 0 := by
  intro d c
  rw [P_st, P_dn]
  simp only [P_go, P_td]
  rw [bigSep_tasks (F := F) (fun i => tileRes VI VW d (Fin.cast nCore_zero c) i (VO d)),
    bigSep_tasks (F := F) (fun i => tileRes VI VW d (Fin.cast nCore_zero c) i (GO d))]
  iintro H; imodintro
  isplitl [H]; · iexact H
  iintro H; iexact H

theorem vecSplit : (K (F := F)).VecSplit (P VI VW VO GO) 0 := SparseCore.Cfg.VecSplit.of_plain (vecSplit' VI VW VO GO)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P VI VW VO GO).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P VI VW VO GO).x q thr)
      = (bigSep Finset.univ fun _ : Thread nD τ => bigSep Finset.univ fun _ : Fin 1 => (iprop(emp) : sProp 𝕄)) from rfl,
    show (bigSep Finset.univ fun _ : Thread nD τ => bigSep Finset.univ fun _ : Fin 1 => (iprop(emp) : sProp 𝕄)) = iprop(emp) from by
      rw [bigSep_congr fun _ _ => bigSep_emp' _, bigSep_emp']]
  iempintro

end Pay

/-! ## The launch memory; what @main's host operations leave in the kernel's operands -/

section Main

variable (m : (ℓ : Loc nD τ sig) → Buf (Elt F) ℓ) (ρ : Dev nD → PrngReg)

/-- The two arguments, as locations of device `d`. -/
abbrev a0Loc (d : Dev nD) : Loc nD τ sig := (SparseCore.T d).loc main_arg0
abbrev a1Loc (d : Dev nD) : Loc nD τ sig := (SparseCore.T d).loc main_arg1

variable [FloatOps F]

/-- The index table re-laid: the 4096 x 26 argument read in row-major order at 1024 x 104. -/
def VI (d : Dev nD) : Buf (Elt F) (iLoc d) :=
  shapeCast S1024x104 (m (a0Loc d) : S4096x26.Idx → Elt F .i32) Facts₀.shapeCasts_S4096x26_S1024x104
/-- The zero the table is padded with: the integer constant converted. -/
def Z0 : S_.Idx → Elt F .f32 := sitofp .f32 (constantI S_ 32 0#32)
/-- The embedding table padded: 64 more columns of that zero to the right of the argument's 64. -/
def VW (d : Dev nD) : Buf (Elt F) (wLoc d) :=
  pad S100000x128 ![0, 0] ![0, 64] ![0, 0] (m (a1Loc d) : S100000x64.Idx → Elt F .f32) (Z0 (F := F)) Facts₀.pads_S100000x64_S100000x128_000_0640 Facts₀.h_S_
/-- The result as the call finds it. -/
abbrev VO (d : Dev nD) : Buf (Elt F) (oLoc d) := m (oLoc d)

variable (GO : (d : Dev nD) → Buf (Elt F) (oLoc d))

/-- The payloads at those contents. -/
abbrev PP : (K (F := F)).Pay (nD := nD) (Val := Elt F) (Name := ℕ) (U := UU) := P (VI m) (VW m) (VO m) GO

/-- What @main leaves the claim: both arguments at their launch contents, the result at `GO`. -/
abbrev FIN (d : Dev nD) : sProp 𝕄 :=
  iprop((a0Loc d ↦{fullShare} m (a0Loc d)) ∗ (a1Loc d ↦{fullShare} m (a1Loc d)) ∗ (oLoc d ↦{fullShare} GO d))

def fq (d : Dev nD) (s' : Phys nD τ sig (Elt F)) : Prop :=
  s'.mem.mem (oLoc d) = GO d ∧ s'.mem.mem (a0Loc d) = m (a0Loc d) ∧ s'.mem.mem (a1Loc d) = m (a1Loc d)

theorem hfin (d : Dev nD) (s' : Phys nD τ sig (Elt F)) : iprop(FIN m GO d ∗ SI s') ⊢ (⌜fq m GO d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := oLoc d) (I := Finset.univ) (q := fullShare) (f := GO d)) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

def QC : PUnit × MemSt nD τ sig (Elt F) → Prop := fun r => ∀ c : Dev nD,
  r.2.mem ((c.tc : Thread nD τ).loc main_v2) = GO c
  ∧ r.2.mem ((c.tc : Thread nD τ).loc main_arg0) = m ((c.tc : Thread nD τ).loc main_arg0)
  ∧ r.2.mem ((c.tc : Thread nD τ).loc main_arg1) = m ((c.tc : Thread nD τ).loc main_arg1)

theorem hQ (s' : Phys nD τ sig (Elt F)) (h : ∀ d, fq m GO d s') : QC m GO (⟨⟩, s'.mem) := fun c => h c

/-! ## @main on the TensorCore -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev c' : DevRef τ sig := Proc.devRef .tc (main_c : Ref sig .tc)
abbrev z' : DevRef τ sig := Proc.devRef .tc (main_call0_v0 : Ref sig .tc)
abbrev w' : DevRef τ sig := Proc.devRef .tc (main_v1 : Ref sig .tc)
abbrev o' : DevRef τ sig := Proc.devRef .tc (main_v2 : Ref sig .tc)

/-- The TensorCore's arrays, all unscoped: the two arguments, the re-laid index table, the constant and its
    conversion, the padded table, the result. -/
abbrev S7 : Finset (DevRef τ sig) := {a0', a1', i', c', z', w', o'}

/-- The four host operations, as @main and the padding function print them. -/
abbrev opI : HloOp τ sig (Elt F) := StableHlo.reshape main_arg0 main_v0 rfl Facts₀.shapeCasts_S4096x26_S1024x104
abbrev opC : HloOp τ sig (Elt F) := StableHlo.nullary main_c (constantI S_ 32 0#32)
abbrev opZ : HloOp τ sig (Elt F) :=
  StableHlo.TRef.unary (StableHlo.TRef.of main_c : StableHlo.TRef sig ⟨S_, .i32⟩) (main_call0.v0) (sitofp .f32)
abbrev opW : HloOp τ sig (Elt F) :=
  StableHlo.TRef.binary (StableHlo.TRef.of main_arg1 : StableHlo.TRef sig ⟨S100000x64, .f32⟩) (main_call0.v0) (main_call0.v1)
    (fun x v => pad S100000x128 ![0, 0] ![0, 64] ![0, 0] x v Facts₀.pads_S100000x64_S100000x128_000_0640 Facts₀.h_S_)

omit [FloatOps F] in
theorem held_S7 (d : Dev nD) (W : Valuation τ sig (Elt F)) :
    (held (T d) S7 W : sProp 𝕄) = iprop((a0Loc d ↦{fullShare} W a0') ∗ (a1Loc d ↦{fullShare} W a1') ∗ (iLoc d ↦{fullShare} W i')
      ∗ ((SparseCore.T d).loc main_c ↦{fullShare} W c') ∗ ((SparseCore.T d).loc main_call0_v0 ↦{fullShare} W z')
      ∗ (wLoc d ↦{fullShare} W w') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_v0)
      ∗ ((SparseCore.T d).loc main_c ↦{fullShare} W main_c) ∗ ((SparseCore.T d).loc main_call0_v0 ↦{fullShare} W main_call0_v0)
      ∗ (wLoc d ↦{fullShare} W main_v1) ∗ (oLoc d ↦{fullShare} W main_v2)) := by
  unfold unscopedBufs
  rw [show (Finset.univ.filter fun b : Ref sig .tc => ¬ b.isScoped) = {main_arg0, main_arg1, main_v0, main_c, main_call0_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the arrays after each host operation. -/
abbrev V0 (d : Dev nD) : Valuation τ sig (Elt F) := fun b => m (d, b)
abbrev V1 (d : Dev nD) : Valuation τ sig (Elt F) := (opI (F := F)).result (V0 m d)
abbrev V2 (d : Dev nD) : Valuation τ sig (Elt F) := (opC (F := F)).result (V1 m d)
abbrev V3 (d : Dev nD) : Valuation τ sig (Elt F) := (opZ (F := F)).result (V2 m d)
abbrev V4 (d : Dev nD) : Valuation τ sig (Elt F) := (opW (F := F)).result (V3 m d)

theorem unscoped_held (d : Dev nD) : (unscopedBufs d (fun b => m ((SparseCore.T d).loc b)) : sProp 𝕄) = held (T d) S7 (V0 m d) := by
  rw [unscopedBufs_eq, held_S7]

theorem hI : (opI (F := F)).bufs ⊆ S7 := show ({a0', i'} : Finset (DevRef τ sig)) ⊆ S7 by decide
theorem hC : (opC (F := F)).bufs ⊆ S7 := show ({c'} : Finset (DevRef τ sig)) ⊆ S7 by decide
theorem hZ : (opZ (F := F)).bufs ⊆ S7 := show ({c', z'} : Finset (DevRef τ sig)) ⊆ S7 by decide
theorem hW : (opW (F := F)).bufs ⊆ S7 := show ({a1', z', w'} : Finset (DevRef τ sig)) ⊆ S7 by decide

/-- A buffer none of the four operations writes is as at the launch. -/
theorem V4_of_not_mem (d : Dev nD) (b : DevRef τ sig) (hb : b ∉ ({i', c', z', w'} : Finset (DevRef τ sig))) : V4 m d b = m (d, b) := by
  have h1 : b ∉ ({i'} : Finset (DevRef τ sig)) := fun h => hb (by rw [Finset.mem_singleton] at h; subst h; decide)
  have h2 : b ∉ ({c'} : Finset (DevRef τ sig)) := fun h => hb (by rw [Finset.mem_singleton] at h; subst h; decide)
  have h3 : b ∉ ({z'} : Finset (DevRef τ sig)) := fun h => hb (by rw [Finset.mem_singleton] at h; subst h; decide)
  have h4 : b ∉ ({w'} : Finset (DevRef τ sig)) := fun h => hb (by rw [Finset.mem_singleton] at h; subst h; decide)
  show (opW (F := F)).result ((opZ (F := F)).result ((opC (F := F)).result ((opI (F := F)).result (V0 m d)))) b = _
  rw [(opW (F := F)).result_of_not_mem _ (b := b) h4, (opZ (F := F)).result_of_not_mem _ (b := b) h3,
    (opC (F := F)).result_of_not_mem _ (b := b) h2, (opI (F := F)).result_of_not_mem _ (b := b) h1]

theorem V4_a0 (d : Dev nD) : V4 m d a0' = m (a0Loc d) := V4_of_not_mem m d a0' (by decide)
theorem V4_a1 (d : Dev nD) : V4 m d a1' = m (a1Loc d) := V4_of_not_mem m d a1' (by decide)
theorem V4_o (d : Dev nD) : V4 m d o' = m (oLoc d) := V4_of_not_mem m d o' (by decide)

/-- The re-laid index table is the reshape's result, which no later operation writes. -/
theorem V4_i (d : Dev nD) : V4 m d i' = VI m d := by
  show (opW (F := F)).result ((opZ (F := F)).result ((opC (F := F)).result ((opI (F := F)).result (V0 m d)))) i' = _
  rw [(opW (F := F)).result_of_not_mem _ (b := i') (show i' ∉ ({w'} : Finset (DevRef τ sig)) by decide),
    (opZ (F := F)).result_of_not_mem _ (b := i') (show i' ∉ ({z'} : Finset (DevRef τ sig)) by decide),
    (opC (F := F)).result_of_not_mem _ (b := i') (show i' ∉ ({c'} : Finset (DevRef τ sig)) by decide)]
  exact (StableHlo.reshape_result main_arg0 main_v0 rfl Facts₀.shapeCasts_S4096x26_S1024x104 _ _ (V0 m d)).trans rfl

/-- The zero is the conversion's result of the constant's. -/
theorem V3_z (d : Dev nD) : V3 m d z' = Z0 (F := F) := by
  show (opZ (F := F)).result ((opC (F := F)).result (V1 m d)) z' = _
  refine (StableHlo.unary_result _ _ _ _ _ _).trans ?_
  show sitofp .f32 ((opC (F := F)).result (V1 m d) c') = _
  rw [show (opC (F := F)).result (V1 m d) c' = constantI S_ 32 0#32 from StableHlo.nullary_result _ _ _ _]
  rfl

theorem V3_a1 (d : Dev nD) : V3 m d a1' = m (a1Loc d) := by
  show (opZ (F := F)).result ((opC (F := F)).result ((opI (F := F)).result (V0 m d))) a1' = _
  rw [(opZ (F := F)).result_of_not_mem _ (b := a1') (show a1' ∉ ({z'} : Finset (DevRef τ sig)) by decide),
    (opC (F := F)).result_of_not_mem _ (b := a1') (show a1' ∉ ({c'} : Finset (DevRef τ sig)) by decide),
    (opI (F := F)).result_of_not_mem _ (b := a1') (show a1' ∉ ({i'} : Finset (DevRef τ sig)) by decide)]

/-- The padded table is the pad's result of the argument and that zero. -/
theorem V4_w (d : Dev nD) : V4 m d w' = VW m d := by
  show (opW (F := F)).result (V3 m d) w' = _
  refine (StableHlo.binary_result _ _ _ _ _ _ _ _).trans ?_
  show pad S100000x128 ![0, 0] ![0, 64] ![0, 0] (V3 m d a1') (V3 m d z') Facts₀.pads_S100000x64_S100000x128_000_0640 Facts₀.h_S_ = _
  rw [V3_a1, V3_z]
  rfl

/-! ## What the call takes and hands back, as the TensorCore holds it -/

section Deal

variable (VI' : (d : Dev nD) → Buf (Elt F) (iLoc d)) (VW' : (d : Dev nD) → Buf (Elt F) (wLoc d))

omit [FloatOps F] in
/-- The thirty-two tiles' resources, the result's parts at `f`: the index table whole, the padded table's thirty-two
    read tokens, the result whole at `f`. -/
theorem tiles_eq (d : Dev nD) (f : Buf (Elt F) (oLoc d)) :
    (bigSep Finset.univ fun c : Fin 2 => bigSep Finset.univ fun i : Fin 16 => tileRes VI' VW' d c i f)
      = iprop((iLoc d ↦{fullShare} VI' d)
        ∗ (bigSep Finset.univ fun c : Fin 2 => bigSep Finset.univ fun i : Fin 16 => (wLoc d ↦{wShare c i} VW' d : sProp 𝕄))
        ∗ (oLoc d ↦{fullShare} f)) := by
  rw [pointsTo_tiles (ℓ := iLoc d) iPart (tileParts_disjoint hdivI) (tileParts_cover hdivI) (VI' d),
    pointsTo_tiles (ℓ := oLoc d) oPart (tileParts_disjoint hdivO) (tileParts_cover hdivO) f]
  simp only [bigSep_sep']

omit [FloatOps F] in
theorem st0_eq (VO' GO' : (d : Dev nD) → Buf (Elt F) (oLoc d)) (d : Dev nD) :
    (bigSep Finset.univ fun c : Fin ((K (F := F)).nCore 0) => (P VI' VW' VO' GO').st 0 d c)
      = iprop((iLoc d ↦{fullShare} VI' d)
        ∗ (bigSep Finset.univ fun c : Fin 2 => bigSep Finset.univ fun i : Fin 16 => (wLoc d ↦{wShare c i} VW' d : sProp 𝕄))
        ∗ (oLoc d ↦{fullShare} VO' d)) := by
  simp only [P_st]
  rw [bigSep_cores (F := F) (fun c => bigSep Finset.univ fun i : Fin 16 => tileRes VI' VW' d c i (VO' d))]
  exact tiles_eq VI' VW' d (VO' d)

omit [FloatOps F] in
theorem dn0_eq (VO' GO' : (d : Dev nD) → Buf (Elt F) (oLoc d)) (d : Dev nD) :
    (bigSep Finset.univ fun c : Fin ((K (F := F)).nCore 0) => (P VI' VW' VO' GO').dn 0 d c)
      = iprop((iLoc d ↦{fullShare} VI' d)
        ∗ (bigSep Finset.univ fun c : Fin 2 => bigSep Finset.univ fun i : Fin 16 => (wLoc d ↦{wShare c i} VW' d : sProp 𝕄))
        ∗ (oLoc d ↦{fullShare} GO' d)) := by
  simp only [P_dn]
  rw [bigSep_cores (F := F) (fun c => bigSep Finset.univ fun i : Fin 16 => tileRes VI' VW' d c i (GO' d))]
  exact tiles_eq VI' VW' d (GO' d)

omit [FloatOps F] in
/-- The padded table's full share: what the TensorCore keeps, what is left of each SparseCore's token, the tiles'
    tokens. -/
theorem deal_eq (d : Dev nD) (f : Buf (Elt F) (wLoc d)) :
    (wLoc d ↦{fullShare} f : sProp 𝕄) = iprop((wLoc d ↦{Transfers.shareDrop fullShare 2} f)
      ∗ (bigSep Finset.univ fun c : Fin 2 => (wLoc d ↦{Transfers.shareDrop (shareTok fullShare 2 c) 16} f : sProp 𝕄))
      ∗ bigSep Finset.univ fun c : Fin 2 => bigSep Finset.univ fun i : Fin 16 => (wLoc d ↦{wShare c i} f : sProp 𝕄)) := by
  rw [pointsTo_deal (ℓ := wLoc d) (q := fullShare) Finset.univ f, bigSep_sep']

end Deal

/-- @main on device `d`'s TensorCore: the four host operations over the seven arrays held whole; the call, which takes
    the re-laid index table and the result whole and the padded table's thirty-two read tokens, and hands them back,
    the result at `GO`; the arguments kept throughout. -/
theorem hmain (κ : GSem nD τ sig → ℕ) (d : Dev nD) :
    iprop((K (F := F)).ctx EH (PP m GO) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m GO d) := by
  unfold SparseCore.Cfg.tcRes
  rw [unscoped_held]
  simp only [main, fn_pad.body, wp_bind, wp_pure]
  iintro ⟨#Hctx, Hst, ⟨Hb, Hheld, -, -⟩, -⟩
  -- the index table re-laid
  iapply (wp_hlo_within 𝒱 (SparseCore.T d) none Set.univ (op := opI) (S := S7) hI (V := V0 m d)) $$ [Hb Hheld]
  · isplitl [Hb]; · iexact Hb
    iexact Hheld
  iintro ⟨Hb, Hheld⟩
  rw [wp_ret]; imodintro
  -- the constant
  iapply (wp_hlo_within 𝒱 (SparseCore.T d) none Set.univ (op := opC) (S := S7) hC (V := V1 m d)) $$ [Hb Hheld]
  · isplitl [Hb]; · iexact Hb
    iexact Hheld
  iintro ⟨Hb, Hheld⟩
  rw [wp_ret]; imodintro
  -- its conversion
  iapply (wp_hlo_within 𝒱 (SparseCore.T d) none Set.univ (op := opZ) (S := S7) hZ (V := V2 m d)) $$ [Hb Hheld]
  · isplitl [Hb]; · iexact Hb
    iexact Hheld
  iintro ⟨Hb, Hheld⟩
  rw [wp_ret]; imodintro
  -- the table padded
  iapply (wp_hlo_within 𝒱 (SparseCore.T d) none Set.univ (op := opW) (S := S7) hW (V := V3 m d)) $$ [Hb Hheld]
  · isplitl [Hb]; · iexact Hb
    iexact Hheld
  iintro ⟨Hb, Hheld⟩
  rw [wp_ret]; imodintro; imodintro
  ihave Hh := (Entails.of_eq (held_S7 (F := F) d (V4 m d))) $$ Hheld
  rw [V4_a0, V4_a1, V4_i, V4_w, V4_o]
  icases Hh with ⟨Ha0, Ha1, Hi, -, -, Hw, Ho⟩
  ihave Hw' := (Entails.of_eq (deal_eq (F := F) d (VW m d))) $$ Hw
  icases Hw' with ⟨-, -, Htok⟩
  -- the call
  iapply ((K (F := F)).wp_run (D (F := F)) 𝒱 (EH := EH) (P := PP m GO) κ d 0) $$ [Hst Hi Htok Ho Ha0 Ha1]
  isplitr; · iexact Hctx
  isplitl [Hst]; · iexact Hst
  isplitl [Hi Htok Ho]
  · rw [st0_eq]
    isplitl [Hi]; · iexact Hi
    isplitl [Htok]; · iexact Htok
    iexact Ho
  iintro ⟨Hst, Hdn⟩
  ihave Hdn' := (Entails.of_eq (dn0_eq (F := F) (VI m) (VW m) (VO m) GO d)) $$ Hdn
  icases Hdn' with ⟨-, -, Ho⟩
  imodintro
  isplitl [Hst]; · iexact Hst
  isplitl [Ha0]; · iexact Ha0
  isplitl [Ha1]; · iexact Ha1
  iexact Ho

/-! ## The program's run -/

/-- From one tile's task proved at a symbolic place, the whole program: every weakly fair execution of the
    TensorCore, the two sequencers and the thirty-two tiles terminates, and leaves the result at `GO` and both
    arguments as they were. -/
theorem run_main [∀ e, Nonempty (Elt F e)]
    (htile : (K (F := F)).TileObl (D (F := F)) 𝒱 (P (VI m) (VW m) (VO m) GO) v₀ 0) :
    θ_run (Cert.KernelIdeal.defs (F := F)) (Cert.KernelIdeal.threads (F := F)) ⟨m, fun _ => 0, ρ⟩ (QC m GO) :=
  SparseCore.Cfg.θ_run_sc (K := K (F := F)) (D := D (F := F)) (𝒱 := 𝒱) (EH := EH) (P := PP m GO) facts v₀
    (fun q hq => match q with | 0 => nomatch hq)
    (fun q _ => match q with | 0 => htile)
    (fun q _ => match q with | 0 => vecSplit (VI m) (VW m) (VO m) GO)
    m ρ main (fun _ => iprop(emp)) (FIN m GO) (u₀ (F := F)) (sep_elim_left.trans (hu₀ (VI m) (VW m) (VO m) GO)) (hmain m ρ GO) (fq m GO) (hfin m GO) (QC m GO)
    (hQ m GO)

end Main

end Cert.Proof.KIdeal

end
-- ==== Proof.KIdeal.Obl.lean ====
/-
  One tile's task as the launch theorem asks for it.

  The kernel's label on vector subcore (c, s) runs the kernel function at the grid coordinates (c, s) when the grid
  holds them, which it does for every tile the call dispatches to. So the obligation of the call's tile (c, i) is the
  task proved at the symbolic coordinates, read at those of the tile: its parts of the index table and of the result
  are part number 2 i + c, its read token of the padded table the one dealt to (c, i). The kernel owes nothing for a
  protocol of its own, and every wait it records is on a semaphore of its own.
-/
import proofs.«206479_g70076686402233_cont_9to1c4b_78_46_alg».proof.Proof.KIdeal.Body
import proofs.«206479_g70076686402233_cont_9to1c4b_78_46_alg».proof.Proof.KIdeal.Launch
import proofs.«206479_g70076686402233_cont_9to1c4b_78_46_alg».proof.Proof.Gath

noncomputable section

namespace Cert.Proof.KIdeal

open Cert.KernelIdeal Cert.KernelIdeal.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (VI : (d : Dev nD) → Buf (Elt F) (iLoc d)) (VW : (d : Dev nD) → Buf (Elt F) (wLoc d))
variable (VO GO : (d : Dev nD) → Buf (Elt F) (oLoc d))
variable [FloatOps F]

/-- The grid coordinates of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's label on a vector subcore: the kernel function at the subcore's coordinates, on the whole arrays and
    the subcore's own scratch. -/
theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          cc0_scratch9 cc0_scratch10 cc0_scratch11 cc0_scratch12 cc0_scratch13 cc0_scratch14 cc0_scratch15 cc0_scratch16 cc0_scoped0) ⟨⟩ c s := rfl

omit [FloatOps F] in
/-- Waits on the thread's own semaphores are among those the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem P_x (q : Fin 1) (thr : Thread nD τ) : (P VI VW VO GO).x q thr = iprop(emp) := rfl

/-- The call's obligation for tile (c, i): the task at the tile's coordinates. -/
theorem tileObl (hVI : ∀ d y, (VI d y).toNat < 100000) (hGO : ∀ d, GO d = Cert.Proof.Spec.gath (VI d) (VW d)) :
    (K (F := F)).TileObl (D (F := F)) 𝒱 (P VI VW VO GO) v₀ 0 := by
  intro d c i O W hO _ _
  -- the kernel owes nothing for a protocol of its own
  simp only [show (P VI VW VO GO).ox = fun _ _ => 0 from rfl, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  exact (tile_body VI VW VO GO d (coordsV ⟨_, hc.1⟩ ⟨_, hc.2⟩) (hVI d) (hGO d) O W hO).trans (wp_mono frame _ _ fun _ => obl_post)

end Cert.Proof.KIdeal

end
-- ==== Proof.Bridge.lean ====
/-
  Two host operations of the kernel's @main, read at an index.

  Before it launches its gather the kernel program re-lays its two arguments: the index array
  `[4096, 26]` is reshaped to `[1024, 104]`, and the table `[100000, 64]` is padded on the right to
  `[100000, 128]`.  A reshape keeps row-major positions: position `26·b + f` of the source is position
  `104·(b / 4) + (26·(b mod 4) + f)` of the result.  A pad with no low and no interior padding keeps
  every element at its own index, the new columns `64 … 127` holding the padding value.  So the gather
  the kernel computes from its re-laid operands — row `I[b / 4, 26·(b mod 4) + f] mod 100000` of the padded
  table at a column below 64 — is the row gather of the original arguments.
-/
import proofs.«206479_g70076686402233_cont_9to1c4b_78_46_alg».proof.Proof.Gath
import Idealize.ShloMosaic.PureOps
import Idealize.ShloMosaic.Lib.ValueIdx

namespace Cert.Proof.Bridge

open Idealize.ShloMosaic Idealize.ShloMosaic.ValueIdx

variable {α : Type}

/-! ## The reshape `[4096, 26] → [1024, 104]` -/

/-- Source element `(b, f)` sits at `(b / 4, 26·(b mod 4) + f)` of the reshaped array. -/
theorem reshape_apply (x : (⟨2, ![4096, 26]⟩ : Shape).Idx → α)
    (h : (⟨2, ![4096, 26]⟩ : Shape).ShapeCasts ⟨2, ![1024, 104]⟩) (b : Fin 4096) (f : Fin 26) :
    shapeCast ⟨2, ![1024, 104]⟩ x h (ix2 ⟨b.val / 4, by omega⟩ ⟨(b.val % 4) * 26 + f.val, by omega⟩) = x (ix2 b f) := by
  unfold shapeCast
  refine congrArg x (Shape.reshapeEquiv_eq_of_rowMajor h ?_)
  rw [Shape.rowMajor_val_two, Shape.rowMajor_val_two]
  show b.val * 26 + f.val = (b.val / 4) * 104 + ((b.val % 4) * 26 + f.val)
  omega

/-- The same read from the result's side: element `(r, k)` of the reshaped array is source element
    `(4·r + k / 26, k mod 26)`. -/
theorem reshape_apply' (x : (⟨2, ![4096, 26]⟩ : Shape).Idx → α)
    (h : (⟨2, ![4096, 26]⟩ : Shape).ShapeCasts ⟨2, ![1024, 104]⟩) (r : Fin 1024) (k : Fin 104) :
    shapeCast ⟨2, ![1024, 104]⟩ x h (ix2 r k) = x (ix2 ⟨4 * r.val + k.val / 26, by omega⟩ ⟨k.val % 26, by omega⟩) := by
  unfold shapeCast
  refine congrArg x (Shape.reshapeEquiv_eq_of_rowMajor h ?_)
  rw [Shape.rowMajor_val_two, Shape.rowMajor_val_two]
  show (4 * r.val + k.val / 26) * 26 + k.val % 26 = r.val * 104 + k.val
  omega

/-! ## The pad `[100000, 64] → [100000, 128]` -/

/-- A column below 64 of the padded table is the table's own. -/
theorem pad_apply_lt (x : (⟨2, ![100000, 64]⟩ : Shape).Idx → α) {u : Shape} (v : u.Idx → α)
    (h : (⟨2, ![100000, 64]⟩ : Shape).Pads (![0, 0] : Fin 2 → Nat) ![0, 64] ![0, 0] ⟨2, ![100000, 128]⟩)
    (hu : 0 < u.numel) (r : Fin 100000) (col : Fin 128) (hc : col.val < 64) :
    pad ⟨2, ![100000, 128]⟩ ![0, 0] ![0, 64] ![0, 0] x v h hu (ix2 r col) = x (ix2 r ⟨col.val, hc⟩) := by
  unfold pad
  have hin : ∀ a : Fin 2, (![0, 0] : Fin 2 → Nat) a ≤ ((ix2 r col) (a.cast h.1)).val
      ∧ (((ix2 r col) (a.cast h.1)).val - (![0, 0] : Fin 2 → Nat) a) % ((![0, 0] : Fin 2 → Nat) a + 1) = 0
      ∧ (((ix2 r col) (a.cast h.1)).val - (![0, 0] : Fin 2 → Nat) a) / ((![0, 0] : Fin 2 → Nat) a + 1)
          < (⟨2, ![100000, 64]⟩ : Shape).size a := by
    intro a
    match a with
    | ⟨0, _⟩ =>
      refine ⟨Nat.zero_le _, ?_, ?_⟩
      · show (r.val - 0) % (0 + 1) = 0
        omega
      · show (r.val - 0) / (0 + 1) < 100000
        have := r.isLt
        omega
    | ⟨1, _⟩ =>
      refine ⟨Nat.zero_le _, ?_, ?_⟩
      · show (col.val - 0) % (0 + 1) = 0
        omega
      · show (col.val - 0) / (0 + 1) < 64
        omega
  rw [dif_pos hin]
  refine congrArg x (funext fun a => Fin.ext ?_)
  match a with
  | ⟨0, _⟩ =>
    show (r.val - 0) / (0 + 1) = r.val
    omega
  | ⟨1, _⟩ =>
    show (col.val - 0) / (0 + 1) = col.val
    omega

/-! ## The kernel's gather of its re-laid operands is the row gather of the arguments -/

/-- THE BRIDGE: over the reshaped index array and the padded table (any padding value), the kernel-side
    gather is the specification's row gather of the original index array and table.  No range hypothesis:
    both sides reduce the index word modulo the table's height. -/
theorem gath_eq_takeRows (idx : (⟨2, ![4096, 26]⟩ : Shape).Idx → BitVec 32) (w : (⟨2, ![100000, 64]⟩ : Shape).Idx → α)
    (h : (⟨2, ![4096, 26]⟩ : Shape).ShapeCasts ⟨2, ![1024, 104]⟩) {u : Shape} (z : u.Idx → α)
    (hp : (⟨2, ![100000, 64]⟩ : Shape).Pads (![0, 0] : Fin 2 → Nat) ![0, 64] ![0, 0] ⟨2, ![100000, 128]⟩)
    (hs : 0 < u.numel) :
    Spec.gath (shapeCast ⟨2, ![1024, 104]⟩ idx h) (pad ⟨2, ![100000, 128]⟩ ![0, 0] ![0, 64] ![0, 0] w z hp hs)
      = Spec.takeRows idx w := by
  funext x
  have e1 : shapeCast ⟨2, ![1024, 104]⟩ idx h (Spec.relaid x) = idx (ix2 (x 0) (x 1)) :=
    reshape_apply idx h (x 0) (x 1)
  unfold Spec.gath Spec.takeRows
  rw [e1]
  exact pad_apply_lt w z hp hs _ (Spec.col128 x) (x 2).isLt

end Cert.Proof.Bridge
-- ==== Proof.IdxRange.lean ====
/-
  The integer half of the input domain, decoded.

  The precondition is one bit: the conjunction of "every table entry is finite" and
  "every index word `v` satisfies `0 ≤ v` and `v ≤ 99999`, read signed", each a reduction by
  `and` over a whole array.  If the bit is 1 then every element that reduced into it is 1; the
  element at index `j` of the second reduction is the conjunction of the two signed comparisons
  of `idx j`, and a 32-bit word whose signed reading lies in `[0, 99999]` has the same unsigned
  reading.  Nothing here depends on the float instance: only the index array is read.
-/
import proofs.«206479_g70076686402233_cont_9to1c4b_78_46_alg».proof.Pre_input_domain
import proofs.«206479_g70076686402233_cont_9to1c4b_78_46_alg».proof.Proof.Gen.Pre_input_domain
import Idealize.ShloMosaic.Lib.ReduceAll
import Idealize.ShloMosaic.Lib.ValueIdx

namespace Cert.Proof.Ref

open Idealize.ShloMosaic

/-- A word between 0 and 99999 read signed is below 100000 read unsigned, and nonnegative signed. -/
theorem word_range {v : BitVec 32} (h0 : (0#32 : BitVec 32).toInt ≤ v.toInt)
    (h1 : v.toInt ≤ (99999#32 : BitVec 32).toInt) : v.toNat < 100000 ∧ 0 ≤ v.toInt := by
  have e0 : (0#32 : BitVec 32).toInt = 0 := by decide
  have e1 : (99999#32 : BitVec 32).toInt = 99999 := by decide
  rw [e0] at h0
  rw [e1] at h1
  refine ⟨?_, h0⟩
  have hv := v.isLt
  rw [BitVec.toInt] at h0 h1
  split at h1 <;> omega

/-- THE INDEX RANGE: under the input domain every index word is a row number of the table. -/
theorem idx_range {F : FTy → Type} [FloatOps F]
    (idx : IVec Cert.Pre_input_domain.S4096x26 32) (w : FVec F Cert.Pre_input_domain.S100000x64 .f32)
    (h : Cert.Pre_input_domain.fn (F := F) idx w = (fun _ => 1#1)) (j : Cert.Pre_input_domain.S4096x26.Idx) :
    (idx j).toNat < 100000 ∧ 0 ≤ (idx j).toInt := by
  have e := congrFun h ValueIdx.ix0
  dsimp only [Cert.Pre_input_domain.fn] at e
  have e2 := (IntOp.andi_eq_one.1 e).2
  have e3 := Host.reduce_andi_all _ _ _ _ _ e2 j
  obtain ⟨h0, h1⟩ := IntOp.andi_eq_one.1 e3
  exact word_range (IntOp.cmpi_sge.1 h0) (IntOp.cmpi_sle.1 h1)

end Cert.Proof.Ref
-- ==== Proof.KIdeal.Final.lean ====
/-
  The program's run at the specification's value.

  Under the input domain every index word is a row number of the table, and so is every word of the re-laid index
  table, which holds the same words in another arrangement. The value the tiles leave in the result — the padded
  table's row named by the re-laid index table, at a column below 64 — is the row gather of the two arguments:
  the reshape keeps row-major positions and the pad keeps every element at its own index. So the program ends with
  the result at the row gather of its arguments, and both arguments as they were.
-/
import proofs.«206479_g70076686402233_cont_9to1c4b_78_46_alg».proof.Proof.KIdeal.Obl
import proofs.«206479_g70076686402233_cont_9to1c4b_78_46_alg».proof.Proof.Bridge
import proofs.«206479_g70076686402233_cont_9to1c4b_78_46_alg».proof.Proof.IdxRange

noncomputable section

namespace Cert.Proof.KIdeal

open Cert.KernelIdeal Cert.KernelIdeal.Gen

open Idealize.ShloMosaic Idealize.SL.Sem
open Idealize.ShloMosaic.SparseCore (S V T)

variable {F : FTy → Type} [FloatOps F]
variable (m : (ℓ : Loc nD τ sig) → Buf (Elt F) ℓ) (ρ : Dev nD → PrngReg)

/-- The input domain, of the launch memory's two arguments on every device. -/
abbrev InDomain : Prop :=
  ∀ c : Dev nD, Cert.Pre_input_domain.fn (F := F) (m ((c.tc : Thread nD τ).loc main_arg0)) (m ((c.tc : Thread nD τ).loc main_arg1)) = (fun _ => 1#1)

/-- Every word of the re-laid index table is a word of the index argument, so a row number of the table. -/
theorem hVI_of_pre (hpre : InDomain m) (d : Dev nD) (y : S1024x104.Idx) : (VI m d y).toNat < 100000 := by
  have e : VI m d y = (m (a0Loc d) : S4096x26.Idx → BitVec 32) _ :=
    (congrArg (VI m d) (ValueIdx.eq_ix2 y)).trans
      (Cert.Proof.Bridge.reshape_apply' (m (a0Loc d) : S4096x26.Idx → BitVec 32) Facts₀.shapeCasts_S4096x26_S1024x104 (y 0) (y 1))
  rw [e]
  exact (Cert.Proof.Ref.idx_range _ _ (hpre d) _).1

/-- The gather of the re-laid operands is the row gather of the arguments. -/
theorem gath_eq (d : Dev nD) :
    Cert.Proof.Spec.gath (VI m d) (VW m d) = Cert.Proof.Spec.takeRows (m (a0Loc d)) (m (a1Loc d)) := by
  unfold VI VW
  exact Cert.Proof.Bridge.gath_eq_takeRows _ _ _ _ _ _

/-- The whole program under the input domain: it terminates, the result is the row gather of the arguments, the
    arguments are unchanged. -/
theorem run_spec [∀ e, Nonempty (Elt F e)] (hpre : InDomain m) :
    θ_run (Cert.KernelIdeal.defs (F := F)) (Cert.KernelIdeal.threads (F := F)) ⟨m, fun _ => 0, ρ⟩ (fun r => ∀ c : Dev nD,
      r.2.mem ((c.tc : Thread nD τ).loc main_v2)
          = Cert.Proof.Spec.takeRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ p c => ⟨((p c).1).trans (gath_eq m c), (p c).2⟩)
    (run_main m ρ (fun d => Cert.Proof.Spec.gath (VI m d) (VW m d))
      (tileObl (VI m) (VW m) (VO m) (fun d => Cert.Proof.Spec.gath (VI m d) (VW m d)) (hVI_of_pre m hpre) (fun _ => rfl)))

end Cert.Proof.KIdeal

end
-- ==== Proof.KBits.Common.lean ====
/-
  The gather kernel as the launch theorem sees it, and what its handshakes carry.

  Thirty-two tiles (two SparseCores of sixteen) each take one thirty-second of the batch: tile i of SparseCore c is
  number 2 i + c. A tile reads its own thirty-two rows of the re-laid index table (1024 x 104), reads the padded
  embedding table (100000 x 128) whole, and writes its own 128 batch rows of the result (4096 x 26 x 64). So the index
  table and the result are dealt by parts along their first axis, the padded table as one read token per tile; on the
  way back the result's parts are at ONE whole-array function. The contents are parameters here: the index table's
  and the padded table's (VI, VW), the result's before (VO) and after (GO).
-/
import proofs.«206479_g70076686402233_cont_9to1c4b_78_46_alg».proof.Kernel
import proofs.«206479_g70076686402233_cont_9to1c4b_78_46_alg».proof.Proof.Gen.Kernel
import proofs.«206479_g70076686402233_cont_9to1c4b_78_46_alg».proof.Proof.LibTileDeal
import Idealize.ShloMosaic.Lib.SparseCore.Launch
import Idealize.ShloMosaic.Lib.Pipeline.Kit

noncomputable section

namespace Cert.Proof.KBits

open Cert.Kernel Cert.Kernel.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their parts -/

/-- The re-laid index table, the padded embedding table, the result: as locations of device `d`. -/
abbrev iLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2

theorem hdivI : 32 ∣ S1024x104.size 0 := ⟨32, rfl⟩
theorem hdivO : 32 ∣ S4096x26x64.size 0 := ⟨128, rfl⟩

/-- Tile (c, i)'s thirty-two rows of the index table, and its 128 batch rows of the result. -/
abbrev iPart (c : Fin 2) (i : Fin 16) : Finset S1024x104.Idx := (Rect.part (s := S1024x104) (a₀ := 0) hdivI (tileNo c i)).set
abbrev oPart (c : Fin 2) (i : Fin 16) : Finset S4096x26x64.Idx := (Rect.part (s := S4096x26x64) (a₀ := 0) hdivO (tileNo c i)).set
/-- Tile (c, i)'s read token of the padded table. -/
abbrev wShare (c : Fin 2) (i : Fin 16) : PosShare TreeShare := shareTok (shareTok fullShare 2 c) 16 i

/-! ## What the handshakes carry -/

variable (VI : (d : Dev nD) → Buf (Elt F) (iLoc d)) (VW : (d : Dev nD) → Buf (Elt F) (wLoc d))
variable (VO GO : (d : Dev nD) → Buf (Elt F) (oLoc d))

/-- What tile (c, i) is handed, the result's part at `f`. -/
abbrev tileRes (d : Dev nD) (c : Fin 2) (i : Fin 16) (f : Buf (Elt F) (oLoc d)) : sProp 𝕄 :=
  iprop((iLoc d ↦[iPart c i]{fullShare} VI d) ∗ (wLoc d ↦{wShare c i} VW d) ∗ (oLoc d ↦[oPart c i]{fullShare} f))

/-- The one call: each SparseCore is handed its sixteen tiles' resources, the result's parts as the call found them,
    and hands them back with the result's parts at `GO`; each tile likewise its own. -/
def P : (K (F := F)).Pay (nD := nD) (Val := Elt F) (Name := ℕ) (U := UU) where
  st := fun q d c => match q with
    | 0 => bigSep Finset.univ fun i : Fin 16 => tileRes VI VW d (Fin.cast nCore_zero c) i (VO d)
  dn := fun q d c => match q with
    | 0 => bigSep Finset.univ fun i : Fin 16 => tileRes VI VW d (Fin.cast nCore_zero c) i (GO d)
  go := fun q d c i => match q with
    | 0 => tileRes VI VW d (Fin.cast nCore_zero c) (Fin.cast nSub_zero i) (VO d)
  td := fun q d c i => match q with
    | 0 => tileRes VI VW d (Fin.cast nCore_zero c) (Fin.cast nSub_zero i) (GO d)
  x := fun _ _ => iprop(emp)

instance P_storable : (P (F := F) VI VW VO GO).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KBits

end
-- ==== Proof.KBits.Rows.lean ====
/-
  The result's part of one tile, row by row, and a packed buffer, block by block.

  Tile number t = 2 i + c of the thirty-two writes batch rows 128 t … 128 t + 127 of the result. It writes them one
  batch row at a time: row 128 t + 4 r₁ + r₂ for r₁ < 32, r₂ < 4, each through a view of the result that is one row
  (a 1 × 26 × 64 rectangle, its unit axis dropped). The 128 rows are pairwise disjoint and together are the tile's
  part, so at ANY contents the tile's part of the result is the separating product of its 128 rows.  Likewise a
  packed buffer of 104 rows is copied out in four blocks of 26 rows, pairwise disjoint and covering it.
-/
import proofs.«206479_g70076686402233_cont_9to1c4b_78_46_alg».proof.Proof.KBits.Common

noncomputable section

namespace Cert.Proof.KBits

open Cert.Kernel Cert.Kernel.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The 128 rows of a tile, listed -/

/-- The pairs (chunk r₁ < 32, row r₂ < 4 within the chunk), in the order the tile writes them. -/
def rowsList : List (Fin 32 × Fin 4) :=
  [
    (0, 0), (0, 1), (0, 2), (0, 3), (1, 0), (1, 1), (1, 2), (1, 3),
    (2, 0), (2, 1), (2, 2), (2, 3), (3, 0), (3, 1), (3, 2), (3, 3),
    (4, 0), (4, 1), (4, 2), (4, 3), (5, 0), (5, 1), (5, 2), (5, 3),
    (6, 0), (6, 1), (6, 2), (6, 3), (7, 0), (7, 1), (7, 2), (7, 3),
    (8, 0), (8, 1), (8, 2), (8, 3), (9, 0), (9, 1), (9, 2), (9, 3),
    (10, 0), (10, 1), (10, 2), (10, 3), (11, 0), (11, 1), (11, 2), (11, 3),
    (12, 0), (12, 1), (12, 2), (12, 3), (13, 0), (13, 1), (13, 2), (13, 3),
    (14, 0), (14, 1), (14, 2), (14, 3), (15, 0), (15, 1), (15, 2), (15, 3),
    (16, 0), (16, 1), (16, 2), (16, 3), (17, 0), (17, 1), (17, 2), (17, 3),
    (18, 0), (18, 1), (18, 2), (18, 3), (19, 0), (19, 1), (19, 2), (19, 3),
    (20, 0), (20, 1), (20, 2), (20, 3), (21, 0), (21, 1), (21, 2), (21, 3),
    (22, 0), (22, 1), (22, 2), (22, 3), (23, 0), (23, 1), (23, 2), (23, 3),
    (24, 0), (24, 1), (24, 2), (24, 3), (25, 0), (25, 1), (25, 2), (25, 3),
    (26, 0), (26, 1), (26, 2), (26, 3), (27, 0), (27, 1), (27, 2), (27, 3),
    (28, 0), (28, 1), (28, 2), (28, 3), (29, 0), (29, 1), (29, 2), (29, 3),
    (30, 0), (30, 1), (30, 2), (30, 3), (31, 0), (31, 1), (31, 2), (31, 3) ]

theorem rowsList_eq : rowsList = List.finRange 32 ×ˢ List.finRange 4 := by decide

theorem rowsList_nodup : rowsList.Nodup := by
  rw [rowsList_eq]
  exact List.Nodup.product (List.nodup_finRange 32) (List.nodup_finRange 4)

theorem mem_rowsList (p : Fin 32 × Fin 4) : p ∈ rowsList := by
  rw [rowsList_eq]
  exact List.mem_product.2 ⟨List.mem_finRange _, List.mem_finRange _⟩

/-! ## One row of the result -/

section Row

variable (L : grid0.Coords)

/-- The batch row the tile at L writes for (r₁, r₂). -/
def rowNo (r₁ : Fin 32) (r₂ : Fin 4) : Nat := 256 * (L 1).val + 128 * (L 0).val + 4 * r₁.val + r₂.val

/-- That row as a rectangle of the result: one batch row, all fields, all columns. -/
abbrev oRect (r₁ : Fin 32) (r₂ : Fin 4) : Rect S4096x26x64 :=
  Rect.unit (s := S4096x26x64) (k0_off10 L (BitVec.ofNat 32 (4 * r₁.val)) (BitVec.ofNat 32 r₂.val)) S1x26x64.size (k0_off10_inb L r₁ r₂)

/-- The view the kernel writes the row through, spelt as the program spells it. -/
abbrev oRowM (r₁ : Fin 32) (r₂ : Fin 4) : Memref sig .scVector .hbm S26x64 .f32 :=
  ((Memref.whole main_v2_scv : Memref sig .scVector .hbm S4096x26x64 .f32).slice (Rect.unit (s := S4096x26x64) (k0_off10 L (BitVec.ofNat 32 (4 * r₁.val)) (BitVec.ofNat 32 r₂.val)) S1x26x64.size (k0_off10_inb L r₁ r₂)) (fun _ => rfl)).squeeze S26x64 Facts₀.squeezes_S1x26x64_S26x64

/-- An index of the result lies in the row's rectangle exactly when its batch coordinate is the row's number. -/
theorem mem_oRect (r₁ : Fin 32) (r₂ : Fin 4) (x : S4096x26x64.Idx) :
    x ∈ (oRect L r₁ r₂).set ↔ (x 0).val = rowNo L r₁ r₂ := by
  rw [Rect.mem_set_unit, k0_off10_eq]
  have h1 := (x 1).isLt
  have h2 := (x 2).isLt
  constructor
  · intro h
    have h0 := h 0
    simp only [rowNo] at h0 ⊢
    change 256 * (L 1).val + 128 * (L 0).val + 4 * r₁.val + r₂.val ≤ (x 0).val
      ∧ (x 0).val < 256 * (L 1).val + 128 * (L 0).val + 4 * r₁.val + r₂.val + 1 at h0
    omega
  · intro h a
    match a with
    | ⟨0, _⟩ =>
      change 256 * (L 1).val + 128 * (L 0).val + 4 * r₁.val + r₂.val ≤ (x 0).val
        ∧ (x 0).val < 256 * (L 1).val + 128 * (L 0).val + 4 * r₁.val + r₂.val + 1
      simp only [rowNo] at h
      omega
    | ⟨1, _⟩ =>
      change 0 ≤ (x 1).val ∧ (x 1).val < 0 + 26
      change (x 1).val < 26 at h1
      omega
    | ⟨2, _⟩ =>
      change 0 ≤ (x 2).val ∧ (x 2).val < 0 + 64
      change (x 2).val < 64 at h2
      omega

/-- The view's elements are the rectangle's. -/
theorem set_oRowM (r₁ : Fin 32) (r₂ : Fin 4) : (oRowM L r₁ r₂).view.set = (oRect L r₁ r₂).set := by
  show (((View.whole main_v2_scv : View sig .scVector .hbm S4096x26x64 .f32).slice (oRect L r₁ r₂)).reshape S26x64
    Facts₀.squeezes_S1x26x64_S26x64.numel_eq).set = _
  rw [View.set_reshape]
  exact View.set_slice_whole main_v2_scv (oRect L r₁ r₂)

end Row

/-! ## The tile's part is its 128 rows -/

section Part

variable (L : grid0.Coords)

/-- The tile at L, as the launch numbers it: SparseCore L 0 of two, tile L 1 of sixteen. -/
abbrev rcL : Fin 2 := Fin.cast (rfl : grid0.bound 0 = 2) (L 0)
abbrev rjL : Fin 16 := Fin.cast (rfl : grid0.bound 1 = 16) (L 1)

/-- The tile's part of the result: the 128 batch rows from 128 (2 i + c) on. -/
theorem mem_oPart (x : S4096x26x64.Idx) :
    x ∈ oPart (rcL L) (rjL L)
      ↔ 256 * (L 1).val + 128 * (L 0).val ≤ (x 0).val ∧ (x 0).val < 256 * (L 1).val + 128 * (L 0).val + 128 := by
  rw [Rect.mem_set_unit]
  have h1 := (x 1).isLt
  have h2 := (x 2).isLt
  constructor
  · intro h
    have h0 := h 0
    change (2 * (L 1).val + (L 0).val) * 128 ≤ (x 0).val ∧ (x 0).val < (2 * (L 1).val + (L 0).val) * 128 + 128 at h0
    omega
  · intro h a
    match a with
    | ⟨0, _⟩ =>
      change (2 * (L 1).val + (L 0).val) * 128 ≤ (x 0).val ∧ (x 0).val < (2 * (L 1).val + (L 0).val) * 128 + 128
      omega
    | ⟨1, _⟩ =>
      change 0 * 26 ≤ (x 1).val ∧ (x 1).val < 0 * 26 + 26
      change (x 1).val < 26 at h1
      omega
    | ⟨2, _⟩ =>
      change 0 * 64 ≤ (x 2).val ∧ (x 2).val < 0 * 64 + 64
      change (x 2).val < 64 at h2
      omega

/-- Different rows are disjoint. -/
theorem oRect_disjoint (p p' : Fin 32 × Fin 4) (h : p ≠ p') :
    Disjoint (oRect L p.1 p.2).set (oRect L p'.1 p'.2).set := by
  rw [Finset.disjoint_left]
  intro x hx hx'
  rw [mem_oRect] at hx hx'
  apply h
  simp only [rowNo] at hx hx'
  have := p.2.isLt
  have := p'.2.isLt
  exact Prod.ext (Fin.ext (by omega)) (Fin.ext (by omega))

/-- The 128 rows cover the tile's part and nothing else. -/
theorem oPart_eq_biUnion :
    oPart (rcL L) (rjL L) = rowsList.toFinset.biUnion fun p => (oRect L p.1 p.2).set := by
  ext x
  rw [mem_oPart, Finset.mem_biUnion]
  constructor
  · rintro ⟨hlo, hhi⟩
    refine ⟨(⟨((x 0).val - (256 * (L 1).val + 128 * (L 0).val)) / 4, by omega⟩,
      ⟨((x 0).val - (256 * (L 1).val + 128 * (L 0).val)) % 4, by omega⟩), List.mem_toFinset.2 (mem_rowsList _), ?_⟩
    rw [mem_oRect]
    simp only [rowNo]
    omega
  · rintro ⟨p, -, hp⟩
    rw [mem_oRect] at hp
    simp only [rowNo] at hp
    have := p.1.isLt
    have := p.2.isLt
    omega

/-- THE EQUATION: at any contents, the tile's part of the result is the separating product of its 128 rows,
    each as the kernel's view of it spells it. -/
theorem pts_rows (d : Dev nD) (f : Buf (Elt F) (oLoc d)) :
    (oLoc d ↦[oPart (rcL L) (rjL L)]{fullShare} f : sProp 𝕄)
      = bigSepL rowsList fun p => ((oRowM L p.1 p.2).view.loc (V d ((L 0).castLE hcore0) ((L 1).castLE hsub0))
          ↦[(oRowM L p.1 p.2).view.set]{fullShare} f) := by
  have h1 : (fun p : Fin 32 × Fin 4 => ((oRowM L p.1 p.2).view.loc (V d ((L 0).castLE hcore0) ((L 1).castLE hsub0))
        ↦[(oRowM L p.1 p.2).view.set]{fullShare} f : sProp 𝕄))
      = fun p => (oLoc d ↦[(oRect L p.1 p.2).set]{fullShare} f : sProp 𝕄) :=
    funext fun p => by rw [set_oRowM]
  rw [h1, ← bigSep_eq_bigSepL rowsList rowsList_nodup,
    ← pointsTo_biUnion _ _ (fun p _ p' _ h => oRect_disjoint L p p' h), oPart_eq_biUnion]

end Part

/-! ## A packed buffer is its four blocks of 26 rows -/

section Blocks

/-- A points-to of a whole buffer split along four pairwise disjoint element sets that cover it. -/
theorem pts_four {ℓ : Loc nD τ sig} (A0 A1 A2 A3 : Finset (Idx ℓ))
    (h01 : Disjoint A0 A1) (h02 : Disjoint A0 A2) (h03 : Disjoint A0 A3)
    (h12 : Disjoint A1 A2) (h13 : Disjoint A1 A3) (h23 : Disjoint A2 A3)
    (hc : Finset.univ = A0 ∪ (A1 ∪ (A2 ∪ A3))) (f : Buf (Elt F) ℓ) :
    (ℓ ↦{fullShare} f : sProp 𝕄)
      = iprop((ℓ ↦[A0]{fullShare} f) ∗ (ℓ ↦[A1]{fullShare} f) ∗ (ℓ ↦[A2]{fullShare} f) ∗ (ℓ ↦[A3]{fullShare} f)) := by
  have u1 : (ℓ ↦[A0 ∪ (A1 ∪ (A2 ∪ A3))]{fullShare} f : sProp 𝕄)
      = iprop((ℓ ↦[A0]{fullShare} f) ∗ ℓ ↦[A1 ∪ (A2 ∪ A3)]{fullShare} f) := by
    have hu : (ℓ ↦[A0 ∪ (A1 ∪ (A2 ∪ A3))]{fullShare} f : sProp 𝕄)
        ⊣⊢ iprop((ℓ ↦[A0]{fullShare} f) ∗ ℓ ↦[A1 ∪ (A2 ∪ A3)]{fullShare} f) :=
      pointsTo_union (Finset.disjoint_union_right.2 ⟨h01, Finset.disjoint_union_right.2 ⟨h02, h03⟩⟩)
    exact BI.equiv_iff.mp ⟨hu.1, hu.2⟩
  have u2 : (ℓ ↦[A1 ∪ (A2 ∪ A3)]{fullShare} f : sProp 𝕄)
      = iprop((ℓ ↦[A1]{fullShare} f) ∗ ℓ ↦[A2 ∪ A3]{fullShare} f) := by
    have hu : (ℓ ↦[A1 ∪ (A2 ∪ A3)]{fullShare} f : sProp 𝕄)
        ⊣⊢ iprop((ℓ ↦[A1]{fullShare} f) ∗ ℓ ↦[A2 ∪ A3]{fullShare} f) :=
      pointsTo_union (Finset.disjoint_union_right.2 ⟨h12, h13⟩)
    exact BI.equiv_iff.mp ⟨hu.1, hu.2⟩
  have u3 : (ℓ ↦[A2 ∪ A3]{fullShare} f : sProp 𝕄) = iprop((ℓ ↦[A2]{fullShare} f) ∗ ℓ ↦[A3]{fullShare} f) := by
    have hu : (ℓ ↦[A2 ∪ A3]{fullShare} f : sProp 𝕄) ⊣⊢ iprop((ℓ ↦[A2]{fullShare} f) ∗ ℓ ↦[A3]{fullShare} f) :=
      pointsTo_union h23
    exact BI.equiv_iff.mp ⟨hu.1, hu.2⟩
  show (ℓ ↦[Finset.univ]{fullShare} f : sProp 𝕄) = _
  rw [hc, u1, u2, u3]

/-- The block of 26 rows from row o of a 104-row buffer. -/
abbrev blkRect (o : Nat) (inb : ∀ a, (![o, 0] : Fin 2 → Nat) a + S26x64.size a ≤ S104x64.size a) : Rect S104x64 :=
  Rect.unit (s := S104x64) ![o, 0] S26x64.size inb

theorem mem_blkRect (o : Nat) (inb) (x : S104x64.Idx) :
    x ∈ (blkRect o inb).set ↔ o ≤ (x 0).val ∧ (x 0).val < o + 26 := by
  rw [Rect.mem_set_unit]
  have h1 := (x 1).isLt
  constructor
  · intro h
    have h0 := h 0
    change o ≤ (x 0).val ∧ (x 0).val < o + 26 at h0
    exact h0
  · intro h a
    match a with
    | ⟨0, _⟩ =>
      change o ≤ (x 0).val ∧ (x 0).val < o + 26
      exact h
    | ⟨1, _⟩ =>
      change 0 ≤ (x 1).val ∧ (x 1).val < 0 + 64
      change (x 1).val < 64 at h1
      omega

theorem blk_disjoint (o o' : Nat) (inb inb') (h : o + 26 ≤ o' ∨ o' + 26 ≤ o) :
    Disjoint (blkRect o inb).set (blkRect o' inb').set := by
  rw [Finset.disjoint_left]
  intro x hx hx'
  rw [mem_blkRect] at hx hx'
  omega

theorem blk_cover : (Finset.univ : Finset S104x64.Idx)
    = (blkRect 0 inb_S104x64_S26x64_0_0).set ∪ ((blkRect 26 inb_S104x64_S26x64_26_0).set
        ∪ ((blkRect 52 inb_S104x64_S26x64_52_0).set ∪ (blkRect 78 inb_S104x64_S26x64_78_0).set)) := by
  ext x
  simp only [Finset.mem_univ, Finset.mem_union, mem_blkRect, true_iff]
  have h0 := (x 0).isLt
  change (x 0).val < 104 at h0
  omega

/-- Packed buffer 1 of four, and its four blocks of 26 rows as the program's copies-out spell them. -/
abbrev pM5 : Memref sig .scVector .vmem S104x64 .f32 := Memref.whole cc0_scratch5
abbrev blk5_0 : Memref sig .scVector .vmem S26x64 .f32 := (Memref.whole cc0_scratch5 : Memref sig .scVector .vmem S104x64 .f32).slice (Rect.unit (s := S104x64) ![0, 0] S26x64.size inb_S104x64_S26x64_0_0) (fun _ => rfl)
abbrev blk5_1 : Memref sig .scVector .vmem S26x64 .f32 := (Memref.whole cc0_scratch5 : Memref sig .scVector .vmem S104x64 .f32).slice (Rect.unit (s := S104x64) ![26, 0] S26x64.size inb_S104x64_S26x64_26_0) (fun _ => rfl)
abbrev blk5_2 : Memref sig .scVector .vmem S26x64 .f32 := (Memref.whole cc0_scratch5 : Memref sig .scVector .vmem S104x64 .f32).slice (Rect.unit (s := S104x64) ![52, 0] S26x64.size inb_S104x64_S26x64_52_0) (fun _ => rfl)
abbrev blk5_3 : Memref sig .scVector .vmem S26x64 .f32 := (Memref.whole cc0_scratch5 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks5 (d : Dev nD) (c : Fin τ.nSC) (i : Fin τ.nSub) (f : Buf (Elt F) ((pM5).view.loc (V d c i))) :
    ((pM5).view.loc (V d c i) ↦{fullShare} f : sProp 𝕄)
      = iprop(((blk5_0).view.loc (V d c i) ↦[(blk5_0).view.set]{fullShare} f)
          ∗ ((blk5_1).view.loc (V d c i) ↦[(blk5_1).view.set]{fullShare} f)
          ∗ ((blk5_2).view.loc (V d c i) ↦[(blk5_2).view.set]{fullShare} f)
          ∗ ((blk5_3).view.loc (V d c i) ↦[(blk5_3).view.set]{fullShare} f)) := by
  have s0 : (blk5_0).view.set = (blkRect 0 inb_S104x64_S26x64_0_0).set := View.set_slice_whole cc0_scratch5 _
  have s1 : (blk5_1).view.set = (blkRect 26 inb_S104x64_S26x64_26_0).set := View.set_slice_whole cc0_scratch5 _
  have s2 : (blk5_2).view.set = (blkRect 52 inb_S104x64_S26x64_52_0).set := View.set_slice_whole cc0_scratch5 _
  have s3 : (blk5_3).view.set = (blkRect 78 inb_S104x64_S26x64_78_0).set := View.set_slice_whole cc0_scratch5 _
  rw [s0, s1, s2, s3]
  exact pts_four (ℓ := (pM5).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

/-- Packed buffer 2 of four, and its four blocks of 26 rows as the program's copies-out spell them. -/
abbrev pM6 : Memref sig .scVector .vmem S104x64 .f32 := Memref.whole cc0_scratch6
abbrev blk6_0 : Memref sig .scVector .vmem S26x64 .f32 := (Memref.whole cc0_scratch6 : Memref sig .scVector .vmem S104x64 .f32).slice (Rect.unit (s := S104x64) ![0, 0] S26x64.size inb_S104x64_S26x64_0_0) (fun _ => rfl)
abbrev blk6_1 : Memref sig .scVector .vmem S26x64 .f32 := (Memref.whole cc0_scratch6 : Memref sig .scVector .vmem S104x64 .f32).slice (Rect.unit (s := S104x64) ![26, 0] S26x64.size inb_S104x64_S26x64_26_0) (fun _ => rfl)
abbrev blk6_2 : Memref sig .scVector .vmem S26x64 .f32 := (Memref.whole cc0_scratch6 : Memref sig .scVector .vmem S104x64 .f32).slice (Rect.unit (s := S104x64) ![52, 0] S26x64.size inb_S104x64_S26x64_52_0) (fun _ => rfl)
abbrev blk6_3 : Memref sig .scVector .vmem S26x64 .f32 := (Memref.whole cc0_scratch6 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks6 (d : Dev nD) (c : Fin τ.nSC) (i : Fin τ.nSub) (f : Buf (Elt F) ((pM6).view.loc (V d c i))) :
    ((pM6).view.loc (V d c i) ↦{fullShare} f : sProp 𝕄)
      = iprop(((blk6_0).view.loc (V d c i) ↦[(blk6_0).view.set]{fullShare} f)
          ∗ ((blk6_1).view.loc (V d c i) ↦[(blk6_1).view.set]{fullShare} f)
          ∗ ((blk6_2).view.loc (V d c i) ↦[(blk6_2).view.set]{fullShare} f)
          ∗ ((blk6_3).view.loc (V d c i) ↦[(blk6_3).view.set]{fullShare} f)) := by
  have s0 : (blk6_0).view.set = (blkRect 0 inb_S104x64_S26x64_0_0).set := View.set_slice_whole cc0_scratch6 _
  have s1 : (blk6_1).view.set = (blkRect 26 inb_S104x64_S26x64_26_0).set := View.set_slice_whole cc0_scratch6 _
  have s2 : (blk6_2).view.set = (blkRect 52 inb_S104x64_S26x64_52_0).set := View.set_slice_whole cc0_scratch6 _
  have s3 : (blk6_3).view.set = (blkRect 78 inb_S104x64_S26x64_78_0).set := View.set_slice_whole cc0_scratch6 _
  rw [s0, s1, s2, s3]
  exact pts_four (ℓ := (pM6).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

/-- Packed buffer 3 of four, and its four blocks of 26 rows as the program's copies-out spell them. -/
abbrev pM7 : Memref sig .scVector .vmem S104x64 .f32 := Memref.whole cc0_scratch7
abbrev blk7_0 : Memref sig .scVector .vmem S26x64 .f32 := (Memref.whole cc0_scratch7 : Memref sig .scVector .vmem S104x64 .f32).slice (Rect.unit (s := S104x64) ![0, 0] S26x64.size inb_S104x64_S26x64_0_0) (fun _ => rfl)
abbrev blk7_1 : Memref sig .scVector .vmem S26x64 .f32 := (Memref.whole cc0_scratch7 : Memref sig .scVector .vmem S104x64 .f32).slice (Rect.unit (s := S104x64) ![26, 0] S26x64.size inb_S104x64_S26x64_26_0) (fun _ => rfl)
abbrev blk7_2 : Memref sig .scVector .vmem S26x64 .f32 := (Memref.whole cc0_scratch7 : Memref sig .scVector .vmem S104x64 .f32).slice (Rect.unit (s := S104x64) ![52, 0] S26x64.size inb_S104x64_S26x64_52_0) (fun _ => rfl)
abbrev blk7_3 : Memref sig .scVector .vmem S26x64 .f32 := (Memref.whole cc0_scratch7 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks7 (d : Dev nD) (c : Fin τ.nSC) (i : Fin τ.nSub) (f : Buf (Elt F) ((pM7).view.loc (V d c i))) :
    ((pM7).view.loc (V d c i) ↦{fullShare} f : sProp 𝕄)
      = iprop(((blk7_0).view.loc (V d c i) ↦[(blk7_0).view.set]{fullShare} f)
          ∗ ((blk7_1).view.loc (V d c i) ↦[(blk7_1).view.set]{fullShare} f)
          ∗ ((blk7_2).view.loc (V d c i) ↦[(blk7_2).view.set]{fullShare} f)
          ∗ ((blk7_3).view.loc (V d c i) ↦[(blk7_3).view.set]{fullShare} f)) := by
  have s0 : (blk7_0).view.set = (blkRect 0 inb_S104x64_S26x64_0_0).set := View.set_slice_whole cc0_scratch7 _
  have s1 : (blk7_1).view.set = (blkRect 26 inb_S104x64_S26x64_26_0).set := View.set_slice_whole cc0_scratch7 _
  have s2 : (blk7_2).view.set = (blkRect 52 inb_S104x64_S26x64_52_0).set := View.set_slice_whole cc0_scratch7 _
  have s3 : (blk7_3).view.set = (blkRect 78 inb_S104x64_S26x64_78_0).set := View.set_slice_whole cc0_scratch7 _
  rw [s0, s1, s2, s3]
  exact pts_four (ℓ := (pM7).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

/-- Packed buffer 4 of four, and its four blocks of 26 rows as the program's copies-out spell them. -/
abbrev pM8 : Memref sig .scVector .vmem S104x64 .f32 := Memref.whole cc0_scratch8
abbrev blk8_0 : Memref sig .scVector .vmem S26x64 .f32 := (Memref.whole cc0_scratch8 : Memref sig .scVector .vmem S104x64 .f32).slice (Rect.unit (s := S104x64) ![0, 0] S26x64.size inb_S104x64_S26x64_0_0) (fun _ => rfl)
abbrev blk8_1 : Memref sig .scVector .vmem S26x64 .f32 := (Memref.whole cc0_scratch8 : Memref sig .scVector .vmem S104x64 .f32).slice (Rect.unit (s := S104x64) ![26, 0] S26x64.size inb_S104x64_S26x64_26_0) (fun _ => rfl)
abbrev blk8_2 : Memref sig .scVector .vmem S26x64 .f32 := (Memref.whole cc0_scratch8 : Memref sig .scVector .vmem S104x64 .f32).slice (Rect.unit (s := S104x64) ![52, 0] S26x64.size inb_S104x64_S26x64_52_0) (fun _ => rfl)
abbrev blk8_3 : Memref sig .scVector .vmem S26x64 .f32 := (Memref.whole cc0_scratch8 : Memref sig .scVector .vmem S104x64 .f32).slice (Rect.unit (s := S104x64) ![78, 0] S26x64.size inb_S104x64_S26x64_78_0) (fun _ => rfl)

/-- AT ANY CONTENTS the packed buffer is the separating product of its four blocks. -/
theorem pts_blocks8 (d : Dev nD) (c : Fin τ.nSC) (i : Fin τ.nSub) (f : Buf (Elt F) ((pM8).view.loc (V d c i))) :
    ((pM8).view.loc (V d c i) ↦{fullShare} f : sProp 𝕄)
      = iprop(((blk8_0).view.loc (V d c i) ↦[(blk8_0).view.set]{fullShare} f)
          ∗ ((blk8_1).view.loc (V d c i) ↦[(blk8_1).view.set]{fullShare} f)
          ∗ ((blk8_2).view.loc (V d c i) ↦[(blk8_2).view.set]{fullShare} f)
          ∗ ((blk8_3).view.loc (V d c i) ↦[(blk8_3).view.set]{fullShare} f)) := by
  have s0 : (blk8_0).view.set = (blkRect 0 inb_S104x64_S26x64_0_0).set := View.set_slice_whole cc0_scratch8 _
  have s1 : (blk8_1).view.set = (blkRect 26 inb_S104x64_S26x64_26_0).set := View.set_slice_whole cc0_scratch8 _
  have s2 : (blk8_2).view.set = (blkRect 52 inb_S104x64_S26x64_52_0).set := View.set_slice_whole cc0_scratch8 _
  have s3 : (blk8_3).view.set = (blkRect 78 inb_S104x64_S26x64_78_0).set := View.set_slice_whole cc0_scratch8 _
  rw [s0, s1, s2, s3]
  exact pts_four (ℓ := (pM8).view.loc (V d c i)) (blkRect 0 inb_S104x64_S26x64_0_0).set (blkRect 26 inb_S104x64_S26x64_26_0).set
    (blkRect 52 inb_S104x64_S26x64_52_0).set (blkRect 78 inb_S104x64_S26x64_78_0).set (blk_disjoint _ _ _ _ (by omega)) (blk_disjoint _ _ _ _ (by omega)) (blk_disjoint _ _ _ _ (by omega))
    (blk_disjoint _ _ _ _ (by omega)) (blk_disjoint _ _ _ _ (by omega)) (blk_disjoint _ _ _ _ (by omega)) blk_cover f

end Blocks

end Cert.Proof.KBits

end
-- ==== Proof.KBits.Chain.lean ====
/-
  One tile's task of the gather kernel: its resources as the kernel addresses them.

  Tile number t = 2 i + c holds rows 32 t … 32 t + 31 of the re-laid index table (each row: four batch rows' 26
  indices), a read token of the padded embedding table, and batch rows 128 t … 128 t + 127 of the result. It copies
  its index rows into its own memory, then for each of its 32 index rows k: gathers the 104 table rows the row names
  into a row buffer (four such buffers, three gathers ahead), copies columns 0…63 of each gathered row into a packed
  buffer (four such), and copies the packed buffer's four blocks of 26 rows out to batch rows 128 t + 4 k + j,
  j < 4, of the result, all four on one semaphore; a packed buffer is written again only after its four copies
  out have all been waited for. So result[128 t + 4 k + j, f, :] = table[index row (32 t + k) at 26 j + f, 0…63].
-/
import proofs.«206479_g70076686402233_cont_9to1c4b_78_46_alg».proof.Proof.KBits.Common
import proofs.«206479_g70076686402233_cont_9to1c4b_78_46_alg».proof.Proof.Gen.Kernel.Skeleton
import proofs.«206479_g70076686402233_cont_9to1c4b_78_46_alg».proof.Proof.LibOwnSplit
import proofs.«206479_g70076686402233_cont_9to1c4b_78_46_alg».proof.Proof.KBits.Rows
import Idealize.ShloMosaic.Lib.SparseCore.Ops
import Idealize.ShloMosaic.Lib.StableHlo.Run
import Idealize.ShloMosaic.Lib.Tactic

noncomputable section

namespace Cert.Proof.KBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lib.OwnSplit

variable {F : FTy → Type}

local notation "𝕄" => MT nD τ sig (HIx 1) (Elt F) ℕ UU ℕ

variable (VI : (d : Dev nD) → Buf (Elt F) (iLoc d)) (VW : (d : Dev nD) → Buf (Elt F) (wLoc d))
variable (VO GO : (d : Dev nD) → Buf (Elt F) (oLoc d))
variable [FloatOps F]

omit [FloatOps F] in
/-- The separating product and its unit as the list products spell them are the connectives. -/
theorem sep_spell {M : Type} [URA M] (A B : sProp M) : BI.sep A B = iprop(A ∗ B) := rfl
omit [FloatOps F] in
theorem emp_spell {M : Type} [URA M] : (BI.emp : sProp M) = iprop(emp) := rfl

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := rcL L
abbrev jL (L : grid0.Coords) : Fin 16 := rjL L

/-- The tile's thread. -/
abbrev thr : Thread nD τ := V d (cV L) (jV L)

/-- The tile's nine scoped DMA semaphores: the four gathers', the four copies-out', the index copy's. -/
abbrev semList : List (SemLoc sig) :=
  [.dma cc0_scratch9.sem, .dma cc0_scratch10.sem, .dma cc0_scratch11.sem, .dma cc0_scratch12.sem,
   .dma cc0_scratch13.sem, .dma cc0_scratch14.sem, .dma cc0_scratch15.sem, .dma cc0_scratch16.sem, .dma cc0_scoped0.sem]

/-- The tile's nine scratch buffers: the index rows, the four row buffers, the four packed buffers. -/
abbrev bufList : List (DevRef τ sig) :=
  [(Proc.scVector (cV L) (jV L)).devRef cc0_scratch0, (Proc.scVector (cV L) (jV L)).devRef cc0_scratch1,
   (Proc.scVector (cV L) (jV L)).devRef cc0_scratch2, (Proc.scVector (cV L) (jV L)).devRef cc0_scratch3,
   (Proc.scVector (cV L) (jV L)).devRef cc0_scratch4, (Proc.scVector (cV L) (jV L)).devRef cc0_scratch5,
   (Proc.scVector (cV L) (jV L)).devRef cc0_scratch6, (Proc.scVector (cV L) (jV L)).devRef cc0_scratch7,
   (Proc.scVector (cV L) (jV L)).devRef cc0_scratch8]

omit [FloatOps F] in
theorem semList_nodup : (semList).Nodup := by decide
omit [FloatOps F] in
theorem semList_scoped : ∀ s ∈ semList, s.isScoped Kind.scVector = true := by decide

omit [FloatOps F] in
theorem bufList_nodup : (bufList L).Nodup := by
  unfold bufList
  refine List.Nodup.map_on ?_ (l := [cc0_scratch0, cc0_scratch1, cc0_scratch2, cc0_scratch3, cc0_scratch4, cc0_scratch5, cc0_scratch6, cc0_scratch7, cc0_scratch8])
    (f := fun b : Ref sig .scVector => (Proc.scVector (cV L) (jV L)).devRef b) (by decide)
  intro a _ b _ e; exact Proc.devRef_injective _ e
omit [FloatOps F] in
theorem bufList_own : ∀ b ∈ bufList L, b.owner.home = (thr d L).2 := by
  intro b hb
  simp only [bufList, List.mem_cons, List.mem_nil_iff, or_false] at hb
  rcases hb with rfl | rfl | rfl | rfl | rfl | rfl | rfl | rfl | rfl <;> rfl

/-! ### The tile's index rows, as the kernel slices them -/

abbrev iSl (L : grid0.Coords) : Memref sig .scVector .hbm S32x104 .i32 :=
  (Memref.whole main_v0_scv : Memref sig .scVector .hbm S1024x104 .i32).slice
    (Rect.unit (s := S1024x104) (k0_off1 L) S32x104.size (k0_off1_inb L)) (fun _ => rfl)

omit [FloatOps F] in
/-- Rows 32 (2 j + c) … of the index table are part number 2 j + c of its thirty-two. -/
theorem iRect_eq : Rect.unit (s := S1024x104) (k0_off1 L) S32x104.size (k0_off1_inb L)
    = Rect.part (s := S1024x104) (a₀ := 0) hdivI (tileNo (cL L) (jL L)) := by
  unfold Rect.part Rect.block
  congr 1 <;> funext a
  · rw [k0_off1_eq]
    match a with
    | 0 =>
      have h1 : (cL L).val = (L 0).val := rfl
      have h2 : (jL L).val = (L 1).val := rfl
      simp [Shape.partIx, Shape.partSize, Transfers.tileNo_val]; omega
    | 1 => simp [Shape.partIx, Shape.partSize]
  · match a with
    | 0 => simp [Shape.partSize]
    | 1 => simp [Shape.partSize]

omit [FloatOps F] in
theorem set_iSl : (iSl L).view.set = iPart (cL L) (jL L) := by
  show ((View.whole main_v0_scv).slice (Rect.unit (s := S1024x104) (k0_off1 L) S32x104.size (k0_off1_inb L))).set = _
  rw [View.set_slice_whole]
  exact congrArg (fun r : Rect S1024x104 => r.set) (iRect_eq L)

omit [FloatOps F] in
theorem pts_iSl (f : Buf (Elt F) (iLoc d)) :
    ((iSl L).view.loc (thr d L) ↦[(iSl L).view.set]{fullShare} f : sProp 𝕄) = iLoc d ↦[iPart (cL L) (jL L)]{fullShare} f := by
  rw [set_iSl]

omit [FloatOps F] in
/-- A share of an array as four numbered read tokens and what is left. -/
theorem toks4 {ℓ : Loc nD τ sig} (q : PosShare TreeShare) (f : Buf (Elt F) ℓ) :
    (ℓ ↦{q} f : sProp 𝕄) ⊣⊢ iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) := by
  have h := Transfers.pointsTo_toks_range (Ix := HIx 1) (Name := ℕ) (U := UU) (Lvl := ℕ) (ℓ := ℓ) (S := Finset.univ) (f := f) q 4
  rw [show Finset.range 4 = {0, 1, 2, 3} by decide, SparseCore.bigSep_insert' (by decide), SparseCore.bigSep_insert' (by decide),
    SparseCore.bigSep_insert' (by decide), bigSep_singleton] at h
  exact h

/-- Between trips of a packing loop over buffer pair 0: the row buffer and the packed buffer, each held whole. -/
def packInv0 (_ : Nat) (_ : PUnit) : sProp 𝕄 :=
  iprop((∃ R, (Memref.whole cc0_scratch1 : Memref sig .scVector .vmem S104x128 .f32).view.loc (thr d L) ↦{fullShare} R)
    ∗ ∃ p, (Memref.whole cc0_scratch5 : Memref sig .scVector .vmem S104x64 .f32).view.loc (thr d L) ↦{fullShare} p)

/-- Between trips of a packing loop over buffer pair 1: the row buffer and the packed buffer, each held whole. -/
def packInv1 (_ : Nat) (_ : PUnit) : sProp 𝕄 :=
  iprop((∃ R, (Memref.whole cc0_scratch2 : Memref sig .scVector .vmem S104x128 .f32).view.loc (thr d L) ↦{fullShare} R)
    ∗ ∃ p, (Memref.whole cc0_scratch6 : Memref sig .scVector .vmem S104x64 .f32).view.loc (thr d L) ↦{fullShare} p)

/-- Between trips of a packing loop over buffer pair 2: the row buffer and the packed buffer, each held whole. -/
def packInv2 (_ : Nat) (_ : PUnit) : sProp 𝕄 :=
  iprop((∃ R, (Memref.whole cc0_scratch3 : Memref sig .scVector .vmem S104x128 .f32).view.loc (thr d L) ↦{fullShare} R)
    ∗ ∃ p, (Memref.whole cc0_scratch7 : Memref sig .scVector .vmem S104x64 .f32).view.loc (thr d L) ↦{fullShare} p)

/-- Between trips of a packing loop over buffer pair 3: the row buffer and the packed buffer, each held whole. -/
def packInv3 (_ : Nat) (_ : PUnit) : sProp 𝕄 :=
  iprop((∃ R, (Memref.whole cc0_scratch4 : Memref sig .scVector .vmem S104x128 .f32).view.loc (thr d L) ↦{fullShare} R)
    ∗ ∃ p, (Memref.whole cc0_scratch8 : Memref sig .scVector .vmem S104x64 .f32).view.loc (thr d L) ↦{fullShare} p)

set_option maxHeartbeats 4000000 in
omit [FloatOps F] in
/-- The tile's part of the result as the product of its 128 batch rows, at any contents. -/
theorem rows_chain (f : Buf (Elt F) (oLoc d)) :
    (oLoc d ↦[oPart (cL L) (jL L)]{fullShare} f : sProp 𝕄)
      = iprop(((oRowM L 0 0).view.loc (thr d L) ↦[(oRowM L 0 0).view.set]{fullShare} f)
        ∗ ((oRowM L 0 1).view.loc (thr d L) ↦[(oRowM L 0 1).view.set]{fullShare} f)
        ∗ ((oRowM L 0 2).view.loc (thr d L) ↦[(oRowM L 0 2).view.set]{fullShare} f)
        ∗ ((oRowM L 0 3).view.loc (thr d L) ↦[(oRowM L 0 3).view.set]{fullShare} f)
        ∗ ((oRowM L 1 0).view.loc (thr d L) ↦[(oRowM L 1 0).view.set]{fullShare} f)
        ∗ ((oRowM L 1 1).view.loc (thr d L) ↦[(oRowM L 1 1).view.set]{fullShare} f)
        ∗ ((oRowM L 1 2).view.loc (thr d L) ↦[(oRowM L 1 2).view.set]{fullShare} f)
        ∗ ((oRowM L 1 3).view.loc (thr d L) ↦[(oRowM L 1 3).view.set]{fullShare} f)
        ∗ ((oRowM L 2 0).view.loc (thr d L) ↦[(oRowM L 2 0).view.set]{fullShare} f)
        ∗ ((oRowM L 2 1).view.loc (thr d L) ↦[(oRowM L 2 1).view.set]{fullShare} f)
        ∗ ((oRowM L 2 2).view.loc (thr d L) ↦[(oRowM L 2 2).view.set]{fullShare} f)
        ∗ ((oRowM L 2 3).view.loc (thr d L) ↦[(oRowM L 2 3).view.set]{fullShare} f)
        ∗ ((oRowM L 3 0).view.loc (thr d L) ↦[(oRowM L 3 0).view.set]{fullShare} f)
        ∗ ((oRowM L 3 1).view.loc (thr d L) ↦[(oRowM L 3 1).view.set]{fullShare} f)
        ∗ ((oRowM L 3 2).view.loc (thr d L) ↦[(oRowM L 3 2).view.set]{fullShare} f)
        ∗ ((oRowM L 3 3).view.loc (thr d L) ↦[(oRowM L 3 3).view.set]{fullShare} f)
        ∗ ((oRowM L 4 0).view.loc (thr d L) ↦[(oRowM L 4 0).view.set]{fullShare} f)
        ∗ ((oRowM L 4 1).view.loc (thr d L) ↦[(oRowM L 4 1).view.set]{fullShare} f)
        ∗ ((oRowM L 4 2).view.loc (thr d L) ↦[(oRowM L 4 2).view.set]{fullShare} f)
        ∗ ((oRowM L 4 3).view.loc (thr d L) ↦[(oRowM L 4 3).view.set]{fullShare} f)
        ∗ ((oRowM L 5 0).view.loc (thr d L) ↦[(oRowM L 5 0).view.set]{fullShare} f)
        ∗ ((oRowM L 5 1).view.loc (thr d L) ↦[(oRowM L 5 1).view.set]{fullShare} f)
        ∗ ((oRowM L 5 2).view.loc (thr d L) ↦[(oRowM L 5 2).view.set]{fullShare} f)
        ∗ ((oRowM L 5 3).view.loc (thr d L) ↦[(oRowM L 5 3).view.set]{fullShare} f)
        ∗ ((oRowM L 6 0).view.loc (thr d L) ↦[(oRowM L 6 0).view.set]{fullShare} f)
        ∗ ((oRowM L 6 1).view.loc (thr d L) ↦[(oRowM L 6 1).view.set]{fullShare} f)
        ∗ ((oRowM L 6 2).view.loc (thr d L) ↦[(oRowM L 6 2).view.set]{fullShare} f)
        ∗ ((oRowM L 6 3).view.loc (thr d L) ↦[(oRowM L 6 3).view.set]{fullShare} f)
        ∗ ((oRowM L 7 0).view.loc (thr d L) ↦[(oRowM L 7 0).view.set]{fullShare} f)
        ∗ ((oRowM L 7 1).view.loc (thr d L) ↦[(oRowM L 7 1).view.set]{fullShare} f)
        ∗ ((oRowM L 7 2).view.loc (thr d L) ↦[(oRowM L 7 2).view.set]{fullShare} f)
        ∗ ((oRowM L 7 3).view.loc (thr d L) ↦[(oRowM L 7 3).view.set]{fullShare} f)
        ∗ ((oRowM L 8 0).view.loc (thr d L) ↦[(oRowM L 8 0).view.set]{fullShare} f)
        ∗ ((oRowM L 8 1).view.loc (thr d L) ↦[(oRowM L 8 1).view.set]{fullShare} f)
        ∗ ((oRowM L 8 2).view.loc (thr d L) ↦[(oRowM L 8 2).view.set]{fullShare} f)
        ∗ ((oRowM L 8 3).view.loc (thr d L) ↦[(oRowM L 8 3).view.set]{fullShare} f)
        ∗ ((oRowM L 9 0).view.loc (thr d L) ↦[(oRowM L 9 0).view.set]{fullShare} f)
        ∗ ((oRowM L 9 1).view.loc (thr d L) ↦[(oRowM L 9 1).view.set]{fullShare} f)
        ∗ ((oRowM L 9 2).view.loc (thr d L) ↦[(oRowM L 9 2).view.set]{fullShare} f)
        ∗ ((oRowM L 9 3).view.loc (thr d L) ↦[(oRowM L 9 3).view.set]{fullShare} f)
        ∗ ((oRowM L 10 0).view.loc (thr d L) ↦[(oRowM L 10 0).view.set]{fullShare} f)
        ∗ ((oRowM L 10 1).view.loc (thr d L) ↦[(oRowM L 10 1).view.set]{fullShare} f)
        ∗ ((oRowM L 10 2).view.loc (thr d L) ↦[(oRowM L 10 2).view.set]{fullShare} f)
        ∗ ((oRowM L 10 3).view.loc (thr d L) ↦[(oRowM L 10 3).view.set]{fullShare} f)
        ∗ ((oRowM L 11 0).view.loc (thr d L) ↦[(oRowM L 11 0).view.set]{fullShare} f)
        ∗ ((oRowM L 11 1).view.loc (thr d L) ↦[(oRowM L 11 1).view.set]{fullShare} f)
        ∗ ((oRowM L 11 2).view.loc (thr d L) ↦[(oRowM L 11 2).view.set]{fullShare} f)
        ∗ ((oRowM L 11 3).view.loc (thr d L) ↦[(oRowM L 11 3).view.set]{fullShare} f)
        ∗ ((oRowM L 12 0).view.loc (thr d L) ↦[(oRowM L 12 0).view.set]{fullShare} f)
        ∗ ((oRowM L 12 1).view.loc (thr d L) ↦[(oRowM L 12 1).view.set]{fullShare} f)
        ∗ ((oRowM L 12 2).view.loc (thr d L) ↦[(oRowM L 12 2).view.set]{fullShare} f)
        ∗ ((oRowM L 12 3).view.loc (thr d L) ↦[(oRowM L 12 3).view.set]{fullShare} f)
        ∗ ((oRowM L 13 0).view.loc (thr d L) ↦[(oRowM L 13 0).view.set]{fullShare} f)
        ∗ ((oRowM L 13 1).view.loc (thr d L) ↦[(oRowM L 13 1).view.set]{fullShare} f)
        ∗ ((oRowM L 13 2).view.loc (thr d L) ↦[(oRowM L 13 2).view.set]{fullShare} f)
        ∗ ((oRowM L 13 3).view.loc (thr d L) ↦[(oRowM L 13 3).view.set]{fullShare} f)
        ∗ ((oRowM L 14 0).view.loc (thr d L) ↦[(oRowM L 14 0).view.set]{fullShare} f)
        ∗ ((oRowM L 14 1).view.loc (thr d L) ↦[(oRowM L 14 1).view.set]{fullShare} f)
        ∗ ((oRowM L 14 2).view.loc (thr d L) ↦[(oRowM L 14 2).view.set]{fullShare} f)
        ∗ ((oRowM L 14 3).view.loc (thr d L) ↦[(oRowM L 14 3).view.set]{fullShare} f)
        ∗ ((oRowM L 15 0).view.loc (thr d L) ↦[(oRowM L 15 0).view.set]{fullShare} f)
        ∗ ((oRowM L 15 1).view.loc (thr d L) ↦[(oRowM L 15 1).view.set]{fullShare} f)
        ∗ ((oRowM L 15 2).view.loc (thr d L) ↦[(oRowM L 15 2).view.set]{fullShare} f)
        ∗ ((oRowM L 15 3).view.loc (thr d L) ↦[(oRowM L 15 3).view.set]{fullShare} f)
        ∗ ((oRowM L 16 0).view.loc (thr d L) ↦[(oRowM L 16 0).view.set]{fullShare} f)
        ∗ ((oRowM L 16 1).view.loc (thr d L) ↦[(oRowM L 16 1).view.set]{fullShare} f)
        ∗ ((oRowM L 16 2).view.loc (thr d L) ↦[(oRowM L 16 2).view.set]{fullShare} f)
        ∗ ((oRowM L 16 3).view.loc (thr d L) ↦[(oRowM L 16 3).view.set]{fullShare} f)
        ∗ ((oRowM L 17 0).view.loc (thr d L) ↦[(oRowM L 17 0).view.set]{fullShare} f)
        ∗ ((oRowM L 17 1).view.loc (thr d L) ↦[(oRowM L 17 1).view.set]{fullShare} f)
        ∗ ((oRowM L 17 2).view.loc (thr d L) ↦[(oRowM L 17 2).view.set]{fullShare} f)
        ∗ ((oRowM L 17 3).view.loc (thr d L) ↦[(oRowM L 17 3).view.set]{fullShare} f)
        ∗ ((oRowM L 18 0).view.loc (thr d L) ↦[(oRowM L 18 0).view.set]{fullShare} f)
        ∗ ((oRowM L 18 1).view.loc (thr d L) ↦[(oRowM L 18 1).view.set]{fullShare} f)
        ∗ ((oRowM L 18 2).view.loc (thr d L) ↦[(oRowM L 18 2).view.set]{fullShare} f)
        ∗ ((oRowM L 18 3).view.loc (thr d L) ↦[(oRowM L 18 3).view.set]{fullShare} f)
        ∗ ((oRowM L 19 0).view.loc (thr d L) ↦[(oRowM L 19 0).view.set]{fullShare} f)
        ∗ ((oRowM L 19 1).view.loc (thr d L) ↦[(oRowM L 19 1).view.set]{fullShare} f)
        ∗ ((oRowM L 19 2).view.loc (thr d L) ↦[(oRowM L 19 2).view.set]{fullShare} f)
        ∗ ((oRowM L 19 3).view.loc (thr d L) ↦[(oRowM L 19 3).view.set]{fullShare} f)
        ∗ ((oRowM L 20 0).view.loc (thr d L) ↦[(oRowM L 20 0).view.set]{fullShare} f)
        ∗ ((oRowM L 20 1).view.loc (thr d L) ↦[(oRowM L 20 1).view.set]{fullShare} f)
        ∗ ((oRowM L 20 2).view.loc (thr d L) ↦[(oRowM L 20 2).view.set]{fullShare} f)
        ∗ ((oRowM L 20 3).view.loc (thr d L) ↦[(oRowM L 20 3).view.set]{fullShare} f)
        ∗ ((oRowM L 21 0).view.loc (thr d L) ↦[(oRowM L 21 0).view.set]{fullShare} f)
        ∗ ((oRowM L 21 1).view.loc (thr d L) ↦[(oRowM L 21 1).view.set]{fullShare} f)
        ∗ ((oRowM L 21 2).view.loc (thr d L) ↦[(oRowM L 21 2).view.set]{fullShare} f)
        ∗ ((oRowM L 21 3).view.loc (thr d L) ↦[(oRowM L 21 3).view.set]{fullShare} f)
        ∗ ((oRowM L 22 0).view.loc (thr d L) ↦[(oRowM L 22 0).view.set]{fullShare} f)
        ∗ ((oRowM L 22 1).view.loc (thr d L) ↦[(oRowM L 22 1).view.set]{fullShare} f)
        ∗ ((oRowM L 22 2).view.loc (thr d L) ↦[(oRowM L 22 2).view.set]{fullShare} f)
        ∗ ((oRowM L 22 3).view.loc (thr d L) ↦[(oRowM L 22 3).view.set]{fullShare} f)
        ∗ ((oRowM L 23 0).view.loc (thr d L) ↦[(oRowM L 23 0).view.set]{fullShare} f)
        ∗ ((oRowM L 23 1).view.loc (thr d L) ↦[(oRowM L 23 1).view.set]{fullShare} f)
        ∗ ((oRowM L 23 2).view.loc (thr d L) ↦[(oRowM L 23 2).view.set]{fullShare} f)
        ∗ ((oRowM L 23 3).view.loc (thr d L) ↦[(oRowM L 23 3).view.set]{fullShare} f)
        ∗ ((oRowM L 24 0).view.loc (thr d L) ↦[(oRowM L 24 0).view.set]{fullShare} f)
        ∗ ((oRowM L 24 1).view.loc (thr d L) ↦[(oRowM L 24 1).view.set]{fullShare} f)
        ∗ ((oRowM L 24 2).view.loc (thr d L) ↦[(oRowM L 24 2).view.set]{fullShare} f)
        ∗ ((oRowM L 24 3).view.loc (thr d L) ↦[(oRowM L 24 3).view.set]{fullShare} f)
        ∗ ((oRowM L 25 0).view.loc (thr d L) ↦[(oRowM L 25 0).view.set]{fullShare} f)
        ∗ ((oRowM L 25 1).view.loc (thr d L) ↦[(oRowM L 25 1).view.set]{fullShare} f)
        ∗ ((oRowM L 25 2).view.loc (thr d L) ↦[(oRowM L 25 2).view.set]{fullShare} f)
        ∗ ((oRowM L 25 3).view.loc (thr d L) ↦[(oRowM L 25 3).view.set]{fullShare} f)
        ∗ ((oRowM L 26 0).view.loc (thr d L) ↦[(oRowM L 26 0).view.set]{fullShare} f)
        ∗ ((oRowM L 26 1).view.loc (thr d L) ↦[(oRowM L 26 1).view.set]{fullShare} f)
        ∗ ((oRowM L 26 2).view.loc (thr d L) ↦[(oRowM L 26 2).view.set]{fullShare} f)
        ∗ ((oRowM L 26 3).view.loc (thr d L) ↦[(oRowM L 26 3).view.set]{fullShare} f)
        ∗ ((oRowM L 27 0).view.loc (thr d L) ↦[(oRowM L 27 0).view.set]{fullShare} f)
        ∗ ((oRowM L 27 1).view.loc (thr d L) ↦[(oRowM L 27 1).view.set]{fullShare} f)
        ∗ ((oRowM L 27 2).view.loc (thr d L) ↦[(oRowM L 27 2).view.set]{fullShare} f)
        ∗ ((oRowM L 27 3).view.loc (thr d L) ↦[(oRowM L 27 3).view.set]{fullShare} f)
        ∗ ((oRowM L 28 0).view.loc (thr d L) ↦[(oRowM L 28 0).view.set]{fullShare} f)
        ∗ ((oRowM L 28 1).view.loc (thr d L) ↦[(oRowM L 28 1).view.set]{fullShare} f)
        ∗ ((oRowM L 28 2).view.loc (thr d L) ↦[(oRowM L 28 2).view.set]{fullShare} f)
        ∗ ((oRowM L 28 3).view.loc (thr d L) ↦[(oRowM L 28 3).view.set]{fullShare} f)
        ∗ ((oRowM L 29 0).view.loc (thr d L) ↦[(oRowM L 29 0).view.set]{fullShare} f)
        ∗ ((oRowM L 29 1).view.loc (thr d L) ↦[(oRowM L 29 1).view.set]{fullShare} f)
        ∗ ((oRowM L 29 2).view.loc (thr d L) ↦[(oRowM L 29 2).view.set]{fullShare} f)
        ∗ ((oRowM L 29 3).view.loc (thr d L) ↦[(oRowM L 29 3).view.set]{fullShare} f)
        ∗ ((oRowM L 30 0).view.loc (thr d L) ↦[(oRowM L 30 0).view.set]{fullShare} f)
        ∗ ((oRowM L 30 1).view.loc (thr d L) ↦[(oRowM L 30 1).view.set]{fullShare} f)
        ∗ ((oRowM L 30 2).view.loc (thr d L) ↦[(oRowM L 30 2).view.set]{fullShare} f)
        ∗ ((oRowM L 30 3).view.loc (thr d L) ↦[(oRowM L 30 3).view.set]{fullShare} f)
        ∗ ((oRowM L 31 0).view.loc (thr d L) ↦[(oRowM L 31 0).view.set]{fullShare} f)
        ∗ ((oRowM L 31 1).view.loc (thr d L) ↦[(oRowM L 31 1).view.set]{fullShare} f)
        ∗ ((oRowM L 31 2).view.loc (thr d L) ↦[(oRowM L 31 2).view.set]{fullShare} f)
        ∗ ((oRowM L 31 3).view.loc (thr d L) ↦[(oRowM L 31 3).view.set]{fullShare} f)
        ∗ emp) := by
  rw [pts_rows (F := F) L d f]
  simp only [rowsList, bigSepL_cons, bigSepL_nil, sep_spell, emp_spell]

end Tile

end Cert.Proof.KBits

end
-- ==== Proof.KBits.ValDefs.lean ====
/-
  The values a tile's buffers hold, as plain functions.

  For tile (c, i), number t = 2 i + c, and its k-th index row (row 32 t + k of the re-laid index table I): the gather
  fills the row buffer with row z₀ := the padded table's row I[32 t + k, z₀] mod 100000, all 128 columns; the packing
  loop copies columns 0…63 of each row, so after k' trips the packed buffer agrees with the row buffer on rows below
  k'.
-/
import proofs.«206479_g70076686402233_cont_9to1c4b_78_46_alg».proof.Proof.KBits.Rows
import proofs.«206479_g70076686402233_cont_9to1c4b_78_46_alg».proof.Proof.Gath

noncomputable section

namespace Cert.Proof.KBits

open Cert.Kernel Cert.Kernel.Gen
open Idealize.ShloMosaic Idealize.ShloMosaic.ValueIdx
open Cert.Proof.Spec (rowOf gath relaid col128)

/-- Column c < 64 of a packed row, among the row buffer's 128 columns. -/
def widen (y : S104x64.Idx) : S104x128.Idx :=
  ix2 (y 0) ⟨(y 1).val, by have h : (y 1).val < 64 := (y 1).isLt; omega⟩

/-- The packed buffer agrees with the row buffer, columns 0…63, on the rows below k. -/
def PackedUpTo {α : Type} (k : Nat) (p : S104x64.Idx → α) (R : S104x128.Idx → α) : Prop :=
  ∀ y : S104x64.Idx, (y 0).val < k → p y = R (widen y)

/-- The first of tile L's rows of the re-laid index table: 32 (2 i + c). -/
def idxRow0 (L : grid0.Coords) : Nat := 64 * (L 1).val + 32 * (L 0).val

theorem idxRow_lt (L : grid0.Coords) (k : Fin 32) : idxRow0 L + k.val < 1024 := by
  have h0 : (L 0).val < 2 := (L 0).isLt
  have h1 : (L 1).val < 16 := (L 1).isLt
  have hk := k.isLt
  unfold idxRow0; omega

/-- What the row buffer holds after the gather for the tile's k-th index row: row z₀ is the padded table's row
    I[32 t + k, z₀] mod 100000. -/
def gathered {α : Type} (L : grid0.Coords) (k : Fin 32) (I : S1024x104.Idx → BitVec 32) (W : S100000x128.Idx → α) : S104x128.Idx → α :=
  fun z => W (ix2 (rowOf (I (ix2 ⟨idxRow0 L + k.val, idxRow_lt L k⟩ (z 0)))) (z 1))

end Cert.Proof.KBits

end
-- ==== Proof.KBits.PackStep.lean ====
/-
  One trip of the packing loop.

  Trip k copies row k of the row buffer (128 columns), columns 0…63, into row k of the packed buffer (64 columns), in
  four pieces of 16 columns; each piece is loaded as a 1 × 16 block, cast to a vector of 16 and back (the same
  elements in the same order), and stored at the same row and columns.  The four pieces lie in row k and cover its
  64 columns, so after the trip the packed buffer agrees with the row buffer on row k, and on the rows below k it
  is as it was.
-/
import proofs.«206479_g70076686402233_cont_9to1c4b_78_46_alg».proof.Proof.KBits.ValDefs
import Idealize.ShloMosaic.Lib.Writes
import Idealize.ShloMosaic.Lib.Pipeline.Value

noncomputable section

namespace Cert.Proof.KBits

open Cert.Kernel Cert.Kernel.Gen
open Idealize.ShloMosaic Idealize.ShloMosaic.ValueIdx
open Idealize.ShloMosaic.SparseCore (S V T)

/-! ## The agreement, at its two ends -/

/-- Before the first trip nothing is asked. -/
theorem packed_zero {α : Type} (p : S104x64.Idx → α) (R : S104x128.Idx → α) : PackedUpTo 0 p R :=
  fun _ h => absurd h (Nat.not_lt_zero _)

/-- After the last trip the packed buffer is the row buffer's columns 0…63. -/
theorem PackedUpTo.all {α : Type} {p : S104x64.Idx → α} {R : S104x128.Idx → α} (h : PackedUpTo 104 p R)
    (y : S104x64.Idx) : p y = R (widen y) :=
  h y (y 0).isLt

/-! ## One trip, through any two views -/

section Gen

variable {sig : RefSig} {κ κ' : Kind} {sp sp' : Space} {Val : EltTy → Type}

/-- A 1 × 16 piece of row k at column o of the packed buffer holds exactly the indices of row k with column in
    [o, o + 16). -/
theorem mem_piece (k o : Nat) (h : ∀ a, (![k, o] : Fin 2 → Nat) a + S1x16.size a ≤ S104x64.size a) (y : S104x64.Idx) :
    y ∈ (Rect.unit (s := S104x64) ![k, o] S1x16.size h).set ↔ (y 0).val = k ∧ o ≤ (y 1).val ∧ (y 1).val < o + 16 := by
  rw [Rect.mem_set_unit]
  constructor
  · intro hy
    have h0 := hy 0
    have h1 := hy 1
    change k ≤ (y 0).val ∧ (y 0).val < k + 1 at h0
    change o ≤ (y 1).val ∧ (y 1).val < o + 16 at h1
    omega
  · intro hy a
    match a with
    | ⟨0, _⟩ =>
      change k ≤ (y 0).val ∧ (y 0).val < k + 1
      omega
    | ⟨1, _⟩ =>
      change o ≤ (y 1).val ∧ (y 1).val < o + 16
      omega

/-- The piece loaded at [k, o] of the row buffer, cast to a vector and back, is the row buffer at the widened
    index of where it is stored in the packed buffer. -/
theorem piece_val (v' : View sig κ' sp' S104x128 .f32) (R : v'.ty.Contents Val) (k o : Nat)
    (hs : ∀ a, (![k, o] : Fin 2 → Nat) a + S1x16.size a ≤ S104x64.size a)
    (hl : ∀ a, (![k, o] : Fin 2 → Nat) a + S1x16.size a ≤ S104x128.size a)
    (c1 : S1x16.ShapeCasts S16) (c2 : S16.ShapeCasts S1x16)
    (x : (Rect.unit (s := S104x64) ![k, o] S1x16.size hs).shape.Idx) :
    shapeCast S1x16 (shapeCast S16 (v'.readAt Val (Rect.unit (s := S104x128) ![k, o] S1x16.size hl).toLoadRect R) c1) c2 x
      = v'.read Val R (widen ((Rect.unit (s := S104x64) ![k, o] S1x16.size hs).emb x)) := by
  rw [shapeCast_shapeCast]
  show v'.read Val R ((Rect.unit (s := S104x128) ![k, o] S1x16.size hl).toLoadRect.idx x) = _
  refine congrArg (v'.read Val R) (funext fun a => Fin.ext ?_)
  match a with
  | ⟨0, _⟩ => rfl
  | ⟨1, _⟩ => rfl

/-- ONE TRIP: if the packed buffer agrees with the row buffer below row k, then after the four stores of trip k
    it agrees below row k + 1. -/
theorem pack_step_gen (v : View sig κ sp S104x64 .f32) (v' : View sig κ' sp' S104x128 .f32)
    (k : Nat) (hk : k < 104) (R : v'.ty.Contents Val) (p : v.ty.Contents Val)
    (h2 : ∀ a, (![k, 0] : Fin 2 → Nat) a + S1x16.size a ≤ S104x128.size a)
    (h3 : ∀ a, (![k, 0] : Fin 2 → Nat) a + S1x16.size a ≤ S104x64.size a)
    (h4 : ∀ a, (![k, 16] : Fin 2 → Nat) a + S1x16.size a ≤ S104x128.size a)
    (h5 : ∀ a, (![k, 16] : Fin 2 → Nat) a + S1x16.size a ≤ S104x64.size a)
    (h6 : ∀ a, (![k, 32] : Fin 2 → Nat) a + S1x16.size a ≤ S104x128.size a)
    (h7 : ∀ a, (![k, 32] : Fin 2 → Nat) a + S1x16.size a ≤ S104x64.size a)
    (h8 : ∀ a, (![k, 48] : Fin 2 → Nat) a + S1x16.size a ≤ S104x128.size a)
    (h9 : ∀ a, (![k, 48] : Fin 2 → Nat) a + S1x16.size a ≤ S104x64.size a)
    (c1 : S1x16.ShapeCasts S16) (c2 : S16.ShapeCasts S1x16)
    (hp : ∀ y : S104x64.Idx, (y 0).val < k → v.read Val p y = v'.read Val R (widen y)) :
    ∀ y : S104x64.Idx, (y 0).val < k + 1 →
      v.read Val (v.writes Val p
        [⟨Rect.unit (s := S104x64) ![k, 48] S1x16.size h9, shapeCast S1x16 (shapeCast S16 (v'.readAt Val (Rect.unit (s := S104x128) ![k, 48] S1x16.size h8).toLoadRect R) c1) c2⟩,
         ⟨Rect.unit (s := S104x64) ![k, 32] S1x16.size h7, shapeCast S1x16 (shapeCast S16 (v'.readAt Val (Rect.unit (s := S104x128) ![k, 32] S1x16.size h6).toLoadRect R) c1) c2⟩,
         ⟨Rect.unit (s := S104x64) ![k, 16] S1x16.size h5, shapeCast S1x16 (shapeCast S16 (v'.readAt Val (Rect.unit (s := S104x128) ![k, 16] S1x16.size h4).toLoadRect R) c1) c2⟩,
         ⟨Rect.unit (s := S104x64) ![k, 0] S1x16.size h3, shapeCast S1x16 (shapeCast S16 (v'.readAt Val (Rect.unit (s := S104x128) ![k, 0] S1x16.size h2).toLoadRect R) c1) c2⟩]) y = v'.read Val R (widen y) := by
  intro y hy
  by_cases hlt : (y 0).val < k
  · rw [View.read_writes_apply_of_forall_not_mem v p y _ (fun pc hpc => ?_)]
    · exact hp y hlt
    · simp only [List.mem_cons, List.not_mem_nil, or_false] at hpc
      rcases hpc with rfl | rfl | rfl | rfl <;> (rw [mem_piece]; omega)
  · have hk0 : (y 0).val = k := by omega
    have h1 : (y 1).val < 64 := (y 1).isLt
    refine View.read_writes_apply_of_pieces v p (fun y => v'.read Val R (widen y)) _ (fun pc hpc x => ?_) y ?_
    · simp only [List.mem_cons, List.not_mem_nil, or_false] at hpc
      rcases hpc with rfl | rfl | rfl | rfl
      · exact piece_val v' R k 48 h9 h8 c1 c2 x
      · exact piece_val v' R k 32 h7 h6 c1 c2 x
      · exact piece_val v' R k 16 h5 h4 c1 c2 x
      · exact piece_val v' R k 0 h3 h2 c1 c2 x
    · by_cases g3 : 48 ≤ (y 1).val
      · exact ⟨_, List.mem_cons_self, (mem_piece k 48 h9 y).2 (by omega)⟩
      · by_cases g2 : 32 ≤ (y 1).val
        · exact ⟨_, List.mem_cons_of_mem _ List.mem_cons_self, (mem_piece k 32 h7 y).2 (by omega)⟩
        · by_cases g1 : 16 ≤ (y 1).val
          · exact ⟨_, List.mem_cons_of_mem _ (List.mem_cons_of_mem _ List.mem_cons_self), (mem_piece k 16 h5 y).2 (by omega)⟩
          · exact ⟨_, List.mem_cons_of_mem _ (List.mem_cons_of_mem _ (List.mem_cons_of_mem _ List.mem_cons_self)),
              (mem_piece k 0 h3 y).2 (by omega)⟩

end Gen

/-! ## One trip, over the program's buffers -/

section Prog

variable {F : FTy → Type} [FloatOps F]

/-- One trip of the packing loop from row buffer 1 into packed buffer 1, over the printed offset chains
    (given their closed forms) and the program's own evidence. -/
theorem pack_step1 (d : Dev nD) (c : Fin τ.nSC) (i : Fin τ.nSub) (k : Nat) (hk : k < 104)
    (R : Buf (Elt F) ((Memref.whole cc0_scratch1 : Memref sig .scVector .vmem S104x128 .f32).view.loc (V d c i)))
    (p : Buf (Elt F) ((Memref.whole cc0_scratch5 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch5 : Memref sig .scVector .vmem S104x64 .f32).view.writes (Elt F) p
        [⟨Rect.unit (s := S104x64) o9 S1x16.size h9, shapeCast S1x16 (shapeCast S16 ((Memref.whole cc0_scratch1 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch1 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch1 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch1 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch5) (View.whole cc0_scratch1) k hk R p h2 h3 h4 h5 h6 h7 h8 h9 c1 c2 hp

/-- One trip of the packing loop from row buffer 2 into packed buffer 2, over the printed offset chains
    (given their closed forms) and the program's own evidence. -/
theorem pack_step2 (d : Dev nD) (c : Fin τ.nSC) (i : Fin τ.nSub) (k : Nat) (hk : k < 104)
    (R : Buf (Elt F) ((Memref.whole cc0_scratch2 : Memref sig .scVector .vmem S104x128 .f32).view.loc (V d c i)))
    (p : Buf (Elt F) ((Memref.whole cc0_scratch6 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch6 : Memref sig .scVector .vmem S104x64 .f32).view.writes (Elt F) p
        [⟨Rect.unit (s := S104x64) o9 S1x16.size h9, shapeCast S1x16 (shapeCast S16 ((Memref.whole cc0_scratch2 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch2 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch2 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch2 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch6) (View.whole cc0_scratch2) k hk R p h2 h3 h4 h5 h6 h7 h8 h9 c1 c2 hp

/-- One trip of the packing loop from row buffer 3 into packed buffer 3, over the printed offset chains
    (given their closed forms) and the program's own evidence. -/
theorem pack_step3 (d : Dev nD) (c : Fin τ.nSC) (i : Fin τ.nSub) (k : Nat) (hk : k < 104)
    (R : Buf (Elt F) ((Memref.whole cc0_scratch3 : Memref sig .scVector .vmem S104x128 .f32).view.loc (V d c i)))
    (p : Buf (Elt F) ((Memref.whole cc0_scratch7 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch7 : Memref sig .scVector .vmem S104x64 .f32).view.writes (Elt F) p
        [⟨Rect.unit (s := S104x64) o9 S1x16.size h9, shapeCast S1x16 (shapeCast S16 ((Memref.whole cc0_scratch3 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch3 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch3 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch3 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch7) (View.whole cc0_scratch3) k hk R p h2 h3 h4 h5 h6 h7 h8 h9 c1 c2 hp

/-- One trip of the packing loop from row buffer 4 into packed buffer 4, over the printed offset chains
    (given their closed forms) and the program's own evidence. -/
theorem pack_step4 (d : Dev nD) (c : Fin τ.nSC) (i : Fin τ.nSub) (k : Nat) (hk : k < 104)
    (R : Buf (Elt F) ((Memref.whole cc0_scratch4 : Memref sig .scVector .vmem S104x128 .f32).view.loc (V d c i)))
    (p : Buf (Elt F) ((Memref.whole cc0_scratch8 : Memref sig .scVector .vmem S104x64 .f32).view.loc (V d c i)))
    (o2 o3 o4 o5 o6 o7 o8 o9 : Fin 2 → Nat)
    (h2 : ∀ a, o2 a + S1x16.size a ≤ S104x128.size a) (h3 : ∀ a, o3 a + S1x16.size a ≤ S104x64.size a)
    (h4 : ∀ a, o4 a + S1x16.size a ≤ S104x128.size a) (h5 : ∀ a, o5 a + S1x16.size a ≤ S104x64.size a)
    (h6 : ∀ a, o6 a + S1x16.size a ≤ S104x128.size a) (h7 : ∀ a, o7 a + S1x16.size a ≤ S104x64.size a)
    (h8 : ∀ a, o8 a + S1x16.size a ≤ S104x128.size a) (h9 : ∀ a, o9 a + S1x16.size a ≤ S104x64.size a)
    (c1 : S1x16.ShapeCasts S16) (c2 : S16.ShapeCasts S1x16)
    (e2 : o2 = ![k, 0]) (e3 : o3 = ![k, 0]) (e4 : o4 = ![k, 16]) (e5 : o5 = ![k, 16])
    (e6 : o6 = ![k, 32]) (e7 : o7 = ![k, 32]) (e8 : o8 = ![k, 48]) (e9 : o9 = ![k, 48])
    (hp : PackedUpTo k p R) :
    PackedUpTo (k + 1)
      ((Memref.whole cc0_scratch8 : Memref sig .scVector .vmem S104x64 .f32).view.writes (Elt F) p
        [⟨Rect.unit (s := S104x64) o9 S1x16.size h9, shapeCast S1x16 (shapeCast S16 ((Memref.whole cc0_scratch4 : Memref sig .scVector .vmem S104x128 .f32).view.readAt (Elt F) (Rect.unit (s := S104x128) o8 S1x16.size h8).toLoadRect R) c1) c2⟩,
         ⟨Rect.unit (s := S104x64) o7 S1x16.size h7, shapeCast S1x16 (shapeCast S16 ((Memref.whole cc0_scratch4 : Memref sig .scVector .vmem S104x128 .f32).view.readAt (Elt F) (Rect.unit (s := S104x128) o6 S1x16.size h6).toLoadRect R) c1) c2⟩,
         ⟨Rect.unit (s := S104x64) o5 S1x16.size h5, shapeCast S1x16 (shapeCast S16 ((Memref.whole cc0_scratch4 : Memref sig .scVector .vmem S104x128 .f32).view.readAt (Elt F) (Rect.unit (s := S104x128) o4 S1x16.size h4).toLoadRect R) c1) c2⟩,
         ⟨Rect.unit (s := S104x64) o3 S1x16.size h3, shapeCast S1x16 (shapeCast S16 ((Memref.whole cc0_scratch4 : Memref sig .scVector .vmem S104x128 .f32).view.readAt (Elt F) (Rect.unit (s := S104x128) o2 S1x16.size h2).toLoadRect R) c1) c2⟩]) R := by
  subst e2 e3 e4 e5 e6 e7 e8 e9
  exact pack_step_gen (View.whole cc0_scratch8) (View.whole cc0_scratch4) k hk R p h2 h3 h4 h5 h6 h7 h8 h9 c1 c2 hp

end Prog

end Cert.Proof.KBits

end
-- ==== Proof.KBits.EndFacts.lean ====
/-
  Small facts the tile's proof closes its ends with.

  Each of the thirty-two packing loops runs 104 trips (one per row of a row buffer): its bounds are the literals 0
  and 0 + 104, its step 1.  A points-to names its contents.  And the semaphore waits a tile records: every wait it
  adds is at the index "none", so every recorded wait is either one it was handed or at that index.
-/
import proofs.«206479_g70076686402233_cont_9to1c4b_78_46_alg».proof.Proof.KBits.ValDefs
import proofs.«206479_g70076686402233_cont_9to1c4b_78_46_alg».proof.Proof.Gen.Kernel

noncomputable section

namespace Cert.Proof.KBits

open Cert.Kernel Cert.Kernel.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The packing loops' trip counts -/

theorem trips_1 : Scf.trips k0_t1_loop.lb k0_t1_loop.ub k0_t1_loop.st = 104 := by decide
theorem trips_2 : Scf.trips k0_t2_loop.lb k0_t2_loop.ub k0_t2_loop.st = 104 := by decide
theorem trips_3 : Scf.trips k0_t3_loop.lb k0_t3_loop.ub k0_t3_loop.st = 104 := by decide
theorem trips_4 : Scf.trips k0_t4_loop.lb k0_t4_loop.ub k0_t4_loop.st = 104 := by decide
theorem trips_5 : Scf.trips k0_t5_loop.lb k0_t5_loop.ub k0_t5_loop.st = 104 := by decide
theorem trips_6 : Scf.trips k0_t6_loop.lb k0_t6_loop.ub k0_t6_loop.st = 104 := by decide
theorem trips_7 : Scf.trips k0_t7_loop.lb k0_t7_loop.ub k0_t7_loop.st = 104 := by decide
theorem trips_8 : Scf.trips k0_t8_loop.lb k0_t8_loop.ub k0_t8_loop.st = 104 := by decide
theorem trips_9 : Scf.trips k0_t9_loop.lb k0_t9_loop.ub k0_t9_loop.st = 104 := by decide
theorem trips_10 : Scf.trips k0_t10_loop.lb k0_t10_loop.ub k0_t10_loop.st = 104 := by decide
theorem trips_11 : Scf.trips k0_t11_loop.lb k0_t11_loop.ub k0_t11_loop.st = 104 := by decide
theorem trips_12 : Scf.trips k0_t12_loop.lb k0_t12_loop.ub k0_t12_loop.st = 104 := by decide
theorem trips_13 : Scf.trips k0_t13_loop.lb k0_t13_loop.ub k0_t13_loop.st = 104 := by decide
theorem trips_14 : Scf.trips k0_t14_loop.lb k0_t14_loop.ub k0_t14_loop.st = 104 := by decide
theorem trips_15 : Scf.trips k0_t15_loop.lb k0_t15_loop.ub k0_t15_loop.st = 104 := by decide
theorem trips_16 : Scf.trips k0_t16_loop.lb k0_t16_loop.ub k0_t16_loop.st = 104 := by decide
theorem trips_17 : Scf.trips k0_t17_loop.lb k0_t17_loop.ub k0_t17_loop.st = 104 := by decide
theorem trips_18 : Scf.trips k0_t18_loop.lb k0_t18_loop.ub k0_t18_loop.st = 104 := by decide
theorem trips_19 : Scf.trips k0_t19_loop.lb k0_t19_loop.ub k0_t19_loop.st = 104 := by decide
theorem trips_20 : Scf.trips k0_t20_loop.lb k0_t20_loop.ub k0_t20_loop.st = 104 := by decide
theorem trips_21 : Scf.trips k0_t21_loop.lb k0_t21_loop.ub k0_t21_loop.st = 104 := by decide
theorem trips_22 : Scf.trips k0_t22_loop.lb k0_t22_loop.ub k0_t22_loop.st = 104 := by decide
theorem trips_23 : Scf.trips k0_t23_loop.lb k0_t23_loop.ub k0_t23_loop.st = 104 := by decide
theorem trips_24 : Scf.trips k0_t24_loop.lb k0_t24_loop.ub k0_t24_loop.st = 104 := by decide
theorem trips_25 : Scf.trips k0_t25_loop.lb k0_t25_loop.ub k0_t25_loop.st = 104 := by decide
theorem trips_26 : Scf.trips k0_t26_loop.lb k0_t26_loop.ub k0_t26_loop.st = 104 := by decide
theorem trips_27 : Scf.trips k0_t27_loop.lb k0_t27_loop.ub k0_t27_loop.st = 104 := by decide
theorem trips_28 : Scf.trips k0_t28_loop.lb k0_t28_loop.ub k0_t28_loop.st = 104 := by decide
theorem trips_29 : Scf.trips k0_t29_loop.lb k0_t29_loop.ub k0_t29_loop.st = 104 := by decide
theorem trips_30 : Scf.trips k0_t30_loop.lb k0_t30_loop.ub k0_t30_loop.st = 104 := by decide
theorem trips_31 : Scf.trips k0_t31_loop.lb k0_t31_loop.ub k0_t31_loop.st = 104 := by decide
theorem trips_32 : Scf.trips k0_t32_loop.lb k0_t32_loop.ub k0_t32_loop.st = 104 := by decide

/-! ## A points-to names its contents -/

theorem pts_name {ℓ : Loc nD τ sig} {q : PosShare TreeShare} (X : Buf (Elt F) ℓ) :
    (ℓ ↦{q} X : sProp 𝕄) ⊢ iprop(∃ R, ⌜R = X⌝ ∗ ℓ ↦{q} R) := by
  iintro H
  iexists X
  isplitr
  · ipureintro
    rfl
  · iexact H

/-! ## The recorded waits -/

section Waits

variable {sig' : RefSig} {Q : Nat}

/-- Every wait already there is one that was handed over. -/
theorem waits_base {W : Waits sig' (HIx Q)} : ∀ p ∈ W, p ∈ W ∨ p.2 = none :=
  fun _ h => Or.inl h

/-- One more wait at the index "none" keeps the property. -/
theorem waits_insert {W' W : Waits sig' (HIx Q)} {a : SemLoc sig' × HIx Q} (ha : a.2 = none)
    (h : ∀ p ∈ W', p ∈ W ∨ p.2 = none) : ∀ p ∈ insert a W', p ∈ W ∨ p.2 = none := by
  intro p hp
  rcases Finset.mem_insert.mp hp with rfl | hp
  · exact Or.inr ha
  · exact h p hp

end Waits

end Cert.Proof.KBits

end
-- ==== Proof.KBits.RowVal.lean ====
/-
  One row of the result through the kernel's view of it, index by index.

  The view of batch row n = 128 t + 4 r₁ + r₂ is the 1 × 26 × 64 rectangle at (n, 0, 0) with its unit axis dropped:
  its element (f, c) is element (n, f, c) of the result, and the result's elements under it are exactly those whose
  batch coordinate is n.
-/
import proofs.«206479_g70076686402233_cont_9to1c4b_78_46_alg».proof.Proof.KBits.Rows
import Idealize.ShloMosaic.Lib.ValueIdx

noncomputable section

namespace Cert.Proof.KBits

open Cert.Kernel Cert.Kernel.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

section RowIndex

open Idealize.ShloMosaic.ValueIdx

variable (L : grid0.Coords)

/-- A tile's row number is a batch row of the result. -/
theorem rowNo_lt (r₁ : Fin 32) (r₂ : Fin 4) : rowNo L r₁ r₂ < 4096 := by
  have h0 : (L 0).val < 2 := (L 0).isLt
  have h1 : (L 1).val < 16 := (L 1).isLt
  have := r₁.isLt
  have := r₂.isLt
  simp only [rowNo]
  omega

/-- The elements under the row's view are those of its batch row. -/
theorem mem_set_oRowM (r₁ : Fin 32) (r₂ : Fin 4) (x : S4096x26x64.Idx) :
    x ∈ (oRowM L r₁ r₂).view.set ↔ (x 0).val = rowNo L r₁ r₂ := by
  rw [set_oRowM, mem_oRect]

/-- Element (f, c) of the row's view is element (row, f, c) of the result. -/
theorem emb_oRowM (r₁ : Fin 32) (r₂ : Fin 4) (y : S26x64.Idx) :
    ((oRowM L r₁ r₂).view.emb y : S4096x26x64.Idx) = ix3 ⟨rowNo L r₁ r₂, rowNo_lt L r₁ r₂⟩ (y 0) (y 1) := by
  have hj : Shape.reshapeEquiv Facts₀.squeezes_S1x26x64_S26x64.numel_eq y
      = (ix3 ⟨0, Nat.one_pos⟩ (y 0) (y 1) : (oRect L r₁ r₂).shape.Idx) := by
    apply Shape.reshapeEquiv_eq_of_rowMajor
    rw [Shape.rowMajor_val_three, Shape.rowMajor_val_two]
    show (0 * 26 + (y 0).val) * 64 + (y 1).val = (y 0).val * 64 + (y 1).val
    omega
  show (oRect L r₁ r₂).emb (Shape.reshapeEquiv Facts₀.squeezes_S1x26x64_S26x64.numel_eq y) = _
  rw [hj]
  funext a
  apply Fin.ext
  rw [Rect.emb_apply]
  show (k0_off10 L (BitVec.ofNat 32 (4 * r₁.val)) (BitVec.ofNat 32 r₂.val)) a + 1 * _ = _
  rw [k0_off10_eq]
  match a with
  | ⟨0, _⟩ =>
    show 256 * (L 1).val + 128 * (L 0).val + 4 * r₁.val + r₂.val + 1 * 0 = rowNo L r₁ r₂
    simp only [rowNo]
    omega
  | ⟨1, _⟩ =>
    show 0 + 1 * (y 0).val = (y 0).val
    omega
  | ⟨2, _⟩ =>
    show 0 + 1 * (y 1).val = (y 1).val
    omega

end RowIndex

end Cert.Proof.KBits

end
-- ==== Proof.KBits.GatherVal.lean ====
/-
  The values a gather delivers and a result row ends with.

  A gather for the tile's k-th index row reads that row of the tile's own copy of its index rows — which holds rows
  32 t … 32 t + 31 of the re-laid index table — and fills the row buffer, row z₀, with the padded table's row named by
  the word at position z₀; every word is a row number, so reducing it modulo the table's height changes nothing. A
  packed buffer that agrees with that row buffer on columns 0 … 63, copied out in four blocks of 26 rows to the four
  batch rows 4 (32 t + k) + j, leaves in each the row gather of the re-laid operands.
-/
import proofs.«206479_g70076686402233_cont_9to1c4b_78_46_alg».proof.Proof.KBits.ValDefs
import proofs.«206479_g70076686402233_cont_9to1c4b_78_46_alg».proof.Proof.KBits.RowVal
import Idealize.ShloMosaic.Lib.SparseCore.Stream
import Idealize.ShloMosaic.Lib.Writes
import Idealize.ShloMosaic.Lib.ValueIdx

noncomputable section

namespace Cert.Proof.KBits

open Cert.Kernel Cert.Kernel.Gen
open Idealize.ShloMosaic Idealize.ShloMosaic.ValueIdx
open Cert.Proof.Spec (rowOf gath relaid col128)

variable {F : FTy → Type}

/-! ## What a gather delivers -/

section Gather

variable (L : grid0.Coords) (k : Fin 32)

/-- The tile's thirty-two rows of the re-laid index table, as the kernel's copy reads them. -/
abbrev iView : View sig .scVector .hbm S32x104 .i32 :=
  ((Memref.whole main_v0_scv : Memref sig .scVector .hbm S1024x104 .i32).slice (Rect.unit (s := S1024x104) (k0_off1 L) S32x104.size (k0_off1_inb L)) (fun _ => rfl)).view

/-- Its element (r, c) is element (32 t + r, c) of the table. -/
theorem emb_iView (y : S32x104.Idx) :
    ((iView L).emb y : S1024x104.Idx) = ix2 ⟨idxRow0 L + (y 0).val, idxRow_lt L (y 0)⟩ (y 1) := by
  show (Rect.unit (s := S1024x104) (k0_off1 L) S32x104.size (k0_off1_inb L)).emb y = _
  funext a
  apply Fin.ext
  rw [Rect.emb_apply]
  have h := k0_off1_eq L
  match a with
  | ⟨0, _⟩ =>
    have h0 : k0_off1 L 0 = 64 * (L 1).val + 32 * (L 0).val := by rw [h]; rfl
    show k0_off1 L 0 + 1 * (y 0).val = idxRow0 L + (y 0).val
    unfold idxRow0
    omega
  | ⟨1, _⟩ =>
    have h1 : k0_off1 L 1 = 0 := by rw [h]; rfl
    show k0_off1 L 1 + 1 * (y 1).val = (y 1).val
    omega

/-- Row k of the tile's own copy of its index rows, as the gather's offset list. -/
abbrev offView (hk : ∀ a, (![k.val, 0] : Fin 2 → Nat) a + S1x104.size a ≤ S32x104.size a) (hsq : S1x104.Squeezes S104) :
    View sig .scVector .vmem S104 .i32 :=
  (((Memref.whole cc0_scratch0 : Memref sig .scVector .vmem S32x104 .i32).slice (Rect.unit (s := S32x104) ![k.val, 0] S1x104.size hk) (fun _ => rfl)).squeeze S104 hsq).view

/-- Its entry j is element (k, j) of the copy. -/
theorem emb_offView (hk) (hsq : S1x104.Squeezes S104) (j : S104.Idx) :
    ((offView k hk hsq).emb j : S32x104.Idx) = ix2 k (j 0) := by
  have hj : Shape.reshapeEquiv hsq.numel_eq j
      = (ix2 ⟨0, Nat.one_pos⟩ (j 0) : (Rect.unit (s := S32x104) ![k.val, 0] S1x104.size hk).shape.Idx) := by
    apply Shape.reshapeEquiv_eq_of_rowMajor
    rw [Shape.rowMajor_val_two, Shape.rowMajor_val_one]
    show 0 * 104 + (j 0).val = (j 0).val
    omega
  show (Rect.unit (s := S32x104) ![k.val, 0] S1x104.size hk).emb (Shape.reshapeEquiv hsq.numel_eq j) = _
  rw [hj]
  funext a
  apply Fin.ext
  rw [Rect.emb_apply]
  match a with
  | ⟨0, _⟩ =>
    show k.val + 1 * 0 = k.val
    omega
  | ⟨1, _⟩ =>
    show 0 + 1 * (j 0).val = (j 0).val
    omega

/-- The padded table whole, as the gather's source. -/
abbrev wView (hw : ∀ a, (![0, 0] : Fin 2 → Nat) a + S100000x128.size a ≤ S100000x128.size a) : View sig .scVector .hbm S100000x128 .f32 :=
  ((Memref.whole main_v1_scv : Memref sig .scVector .hbm S100000x128 .f32).slice (Rect.unit (s := S100000x128) ![0, 0] S100000x128.size hw) (fun _ => rfl)).view

theorem emb_wView (hw) (x : S100000x128.Idx) : ((wView hw).emb x : S100000x128.Idx) = x := by
  show (Rect.unit (s := S100000x128) ![0, 0] S100000x128.size hw).emb x = _
  funext a
  apply Fin.ext
  rw [Rect.emb_apply]
  match a with
  | ⟨0, _⟩ =>
    show 0 + 1 * (x 0).val = (x 0).val
    omega
  | ⟨1, _⟩ =>
    show 0 + 1 * (x 1).val = (x 1).val
    omega

/-- The offset list's entry j is the re-laid index table's word at (32 t + k, j). -/
theorem offs_apply (I : S1024x104.Idx → BitVec 32) (hk) (hsq : S1x104.Squeezes S104) (j : S104.Idx) :
    View.read (Elt F) (offView k hk hsq) (ReadAs.same.apply (View.read (Elt F) (iView L) I)) j
      = I (ix2 ⟨idxRow0 L + k.val, idxRow_lt L k⟩ (j 0)) := by
  rw [View.read_apply]
  show View.read (Elt F) (iView L) I ((offView k hk hsq).emb j) = _
  rw [View.read_apply, emb_offView k hk hsq j]
  show I ((iView L).emb (ix2 k (j 0))) = _
  rw [emb_iView L (ix2 k (j 0))]
  rfl

/-- WHAT A GATHER DELIVERS: the row buffer's row z₀ is the padded table's row named by the word at (32 t + k, z₀). -/
theorem gather_val (I : S1024x104.Idx → BitVec 32) (W : S100000x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin)
      = gathered L k I W := by
  funext z
  unfold SparseCore.gatherPayload gathered
  rw [View.read_apply]
  show W ((wView hw).emb _) = _
  rw [emb_wView hw]
  refine congrArg W ?_
  -- the word the offset list holds at the row's position
  obtain ⟨j, hj⟩ : ∃ j : S104.Idx, j = (Shape.rowMajor S104).symm (Fin.cast hn.symm (z hg.axis')) := ⟨_, rfl⟩
  have h2 : Shape.rowMajor S104 j = Fin.cast hn.symm (z hg.axis') := by rw [hj]; exact Equiv.apply_symm_apply _ _
  have hval : (j 0).val = (z 0).val := by rw [← Shape.rowMajor_val_one j, h2]; rfl
  have e : (j 0 : Fin 104) = z 0 := Fin.ext hval
  have hword := (offs_apply (F := F) L k I hk hsq j).trans
    (congrArg (fun t : Fin 104 => I (ix2 ⟨idxRow0 L + k.val, idxRow_lt L k⟩ t)) e)
  have hlt := hin j
  funext a
  apply Fin.ext
  match a with
  | ⟨0, _⟩ =>
    rw [Shape.Gathers.idx_axis]
    unfold SparseCore.rows
    show (View.read (Elt F) (offView k hk hsq) (ReadAs.same.apply (View.read (Elt F) (iView L) I)) ((Shape.rowMajor S104).symm (Fin.cast hn.symm (z hg.axis')))).toNat = _
    rw [← hj, hword]
    rw [hword] at hlt
    show _ = (I (ix2 ⟨idxRow0 L + k.val, idxRow_lt L k⟩ (z 0))).toNat % 100000
    exact (Nat.mod_eq_of_lt hlt).symm
  | ⟨1, _⟩ =>
    exact Shape.Gathers.idx_of_ne hg _ z ⟨1, by decide⟩ (by decide)

end Gather

/-! ## A buffer written whole holds what was written -/

section Whole

/-- One write through the whole rectangle of a whole buffer replaces the contents by the payload. -/
theorem writes_whole_single {κ : Kind} {Val : EltTy → Type} (b : Ref sig κ) (f : b.ty.Contents Val)
    (w : (Rect.whole b.ty.shape).shape.Idx → Val b.ty.elt) :
    (View.whole b).writes Val f [⟨Rect.whole b.ty.shape, w⟩] = w := by
  funext i
  have h := View.read_writes_cons_emb (View.whole b) f (Rect.whole b.ty.shape) w [] i
  rw [Rect.emb_whole_apply] at h
  exact h

variable (L : grid0.Coords) (k : Fin 32)

/-- Row buffer 1 after the gather for the tile's k-th index row. -/
theorem gather_buf1 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch1 : Memref sig .scVector .vmem S104x128 .f32).view.writes (Elt F) b
        [⟨Rect.whole cc0_scratch1.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch1 b _).trans (gather_val L k I W hg hw hk hsq hn hin)

/-- Row buffer 2 after the gather for the tile's k-th index row. -/
theorem gather_buf2 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch2 : Memref sig .scVector .vmem S104x128 .f32).view.writes (Elt F) b
        [⟨Rect.whole cc0_scratch2.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch2 b _).trans (gather_val L k I W hg hw hk hsq hn hin)

/-- Row buffer 3 after the gather for the tile's k-th index row. -/
theorem gather_buf3 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch3 : Memref sig .scVector .vmem S104x128 .f32).view.writes (Elt F) b
        [⟨Rect.whole cc0_scratch3.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch3 b _).trans (gather_val L k I W hg hw hk hsq hn hin)

/-- Row buffer 4 after the gather for the tile's k-th index row. -/
theorem gather_buf4 (I : S1024x104.Idx → BitVec 32) (W : S100000x128.Idx → Elt F .f32) (b : S104x128.Idx → Elt F .f32)
    (hg : S100000x128.Gathers 0 S104x128) (hw) (hk) (hsq : S1x104.Squeezes S104) (hn : S104.numel = S104x128.size hg.axis')
    (hin : ∀ x, (View.read (Elt F) (((Memref.whole cc0_scratch0 : Memref sig .scVector .vmem S32x104 .i32).slice (Rect.unit (s := S32x104) ![k.val, 0] S1x104.size hk) (fun _ => rfl)).squeeze S104 hsq).view
        (ReadAs.same.apply (View.read (Elt F) ((Memref.whole main_v0_scv : Memref sig .scVector .hbm S1024x104 .i32).slice (Rect.unit (s := S1024x104) (k0_off1 L) S32x104.size (k0_off1_inb L)) (fun _ => rfl)).view I)) x).toNat
          < S100000x128.size hg.axis) :
    ((Memref.whole cc0_scratch4 : Memref sig .scVector .vmem S104x128 .f32).view.writes (Elt F) b
        [⟨Rect.whole cc0_scratch4.ty.shape, (SparseCore.gatherPayload hg
        (View.read (Elt F) ((Memref.whole main_v1_scv : Memref sig .scVector .hbm S100000x128 .f32).slice (Rect.unit (s := S100000x128) ![0, 0] S100000x128.size hw) (fun _ => rfl)).view W)
        (SparseCore.rows (View.read (Elt F) (((Memref.whole cc0_scratch0 : Memref sig .scVector .vmem S32x104 .i32).slice (Rect.unit (s := S32x104) ![k.val, 0] S1x104.size hk) (fun _ => rfl)).squeeze S104 hsq).view
          (ReadAs.same.apply (View.read (Elt F) ((Memref.whole main_v0_scv : Memref sig .scVector .hbm S1024x104 .i32).slice (Rect.unit (s := S1024x104) (k0_off1 L) S32x104.size (k0_off1_inb L)) (fun _ => rfl)).view I))) hn hin))⟩])
      = gathered L k I W :=
  (writes_whole_single cc0_scratch4 b _).trans (gather_val L k I W hg hw hk hsq hn hin)

end Whole

/-! ## What a result row ends with -/

section Row

variable (L : grid0.Coords)

/-- Element (r, c) of the block of 26 rows from row o of a packed buffer is the buffer's element (o + r, c). -/
theorem emb_blkRect (o : Nat) (inb) (ho : o + 26 ≤ 104) (y : S26x64.Idx) :
    ((blkRect o inb).emb y : S104x64.Idx) = ix2 ⟨o + (y 0).val, by have := (y 0).isLt; change (y 0).val < 26 at this; omega⟩ (y 1) := by
  funext a
  apply Fin.ext
  rw [Rect.emb_apply]
  match a with
  | ⟨0, _⟩ =>
    show o + 1 * (y 0).val = o + (y 0).val
    omega
  | ⟨1, _⟩ =>
    show 0 + 1 * (y 1).val = (y 1).val
    omega

/-- A result row written whole with block j of a packed buffer that agrees with the row buffer of chunk r₁: on the
    row's elements the result is the row gather of the re-laid operands. -/
theorem row_val_core (r₁ : Fin 32) (j : Fin 4) (I : S1024x104.Idx → BitVec 32) (W : S100000x128.Idx → Elt F .f32)
    (p : S104x64.Idx → Elt F .f32) (hp : PackedUpTo 104 p (gathered L r₁ I W)) (V : S4096x26x64.Idx → Elt F .f32)
    (inb) (w : S26x64.Idx → Elt F .f32) (hw : ∀ y : S26x64.Idx, w y = p ((blkRect (26 * j.val) inb).emb y)) :
    ∀ x ∈ (oRowM L r₁ j).view.set,
      ((oRowM L r₁ j).view.writes (Elt F) V [⟨Rect.whole S26x64, w⟩]) x = gath I W x := by
  intro x hx
  obtain ⟨y, -, rfl⟩ := Finset.mem_map.mp hx
  have h1 := View.read_writes_cons_emb (oRowM L r₁ j).view V (Rect.whole S26x64) w [] y
  rw [Rect.emb_whole_apply] at h1
  have h2 : ((oRowM L r₁ j).view.writes (Elt F) V [⟨Rect.whole S26x64, w⟩]) ((oRowM L r₁ j).view.emb y) = w y := h1
  have hj := j.isLt
  have hy0 : (y 0).val < 26 := (y 0).isLt
  have hy1 : (y 1).val < 64 := (y 1).isLt
  have hlt : 26 * j.val + (y 0).val < 104 := by omega
  have hr1 := r₁.isLt
  have hL0 : (L 0).val < 2 := (L 0).isLt
  have hL1 : (L 1).val < 16 := (L 1).isLt
  rw [h2, hw y, emb_blkRect (26 * j.val) inb (by omega) y]
  refine (hp _ ?_).trans ?_
  · show 26 * j.val + (y 0).val < 104
    omega
  rw [emb_oRowM L r₁ j y]
  unfold gathered gath
  refine congrArg W ?_
  have hI : (ix2 ⟨idxRow0 L + r₁.val, idxRow_lt L r₁⟩ (⟨26 * j.val + (y 0).val, hlt⟩ : Fin 104) : S1024x104.Idx)
      = relaid (ix3 ⟨rowNo L r₁ j, rowNo_lt L r₁ j⟩ (y 0) (y 1)) := by
    funext a
    apply Fin.ext
    match a with
    | ⟨0, _⟩ =>
      show idxRow0 L + r₁.val = rowNo L r₁ j / 4
      unfold idxRow0 rowNo
      omega
    | ⟨1, _⟩ =>
      show 26 * j.val + (y 0).val = (rowNo L r₁ j % 4) * 26 + (y 0).val
      unfold rowNo
      omega
  funext a
  apply Fin.ext
  match a with
  | ⟨0, _⟩ => exact congrArg (fun t => (rowOf (I t)).val) hI
  | ⟨1, _⟩ => rfl

theorem row_val5_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk5_0).view p)⟩]) x = gath I W x :=
  row_val_core L r₁ 0 I W p hp V inb_S104x64_S26x64_0_0 _ (fun _ => rfl)

theorem row_val5_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk5_1).view p)⟩]) x = gath I W x :=
  row_val_core L r₁ 1 I W p hp V inb_S104x64_S26x64_26_0 _ (fun _ => rfl)

theorem row_val5_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk5_2).view p)⟩]) x = gath I W x :=
  row_val_core L r₁ 2 I W p hp V inb_S104x64_S26x64_52_0 _ (fun _ => rfl)

theorem row_val5_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk5_3).view p)⟩]) x = gath I W x :=
  row_val_core L r₁ 3 I W p hp V inb_S104x64_S26x64_78_0 _ (fun _ => rfl)

theorem row_val6_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk6_0).view p)⟩]) x = gath I W x :=
  row_val_core L r₁ 0 I W p hp V inb_S104x64_S26x64_0_0 _ (fun _ => rfl)

theorem row_val6_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk6_1).view p)⟩]) x = gath I W x :=
  row_val_core L r₁ 1 I W p hp V inb_S104x64_S26x64_26_0 _ (fun _ => rfl)

theorem row_val6_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk6_2).view p)⟩]) x = gath I W x :=
  row_val_core L r₁ 2 I W p hp V inb_S104x64_S26x64_52_0 _ (fun _ => rfl)

theorem row_val6_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk6_3).view p)⟩]) x = gath I W x :=
  row_val_core L r₁ 3 I W p hp V inb_S104x64_S26x64_78_0 _ (fun _ => rfl)

theorem row_val7_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk7_0).view p)⟩]) x = gath I W x :=
  row_val_core L r₁ 0 I W p hp V inb_S104x64_S26x64_0_0 _ (fun _ => rfl)

theorem row_val7_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk7_1).view p)⟩]) x = gath I W x :=
  row_val_core L r₁ 1 I W p hp V inb_S104x64_S26x64_26_0 _ (fun _ => rfl)

theorem row_val7_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk7_2).view p)⟩]) x = gath I W x :=
  row_val_core L r₁ 2 I W p hp V inb_S104x64_S26x64_52_0 _ (fun _ => rfl)

theorem row_val7_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk7_3).view p)⟩]) x = gath I W x :=
  row_val_core L r₁ 3 I W p hp V inb_S104x64_S26x64_78_0 _ (fun _ => rfl)

theorem row_val8_0 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 0).view.set,
      ((oRowM L r₁ 0).view.writes (Elt F) V [⟨Rect.whole S26x64, ReadAs.same.apply (View.read (Elt F) (blk8_0).view p)⟩]) x = gath I W x :=
  row_val_core L r₁ 0 I W p hp V inb_S104x64_S26x64_0_0 _ (fun _ => rfl)

theorem row_val8_1 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 1).view.set,
      ((oRowM L r₁ 1).view.writes (Elt F) V [⟨Rect.whole S26x64, ReadAs.same.apply (View.read (Elt F) (blk8_1).view p)⟩]) x = gath I W x :=
  row_val_core L r₁ 1 I W p hp V inb_S104x64_S26x64_26_0 _ (fun _ => rfl)

theorem row_val8_2 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 2).view.set,
      ((oRowM L r₁ 2).view.writes (Elt F) V [⟨Rect.whole S26x64, ReadAs.same.apply (View.read (Elt F) (blk8_2).view p)⟩]) x = gath I W x :=
  row_val_core L r₁ 2 I W p hp V inb_S104x64_S26x64_52_0 _ (fun _ => rfl)

theorem row_val8_3 (r₁ : Fin 32) (I : S1024x104.Idx → BitVec 32) (W : S100000x128.Idx → Elt F .f32)
    (p : S104x64.Idx → Elt F .f32) (hp : PackedUpTo 104 p (gathered L r₁ I W)) (V : S4096x26x64.Idx → Elt F .f32) :
    ∀ x ∈ (oRowM L r₁ 3).view.set,
      ((oRowM L r₁ 3).view.writes (Elt F) V [⟨Rect.whole S26x64, ReadAs.same.apply (View.read (Elt F) (blk8_3).view p)⟩]) x = gath I W x :=
  row_val_core L r₁ 3 I W p hp V inb_S104x64_S26x64_78_0 _ (fun _ => rfl)

end Row

end Cert.Proof.KBits

end
-- ==== Proof.KBits.Body.lean ====
/-
  One tile's task of the gather kernel.

  Tile number t = 2 i + c holds rows 32 t … 32 t + 31 of the re-laid index table (each row: four batch rows' 26
  indices), a read token of the padded embedding table, and batch rows 128 t … 128 t + 127 of the result. It copies
  its index rows into its own memory, then for each of its 32 index rows k: gathers the 104 table rows the row names
  into a row buffer (four such buffers, three gathers ahead), copies columns 0…63 of each gathered row into a packed
  buffer (four such), and copies the packed buffer's four blocks of 26 rows out to batch rows 128 t + 4 k + j,
  j < 4, of the result, all four on one semaphore; a packed buffer is written again only after its four copies
  out have all been waited for. So result[128 t + 4 k + j, f, :] = table[index row (32 t + k) at 26 j + f, 0…63].
-/
import proofs.«206479_g70076686402233_cont_9to1c4b_78_46_alg».proof.Proof.KBits.Chain
import proofs.«206479_g70076686402233_cont_9to1c4b_78_46_alg».proof.Proof.KBits.PackStep
import proofs.«206479_g70076686402233_cont_9to1c4b_78_46_alg».proof.Proof.KBits.EndFacts
import proofs.«206479_g70076686402233_cont_9to1c4b_78_46_alg».proof.Proof.KBits.GatherVal

noncomputable section

namespace Cert.Proof.KBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Lib.OwnSplit

variable {F : FTy → Type}

local notation "𝕄" => MT nD τ sig (HIx 1) (Elt F) ℕ UU ℕ

variable (VI : (d : Dev nD) → Buf (Elt F) (iLoc d)) (VW : (d : Dev nD) → Buf (Elt F) (wLoc d))
variable (VO GO : (d : Dev nD) → Buf (Elt F) (oLoc d))
variable [FloatOps F]

section Tile

variable (d : Dev nD) (L : grid0.Coords)

/-- Between trips of a packing loop over buffer pair 0: the row buffer at R, the packed buffer agreeing with it on the rows
    copied so far. -/
def packV0 (R : Buf (Elt F) ((Memref.whole cc0_scratch1 : Memref sig .scVector .vmem S104x128 .f32).view.loc (thr d L))) (k : Nat) (_ : PUnit) : sProp 𝕄 :=
  iprop(((Memref.whole cc0_scratch1 : Memref sig .scVector .vmem S104x128 .f32).view.loc (thr d L) ↦{fullShare} R)
    ∗ ∃ p : Buf (Elt F) ((Memref.whole cc0_scratch5 : Memref sig .scVector .vmem S104x64 .f32).view.loc (thr d L)),
        ⌜PackedUpTo k p R⌝ ∗ ((Memref.whole cc0_scratch5 : Memref sig .scVector .vmem S104x64 .f32).view.loc (thr d L) ↦{fullShare} p))

/-- Between trips of a packing loop over buffer pair 1: the row buffer at R, the packed buffer agreeing with it on the rows
    copied so far. -/
def packV1 (R : Buf (Elt F) ((Memref.whole cc0_scratch2 : Memref sig .scVector .vmem S104x128 .f32).view.loc (thr d L))) (k : Nat) (_ : PUnit) : sProp 𝕄 :=
  iprop(((Memref.whole cc0_scratch2 : Memref sig .scVector .vmem S104x128 .f32).view.loc (thr d L) ↦{fullShare} R)
    ∗ ∃ p : Buf (Elt F) ((Memref.whole cc0_scratch6 : Memref sig .scVector .vmem S104x64 .f32).view.loc (thr d L)),
        ⌜PackedUpTo k p R⌝ ∗ ((Memref.whole cc0_scratch6 : Memref sig .scVector .vmem S104x64 .f32).view.loc (thr d L) ↦{fullShare} p))

/-- Between trips of a packing loop over buffer pair 2: the row buffer at R, the packed buffer agreeing with it on the rows
    copied so far. -/
def packV2 (R : Buf (Elt F) ((Memref.whole cc0_scratch3 : Memref sig .scVector .vmem S104x128 .f32).view.loc (thr d L))) (k : Nat) (_ : PUnit) : sProp 𝕄 :=
  iprop(((Memref.whole cc0_scratch3 : Memref sig .scVector .vmem S104x128 .f32).view.loc (thr d L) ↦{fullShare} R)
    ∗ ∃ p : Buf (Elt F) ((Memref.whole cc0_scratch7 : Memref sig .scVector .vmem S104x64 .f32).view.loc (thr d L)),
        ⌜PackedUpTo k p R⌝ ∗ ((Memref.whole cc0_scratch7 : Memref sig .scVector .vmem S104x64 .f32).view.loc (thr d L) ↦{fullShare} p))

/-- Between trips of a packing loop over buffer pair 3: the row buffer at R, the packed buffer agreeing with it on the rows
    copied so far. -/
def packV3 (R : Buf (Elt F) ((Memref.whole cc0_scratch4 : Memref sig .scVector .vmem S104x128 .f32).view.loc (thr d L))) (k : Nat) (_ : PUnit) : sProp 𝕄 :=
  iprop(((Memref.whole cc0_scratch4 : Memref sig .scVector .vmem S104x128 .f32).view.loc (thr d L) ↦{fullShare} R)
    ∗ ∃ p : Buf (Elt F) ((Memref.whole cc0_scratch8 : Memref sig .scVector .vmem S104x64 .f32).view.loc (thr d L)),
        ⌜PackedUpTo k p R⌝ ∗ ((Memref.whole cc0_scratch8 : Memref sig .scVector .vmem S104x64 .f32).view.loc (thr d L) ↦{fullShare} p))

set_option maxHeartbeats 0 in
theorem tile_body (hVI : ∀ y, (VI d y).toNat < 100000) (hGO : GO d = Cert.Proof.Spec.gath (VI d) (VW d)) (O : CellTallies nD τ sig (HIx 1)) (W : Waits sig (HIx 1)) (hO : ∀ g, O g none = 0) :
    iprop(levAts (K (F := F)).L (K (F := F)).lev ∗ emp ∗ tileRes VI VW d (cL L) (jL L) (VO d)
        ∗ scopedBufs (thr d L) ∗ scopedSems0 (thr d L) ∗ owes (thr d L) O W)
      ⊢ wp frame (wpE (defs₀ (F := F)) 𝒱₀ (thr d L) none) Set.univ
          (cc0_gather_kernel L (Memref.whole main_v0_scv) (Memref.isWhole_whole _) (Memref.whole main_v1_scv) (Memref.isWhole_whole _)
            (Memref.whole main_v2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scratch10 cc0_scratch11 cc0_scratch12 cc0_scratch13 cc0_scratch14 cc0_scratch15 cc0_scratch16 cc0_scoped0)
          fun _ => iprop(tileRes VI VW d (cL L) (jL L) (GO d) ∗ scopedBufs (thr d L) ∗ scopedSems0 (thr d L)
            ∗ ∃ W', ⌜∀ p ∈ W', p ∈ W ∨ p.2 = none⌝ ∗ owes (thr d L) O W') := by
  rw [hGO]
  simp only [cc0_gather_kernel_eq_skeleton]; unfold cc0_gather_kernel_skel
  rw [(K (F := F)).scopedBufs_V facts d (cV L) (jV L), SparseCore.Cfg.scopedSems0_V (Val := Elt F) d (cV L) (jV L),
    ownSems0_split (thr d L) semList semList_nodup semList_scoped, ownBufs_split (thr d L) (bufList L) (bufList_nodup L) (bufList_own d L)]
  simp only [bigSepL_cons, bigSepL_nil, sep_spell, emp_spell]
  iintro ⟨#Hlv, -, ⟨Hi, Hw, Ho⟩, ⟨Hbl, Hbrest⟩, ⟨Hsl, Hsrest⟩, HO⟩
  icases Hbl with ⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, -⟩
  icases Hsl with ⟨Hg0, Hg1, Hg2, Hg3, Hs0, Hs1, Hs2, Hs3, Hsc, -⟩
  have e0 : (((d, (Proc.scVector (cV L) (jV L)).devRef cc0_scratch0) : Loc nD τ sig) ↦{fullShare} f0 : sProp 𝕄)
      = ((Memref.whole cc0_scratch0 : Memref sig .scVector .vmem S32x104 .i32).view.loc (thr d L) ↦{fullShare} f0) := rfl
  ihave Hr0 := (Entails.of_eq e0) $$ Hb0
  have e1 : (((d, (Proc.scVector (cV L) (jV L)).devRef cc0_scratch1) : Loc nD τ sig) ↦{fullShare} f1 : sProp 𝕄)
      = ((Memref.whole cc0_scratch1 : Memref sig .scVector .vmem S104x128 .f32).view.loc (thr d L) ↦{fullShare} f1) := rfl
  ihave Hr1 := (Entails.of_eq e1) $$ Hb1
  have e2 : (((d, (Proc.scVector (cV L) (jV L)).devRef cc0_scratch2) : Loc nD τ sig) ↦{fullShare} f2 : sProp 𝕄)
      = ((Memref.whole cc0_scratch2 : Memref sig .scVector .vmem S104x128 .f32).view.loc (thr d L) ↦{fullShare} f2) := rfl
  ihave Hr2 := (Entails.of_eq e2) $$ Hb2
  have e3 : (((d, (Proc.scVector (cV L) (jV L)).devRef cc0_scratch3) : Loc nD τ sig) ↦{fullShare} f3 : sProp 𝕄)
      = ((Memref.whole cc0_scratch3 : Memref sig .scVector .vmem S104x128 .f32).view.loc (thr d L) ↦{fullShare} f3) := rfl
  ihave Hr3 := (Entails.of_eq e3) $$ Hb3
  have e4 : (((d, (Proc.scVector (cV L) (jV L)).devRef cc0_scratch4) : Loc nD τ sig) ↦{fullShare} f4 : sProp 𝕄)
      = ((Memref.whole cc0_scratch4 : Memref sig .scVector .vmem S104x128 .f32).view.loc (thr d L) ↦{fullShare} f4) := rfl
  ihave Hr4 := (Entails.of_eq e4) $$ Hb4
  have e5 : (((d, (Proc.scVector (cV L) (jV L)).devRef cc0_scratch5) : Loc nD τ sig) ↦{fullShare} f5 : sProp 𝕄)
      = ((Memref.whole cc0_scratch5 : Memref sig .scVector .vmem S104x64 .f32).view.loc (thr d L) ↦{fullShare} f5) := rfl
  ihave Hr5 := (Entails.of_eq e5) $$ Hb5
  have e6 : (((d, (Proc.scVector (cV L) (jV L)).devRef cc0_scratch6) : Loc nD τ sig) ↦{fullShare} f6 : sProp 𝕄)
      = ((Memref.whole cc0_scratch6 : Memref sig .scVector .vmem S104x64 .f32).view.loc (thr d L) ↦{fullShare} f6) := rfl
  ihave Hr6 := (Entails.of_eq e6) $$ Hb6
  have e7 : (((d, (Proc.scVector (cV L) (jV L)).devRef cc0_scratch7) : Loc nD τ sig) ↦{fullShare} f7 : sProp 𝕄)
      = ((Memref.whole cc0_scratch7 : Memref sig .scVector .vmem S104x64 .f32).view.loc (thr d L) ↦{fullShare} f7) := rfl
  ihave Hr7 := (Entails.of_eq e7) $$ Hb7
  have e8 : (((d, (Proc.scVector (cV L) (jV L)).devRef cc0_scratch8) : Loc nD τ sig) ↦{fullShare} f8 : sProp 𝕄)
      = ((Memref.whole cc0_scratch8 : Memref sig .scVector .vmem S104x64 .f32).view.loc (thr d L) ↦{fullShare} f8) := rfl
  ihave Hr8 := (Entails.of_eq e8) $$ Hb8
  ihave Hmw := ((K (F := F)).mayWaits_none (thr := thr d L) hO) $$ Hlv
  ihave Hi := (Entails.of_eq (pts_iSl (F := F) d L _).symm) $$ Hi
  ihave Hw := (toks4 (F := F) _ _).1 $$ Hw
  icases Hw with ⟨Hwr, Hw0, Hw1, Hw2, Hw3⟩
  have ew (q : PosShare TreeShare) : ((wLoc d) ↦{q} VW d : sProp 𝕄)
      = ((Memref.whole main_v1_scv : Memref sig .scVector .hbm S100000x128 .f32).view.loc (thr d L) ↦{q} VW d) := rfl
  ihave Hw0 := (Entails.of_eq (ew _)) $$ Hw0
  ihave Hw1 := (Entails.of_eq (ew _)) $$ Hw1
  ihave Hw2 := (Entails.of_eq (ew _)) $$ Hw2
  ihave Hw3 := (Entails.of_eq (ew _)) $$ Hw3
  sl_exec_parts
  have hw0 : View.write (Elt F) (Memref.whole cc0_scratch0 : Memref sig .scVector .vmem S32x104 .i32).view f0 (tile_body.sl.dma0 VI d L) Finset.univ
      = tile_body.sl.dma0 VI d L := View.write_whole_univ _ _ _
  rw [hw0]
  have hFO : ∀ y, ((tile_body.sl.dma0 VI d L) y).toNat < 100000 := by
    intro y
    show (View.read (Elt F) (iSl L).view (VI d) y).toNat < 100000
    rw [(View.read_apply _ _).trans (cast_eq _ _)]
    exact hVI _
  have hinAll : ∀ (k : Nat) (hk : ∀ a, (![k, 0] : Fin 2 → Nat) a + S1x104.size a ≤ S32x104.size a) x,
      ((((Memref.whole cc0_scratch0 : Memref sig .scVector .vmem S32x104 .i32).slice (Rect.unit (s := S32x104) ![k, 0] S1x104.size hk) (fun _ => rfl)).squeeze S104
        Facts₀.squeezes_S1x104_S104).view.read (Elt F) (tile_body.sl.dma0 VI d L) x).toNat < 100000 := by
    intro k hk x
    rw [(View.read_apply _ _).trans (cast_eq _ _)]
    exact hFO _
  ihave Ho := (Entails.of_eq (rows_chain (F := F) d L _)) $$ Ho
  icases Ho with ⟨Ho0_0, Ho0_1, Ho0_2, Ho0_3, Ho1_0, Ho1_1, Ho1_2, Ho1_3, Ho2_0, Ho2_1, Ho2_2, Ho2_3, Ho3_0, Ho3_1, Ho3_2, Ho3_3, Ho4_0, Ho4_1, Ho4_2, Ho4_3, Ho5_0, Ho5_1, Ho5_2, Ho5_3, Ho6_0, Ho6_1, Ho6_2, Ho6_3, Ho7_0, Ho7_1, Ho7_2, Ho7_3, Ho8_0, Ho8_1, Ho8_2, Ho8_3, Ho9_0, Ho9_1, Ho9_2, Ho9_3, Ho10_0, Ho10_1, Ho10_2, Ho10_3, Ho11_0, Ho11_1, Ho11_2, Ho11_3, Ho12_0, Ho12_1, Ho12_2, Ho12_3, Ho13_0, Ho13_1, Ho13_2, Ho13_3, Ho14_0, Ho14_1, Ho14_2, Ho14_3, Ho15_0, Ho15_1, Ho15_2, Ho15_3, Ho16_0, Ho16_1, Ho16_2, Ho16_3, Ho17_0, Ho17_1, Ho17_2, Ho17_3, Ho18_0, Ho18_1, Ho18_2, Ho18_3, Ho19_0, Ho19_1, Ho19_2, Ho19_3, Ho20_0, Ho20_1, Ho20_2, Ho20_3, Ho21_0, Ho21_1, Ho21_2, Ho21_3, Ho22_0, Ho22_1, Ho22_2, Ho22_3, Ho23_0, Ho23_1, Ho23_2, Ho23_3, Ho24_0, Ho24_1, Ho24_2, Ho24_3, Ho25_0, Ho25_1, Ho25_2, Ho25_3, Ho26_0, Ho26_1, Ho26_2, Ho26_3, Ho27_0, Ho27_1, Ho27_2, Ho27_3, Ho28_0, Ho28_1, Ho28_2, Ho28_3, Ho29_0, Ho29_1, Ho29_2, Ho29_3, Ho30_0, Ho30_1, Ho30_2, Ho30_3, Ho31_0, Ho31_1, Ho31_2, Ho31_3, -⟩
  have hbs0 : Transfers.BatchOf (thr d L) (SemLoc.dma cc0_scratch13.sem) 4 := trivial
  have hbs1 : Transfers.BatchOf (thr d L) (SemLoc.dma cc0_scratch14.sem) 4 := trivial
  have hbs2 : Transfers.BatchOf (thr d L) (SemLoc.dma cc0_scratch15.sem) 4 := trivial
  have hbs3 : Transfers.BatchOf (thr d L) (SemLoc.dma cc0_scratch16.sem) 4 := trivial
  -- chunk 0
  sl_exec_parts
  ihave Hn := (pts_name (F := F) _) $$ Hr1
  icases Hn with ⟨%R0, %hR0, Hr1⟩
  sl_for (packV0 (F := F) d L R0) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t1_abs.2.1) R0 p _ _ _ _ _ _ _ _ _ _ _ _ _ _ _ _ _ _
        (k0_off2_eq k) (k0_off3_eq k) (k0_off4_eq k) (k0_off5_eq k) (k0_off6_eq k) (k0_off7_eq k) (k0_off8_eq k) (k0_off9_eq k) hp
  · unfold packV0
    isplitl [Hr1]; · iexact Hr1
    iexists _; isplitr; swap
    · iexact Hr5
    · ipureintro; exact packed_zero _ _
  iintro %_ HI
  unfold packV0
  icases HI with ⟨Hr1, %p0, %hp0, Hr5⟩
  ihave Hp := (Entails.of_eq (pts_blocks5 (F := F) d (cV L) (jV L) _)) $$ Hr5
  icases Hp with ⟨Hp0_0, Hp0_1, Hp0_2, Hp0_3⟩
  have hq0 : PackedUpTo 104 p0 (gathered L 0 (VI d) (VW d)) := by
    have h := hp0
    rw [trips_1] at h
    exact (hR0.trans (gather_buf1 (F := F) L 0 (VI d) (VW d) _ _ _ _ _ _ _)) ▸ h
  -- chunk 1
  sl_exec_parts
  ihave Hn := (pts_name (F := F) _) $$ Hr2
  icases Hn with ⟨%R1, %hR1, Hr2⟩
  sl_for (packV1 (F := F) d L R1) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t2_abs.2.1) R1 p _ _ _ _ _ _ _ _ _ _ _ _ _ _ _ _ _ _
        (k0_off11_eq k) (k0_off12_eq k) (k0_off13_eq k) (k0_off14_eq k) (k0_off15_eq k) (k0_off16_eq k) (k0_off17_eq k) (k0_off18_eq k) hp
  · unfold packV1
    isplitl [Hr2]; · iexact Hr2
    iexists _; isplitr; swap
    · iexact Hr6
    · ipureintro; exact packed_zero _ _
  iintro %_ HI
  unfold packV1
  icases HI with ⟨Hr2, %p1, %hp1, Hr6⟩
  ihave Hp := (Entails.of_eq (pts_blocks6 (F := F) d (cV L) (jV L) _)) $$ Hr6
  icases Hp with ⟨Hp1_0, Hp1_1, Hp1_2, Hp1_3⟩
  have hq1 : PackedUpTo 104 p1 (gathered L 1 (VI d) (VW d)) := by
    have h := hp1
    rw [trips_2] at h
    exact (hR1.trans (gather_buf2 (F := F) L 1 (VI d) (VW d) _ _ _ _ _ _ _)) ▸ h
  -- chunk 2
  sl_exec_parts
  ihave Hn := (pts_name (F := F) _) $$ Hr3
  icases Hn with ⟨%R2, %hR2, Hr3⟩
  sl_for (packV2 (F := F) d L R2) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t3_abs.2.1) R2 p _ _ _ _ _ _ _ _ _ _ _ _ _ _ _ _ _ _
        (k0_off19_eq k) (k0_off20_eq k) (k0_off21_eq k) (k0_off22_eq k) (k0_off23_eq k) (k0_off24_eq k) (k0_off25_eq k) (k0_off26_eq k) hp
  · unfold packV2
    isplitl [Hr3]; · iexact Hr3
    iexists _; isplitr; swap
    · iexact Hr7
    · ipureintro; exact packed_zero _ _
  iintro %_ HI
  unfold packV2
  icases HI with ⟨Hr3, %p2, %hp2, Hr7⟩
  ihave Hp := (Entails.of_eq (pts_blocks7 (F := F) d (cV L) (jV L) _)) $$ Hr7
  icases Hp with ⟨Hp2_0, Hp2_1, Hp2_2, Hp2_3⟩
  have hq2 : PackedUpTo 104 p2 (gathered L 2 (VI d) (VW d)) := by
    have h := hp2
    rw [trips_3] at h
    exact (hR2.trans (gather_buf3 (F := F) L 2 (VI d) (VW d) _ _ _ _ _ _ _)) ▸ h
  -- chunk 3
  sl_exec_parts
  ihave Hn := (pts_name (F := F) _) $$ Hr4
  icases Hn with ⟨%R3, %hR3, Hr4⟩
  sl_for (packV3 (F := F) d L R3) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t4_abs.2.1) R3 p _ _ _ _ _ _ _ _ _ _ _ _ _ _ _ _ _ _
        (k0_off27_eq k) (k0_off28_eq k) (k0_off29_eq k) (k0_off30_eq k) (k0_off31_eq k) (k0_off32_eq k) (k0_off33_eq k) (k0_off34_eq k) hp
  · unfold packV3
    isplitl [Hr4]; · iexact Hr4
    iexists _; isplitr; swap
    · iexact Hr8
    · ipureintro; exact packed_zero _ _
  iintro %_ HI
  unfold packV3
  icases HI with ⟨Hr4, %p3, %hp3, Hr8⟩
  ihave Hp := (Entails.of_eq (pts_blocks8 (F := F) d (cV L) (jV L) _)) $$ Hr8
  icases Hp with ⟨Hp3_0, Hp3_1, Hp3_2, Hp3_3⟩
  have hq3 : PackedUpTo 104 p3 (gathered L 3 (VI d) (VW d)) := by
    have h := hp3
    rw [trips_4] at h
    exact (hR3.trans (gather_buf4 (F := F) L 3 (VI d) (VW d) _ _ _ _ _ _ _)) ▸ h
  -- chunk 4
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R4, %hR4, Hr1⟩
  sl_for (packV0 (F := F) d L R4) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t5_abs.2.1) R4 p _ _ _ _ _ _ _ _ _ _ _ _ _ _ _ _ _ _
        (k0_off35_eq k) (k0_off36_eq k) (k0_off37_eq k) (k0_off38_eq k) (k0_off39_eq k) (k0_off40_eq k) (k0_off41_eq k) (k0_off42_eq k) hp
  · unfold packV0
    isplitl [Hr1]; · iexact Hr1
    iexists _; isplitr; swap
    · iexact Hr5
    · ipureintro; exact packed_zero _ _
  iintro %_ HI
  unfold packV0
  icases HI with ⟨Hr1, %p4, %hp4, Hr5⟩
  ihave Hp := (Entails.of_eq (pts_blocks5 (F := F) d (cV L) (jV L) _)) $$ Hr5
  icases Hp with ⟨Hp0_0, Hp0_1, Hp0_2, Hp0_3⟩
  have hq4 : PackedUpTo 104 p4 (gathered L 4 (VI d) (VW d)) := by
    have h := hp4
    rw [trips_5] at h
    exact (hR4.trans (gather_buf1 (F := F) L 4 (VI d) (VW d) _ _ _ _ _ _ _)) ▸ h
  -- chunk 5
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R5, %hR5, Hr2⟩
  sl_for (packV1 (F := F) d L R5) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t6_abs.2.1) R5 p _ _ _ _ _ _ _ _ _ _ _ _ _ _ _ _ _ _
        (k0_off43_eq k) (k0_off44_eq k) (k0_off45_eq k) (k0_off46_eq k) (k0_off47_eq k) (k0_off48_eq k) (k0_off49_eq k) (k0_off50_eq k) hp
  · unfold packV1
    isplitl [Hr2]; · iexact Hr2
    iexists _; isplitr; swap
    · iexact Hr6
    · ipureintro; exact packed_zero _ _
  iintro %_ HI
  unfold packV1
  icases HI with ⟨Hr2, %p5, %hp5, Hr6⟩
  ihave Hp := (Entails.of_eq (pts_blocks6 (F := F) d (cV L) (jV L) _)) $$ Hr6
  icases Hp with ⟨Hp1_0, Hp1_1, Hp1_2, Hp1_3⟩
  have hq5 : PackedUpTo 104 p5 (gathered L 5 (VI d) (VW d)) := by
    have h := hp5
    rw [trips_6] at h
    exact (hR5.trans (gather_buf2 (F := F) L 5 (VI d) (VW d) _ _ _ _ _ _ _)) ▸ h
  -- chunk 6
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R6, %hR6, Hr3⟩
  sl_for (packV2 (F := F) d L R6) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t7_abs.2.1) R6 p _ _ _ _ _ _ _ _ _ _ _ _ _ _ _ _ _ _
        (k0_off51_eq k) (k0_off52_eq k) (k0_off53_eq k) (k0_off54_eq k) (k0_off55_eq k) (k0_off56_eq k) (k0_off57_eq k) (k0_off58_eq k) hp
  · unfold packV2
    isplitl [Hr3]; · iexact Hr3
    iexists _; isplitr; swap
    · iexact Hr7
    · ipureintro; exact packed_zero _ _
  iintro %_ HI
  unfold packV2
  icases HI with ⟨Hr3, %p6, %hp6, Hr7⟩
  ihave Hp := (Entails.of_eq (pts_blocks7 (F := F) d (cV L) (jV L) _)) $$ Hr7
  icases Hp with ⟨Hp2_0, Hp2_1, Hp2_2, Hp2_3⟩
  have hq6 : PackedUpTo 104 p6 (gathered L 6 (VI d) (VW d)) := by
    have h := hp6
    rw [trips_7] at h
    exact (hR6.trans (gather_buf3 (F := F) L 6 (VI d) (VW d) _ _ _ _ _ _ _)) ▸ h
  -- chunk 7
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R7, %hR7, Hr4⟩
  sl_for (packV3 (F := F) d L R7) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t8_abs.2.1) R7 p _ _ _ _ _ _ _ _ _ _ _ _ _ _ _ _ _ _
        (k0_off59_eq k) (k0_off60_eq k) (k0_off61_eq k) (k0_off62_eq k) (k0_off63_eq k) (k0_off64_eq k) (k0_off65_eq k) (k0_off66_eq k) hp
  · unfold packV3
    isplitl [Hr4]; · iexact Hr4
    iexists _; isplitr; swap
    · iexact Hr8
    · ipureintro; exact packed_zero _ _
  iintro %_ HI
  unfold packV3
  icases HI with ⟨Hr4, %p7, %hp7, Hr8⟩
  ihave Hp := (Entails.of_eq (pts_blocks8 (F := F) d (cV L) (jV L) _)) $$ Hr8
  icases Hp with ⟨Hp3_0, Hp3_1, Hp3_2, Hp3_3⟩
  have hq7 : PackedUpTo 104 p7 (gathered L 7 (VI d) (VW d)) := by
    have h := hp7
    rw [trips_8] at h
    exact (hR7.trans (gather_buf4 (F := F) L 7 (VI d) (VW d) _ _ _ _ _ _ _)) ▸ h
  -- chunk 8
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R8, %hR8, Hr1⟩
  sl_for (packV0 (F := F) d L R8) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t9_abs.2.1) R8 p _ _ _ _ _ _ _ _ _ _ _ _ _ _ _ _ _ _
        (k0_off67_eq k) (k0_off68_eq k) (k0_off69_eq k) (k0_off70_eq k) (k0_off71_eq k) (k0_off72_eq k) (k0_off73_eq k) (k0_off74_eq k) hp
  · unfold packV0
    isplitl [Hr1]; · iexact Hr1
    iexists _; isplitr; swap
    · iexact Hr5
    · ipureintro; exact packed_zero _ _
  iintro %_ HI
  unfold packV0
  icases HI with ⟨Hr1, %p8, %hp8, Hr5⟩
  ihave Hp := (Entails.of_eq (pts_blocks5 (F := F) d (cV L) (jV L) _)) $$ Hr5
  icases Hp with ⟨Hp0_0, Hp0_1, Hp0_2, Hp0_3⟩
  have hq8 : PackedUpTo 104 p8 (gathered L 8 (VI d) (VW d)) := by
    have h := hp8
    rw [trips_9] at h
    exact (hR8.trans (gather_buf1 (F := F) L 8 (VI d) (VW d) _ _ _ _ _ _ _)) ▸ h
  -- chunk 9
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R9, %hR9, Hr2⟩
  sl_for (packV1 (F := F) d L R9) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t10_abs.2.1) R9 p _ _ _ _ _ _ _ _ _ _ _ _ _ _ _ _ _ _
        (k0_off75_eq k) (k0_off76_eq k) (k0_off77_eq k) (k0_off78_eq k) (k0_off79_eq k) (k0_off80_eq k) (k0_off81_eq k) (k0_off82_eq k) hp
  · unfold packV1
    isplitl [Hr2]; · iexact Hr2
    iexists _; isplitr; swap
    · iexact Hr6
    · ipureintro; exact packed_zero _ _
  iintro %_ HI
  unfold packV1
  icases HI with ⟨Hr2, %p9, %hp9, Hr6⟩
  ihave Hp := (Entails.of_eq (pts_blocks6 (F := F) d (cV L) (jV L) _)) $$ Hr6
  icases Hp with ⟨Hp1_0, Hp1_1, Hp1_2, Hp1_3⟩
  have hq9 : PackedUpTo 104 p9 (gathered L 9 (VI d) (VW d)) := by
    have h := hp9
    rw [trips_10] at h
    exact (hR9.trans (gather_buf2 (F := F) L 9 (VI d) (VW d) _ _ _ _ _ _ _)) ▸ h
  -- chunk 10
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R10, %hR10, Hr3⟩
  sl_for (packV2 (F := F) d L R10) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t11_abs.2.1) R10 p _ _ _ _ _ _ _ _ _ _ _ _ _ _ _ _ _ _
        (k0_off83_eq k) (k0_off84_eq k) (k0_off85_eq k) (k0_off86_eq k) (k0_off87_eq k) (k0_off88_eq k) (k0_off89_eq k) (k0_off90_eq k) hp
  · unfold packV2
    isplitl [Hr3]; · iexact Hr3
    iexists _; isplitr; swap
    · iexact Hr7
    · ipureintro; exact packed_zero _ _
  iintro %_ HI
  unfold packV2
  icases HI with ⟨Hr3, %p10, %hp10, Hr7⟩
  ihave Hp := (Entails.of_eq (pts_blocks7 (F := F) d (cV L) (jV L) _)) $$ Hr7
  icases Hp with ⟨Hp2_0, Hp2_1, Hp2_2, Hp2_3⟩
  have hq10 : PackedUpTo 104 p10 (gathered L 10 (VI d) (VW d)) := by
    have h := hp10
    rw [trips_11] at h
    exact (hR10.trans (gather_buf3 (F := F) L 10 (VI d) (VW d) _ _ _ _ _ _ _)) ▸ h
  -- chunk 11
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R11, %hR11, Hr4⟩
  sl_for (packV3 (F := F) d L R11) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t12_abs.2.1) R11 p _ _ _ _ _ _ _ _ _ _ _ _ _ _ _ _ _ _
        (k0_off91_eq k) (k0_off92_eq k) (k0_off93_eq k) (k0_off94_eq k) (k0_off95_eq k) (k0_off96_eq k) (k0_off97_eq k) (k0_off98_eq k) hp
  · unfold packV3
    isplitl [Hr4]; · iexact Hr4
    iexists _; isplitr; swap
    · iexact Hr8
    · ipureintro; exact packed_zero _ _
  iintro %_ HI
  unfold packV3
  icases HI with ⟨Hr4, %p11, %hp11, Hr8⟩
  ihave Hp := (Entails.of_eq (pts_blocks8 (F := F) d (cV L) (jV L) _)) $$ Hr8
  icases Hp with ⟨Hp3_0, Hp3_1, Hp3_2, Hp3_3⟩
  have hq11 : PackedUpTo 104 p11 (gathered L 11 (VI d) (VW d)) := by
    have h := hp11
    rw [trips_12] at h
    exact (hR11.trans (gather_buf4 (F := F) L 11 (VI d) (VW d) _ _ _ _ _ _ _)) ▸ h
  -- chunk 12
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R12, %hR12, Hr1⟩
  sl_for (packV0 (F := F) d L R12) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t13_abs.2.1) R12 p _ _ _ _ _ _ _ _ _ _ _ _ _ _ _ _ _ _
        (k0_off99_eq k) (k0_off100_eq k) (k0_off101_eq k) (k0_off102_eq k) (k0_off103_eq k) (k0_off104_eq k) (k0_off105_eq k) (k0_off106_eq k) hp
  · unfold packV0
    isplitl [Hr1]; · iexact Hr1
    iexists _; isplitr; swap
    · iexact Hr5
    · ipureintro; exact packed_zero _ _
  iintro %_ HI
  unfold packV0
  icases HI with ⟨Hr1, %p12, %hp12, Hr5⟩
  ihave Hp := (Entails.of_eq (pts_blocks5 (F := F) d (cV L) (jV L) _)) $$ Hr5
  icases Hp with ⟨Hp0_0, Hp0_1, Hp0_2, Hp0_3⟩
  have hq12 : PackedUpTo 104 p12 (gathered L 12 (VI d) (VW d)) := by
    have h := hp12
    rw [trips_13] at h
    exact (hR12.trans (gather_buf1 (F := F) L 12 (VI d) (VW d) _ _ _ _ _ _ _)) ▸ h
  -- chunk 13
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R13, %hR13, Hr2⟩
  sl_for (packV1 (F := F) d L R13) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t14_abs.2.1) R13 p _ _ _ _ _ _ _ _ _ _ _ _ _ _ _ _ _ _
        (k0_off107_eq k) (k0_off108_eq k) (k0_off109_eq k) (k0_off110_eq k) (k0_off111_eq k) (k0_off112_eq k) (k0_off113_eq k) (k0_off114_eq k) hp
  · unfold packV1
    isplitl [Hr2]; · iexact Hr2
    iexists _; isplitr; swap
    · iexact Hr6
    · ipureintro; exact packed_zero _ _
  iintro %_ HI
  unfold packV1
  icases HI with ⟨Hr2, %p13, %hp13, Hr6⟩
  ihave Hp := (Entails.of_eq (pts_blocks6 (F := F) d (cV L) (jV L) _)) $$ Hr6
  icases Hp with ⟨Hp1_0, Hp1_1, Hp1_2, Hp1_3⟩
  have hq13 : PackedUpTo 104 p13 (gathered L 13 (VI d) (VW d)) := by
    have h := hp13
    rw [trips_14] at h
    exact (hR13.trans (gather_buf2 (F := F) L 13 (VI d) (VW d) _ _ _ _ _ _ _)) ▸ h
  -- chunk 14
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R14, %hR14, Hr3⟩
  sl_for (packV2 (F := F) d L R14) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t15_abs.2.1) R14 p _ _ _ _ _ _ _ _ _ _ _ _ _ _ _ _ _ _
        (k0_off115_eq k) (k0_off116_eq k) (k0_off117_eq k) (k0_off118_eq k) (k0_off119_eq k) (k0_off120_eq k) (k0_off121_eq k) (k0_off122_eq k) hp
  · unfold packV2
    isplitl [Hr3]; · iexact Hr3
    iexists _; isplitr; swap
    · iexact Hr7
    · ipureintro; exact packed_zero _ _
  iintro %_ HI
  unfold packV2
  icases HI with ⟨Hr3, %p14, %hp14, Hr7⟩
  ihave Hp := (Entails.of_eq (pts_blocks7 (F := F) d (cV L) (jV L) _)) $$ Hr7
  icases Hp with ⟨Hp2_0, Hp2_1, Hp2_2, Hp2_3⟩
  have hq14 : PackedUpTo 104 p14 (gathered L 14 (VI d) (VW d)) := by
    have h := hp14
    rw [trips_15] at h
    exact (hR14.trans (gather_buf3 (F := F) L 14 (VI d) (VW d) _ _ _ _ _ _ _)) ▸ h
  -- chunk 15
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R15, %hR15, Hr4⟩
  sl_for (packV3 (F := F) d L R15) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t16_abs.2.1) R15 p _ _ _ _ _ _ _ _ _ _ _ _ _ _ _ _ _ _
        (k0_off123_eq k) (k0_off124_eq k) (k0_off125_eq k) (k0_off126_eq k) (k0_off127_eq k) (k0_off128_eq k) (k0_off129_eq k) (k0_off130_eq k) hp
  · unfold packV3
    isplitl [Hr4]; · iexact Hr4
    iexists _; isplitr; swap
    · iexact Hr8
    · ipureintro; exact packed_zero _ _
  iintro %_ HI
  unfold packV3
  icases HI with ⟨Hr4, %p15, %hp15, Hr8⟩
  ihave Hp := (Entails.of_eq (pts_blocks8 (F := F) d (cV L) (jV L) _)) $$ Hr8
  icases Hp with ⟨Hp3_0, Hp3_1, Hp3_2, Hp3_3⟩
  have hq15 : PackedUpTo 104 p15 (gathered L 15 (VI d) (VW d)) := by
    have h := hp15
    rw [trips_16] at h
    exact (hR15.trans (gather_buf4 (F := F) L 15 (VI d) (VW d) _ _ _ _ _ _ _)) ▸ h
  -- chunk 16
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R16, %hR16, Hr1⟩
  sl_for (packV0 (F := F) d L R16) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t17_abs.2.1) R16 p _ _ _ _ _ _ _ _ _ _ _ _ _ _ _ _ _ _
        (k0_off131_eq k) (k0_off132_eq k) (k0_off133_eq k) (k0_off134_eq k) (k0_off135_eq k) (k0_off136_eq k) (k0_off137_eq k) (k0_off138_eq k) hp
  · unfold packV0
    isplitl [Hr1]; · iexact Hr1
    iexists _; isplitr; swap
    · iexact Hr5
    · ipureintro; exact packed_zero _ _
  iintro %_ HI
  unfold packV0
  icases HI with ⟨Hr1, %p16, %hp16, Hr5⟩
  ihave Hp := (Entails.of_eq (pts_blocks5 (F := F) d (cV L) (jV L) _)) $$ Hr5
  icases Hp with ⟨Hp0_0, Hp0_1, Hp0_2, Hp0_3⟩
  have hq16 : PackedUpTo 104 p16 (gathered L 16 (VI d) (VW d)) := by
    have h := hp16
    rw [trips_17] at h
    exact (hR16.trans (gather_buf1 (F := F) L 16 (VI d) (VW d) _ _ _ _ _ _ _)) ▸ h
  -- chunk 17
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R17, %hR17, Hr2⟩
  sl_for (packV1 (F := F) d L R17) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t18_abs.2.1) R17 p _ _ _ _ _ _ _ _ _ _ _ _ _ _ _ _ _ _
        (k0_off139_eq k) (k0_off140_eq k) (k0_off141_eq k) (k0_off142_eq k) (k0_off143_eq k) (k0_off144_eq k) (k0_off145_eq k) (k0_off146_eq k) hp
  · unfold packV1
    isplitl [Hr2]; · iexact Hr2
    iexists _; isplitr; swap
    · iexact Hr6
    · ipureintro; exact packed_zero _ _
  iintro %_ HI
  unfold packV1
  icases HI with ⟨Hr2, %p17, %hp17, Hr6⟩
  ihave Hp := (Entails.of_eq (pts_blocks6 (F := F) d (cV L) (jV L) _)) $$ Hr6
  icases Hp with ⟨Hp1_0, Hp1_1, Hp1_2, Hp1_3⟩
  have hq17 : PackedUpTo 104 p17 (gathered L 17 (VI d) (VW d)) := by
    have h := hp17
    rw [trips_18] at h
    exact (hR17.trans (gather_buf2 (F := F) L 17 (VI d) (VW d) _ _ _ _ _ _ _)) ▸ h
  -- chunk 18
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R18, %hR18, Hr3⟩
  sl_for (packV2 (F := F) d L R18) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t19_abs.2.1) R18 p _ _ _ _ _ _ _ _ _ _ _ _ _ _ _ _ _ _
        (k0_off147_eq k) (k0_off148_eq k) (k0_off149_eq k) (k0_off150_eq k) (k0_off151_eq k) (k0_off152_eq k) (k0_off153_eq k) (k0_off154_eq k) hp
  · unfold packV2
    isplitl [Hr3]; · iexact Hr3
    iexists _; isplitr; swap
    · iexact Hr7
    · ipureintro; exact packed_zero _ _
  iintro %_ HI
  unfold packV2
  icases HI with ⟨Hr3, %p18, %hp18, Hr7⟩
  ihave Hp := (Entails.of_eq (pts_blocks7 (F := F) d (cV L) (jV L) _)) $$ Hr7
  icases Hp with ⟨Hp2_0, Hp2_1, Hp2_2, Hp2_3⟩
  have hq18 : PackedUpTo 104 p18 (gathered L 18 (VI d) (VW d)) := by
    have h := hp18
    rw [trips_19] at h
    exact (hR18.trans (gather_buf3 (F := F) L 18 (VI d) (VW d) _ _ _ _ _ _ _)) ▸ h
  -- chunk 19
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R19, %hR19, Hr4⟩
  sl_for (packV3 (F := F) d L R19) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t20_abs.2.1) R19 p _ _ _ _ _ _ _ _ _ _ _ _ _ _ _ _ _ _
        (k0_off155_eq k) (k0_off156_eq k) (k0_off157_eq k) (k0_off158_eq k) (k0_off159_eq k) (k0_off160_eq k) (k0_off161_eq k) (k0_off162_eq k) hp
  · unfold packV3
    isplitl [Hr4]; · iexact Hr4
    iexists _; isplitr; swap
    · iexact Hr8
    · ipureintro; exact packed_zero _ _
  iintro %_ HI
  unfold packV3
  icases HI with ⟨Hr4, %p19, %hp19, Hr8⟩
  ihave Hp := (Entails.of_eq (pts_blocks8 (F := F) d (cV L) (jV L) _)) $$ Hr8
  icases Hp with ⟨Hp3_0, Hp3_1, Hp3_2, Hp3_3⟩
  have hq19 : PackedUpTo 104 p19 (gathered L 19 (VI d) (VW d)) := by
    have h := hp19
    rw [trips_20] at h
    exact (hR19.trans (gather_buf4 (F := F) L 19 (VI d) (VW d) _ _ _ _ _ _ _)) ▸ h
  -- chunk 20
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R20, %hR20, Hr1⟩
  sl_for (packV0 (F := F) d L R20) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t21_abs.2.1) R20 p _ _ _ _ _ _ _ _ _ _ _ _ _ _ _ _ _ _
        (k0_off163_eq k) (k0_off164_eq k) (k0_off165_eq k) (k0_off166_eq k) (k0_off167_eq k) (k0_off168_eq k) (k0_off169_eq k) (k0_off170_eq k) hp
  · unfold packV0
    isplitl [Hr1]; · iexact Hr1
    iexists _; isplitr; swap
    · iexact Hr5
    · ipureintro; exact packed_zero _ _
  iintro %_ HI
  unfold packV0
  icases HI with ⟨Hr1, %p20, %hp20, Hr5⟩
  ihave Hp := (Entails.of_eq (pts_blocks5 (F := F) d (cV L) (jV L) _)) $$ Hr5
  icases Hp with ⟨Hp0_0, Hp0_1, Hp0_2, Hp0_3⟩
  have hq20 : PackedUpTo 104 p20 (gathered L 20 (VI d) (VW d)) := by
    have h := hp20
    rw [trips_21] at h
    exact (hR20.trans (gather_buf1 (F := F) L 20 (VI d) (VW d) _ _ _ _ _ _ _)) ▸ h
  -- chunk 21
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R21, %hR21, Hr2⟩
  sl_for (packV1 (F := F) d L R21) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t22_abs.2.1) R21 p _ _ _ _ _ _ _ _ _ _ _ _ _ _ _ _ _ _
        (k0_off171_eq k) (k0_off172_eq k) (k0_off173_eq k) (k0_off174_eq k) (k0_off175_eq k) (k0_off176_eq k) (k0_off177_eq k) (k0_off178_eq k) hp
  · unfold packV1
    isplitl [Hr2]; · iexact Hr2
    iexists _; isplitr; swap
    · iexact Hr6
    · ipureintro; exact packed_zero _ _
  iintro %_ HI
  unfold packV1
  icases HI with ⟨Hr2, %p21, %hp21, Hr6⟩
  ihave Hp := (Entails.of_eq (pts_blocks6 (F := F) d (cV L) (jV L) _)) $$ Hr6
  icases Hp with ⟨Hp1_0, Hp1_1, Hp1_2, Hp1_3⟩
  have hq21 : PackedUpTo 104 p21 (gathered L 21 (VI d) (VW d)) := by
    have h := hp21
    rw [trips_22] at h
    exact (hR21.trans (gather_buf2 (F := F) L 21 (VI d) (VW d) _ _ _ _ _ _ _)) ▸ h
  -- chunk 22
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R22, %hR22, Hr3⟩
  sl_for (packV2 (F := F) d L R22) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t23_abs.2.1) R22 p _ _ _ _ _ _ _ _ _ _ _ _ _ _ _ _ _ _
        (k0_off179_eq k) (k0_off180_eq k) (k0_off181_eq k) (k0_off182_eq k) (k0_off183_eq k) (k0_off184_eq k) (k0_off185_eq k) (k0_off186_eq k) hp
  · unfold packV2
    isplitl [Hr3]; · iexact Hr3
    iexists _; isplitr; swap
    · iexact Hr7
    · ipureintro; exact packed_zero _ _
  iintro %_ HI
  unfold packV2
  icases HI with ⟨Hr3, %p22, %hp22, Hr7⟩
  ihave Hp := (Entails.of_eq (pts_blocks7 (F := F) d (cV L) (jV L) _)) $$ Hr7
  icases Hp with ⟨Hp2_0, Hp2_1, Hp2_2, Hp2_3⟩
  have hq22 : PackedUpTo 104 p22 (gathered L 22 (VI d) (VW d)) := by
    have h := hp22
    rw [trips_23] at h
    exact (hR22.trans (gather_buf3 (F := F) L 22 (VI d) (VW d) _ _ _ _ _ _ _)) ▸ h
  -- chunk 23
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R23, %hR23, Hr4⟩
  sl_for (packV3 (F := F) d L R23) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t24_abs.2.1) R23 p _ _ _ _ _ _ _ _ _ _ _ _ _ _ _ _ _ _
        (k0_off187_eq k) (k0_off188_eq k) (k0_off189_eq k) (k0_off190_eq k) (k0_off191_eq k) (k0_off192_eq k) (k0_off193_eq k) (k0_off194_eq k) hp
  · unfold packV3
    isplitl [Hr4]; · iexact Hr4
    iexists _; isplitr; swap
    · iexact Hr8
    · ipureintro; exact packed_zero _ _
  iintro %_ HI
  unfold packV3
  icases HI with ⟨Hr4, %p23, %hp23, Hr8⟩
  ihave Hp := (Entails.of_eq (pts_blocks8 (F := F) d (cV L) (jV L) _)) $$ Hr8
  icases Hp with ⟨Hp3_0, Hp3_1, Hp3_2, Hp3_3⟩
  have hq23 : PackedUpTo 104 p23 (gathered L 23 (VI d) (VW d)) := by
    have h := hp23
    rw [trips_24] at h
    exact (hR23.trans (gather_buf4 (F := F) L 23 (VI d) (VW d) _ _ _ _ _ _ _)) ▸ h
  -- chunk 24
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R24, %hR24, Hr1⟩
  sl_for (packV0 (F := F) d L R24) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t25_abs.2.1) R24 p _ _ _ _ _ _ _ _ _ _ _ _ _ _ _ _ _ _
        (k0_off195_eq k) (k0_off196_eq k) (k0_off197_eq k) (k0_off198_eq k) (k0_off199_eq k) (k0_off200_eq k) (k0_off201_eq k) (k0_off202_eq k) hp
  · unfold packV0
    isplitl [Hr1]; · iexact Hr1
    iexists _; isplitr; swap
    · iexact Hr5
    · ipureintro; exact packed_zero _ _
  iintro %_ HI
  unfold packV0
  icases HI with ⟨Hr1, %p24, %hp24, Hr5⟩
  ihave Hp := (Entails.of_eq (pts_blocks5 (F := F) d (cV L) (jV L) _)) $$ Hr5
  icases Hp with ⟨Hp0_0, Hp0_1, Hp0_2, Hp0_3⟩
  have hq24 : PackedUpTo 104 p24 (gathered L 24 (VI d) (VW d)) := by
    have h := hp24
    rw [trips_25] at h
    exact (hR24.trans (gather_buf1 (F := F) L 24 (VI d) (VW d) _ _ _ _ _ _ _)) ▸ h
  -- chunk 25
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R25, %hR25, Hr2⟩
  sl_for (packV1 (F := F) d L R25) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t26_abs.2.1) R25 p _ _ _ _ _ _ _ _ _ _ _ _ _ _ _ _ _ _
        (k0_off203_eq k) (k0_off204_eq k) (k0_off205_eq k) (k0_off206_eq k) (k0_off207_eq k) (k0_off208_eq k) (k0_off209_eq k) (k0_off210_eq k) hp
  · unfold packV1
    isplitl [Hr2]; · iexact Hr2
    iexists _; isplitr; swap
    · iexact Hr6
    · ipureintro; exact packed_zero _ _
  iintro %_ HI
  unfold packV1
  icases HI with ⟨Hr2, %p25, %hp25, Hr6⟩
  ihave Hp := (Entails.of_eq (pts_blocks6 (F := F) d (cV L) (jV L) _)) $$ Hr6
  icases Hp with ⟨Hp1_0, Hp1_1, Hp1_2, Hp1_3⟩
  have hq25 : PackedUpTo 104 p25 (gathered L 25 (VI d) (VW d)) := by
    have h := hp25
    rw [trips_26] at h
    exact (hR25.trans (gather_buf2 (F := F) L 25 (VI d) (VW d) _ _ _ _ _ _ _)) ▸ h
  -- chunk 26
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R26, %hR26, Hr3⟩
  sl_for (packV2 (F := F) d L R26) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t27_abs.2.1) R26 p _ _ _ _ _ _ _ _ _ _ _ _ _ _ _ _ _ _
        (k0_off211_eq k) (k0_off212_eq k) (k0_off213_eq k) (k0_off214_eq k) (k0_off215_eq k) (k0_off216_eq k) (k0_off217_eq k) (k0_off218_eq k) hp
  · unfold packV2
    isplitl [Hr3]; · iexact Hr3
    iexists _; isplitr; swap
    · iexact Hr7
    · ipureintro; exact packed_zero _ _
  iintro %_ HI
  unfold packV2
  icases HI with ⟨Hr3, %p26, %hp26, Hr7⟩
  ihave Hp := (Entails.of_eq (pts_blocks7 (F := F) d (cV L) (jV L) _)) $$ Hr7
  icases Hp with ⟨Hp2_0, Hp2_1, Hp2_2, Hp2_3⟩
  have hq26 : PackedUpTo 104 p26 (gathered L 26 (VI d) (VW d)) := by
    have h := hp26
    rw [trips_27] at h
    exact (hR26.trans (gather_buf3 (F := F) L 26 (VI d) (VW d) _ _ _ _ _ _ _)) ▸ h
  -- chunk 27
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R27, %hR27, Hr4⟩
  sl_for (packV3 (F := F) d L R27) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t28_abs.2.1) R27 p _ _ _ _ _ _ _ _ _ _ _ _ _ _ _ _ _ _
        (k0_off219_eq k) (k0_off220_eq k) (k0_off221_eq k) (k0_off222_eq k) (k0_off223_eq k) (k0_off224_eq k) (k0_off225_eq k) (k0_off226_eq k) hp
  · unfold packV3
    isplitl [Hr4]; · iexact Hr4
    iexists _; isplitr; swap
    · iexact Hr8
    · ipureintro; exact packed_zero _ _
  iintro %_ HI
  unfold packV3
  icases HI with ⟨Hr4, %p27, %hp27, Hr8⟩
  ihave Hp := (Entails.of_eq (pts_blocks8 (F := F) d (cV L) (jV L) _)) $$ Hr8
  icases Hp with ⟨Hp3_0, Hp3_1, Hp3_2, Hp3_3⟩
  have hq27 : PackedUpTo 104 p27 (gathered L 27 (VI d) (VW d)) := by
    have h := hp27
    rw [trips_28] at h
    exact (hR27.trans (gather_buf4 (F := F) L 27 (VI d) (VW d) _ _ _ _ _ _ _)) ▸ h
  -- chunk 28
  sl_exec_parts
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hn := (pts_name (F := F) _) $$ Hr1
  icases Hn with ⟨%R28, %hR28, Hr1⟩
  sl_for (packV0 (F := F) d L R28) $$ [Hr1 Hr5]
  case region =>
    intro k _
    unfold packV0
    iintro ⟨HR, %p, %hp, HP⟩
    sl_exec
    sl_step
    isplitl [HR]; · iexact HR
    iexists _; isplitr; swap
    · iexact HP
    · ipureintro
      exact pack_step1 (F := F) d (cV L) (jV L) k.val (lt_of_lt_of_le k.isLt k0_t29_abs.2.1) R28 p _ _ _ _ _ _ _ _ _ _ _ _ _ _ _ _ _ _
        (k0_off227_eq k) (k0_off228_eq k) (k0_off229_eq k) (k0_off230_eq k) (k0_off231_eq k) (k0_off232_eq k) (k0_off233_eq k) (k0_off234_eq k) hp
  · unfold packV0
    isplitl [Hr1]; · iexact Hr1
    iexists _; isplitr; swap
    · iexact Hr5
    · ipureintro; exact packed_zero _ _
  iintro %_ HI
  unfold packV0
  icases HI with ⟨Hr1, %p28, %hp28, Hr5⟩
  ihave Hp := (Entails.of_eq (pts_blocks5 (F := F) d (cV L) (jV L) _)) $$ Hr5
  icases Hp with ⟨Hp0_0, Hp0_1, Hp0_2, Hp0_3⟩
  have hq28 : PackedUpTo 104 p28 (gathered L 28 (VI d) (VW d)) := by
    have h := hp28
    rw [trips_29] at h
    exact (hR28.trans (gather_buf1 (F := F) L 28 (VI d) (VW d) _ _ _ _ _ _ _)) ▸ h
  -- chunk 29
  sl_exec_parts
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hn := (pts_name (F := F) _) $$ Hr2
  icases Hn with ⟨%R29, %hR29, Hr2⟩
  sl_for (packV1 (F := F) d L R29) $$ [Hr2 Hr6]
  case region =>
    intro k _
    unfold packV1
    iintro ⟨HR, %p, %hp, HP⟩
    sl_exec
    sl_step
    isplitl [HR]; · iexact HR
    iexists _; isplitr; swap
    · iexact HP
    · ipureintro
      exact pack_step2 (F := F) d (cV L) (jV L) k.val (lt_of_lt_of_le k.isLt k0_t30_abs.2.1) R29 p _ _ _ _ _ _ _ _ _ _ _ _ _ _ _ _ _ _
        (k0_off235_eq k) (k0_off236_eq k) (k0_off237_eq k) (k0_off238_eq k) (k0_off239_eq k) (k0_off240_eq k) (k0_off241_eq k) (k0_off242_eq k) hp
  · unfold packV1
    isplitl [Hr2]; · iexact Hr2
    iexists _; isplitr; swap
    · iexact Hr6
    · ipureintro; exact packed_zero _ _
  iintro %_ HI
  unfold packV1
  icases HI with ⟨Hr2, %p29, %hp29, Hr6⟩
  ihave Hp := (Entails.of_eq (pts_blocks6 (F := F) d (cV L) (jV L) _)) $$ Hr6
  icases Hp with ⟨Hp1_0, Hp1_1, Hp1_2, Hp1_3⟩
  have hq29 : PackedUpTo 104 p29 (gathered L 29 (VI d) (VW d)) := by
    have h := hp29
    rw [trips_30] at h
    exact (hR29.trans (gather_buf2 (F := F) L 29 (VI d) (VW d) _ _ _ _ _ _ _)) ▸ h
  -- chunk 30
  sl_exec_parts
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hn := (pts_name (F := F) _) $$ Hr3
  icases Hn with ⟨%R30, %hR30, Hr3⟩
  sl_for (packV2 (F := F) d L R30) $$ [Hr3 Hr7]
  case region =>
    intro k _
    unfold packV2
    iintro ⟨HR, %p, %hp, HP⟩
    sl_exec
    sl_step
    isplitl [HR]; · iexact HR
    iexists _; isplitr; swap
    · iexact HP
    · ipureintro
      exact pack_step3 (F := F) d (cV L) (jV L) k.val (lt_of_lt_of_le k.isLt k0_t31_abs.2.1) R30 p _ _ _ _ _ _ _ _ _ _ _ _ _ _ _ _ _ _
        (k0_off243_eq k) (k0_off244_eq k) (k0_off245_eq k) (k0_off246_eq k) (k0_off247_eq k) (k0_off248_eq k) (k0_off249_eq k) (k0_off250_eq k) hp
  · unfold packV2
    isplitl [Hr3]; · iexact Hr3
    iexists _; isplitr; swap
    · iexact Hr7
    · ipureintro; exact packed_zero _ _
  iintro %_ HI
  unfold packV2
  icases HI with ⟨Hr3, %p30, %hp30, Hr7⟩
  ihave Hp := (Entails.of_eq (pts_blocks7 (F := F) d (cV L) (jV L) _)) $$ Hr7
  icases Hp with ⟨Hp2_0, Hp2_1, Hp2_2, Hp2_3⟩
  have hq30 : PackedUpTo 104 p30 (gathered L 30 (VI d) (VW d)) := by
    have h := hp30
    rw [trips_31] at h
    exact (hR30.trans (gather_buf3 (F := F) L 30 (VI d) (VW d) _ _ _ _ _ _ _)) ▸ h
  -- chunk 31
  sl_exec_parts
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Hn := (pts_name (F := F) _) $$ Hr4
  icases Hn with ⟨%R31, %hR31, Hr4⟩
  sl_for (packV3 (F := F) d L R31) $$ [Hr4 Hr8]
  case region =>
    intro k _
    unfold packV3
    iintro ⟨HR, %p, %hp, HP⟩
    sl_exec
    sl_step
    isplitl [HR]; · iexact HR
    iexists _; isplitr; swap
    · iexact HP
    · ipureintro
      exact pack_step4 (F := F) d (cV L) (jV L) k.val (lt_of_lt_of_le k.isLt k0_t32_abs.2.1) R31 p _ _ _ _ _ _ _ _ _ _ _ _ _ _ _ _ _ _
        (k0_off251_eq k) (k0_off252_eq k) (k0_off253_eq k) (k0_off254_eq k) (k0_off255_eq k) (k0_off256_eq k) (k0_off257_eq k) (k0_off258_eq k) hp
  · unfold packV3
    isplitl [Hr4]; · iexact Hr4
    iexists _; isplitr; swap
    · iexact Hr8
    · ipureintro; exact packed_zero _ _
  iintro %_ HI
  unfold packV3
  icases HI with ⟨Hr4, %p31, %hp31, Hr8⟩
  ihave Hp := (Entails.of_eq (pts_blocks8 (F := F) d (cV L) (jV L) _)) $$ Hr8
  icases Hp with ⟨Hp3_0, Hp3_1, Hp3_2, Hp3_3⟩
  have hq31 : PackedUpTo 104 p31 (gathered L 31 (VI d) (VW d)) := by
    have h := hp31
    rw [trips_32] at h
    exact (hR31.trans (gather_buf4 (F := F) L 31 (VI d) (VW d) _ _ _ _ _ _ _)) ▸ h
  sl_exec_parts
  -- the kernel's return
  sl_step
  ihave Hr5 := (Entails.of_eq (pts_blocks5 (F := F) d (cV L) (jV L) _).symm) $$ [Hp0_0 Hp0_1 Hp0_2 Hp0_3]
  · isplitl [Hp0_0]; · iexact Hp0_0
    isplitl [Hp0_1]; · iexact Hp0_1
    isplitl [Hp0_2]; · iexact Hp0_2
    iexact Hp0_3
  ihave Hr6 := (Entails.of_eq (pts_blocks6 (F := F) d (cV L) (jV L) _).symm) $$ [Hp1_0 Hp1_1 Hp1_2 Hp1_3]
  · isplitl [Hp1_0]; · iexact Hp1_0
    isplitl [Hp1_1]; · iexact Hp1_1
    isplitl [Hp1_2]; · iexact Hp1_2
    iexact Hp1_3
  ihave Hr7 := (Entails.of_eq (pts_blocks7 (F := F) d (cV L) (jV L) _).symm) $$ [Hp2_0 Hp2_1 Hp2_2 Hp2_3]
  · isplitl [Hp2_0]; · iexact Hp2_0
    isplitl [Hp2_1]; · iexact Hp2_1
    isplitl [Hp2_2]; · iexact Hp2_2
    iexact Hp2_3
  ihave Hr8 := (Entails.of_eq (pts_blocks8 (F := F) d (cV L) (jV L) _).symm) $$ [Hp3_0 Hp3_1 Hp3_2 Hp3_3]
  · isplitl [Hp3_0]; · iexact Hp3_0
    isplitl [Hp3_1]; · iexact Hp3_1
    isplitl [Hp3_2]; · iexact Hp3_2
    iexact Hp3_3
  ihave Ho0_0 := (Entails.of_eq (pointsTo_congr (row_val5_0 (F := F) L 0 (VI d) (VW d) p0 hq0 _))) $$ Ho0_0
  ihave Ho0_1 := (Entails.of_eq (pointsTo_congr (row_val5_1 (F := F) L 0 (VI d) (VW d) p0 hq0 _))) $$ Ho0_1
  ihave Ho0_2 := (Entails.of_eq (pointsTo_congr (row_val5_2 (F := F) L 0 (VI d) (VW d) p0 hq0 _))) $$ Ho0_2
  ihave Ho0_3 := (Entails.of_eq (pointsTo_congr (row_val5_3 (F := F) L 0 (VI d) (VW d) p0 hq0 _))) $$ Ho0_3
  ihave Ho1_0 := (Entails.of_eq (pointsTo_congr (row_val6_0 (F := F) L 1 (VI d) (VW d) p1 hq1 _))) $$ Ho1_0
  ihave Ho1_1 := (Entails.of_eq (pointsTo_congr (row_val6_1 (F := F) L 1 (VI d) (VW d) p1 hq1 _))) $$ Ho1_1
  ihave Ho1_2 := (Entails.of_eq (pointsTo_congr (row_val6_2 (F := F) L 1 (VI d) (VW d) p1 hq1 _))) $$ Ho1_2
  ihave Ho1_3 := (Entails.of_eq (pointsTo_congr (row_val6_3 (F := F) L 1 (VI d) (VW d) p1 hq1 _))) $$ Ho1_3
  ihave Ho2_0 := (Entails.of_eq (pointsTo_congr (row_val7_0 (F := F) L 2 (VI d) (VW d) p2 hq2 _))) $$ Ho2_0
  ihave Ho2_1 := (Entails.of_eq (pointsTo_congr (row_val7_1 (F := F) L 2 (VI d) (VW d) p2 hq2 _))) $$ Ho2_1
  ihave Ho2_2 := (Entails.of_eq (pointsTo_congr (row_val7_2 (F := F) L 2 (VI d) (VW d) p2 hq2 _))) $$ Ho2_2
  ihave Ho2_3 := (Entails.of_eq (pointsTo_congr (row_val7_3 (F := F) L 2 (VI d) (VW d) p2 hq2 _))) $$ Ho2_3
  ihave Ho3_0 := (Entails.of_eq (pointsTo_congr (row_val8_0 (F := F) L 3 (VI d) (VW d) p3 hq3 _))) $$ Ho3_0
  ihave Ho3_1 := (Entails.of_eq (pointsTo_congr (row_val8_1 (F := F) L 3 (VI d) (VW d) p3 hq3 _))) $$ Ho3_1
  ihave Ho3_2 := (Entails.of_eq (pointsTo_congr (row_val8_2 (F := F) L 3 (VI d) (VW d) p3 hq3 _))) $$ Ho3_2
  ihave Ho3_3 := (Entails.of_eq (pointsTo_congr (row_val8_3 (F := F) L 3 (VI d) (VW d) p3 hq3 _))) $$ Ho3_3
  ihave Ho4_0 := (Entails.of_eq (pointsTo_congr (row_val5_0 (F := F) L 4 (VI d) (VW d) p4 hq4 _))) $$ Ho4_0
  ihave Ho4_1 := (Entails.of_eq (pointsTo_congr (row_val5_1 (F := F) L 4 (VI d) (VW d) p4 hq4 _))) $$ Ho4_1
  ihave Ho4_2 := (Entails.of_eq (pointsTo_congr (row_val5_2 (F := F) L 4 (VI d) (VW d) p4 hq4 _))) $$ Ho4_2
  ihave Ho4_3 := (Entails.of_eq (pointsTo_congr (row_val5_3 (F := F) L 4 (VI d) (VW d) p4 hq4 _))) $$ Ho4_3
  ihave Ho5_0 := (Entails.of_eq (pointsTo_congr (row_val6_0 (F := F) L 5 (VI d) (VW d) p5 hq5 _))) $$ Ho5_0
  ihave Ho5_1 := (Entails.of_eq (pointsTo_congr (row_val6_1 (F := F) L 5 (VI d) (VW d) p5 hq5 _))) $$ Ho5_1
  ihave Ho5_2 := (Entails.of_eq (pointsTo_congr (row_val6_2 (F := F) L 5 (VI d) (VW d) p5 hq5 _))) $$ Ho5_2
  ihave Ho5_3 := (Entails.of_eq (pointsTo_congr (row_val6_3 (F := F) L 5 (VI d) (VW d) p5 hq5 _))) $$ Ho5_3
  ihave Ho6_0 := (Entails.of_eq (pointsTo_congr (row_val7_0 (F := F) L 6 (VI d) (VW d) p6 hq6 _))) $$ Ho6_0
  ihave Ho6_1 := (Entails.of_eq (pointsTo_congr (row_val7_1 (F := F) L 6 (VI d) (VW d) p6 hq6 _))) $$ Ho6_1
  ihave Ho6_2 := (Entails.of_eq (pointsTo_congr (row_val7_2 (F := F) L 6 (VI d) (VW d) p6 hq6 _))) $$ Ho6_2
  ihave Ho6_3 := (Entails.of_eq (pointsTo_congr (row_val7_3 (F := F) L 6 (VI d) (VW d) p6 hq6 _))) $$ Ho6_3
  ihave Ho7_0 := (Entails.of_eq (pointsTo_congr (row_val8_0 (F := F) L 7 (VI d) (VW d) p7 hq7 _))) $$ Ho7_0
  ihave Ho7_1 := (Entails.of_eq (pointsTo_congr (row_val8_1 (F := F) L 7 (VI d) (VW d) p7 hq7 _))) $$ Ho7_1
  ihave Ho7_2 := (Entails.of_eq (pointsTo_congr (row_val8_2 (F := F) L 7 (VI d) (VW d) p7 hq7 _))) $$ Ho7_2
  ihave Ho7_3 := (Entails.of_eq (pointsTo_congr (row_val8_3 (F := F) L 7 (VI d) (VW d) p7 hq7 _))) $$ Ho7_3
  ihave Ho8_0 := (Entails.of_eq (pointsTo_congr (row_val5_0 (F := F) L 8 (VI d) (VW d) p8 hq8 _))) $$ Ho8_0
  ihave Ho8_1 := (Entails.of_eq (pointsTo_congr (row_val5_1 (F := F) L 8 (VI d) (VW d) p8 hq8 _))) $$ Ho8_1
  ihave Ho8_2 := (Entails.of_eq (pointsTo_congr (row_val5_2 (F := F) L 8 (VI d) (VW d) p8 hq8 _))) $$ Ho8_2
  ihave Ho8_3 := (Entails.of_eq (pointsTo_congr (row_val5_3 (F := F) L 8 (VI d) (VW d) p8 hq8 _))) $$ Ho8_3
  ihave Ho9_0 := (Entails.of_eq (pointsTo_congr (row_val6_0 (F := F) L 9 (VI d) (VW d) p9 hq9 _))) $$ Ho9_0
  ihave Ho9_1 := (Entails.of_eq (pointsTo_congr (row_val6_1 (F := F) L 9 (VI d) (VW d) p9 hq9 _))) $$ Ho9_1
  ihave Ho9_2 := (Entails.of_eq (pointsTo_congr (row_val6_2 (F := F) L 9 (VI d) (VW d) p9 hq9 _))) $$ Ho9_2
  ihave Ho9_3 := (Entails.of_eq (pointsTo_congr (row_val6_3 (F := F) L 9 (VI d) (VW d) p9 hq9 _))) $$ Ho9_3
  ihave Ho10_0 := (Entails.of_eq (pointsTo_congr (row_val7_0 (F := F) L 10 (VI d) (VW d) p10 hq10 _))) $$ Ho10_0
  ihave Ho10_1 := (Entails.of_eq (pointsTo_congr (row_val7_1 (F := F) L 10 (VI d) (VW d) p10 hq10 _))) $$ Ho10_1
  ihave Ho10_2 := (Entails.of_eq (pointsTo_congr (row_val7_2 (F := F) L 10 (VI d) (VW d) p10 hq10 _))) $$ Ho10_2
  ihave Ho10_3 := (Entails.of_eq (pointsTo_congr (row_val7_3 (F := F) L 10 (VI d) (VW d) p10 hq10 _))) $$ Ho10_3
  ihave Ho11_0 := (Entails.of_eq (pointsTo_congr (row_val8_0 (F := F) L 11 (VI d) (VW d) p11 hq11 _))) $$ Ho11_0
  ihave Ho11_1 := (Entails.of_eq (pointsTo_congr (row_val8_1 (F := F) L 11 (VI d) (VW d) p11 hq11 _))) $$ Ho11_1
  ihave Ho11_2 := (Entails.of_eq (pointsTo_congr (row_val8_2 (F := F) L 11 (VI d) (VW d) p11 hq11 _))) $$ Ho11_2
  ihave Ho11_3 := (Entails.of_eq (pointsTo_congr (row_val8_3 (F := F) L 11 (VI d) (VW d) p11 hq11 _))) $$ Ho11_3
  ihave Ho12_0 := (Entails.of_eq (pointsTo_congr (row_val5_0 (F := F) L 12 (VI d) (VW d) p12 hq12 _))) $$ Ho12_0
  ihave Ho12_1 := (Entails.of_eq (pointsTo_congr (row_val5_1 (F := F) L 12 (VI d) (VW d) p12 hq12 _))) $$ Ho12_1
  ihave Ho12_2 := (Entails.of_eq (pointsTo_congr (row_val5_2 (F := F) L 12 (VI d) (VW d) p12 hq12 _))) $$ Ho12_2
  ihave Ho12_3 := (Entails.of_eq (pointsTo_congr (row_val5_3 (F := F) L 12 (VI d) (VW d) p12 hq12 _))) $$ Ho12_3
  ihave Ho13_0 := (Entails.of_eq (pointsTo_congr (row_val6_0 (F := F) L 13 (VI d) (VW d) p13 hq13 _))) $$ Ho13_0
  ihave Ho13_1 := (Entails.of_eq (pointsTo_congr (row_val6_1 (F := F) L 13 (VI d) (VW d) p13 hq13 _))) $$ Ho13_1
  ihave Ho13_2 := (Entails.of_eq (pointsTo_congr (row_val6_2 (F := F) L 13 (VI d) (VW d) p13 hq13 _))) $$ Ho13_2
  ihave Ho13_3 := (Entails.of_eq (pointsTo_congr (row_val6_3 (F := F) L 13 (VI d) (VW d) p13 hq13 _))) $$ Ho13_3
  ihave Ho14_0 := (Entails.of_eq (pointsTo_congr (row_val7_0 (F := F) L 14 (VI d) (VW d) p14 hq14 _))) $$ Ho14_0
  ihave Ho14_1 := (Entails.of_eq (pointsTo_congr (row_val7_1 (F := F) L 14 (VI d) (VW d) p14 hq14 _))) $$ Ho14_1
  ihave Ho14_2 := (Entails.of_eq (pointsTo_congr (row_val7_2 (F := F) L 14 (VI d) (VW d) p14 hq14 _))) $$ Ho14_2
  ihave Ho14_3 := (Entails.of_eq (pointsTo_congr (row_val7_3 (F := F) L 14 (VI d) (VW d) p14 hq14 _))) $$ Ho14_3
  ihave Ho15_0 := (Entails.of_eq (pointsTo_congr (row_val8_0 (F := F) L 15 (VI d) (VW d) p15 hq15 _))) $$ Ho15_0
  ihave Ho15_1 := (Entails.of_eq (pointsTo_congr (row_val8_1 (F := F) L 15 (VI d) (VW d) p15 hq15 _))) $$ Ho15_1
  ihave Ho15_2 := (Entails.of_eq (pointsTo_congr (row_val8_2 (F := F) L 15 (VI d) (VW d) p15 hq15 _))) $$ Ho15_2
  ihave Ho15_3 := (Entails.of_eq (pointsTo_congr (row_val8_3 (F := F) L 15 (VI d) (VW d) p15 hq15 _))) $$ Ho15_3
  ihave Ho16_0 := (Entails.of_eq (pointsTo_congr (row_val5_0 (F := F) L 16 (VI d) (VW d) p16 hq16 _))) $$ Ho16_0
  ihave Ho16_1 := (Entails.of_eq (pointsTo_congr (row_val5_1 (F := F) L 16 (VI d) (VW d) p16 hq16 _))) $$ Ho16_1
  ihave Ho16_2 := (Entails.of_eq (pointsTo_congr (row_val5_2 (F := F) L 16 (VI d) (VW d) p16 hq16 _))) $$ Ho16_2
  ihave Ho16_3 := (Entails.of_eq (pointsTo_congr (row_val5_3 (F := F) L 16 (VI d) (VW d) p16 hq16 _))) $$ Ho16_3
  ihave Ho17_0 := (Entails.of_eq (pointsTo_congr (row_val6_0 (F := F) L 17 (VI d) (VW d) p17 hq17 _))) $$ Ho17_0
  ihave Ho17_1 := (Entails.of_eq (pointsTo_congr (row_val6_1 (F := F) L 17 (VI d) (VW d) p17 hq17 _))) $$ Ho17_1
  ihave Ho17_2 := (Entails.of_eq (pointsTo_congr (row_val6_2 (F := F) L 17 (VI d) (VW d) p17 hq17 _))) $$ Ho17_2
  ihave Ho17_3 := (Entails.of_eq (pointsTo_congr (row_val6_3 (F := F) L 17 (VI d) (VW d) p17 hq17 _))) $$ Ho17_3
  ihave Ho18_0 := (Entails.of_eq (pointsTo_congr (row_val7_0 (F := F) L 18 (VI d) (VW d) p18 hq18 _))) $$ Ho18_0
  ihave Ho18_1 := (Entails.of_eq (pointsTo_congr (row_val7_1 (F := F) L 18 (VI d) (VW d) p18 hq18 _))) $$ Ho18_1
  ihave Ho18_2 := (Entails.of_eq (pointsTo_congr (row_val7_2 (F := F) L 18 (VI d) (VW d) p18 hq18 _))) $$ Ho18_2
  ihave Ho18_3 := (Entails.of_eq (pointsTo_congr (row_val7_3 (F := F) L 18 (VI d) (VW d) p18 hq18 _))) $$ Ho18_3
  ihave Ho19_0 := (Entails.of_eq (pointsTo_congr (row_val8_0 (F := F) L 19 (VI d) (VW d) p19 hq19 _))) $$ Ho19_0
  ihave Ho19_1 := (Entails.of_eq (pointsTo_congr (row_val8_1 (F := F) L 19 (VI d) (VW d) p19 hq19 _))) $$ Ho19_1
  ihave Ho19_2 := (Entails.of_eq (pointsTo_congr (row_val8_2 (F := F) L 19 (VI d) (VW d) p19 hq19 _))) $$ Ho19_2
  ihave Ho19_3 := (Entails.of_eq (pointsTo_congr (row_val8_3 (F := F) L 19 (VI d) (VW d) p19 hq19 _))) $$ Ho19_3
  ihave Ho20_0 := (Entails.of_eq (pointsTo_congr (row_val5_0 (F := F) L 20 (VI d) (VW d) p20 hq20 _))) $$ Ho20_0
  ihave Ho20_1 := (Entails.of_eq (pointsTo_congr (row_val5_1 (F := F) L 20 (VI d) (VW d) p20 hq20 _))) $$ Ho20_1
  ihave Ho20_2 := (Entails.of_eq (pointsTo_congr (row_val5_2 (F := F) L 20 (VI d) (VW d) p20 hq20 _))) $$ Ho20_2
  ihave Ho20_3 := (Entails.of_eq (pointsTo_congr (row_val5_3 (F := F) L 20 (VI d) (VW d) p20 hq20 _))) $$ Ho20_3
  ihave Ho21_0 := (Entails.of_eq (pointsTo_congr (row_val6_0 (F := F) L 21 (VI d) (VW d) p21 hq21 _))) $$ Ho21_0
  ihave Ho21_1 := (Entails.of_eq (pointsTo_congr (row_val6_1 (F := F) L 21 (VI d) (VW d) p21 hq21 _))) $$ Ho21_1
  ihave Ho21_2 := (Entails.of_eq (pointsTo_congr (row_val6_2 (F := F) L 21 (VI d) (VW d) p21 hq21 _))) $$ Ho21_2
  ihave Ho21_3 := (Entails.of_eq (pointsTo_congr (row_val6_3 (F := F) L 21 (VI d) (VW d) p21 hq21 _))) $$ Ho21_3
  ihave Ho22_0 := (Entails.of_eq (pointsTo_congr (row_val7_0 (F := F) L 22 (VI d) (VW d) p22 hq22 _))) $$ Ho22_0
  ihave Ho22_1 := (Entails.of_eq (pointsTo_congr (row_val7_1 (F := F) L 22 (VI d) (VW d) p22 hq22 _))) $$ Ho22_1
  ihave Ho22_2 := (Entails.of_eq (pointsTo_congr (row_val7_2 (F := F) L 22 (VI d) (VW d) p22 hq22 _))) $$ Ho22_2
  ihave Ho22_3 := (Entails.of_eq (pointsTo_congr (row_val7_3 (F := F) L 22 (VI d) (VW d) p22 hq22 _))) $$ Ho22_3
  ihave Ho23_0 := (Entails.of_eq (pointsTo_congr (row_val8_0 (F := F) L 23 (VI d) (VW d) p23 hq23 _))) $$ Ho23_0
  ihave Ho23_1 := (Entails.of_eq (pointsTo_congr (row_val8_1 (F := F) L 23 (VI d) (VW d) p23 hq23 _))) $$ Ho23_1
  ihave Ho23_2 := (Entails.of_eq (pointsTo_congr (row_val8_2 (F := F) L 23 (VI d) (VW d) p23 hq23 _))) $$ Ho23_2
  ihave Ho23_3 := (Entails.of_eq (pointsTo_congr (row_val8_3 (F := F) L 23 (VI d) (VW d) p23 hq23 _))) $$ Ho23_3
  ihave Ho24_0 := (Entails.of_eq (pointsTo_congr (row_val5_0 (F := F) L 24 (VI d) (VW d) p24 hq24 _))) $$ Ho24_0
  ihave Ho24_1 := (Entails.of_eq (pointsTo_congr (row_val5_1 (F := F) L 24 (VI d) (VW d) p24 hq24 _))) $$ Ho24_1
  ihave Ho24_2 := (Entails.of_eq (pointsTo_congr (row_val5_2 (F := F) L 24 (VI d) (VW d) p24 hq24 _))) $$ Ho24_2
  ihave Ho24_3 := (Entails.of_eq (pointsTo_congr (row_val5_3 (F := F) L 24 (VI d) (VW d) p24 hq24 _))) $$ Ho24_3
  ihave Ho25_0 := (Entails.of_eq (pointsTo_congr (row_val6_0 (F := F) L 25 (VI d) (VW d) p25 hq25 _))) $$ Ho25_0
  ihave Ho25_1 := (Entails.of_eq (pointsTo_congr (row_val6_1 (F := F) L 25 (VI d) (VW d) p25 hq25 _))) $$ Ho25_1
  ihave Ho25_2 := (Entails.of_eq (pointsTo_congr (row_val6_2 (F := F) L 25 (VI d) (VW d) p25 hq25 _))) $$ Ho25_2
  ihave Ho25_3 := (Entails.of_eq (pointsTo_congr (row_val6_3 (F := F) L 25 (VI d) (VW d) p25 hq25 _))) $$ Ho25_3
  ihave Ho26_0 := (Entails.of_eq (pointsTo_congr (row_val7_0 (F := F) L 26 (VI d) (VW d) p26 hq26 _))) $$ Ho26_0
  ihave Ho26_1 := (Entails.of_eq (pointsTo_congr (row_val7_1 (F := F) L 26 (VI d) (VW d) p26 hq26 _))) $$ Ho26_1
  ihave Ho26_2 := (Entails.of_eq (pointsTo_congr (row_val7_2 (F := F) L 26 (VI d) (VW d) p26 hq26 _))) $$ Ho26_2
  ihave Ho26_3 := (Entails.of_eq (pointsTo_congr (row_val7_3 (F := F) L 26 (VI d) (VW d) p26 hq26 _))) $$ Ho26_3
  ihave Ho27_0 := (Entails.of_eq (pointsTo_congr (row_val8_0 (F := F) L 27 (VI d) (VW d) p27 hq27 _))) $$ Ho27_0
  ihave Ho27_1 := (Entails.of_eq (pointsTo_congr (row_val8_1 (F := F) L 27 (VI d) (VW d) p27 hq27 _))) $$ Ho27_1
  ihave Ho27_2 := (Entails.of_eq (pointsTo_congr (row_val8_2 (F := F) L 27 (VI d) (VW d) p27 hq27 _))) $$ Ho27_2
  ihave Ho27_3 := (Entails.of_eq (pointsTo_congr (row_val8_3 (F := F) L 27 (VI d) (VW d) p27 hq27 _))) $$ Ho27_3
  ihave Ho28_0 := (Entails.of_eq (pointsTo_congr (row_val5_0 (F := F) L 28 (VI d) (VW d) p28 hq28 _))) $$ Ho28_0
  ihave Ho28_1 := (Entails.of_eq (pointsTo_congr (row_val5_1 (F := F) L 28 (VI d) (VW d) p28 hq28 _))) $$ Ho28_1
  ihave Ho28_2 := (Entails.of_eq (pointsTo_congr (row_val5_2 (F := F) L 28 (VI d) (VW d) p28 hq28 _))) $$ Ho28_2
  ihave Ho28_3 := (Entails.of_eq (pointsTo_congr (row_val5_3 (F := F) L 28 (VI d) (VW d) p28 hq28 _))) $$ Ho28_3
  ihave Ho29_0 := (Entails.of_eq (pointsTo_congr (row_val6_0 (F := F) L 29 (VI d) (VW d) p29 hq29 _))) $$ Ho29_0
  ihave Ho29_1 := (Entails.of_eq (pointsTo_congr (row_val6_1 (F := F) L 29 (VI d) (VW d) p29 hq29 _))) $$ Ho29_1
  ihave Ho29_2 := (Entails.of_eq (pointsTo_congr (row_val6_2 (F := F) L 29 (VI d) (VW d) p29 hq29 _))) $$ Ho29_2
  ihave Ho29_3 := (Entails.of_eq (pointsTo_congr (row_val6_3 (F := F) L 29 (VI d) (VW d) p29 hq29 _))) $$ Ho29_3
  ihave Ho30_0 := (Entails.of_eq (pointsTo_congr (row_val7_0 (F := F) L 30 (VI d) (VW d) p30 hq30 _))) $$ Ho30_0
  ihave Ho30_1 := (Entails.of_eq (pointsTo_congr (row_val7_1 (F := F) L 30 (VI d) (VW d) p30 hq30 _))) $$ Ho30_1
  ihave Ho30_2 := (Entails.of_eq (pointsTo_congr (row_val7_2 (F := F) L 30 (VI d) (VW d) p30 hq30 _))) $$ Ho30_2
  ihave Ho30_3 := (Entails.of_eq (pointsTo_congr (row_val7_3 (F := F) L 30 (VI d) (VW d) p30 hq30 _))) $$ Ho30_3
  ihave Ho31_0 := (Entails.of_eq (pointsTo_congr (row_val8_0 (F := F) L 31 (VI d) (VW d) p31 hq31 _))) $$ Ho31_0
  ihave Ho31_1 := (Entails.of_eq (pointsTo_congr (row_val8_1 (F := F) L 31 (VI d) (VW d) p31 hq31 _))) $$ Ho31_1
  ihave Ho31_2 := (Entails.of_eq (pointsTo_congr (row_val8_2 (F := F) L 31 (VI d) (VW d) p31 hq31 _))) $$ Ho31_2
  ihave Ho31_3 := (Entails.of_eq (pointsTo_congr (row_val8_3 (F := F) L 31 (VI d) (VW d) p31 hq31 _))) $$ Ho31_3
  ihave Ho := (Entails.of_eq (rows_chain (F := F) d L (Cert.Proof.Spec.gath (VI d) (VW d))).symm) $$ [Ho0_0 Ho0_1 Ho0_2 Ho0_3 Ho1_0 Ho1_1 Ho1_2 Ho1_3 Ho2_0 Ho2_1 Ho2_2 Ho2_3 Ho3_0 Ho3_1 Ho3_2 Ho3_3 Ho4_0 Ho4_1 Ho4_2 Ho4_3 Ho5_0 Ho5_1 Ho5_2 Ho5_3 Ho6_0 Ho6_1 Ho6_2 Ho6_3 Ho7_0 Ho7_1 Ho7_2 Ho7_3 Ho8_0 Ho8_1 Ho8_2 Ho8_3 Ho9_0 Ho9_1 Ho9_2 Ho9_3 Ho10_0 Ho10_1 Ho10_2 Ho10_3 Ho11_0 Ho11_1 Ho11_2 Ho11_3 Ho12_0 Ho12_1 Ho12_2 Ho12_3 Ho13_0 Ho13_1 Ho13_2 Ho13_3 Ho14_0 Ho14_1 Ho14_2 Ho14_3 Ho15_0 Ho15_1 Ho15_2 Ho15_3 Ho16_0 Ho16_1 Ho16_2 Ho16_3 Ho17_0 Ho17_1 Ho17_2 Ho17_3 Ho18_0 Ho18_1 Ho18_2 Ho18_3 Ho19_0 Ho19_1 Ho19_2 Ho19_3 Ho20_0 Ho20_1 Ho20_2 Ho20_3 Ho21_0 Ho21_1 Ho21_2 Ho21_3 Ho22_0 Ho22_1 Ho22_2 Ho22_3 Ho23_0 Ho23_1 Ho23_2 Ho23_3 Ho24_0 Ho24_1 Ho24_2 Ho24_3 Ho25_0 Ho25_1 Ho25_2 Ho25_3 Ho26_0 Ho26_1 Ho26_2 Ho26_3 Ho27_0 Ho27_1 Ho27_2 Ho27_3 Ho28_0 Ho28_1 Ho28_2 Ho28_3 Ho29_0 Ho29_1 Ho29_2 Ho29_3 Ho30_0 Ho30_1 Ho30_2 Ho30_3 Ho31_0 Ho31_1 Ho31_2 Ho31_3]
  · isplitl [Ho0_0]; · iexact Ho0_0
    isplitl [Ho0_1]; · iexact Ho0_1
    isplitl [Ho0_2]; · iexact Ho0_2
    isplitl [Ho0_3]; · iexact Ho0_3
    isplitl [Ho1_0]; · iexact Ho1_0
    isplitl [Ho1_1]; · iexact Ho1_1
    isplitl [Ho1_2]; · iexact Ho1_2
    isplitl [Ho1_3]; · iexact Ho1_3
    isplitl [Ho2_0]; · iexact Ho2_0
    isplitl [Ho2_1]; · iexact Ho2_1
    isplitl [Ho2_2]; · iexact Ho2_2
    isplitl [Ho2_3]; · iexact Ho2_3
    isplitl [Ho3_0]; · iexact Ho3_0
    isplitl [Ho3_1]; · iexact Ho3_1
    isplitl [Ho3_2]; · iexact Ho3_2
    isplitl [Ho3_3]; · iexact Ho3_3
    isplitl [Ho4_0]; · iexact Ho4_0
    isplitl [Ho4_1]; · iexact Ho4_1
    isplitl [Ho4_2]; · iexact Ho4_2
    isplitl [Ho4_3]; · iexact Ho4_3
    isplitl [Ho5_0]; · iexact Ho5_0
    isplitl [Ho5_1]; · iexact Ho5_1
    isplitl [Ho5_2]; · iexact Ho5_2
    isplitl [Ho5_3]; · iexact Ho5_3
    isplitl [Ho6_0]; · iexact Ho6_0
    isplitl [Ho6_1]; · iexact Ho6_1
    isplitl [Ho6_2]; · iexact Ho6_2
    isplitl [Ho6_3]; · iexact Ho6_3
    isplitl [Ho7_0]; · iexact Ho7_0
    isplitl [Ho7_1]; · iexact Ho7_1
    isplitl [Ho7_2]; · iexact Ho7_2
    isplitl [Ho7_3]; · iexact Ho7_3
    isplitl [Ho8_0]; · iexact Ho8_0
    isplitl [Ho8_1]; · iexact Ho8_1
    isplitl [Ho8_2]; · iexact Ho8_2
    isplitl [Ho8_3]; · iexact Ho8_3
    isplitl [Ho9_0]; · iexact Ho9_0
    isplitl [Ho9_1]; · iexact Ho9_1
    isplitl [Ho9_2]; · iexact Ho9_2
    isplitl [Ho9_3]; · iexact Ho9_3
    isplitl [Ho10_0]; · iexact Ho10_0
    isplitl [Ho10_1]; · iexact Ho10_1
    isplitl [Ho10_2]; · iexact Ho10_2
    isplitl [Ho10_3]; · iexact Ho10_3
    isplitl [Ho11_0]; · iexact Ho11_0
    isplitl [Ho11_1]; · iexact Ho11_1
    isplitl [Ho11_2]; · iexact Ho11_2
    isplitl [Ho11_3]; · iexact Ho11_3
    isplitl [Ho12_0]; · iexact Ho12_0
    isplitl [Ho12_1]; · iexact Ho12_1
    isplitl [Ho12_2]; · iexact Ho12_2
    isplitl [Ho12_3]; · iexact Ho12_3
    isplitl [Ho13_0]; · iexact Ho13_0
    isplitl [Ho13_1]; · iexact Ho13_1
    isplitl [Ho13_2]; · iexact Ho13_2
    isplitl [Ho13_3]; · iexact Ho13_3
    isplitl [Ho14_0]; · iexact Ho14_0
    isplitl [Ho14_1]; · iexact Ho14_1
    isplitl [Ho14_2]; · iexact Ho14_2
    isplitl [Ho14_3]; · iexact Ho14_3
    isplitl [Ho15_0]; · iexact Ho15_0
    isplitl [Ho15_1]; · iexact Ho15_1
    isplitl [Ho15_2]; · iexact Ho15_2
    isplitl [Ho15_3]; · iexact Ho15_3
    isplitl [Ho16_0]; · iexact Ho16_0
    isplitl [Ho16_1]; · iexact Ho16_1
    isplitl [Ho16_2]; · iexact Ho16_2
    isplitl [Ho16_3]; · iexact Ho16_3
    isplitl [Ho17_0]; · iexact Ho17_0
    isplitl [Ho17_1]; · iexact Ho17_1
    isplitl [Ho17_2]; · iexact Ho17_2
    isplitl [Ho17_3]; · iexact Ho17_3
    isplitl [Ho18_0]; · iexact Ho18_0
    isplitl [Ho18_1]; · iexact Ho18_1
    isplitl [Ho18_2]; · iexact Ho18_2
    isplitl [Ho18_3]; · iexact Ho18_3
    isplitl [Ho19_0]; · iexact Ho19_0
    isplitl [Ho19_1]; · iexact Ho19_1
    isplitl [Ho19_2]; · iexact Ho19_2
    isplitl [Ho19_3]; · iexact Ho19_3
    isplitl [Ho20_0]; · iexact Ho20_0
    isplitl [Ho20_1]; · iexact Ho20_1
    isplitl [Ho20_2]; · iexact Ho20_2
    isplitl [Ho20_3]; · iexact Ho20_3
    isplitl [Ho21_0]; · iexact Ho21_0
    isplitl [Ho21_1]; · iexact Ho21_1
    isplitl [Ho21_2]; · iexact Ho21_2
    isplitl [Ho21_3]; · iexact Ho21_3
    isplitl [Ho22_0]; · iexact Ho22_0
    isplitl [Ho22_1]; · iexact Ho22_1
    isplitl [Ho22_2]; · iexact Ho22_2
    isplitl [Ho22_3]; · iexact Ho22_3
    isplitl [Ho23_0]; · iexact Ho23_0
    isplitl [Ho23_1]; · iexact Ho23_1
    isplitl [Ho23_2]; · iexact Ho23_2
    isplitl [Ho23_3]; · iexact Ho23_3
    isplitl [Ho24_0]; · iexact Ho24_0
    isplitl [Ho24_1]; · iexact Ho24_1
    isplitl [Ho24_2]; · iexact Ho24_2
    isplitl [Ho24_3]; · iexact Ho24_3
    isplitl [Ho25_0]; · iexact Ho25_0
    isplitl [Ho25_1]; · iexact Ho25_1
    isplitl [Ho25_2]; · iexact Ho25_2
    isplitl [Ho25_3]; · iexact Ho25_3
    isplitl [Ho26_0]; · iexact Ho26_0
    isplitl [Ho26_1]; · iexact Ho26_1
    isplitl [Ho26_2]; · iexact Ho26_2
    isplitl [Ho26_3]; · iexact Ho26_3
    isplitl [Ho27_0]; · iexact Ho27_0
    isplitl [Ho27_1]; · iexact Ho27_1
    isplitl [Ho27_2]; · iexact Ho27_2
    isplitl [Ho27_3]; · iexact Ho27_3
    isplitl [Ho28_0]; · iexact Ho28_0
    isplitl [Ho28_1]; · iexact Ho28_1
    isplitl [Ho28_2]; · iexact Ho28_2
    isplitl [Ho28_3]; · iexact Ho28_3
    isplitl [Ho29_0]; · iexact Ho29_0
    isplitl [Ho29_1]; · iexact Ho29_1
    isplitl [Ho29_2]; · iexact Ho29_2
    isplitl [Ho29_3]; · iexact Ho29_3
    isplitl [Ho30_0]; · iexact Ho30_0
    isplitl [Ho30_1]; · iexact Ho30_1
    isplitl [Ho30_2]; · iexact Ho30_2
    isplitl [Ho30_3]; · iexact Ho30_3
    isplitl [Ho31_0]; · iexact Ho31_0
    isplitl [Ho31_1]; · iexact Ho31_1
    isplitl [Ho31_2]; · iexact Ho31_2
    isplitl [Ho31_3]; · iexact Ho31_3
    iempintro
  ihave Hw := (toks4 (F := F) (wShare (cL L) (jL L)) (VW d)).2 $$ [Hwr Hw0 Hw1 Hw2 Hw3]
  · isplitl [Hwr]; · iexact Hwr
    isplitl [Hw0]; · iexact Hw0
    isplitl [Hw1]; · iexact Hw1
    isplitl [Hw2]; · iexact Hw2
    iexact Hw3
  ihave Hi := (Entails.of_eq (pts_iSl (F := F) d L _)) $$ Hi
  -- what the tile hands back
  isplitl [Hi Hw Ho]
  · isplitl [Hi]; · iexact Hi
    isplitl [Hw]; · iexact Hw
    iexact Ho
  isplitl [Hr0 Hr1 Hr2 Hr3 Hr4 Hr5 Hr6 Hr7 Hr8 Hbrest]
  · isplitr [Hbrest]
    · isplitl [Hr0]; · iexists _; iexact Hr0
      isplitl [Hr1]; · iexists _; iexact Hr1
      isplitl [Hr2]; · iexists _; iexact Hr2
      isplitl [Hr3]; · iexists _; iexact Hr3
      isplitl [Hr4]; · iexists _; iexact Hr4
      isplitl [Hr5]; · iexists _; iexact Hr5
      isplitl [Hr6]; · iexists _; iexact Hr6
      isplitl [Hr7]; · iexists _; iexact Hr7
      isplitl [Hr8]; · iexists _; iexact Hr8
      iempintro
    · iexact Hbrest
  isplitl [Hg0 Hg1 Hg2 Hg3 Hs0 Hs1 Hs2 Hs3 Hsc Hsrest]
  · isplitr [Hsrest]
    · isplitl [Hg0]; · iexact Hg0
      isplitl [Hg1]; · iexact Hg1
      isplitl [Hg2]; · iexact Hg2
      isplitl [Hg3]; · iexact Hg3
      isplitl [Hs0]; · iexact Hs0
      isplitl [Hs1]; · iexact Hs1
      isplitl [Hs2]; · iexact Hs2
      isplitl [Hs3]; · iexact Hs3
      isplitl [Hsc]; · iexact Hsc
      iempintro
    · iexact Hsrest
  iexists _; isplitr; swap
  · iexact HO
  · ipureintro
    repeat (first | exact waits_base | refine waits_insert rfl ?_)

end Tile

end Cert.Proof.KBits

end
-- ==== Proof.KBits.Launch.lean ====
/-
  The launch of the gather kernel: how one tile's task, proved once at a symbolic place, becomes the run of the
  whole program.

  @main on the TensorCore re-lays the index table (4096 x 26 read as 1024 x 104), pads the embedding table from 64
  to 128 columns with a converted zero, and calls the one vector-subcore kernel on both SparseCores. The call takes
  the re-laid index table and the result whole, dealt to the thirty-two tiles by parts along the first axis, and of
  the padded table one read token per tile; what is left of that table's share stays with the TensorCore across the
  call. Every tile hands its parts back, the result's at ONE whole-array function, so the three equations that dealt
  the arrays, read backwards at the new contents, join them again. The final memory then reads: both arguments as
  at the launch, the result at that function.
-/
import proofs.«206479_g70076686402233_cont_9to1c4b_78_46_alg».proof.Proof.KBits.Common
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KBits

open Cert.Kernel Cert.Kernel.Gen

open Idealize.ShloMosaic
open Idealize.ShloMosaic.SparseCore (S V T)
open Idealize.ShloMosaic.SparseCore.Cfg (HIx Pay)
open Idealize.ShloMosaic.Transfers (tileNo shareTok pointsTo_tiles tileParts_disjoint tileParts_cover pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The payloads as equations, and the sums over the grid's own index types -/

section Pay

variable (VI : (d : Dev nD) → Buf (Elt F) (iLoc d)) (VW : (d : Dev nD) → Buf (Elt F) (wLoc d))
variable (VO GO : (d : Dev nD) → Buf (Elt F) (oLoc d))

theorem P_st (d : Dev nD) (c : Fin ((K (F := F)).nCore 0)) :
    (P VI VW VO GO).st 0 d c = bigSep Finset.univ fun i : Fin 16 => tileRes VI VW d (Fin.cast nCore_zero c) i (VO d) := rfl
theorem P_dn (d : Dev nD) (c : Fin ((K (F := F)).nCore 0)) :
    (P VI VW VO GO).dn 0 d c = bigSep Finset.univ fun i : Fin 16 => tileRes VI VW d (Fin.cast nCore_zero c) i (GO d) := rfl
theorem P_go (d : Dev nD) (c : Fin ((K (F := F)).nCore 0)) (i : Fin ((K (F := F)).nSub 0)) :
    (P VI VW VO GO).go 0 d c i = tileRes VI VW d (Fin.cast nCore_zero c) (Fin.cast nSub_zero i) (VO d) := rfl
theorem P_td (d : Dev nD) (c : Fin ((K (F := F)).nCore 0)) (i : Fin ((K (F := F)).nSub 0)) :
    (P VI VW VO GO).td 0 d c i = tileRes VI VW d (Fin.cast nCore_zero c) (Fin.cast nSub_zero i) (GO d) := rfl

/-- A sum over the call's tiles of one SparseCore is the sum over sixteen, -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- and one over the call's SparseCores the sum over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's operands ARE its sixteen tiles' operands, and its results theirs: nothing to split or to join. -/
theorem vecSplit' : (K (F := F)).VecSplit' (P VI VW VO GO) 0 := by
  intro d c
  rw [P_st, P_dn]
  simp only [P_go, P_td]
  rw [bigSep_tasks (F := F) (fun i => tileRes VI VW d (Fin.cast nCore_zero c) i (VO d)),
    bigSep_tasks (F := F) (fun i => tileRes VI VW d (Fin.cast nCore_zero c) i (GO d))]
  iintro H; imodintro
  isplitl [H]; · iexact H
  iintro H; iexact H

theorem vecSplit : (K (F := F)).VecSplit (P VI VW VO GO) 0 := SparseCore.Cfg.VecSplit.of_plain (vecSplit' VI VW VO GO)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P VI VW VO GO).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P VI VW VO GO).x q thr)
      = (bigSep Finset.univ fun _ : Thread nD τ => bigSep Finset.univ fun _ : Fin 1 => (iprop(emp) : sProp 𝕄)) from rfl,
    show (bigSep Finset.univ fun _ : Thread nD τ => bigSep Finset.univ fun _ : Fin 1 => (iprop(emp) : sProp 𝕄)) = iprop(emp) from by
      rw [bigSep_congr fun _ _ => bigSep_emp' _, bigSep_emp']]
  iempintro

end Pay

/-! ## The launch memory; what @main's host operations leave in the kernel's operands -/

section Main

variable (m : (ℓ : Loc nD τ sig) → Buf (Elt F) ℓ) (ρ : Dev nD → PrngReg)

/-- The two arguments, as locations of device `d`. -/
abbrev a0Loc (d : Dev nD) : Loc nD τ sig := (SparseCore.T d).loc main_arg0
abbrev a1Loc (d : Dev nD) : Loc nD τ sig := (SparseCore.T d).loc main_arg1

variable [FloatOps F]

/-- The index table re-laid: the 4096 x 26 argument read in row-major order at 1024 x 104. -/
def VI (d : Dev nD) : Buf (Elt F) (iLoc d) :=
  shapeCast S1024x104 (m (a0Loc d) : S4096x26.Idx → Elt F .i32) Facts₀.shapeCasts_S4096x26_S1024x104
/-- The zero the table is padded with: the integer constant converted. -/
def Z0 : S_.Idx → Elt F .f32 := sitofp .f32 (constantI S_ 32 0#32)
/-- The embedding table padded: 64 more columns of that zero to the right of the argument's 64. -/
def VW (d : Dev nD) : Buf (Elt F) (wLoc d) :=
  pad S100000x128 ![0, 0] ![0, 64] ![0, 0] (m (a1Loc d) : S100000x64.Idx → Elt F .f32) (Z0 (F := F)) Facts₀.pads_S100000x64_S100000x128_000_0640 Facts₀.h_S_
/-- The result as the call finds it. -/
abbrev VO (d : Dev nD) : Buf (Elt F) (oLoc d) := m (oLoc d)

variable (GO : (d : Dev nD) → Buf (Elt F) (oLoc d))

/-- The payloads at those contents. -/
abbrev PP : (K (F := F)).Pay (nD := nD) (Val := Elt F) (Name := ℕ) (U := UU) := P (VI m) (VW m) (VO m) GO

/-- What @main leaves the claim: both arguments at their launch contents, the result at `GO`. -/
abbrev FIN (d : Dev nD) : sProp 𝕄 :=
  iprop((a0Loc d ↦{fullShare} m (a0Loc d)) ∗ (a1Loc d ↦{fullShare} m (a1Loc d)) ∗ (oLoc d ↦{fullShare} GO d))

def fq (d : Dev nD) (s' : Phys nD τ sig (Elt F)) : Prop :=
  s'.mem.mem (oLoc d) = GO d ∧ s'.mem.mem (a0Loc d) = m (a0Loc d) ∧ s'.mem.mem (a1Loc d) = m (a1Loc d)

theorem hfin (d : Dev nD) (s' : Phys nD τ sig (Elt F)) : iprop(FIN m GO d ∗ SI s') ⊢ (⌜fq m GO d s'⌝ : sProp 𝕄) := by
  iintro ⟨⟨Ha0, Ha1, Ho⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%h1, HSI, -⟩
  ihave H := (SI_pointsTo_agree (st := s') (ℓ := oLoc d) (I := Finset.univ) (q := fullShare) (f := GO d)) $$ [HSI Ho]
  · isplitl [HSI] <;> iassumption
  icases H with %h2
  ipureintro
  exact ⟨funext fun i => h2 i (Finset.mem_univ i), funext fun i => h0 i (Finset.mem_univ i), funext fun i => h1 i (Finset.mem_univ i)⟩

def QC : PUnit × MemSt nD τ sig (Elt F) → Prop := fun r => ∀ c : Dev nD,
  r.2.mem ((c.tc : Thread nD τ).loc main_v2) = GO c
  ∧ r.2.mem ((c.tc : Thread nD τ).loc main_arg0) = m ((c.tc : Thread nD τ).loc main_arg0)
  ∧ r.2.mem ((c.tc : Thread nD τ).loc main_arg1) = m ((c.tc : Thread nD τ).loc main_arg1)

theorem hQ (s' : Phys nD τ sig (Elt F)) (h : ∀ d, fq m GO d s') : QC m GO (⟨⟩, s'.mem) := fun c => h c

/-! ## @main on the TensorCore -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev c' : DevRef τ sig := Proc.devRef .tc (main_c : Ref sig .tc)
abbrev z' : DevRef τ sig := Proc.devRef .tc (main_call0_v0 : Ref sig .tc)
abbrev w' : DevRef τ sig := Proc.devRef .tc (main_v1 : Ref sig .tc)
abbrev o' : DevRef τ sig := Proc.devRef .tc (main_v2 : Ref sig .tc)

/-- The TensorCore's arrays, all unscoped: the two arguments, the re-laid index table, the constant and its
    conversion, the padded table, the result. -/
abbrev S7 : Finset (DevRef τ sig) := {a0', a1', i', c', z', w', o'}

/-- The four host operations, as @main and the padding function print them. -/
abbrev opI : HloOp τ sig (Elt F) := StableHlo.reshape main_arg0 main_v0 rfl Facts₀.shapeCasts_S4096x26_S1024x104
abbrev opC : HloOp τ sig (Elt F) := StableHlo.nullary main_c (constantI S_ 32 0#32)
abbrev opZ : HloOp τ sig (Elt F) :=
  StableHlo.TRef.unary (StableHlo.TRef.of main_c : StableHlo.TRef sig ⟨S_, .i32⟩) (main_call0.v0) (sitofp .f32)
abbrev opW : HloOp τ sig (Elt F) :=
  StableHlo.TRef.binary (StableHlo.TRef.of main_arg1 : StableHlo.TRef sig ⟨S100000x64, .f32⟩) (main_call0.v0) (main_call0.v1)
    (fun x v => pad S100000x128 ![0, 0] ![0, 64] ![0, 0] x v Facts₀.pads_S100000x64_S100000x128_000_0640 Facts₀.h_S_)

omit [FloatOps F] in
theorem held_S7 (d : Dev nD) (W : Valuation τ sig (Elt F)) :
    (held (T d) S7 W : sProp 𝕄) = iprop((a0Loc d ↦{fullShare} W a0') ∗ (a1Loc d ↦{fullShare} W a1') ∗ (iLoc d ↦{fullShare} W i')
      ∗ ((SparseCore.T d).loc main_c ↦{fullShare} W c') ∗ ((SparseCore.T d).loc main_call0_v0 ↦{fullShare} W z')
      ∗ (wLoc d ↦{fullShare} W w') ∗ (oLoc d ↦{fullShare} W o')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_v0)
      ∗ ((SparseCore.T d).loc main_c ↦{fullShare} W main_c) ∗ ((SparseCore.T d).loc main_call0_v0 ↦{fullShare} W main_call0_v0)
      ∗ (wLoc d ↦{fullShare} W main_v1) ∗ (oLoc d ↦{fullShare} W main_v2)) := by
  unfold unscopedBufs
  rw [show (Finset.univ.filter fun b : Ref sig .tc => ¬ b.isScoped) = {main_arg0, main_arg1, main_v0, main_c, main_call0_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation, and the arrays after each host operation. -/
abbrev V0 (d : Dev nD) : Valuation τ sig (Elt F) := fun b => m (d, b)
abbrev V1 (d : Dev nD) : Valuation τ sig (Elt F) := (opI (F := F)).result (V0 m d)
abbrev V2 (d : Dev nD) : Valuation τ sig (Elt F) := (opC (F := F)).result (V1 m d)
abbrev V3 (d : Dev nD) : Valuation τ sig (Elt F) := (opZ (F := F)).result (V2 m d)
abbrev V4 (d : Dev nD) : Valuation τ sig (Elt F) := (opW (F := F)).result (V3 m d)

theorem unscoped_held (d : Dev nD) : (unscopedBufs d (fun b => m ((SparseCore.T d).loc b)) : sProp 𝕄) = held (T d) S7 (V0 m d) := by
  rw [unscopedBufs_eq, held_S7]

theorem hI : (opI (F := F)).bufs ⊆ S7 := show ({a0', i'} : Finset (DevRef τ sig)) ⊆ S7 by decide
theorem hC : (opC (F := F)).bufs ⊆ S7 := show ({c'} : Finset (DevRef τ sig)) ⊆ S7 by decide
theorem hZ : (opZ (F := F)).bufs ⊆ S7 := show ({c', z'} : Finset (DevRef τ sig)) ⊆ S7 by decide
theorem hW : (opW (F := F)).bufs ⊆ S7 := show ({a1', z', w'} : Finset (DevRef τ sig)) ⊆ S7 by decide

/-- A buffer none of the four operations writes is as at the launch. -/
theorem V4_of_not_mem (d : Dev nD) (b : DevRef τ sig) (hb : b ∉ ({i', c', z', w'} : Finset (DevRef τ sig))) : V4 m d b = m (d, b) := by
  have h1 : b ∉ ({i'} : Finset (DevRef τ sig)) := fun h => hb (by rw [Finset.mem_singleton] at h; subst h; decide)
  have h2 : b ∉ ({c'} : Finset (DevRef τ sig)) := fun h => hb (by rw [Finset.mem_singleton] at h; subst h; decide)
  have h3 : b ∉ ({z'} : Finset (DevRef τ sig)) := fun h => hb (by rw [Finset.mem_singleton] at h; subst h; decide)
  have h4 : b ∉ ({w'} : Finset (DevRef τ sig)) := fun h => hb (by rw [Finset.mem_singleton] at h; subst h; decide)
  show (opW (F := F)).result ((opZ (F := F)).result ((opC (F := F)).result ((opI (F := F)).result (V0 m d)))) b = _
  rw [(opW (F := F)).result_of_not_mem _ (b := b) h4, (opZ (F := F)).result_of_not_mem _ (b := b) h3,
    (opC (F := F)).result_of_not_mem _ (b := b) h2, (opI (F := F)).result_of_not_mem _ (b := b) h1]

theorem V4_a0 (d : Dev nD) : V4 m d a0' = m (a0Loc d) := V4_of_not_mem m d a0' (by decide)
theorem V4_a1 (d : Dev nD) : V4 m d a1' = m (a1Loc d) := V4_of_not_mem m d a1' (by decide)
theorem V4_o (d : Dev nD) : V4 m d o' = m (oLoc d) := V4_of_not_mem m d o' (by decide)

/-- The re-laid index table is the reshape's result, which no later operation writes. -/
theorem V4_i (d : Dev nD) : V4 m d i' = VI m d := by
  show (opW (F := F)).result ((opZ (F := F)).result ((opC (F := F)).result ((opI (F := F)).result (V0 m d)))) i' = _
  rw [(opW (F := F)).result_of_not_mem _ (b := i') (show i' ∉ ({w'} : Finset (DevRef τ sig)) by decide),
    (opZ (F := F)).result_of_not_mem _ (b := i') (show i' ∉ ({z'} : Finset (DevRef τ sig)) by decide),
    (opC (F := F)).result_of_not_mem _ (b := i') (show i' ∉ ({c'} : Finset (DevRef τ sig)) by decide)]
  exact (StableHlo.reshape_result main_arg0 main_v0 rfl Facts₀.shapeCasts_S4096x26_S1024x104 _ _ (V0 m d)).trans rfl

/-- The zero is the conversion's result of the constant's. -/
theorem V3_z (d : Dev nD) : V3 m d z' = Z0 (F := F) := by
  show (opZ (F := F)).result ((opC (F := F)).result (V1 m d)) z' = _
  refine (StableHlo.unary_result _ _ _ _ _ _).trans ?_
  show sitofp .f32 ((opC (F := F)).result (V1 m d) c') = _
  rw [show (opC (F := F)).result (V1 m d) c' = constantI S_ 32 0#32 from StableHlo.nullary_result _ _ _ _]
  rfl

theorem V3_a1 (d : Dev nD) : V3 m d a1' = m (a1Loc d) := by
  show (opZ (F := F)).result ((opC (F := F)).result ((opI (F := F)).result (V0 m d))) a1' = _
  rw [(opZ (F := F)).result_of_not_mem _ (b := a1') (show a1' ∉ ({z'} : Finset (DevRef τ sig)) by decide),
    (opC (F := F)).result_of_not_mem _ (b := a1') (show a1' ∉ ({c'} : Finset (DevRef τ sig)) by decide),
    (opI (F := F)).result_of_not_mem _ (b := a1') (show a1' ∉ ({i'} : Finset (DevRef τ sig)) by decide)]

/-- The padded table is the pad's result of the argument and that zero. -/
theorem V4_w (d : Dev nD) : V4 m d w' = VW m d := by
  show (opW (F := F)).result (V3 m d) w' = _
  refine (StableHlo.binary_result _ _ _ _ _ _ _ _).trans ?_
  show pad S100000x128 ![0, 0] ![0, 64] ![0, 0] (V3 m d a1') (V3 m d z') Facts₀.pads_S100000x64_S100000x128_000_0640 Facts₀.h_S_ = _
  rw [V3_a1, V3_z]
  rfl

/-! ## What the call takes and hands back, as the TensorCore holds it -/

section Deal

variable (VI' : (d : Dev nD) → Buf (Elt F) (iLoc d)) (VW' : (d : Dev nD) → Buf (Elt F) (wLoc d))

omit [FloatOps F] in
/-- The thirty-two tiles' resources, the result's parts at `f`: the index table whole, the padded table's thirty-two
    read tokens, the result whole at `f`. -/
theorem tiles_eq (d : Dev nD) (f : Buf (Elt F) (oLoc d)) :
    (bigSep Finset.univ fun c : Fin 2 => bigSep Finset.univ fun i : Fin 16 => tileRes VI' VW' d c i f)
      = iprop((iLoc d ↦{fullShare} VI' d)
        ∗ (bigSep Finset.univ fun c : Fin 2 => bigSep Finset.univ fun i : Fin 16 => (wLoc d ↦{wShare c i} VW' d : sProp 𝕄))
        ∗ (oLoc d ↦{fullShare} f)) := by
  rw [pointsTo_tiles (ℓ := iLoc d) iPart (tileParts_disjoint hdivI) (tileParts_cover hdivI) (VI' d),
    pointsTo_tiles (ℓ := oLoc d) oPart (tileParts_disjoint hdivO) (tileParts_cover hdivO) f]
  simp only [bigSep_sep']

omit [FloatOps F] in
theorem st0_eq (VO' GO' : (d : Dev nD) → Buf (Elt F) (oLoc d)) (d : Dev nD) :
    (bigSep Finset.univ fun c : Fin ((K (F := F)).nCore 0) => (P VI' VW' VO' GO').st 0 d c)
      = iprop((iLoc d ↦{fullShare} VI' d)
        ∗ (bigSep Finset.univ fun c : Fin 2 => bigSep Finset.univ fun i : Fin 16 => (wLoc d ↦{wShare c i} VW' d : sProp 𝕄))
        ∗ (oLoc d ↦{fullShare} VO' d)) := by
  simp only [P_st]
  rw [bigSep_cores (F := F) (fun c => bigSep Finset.univ fun i : Fin 16 => tileRes VI' VW' d c i (VO' d))]
  exact tiles_eq VI' VW' d (VO' d)

omit [FloatOps F] in
theorem dn0_eq (VO' GO' : (d : Dev nD) → Buf (Elt F) (oLoc d)) (d : Dev nD) :
    (bigSep Finset.univ fun c : Fin ((K (F := F)).nCore 0) => (P VI' VW' VO' GO').dn 0 d c)
      = iprop((iLoc d ↦{fullShare} VI' d)
        ∗ (bigSep Finset.univ fun c : Fin 2 => bigSep Finset.univ fun i : Fin 16 => (wLoc d ↦{wShare c i} VW' d : sProp 𝕄))
        ∗ (oLoc d ↦{fullShare} GO' d)) := by
  simp only [P_dn]
  rw [bigSep_cores (F := F) (fun c => bigSep Finset.univ fun i : Fin 16 => tileRes VI' VW' d c i (GO' d))]
  exact tiles_eq VI' VW' d (GO' d)

omit [FloatOps F] in
/-- The padded table's full share: what the TensorCore keeps, what is left of each SparseCore's token, the tiles'
    tokens. -/
theorem deal_eq (d : Dev nD) (f : Buf (Elt F) (wLoc d)) :
    (wLoc d ↦{fullShare} f : sProp 𝕄) = iprop((wLoc d ↦{Transfers.shareDrop fullShare 2} f)
      ∗ (bigSep Finset.univ fun c : Fin 2 => (wLoc d ↦{Transfers.shareDrop (shareTok fullShare 2 c) 16} f : sProp 𝕄))
      ∗ bigSep Finset.univ fun c : Fin 2 => bigSep Finset.univ fun i : Fin 16 => (wLoc d ↦{wShare c i} f : sProp 𝕄)) := by
  rw [pointsTo_deal (ℓ := wLoc d) (q := fullShare) Finset.univ f, bigSep_sep']

end Deal

/-- @main on device `d`'s TensorCore: the four host operations over the seven arrays held whole; the call, which takes
    the re-laid index table and the result whole and the padded table's thirty-two read tokens, and hands them back,
    the result at `GO`; the arguments kept throughout. -/
theorem hmain (κ : GSem nD τ sig → ℕ) (d : Dev nD) :
    iprop((K (F := F)).ctx EH (PP m GO) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m GO d) := by
  unfold SparseCore.Cfg.tcRes
  rw [unscoped_held]
  simp only [main, fn_pad.body, wp_bind, wp_pure]
  iintro ⟨#Hctx, Hst, ⟨Hb, Hheld, -, -⟩, -⟩
  -- the index table re-laid
  iapply (wp_hlo_within 𝒱 (SparseCore.T d) none Set.univ (op := opI) (S := S7) hI (V := V0 m d)) $$ [Hb Hheld]
  · isplitl [Hb]; · iexact Hb
    iexact Hheld
  iintro ⟨Hb, Hheld⟩
  rw [wp_ret]; imodintro
  -- the constant
  iapply (wp_hlo_within 𝒱 (SparseCore.T d) none Set.univ (op := opC) (S := S7) hC (V := V1 m d)) $$ [Hb Hheld]
  · isplitl [Hb]; · iexact Hb
    iexact Hheld
  iintro ⟨Hb, Hheld⟩
  rw [wp_ret]; imodintro
  -- its conversion
  iapply (wp_hlo_within 𝒱 (SparseCore.T d) none Set.univ (op := opZ) (S := S7) hZ (V := V2 m d)) $$ [Hb Hheld]
  · isplitl [Hb]; · iexact Hb
    iexact Hheld
  iintro ⟨Hb, Hheld⟩
  rw [wp_ret]; imodintro
  -- the table padded
  iapply (wp_hlo_within 𝒱 (SparseCore.T d) none Set.univ (op := opW) (S := S7) hW (V := V3 m d)) $$ [Hb Hheld]
  · isplitl [Hb]; · iexact Hb
    iexact Hheld
  iintro ⟨Hb, Hheld⟩
  rw [wp_ret]; imodintro; imodintro
  ihave Hh := (Entails.of_eq (held_S7 (F := F) d (V4 m d))) $$ Hheld
  rw [V4_a0, V4_a1, V4_i, V4_w, V4_o]
  icases Hh with ⟨Ha0, Ha1, Hi, -, -, Hw, Ho⟩
  ihave Hw' := (Entails.of_eq (deal_eq (F := F) d (VW m d))) $$ Hw
  icases Hw' with ⟨-, -, Htok⟩
  -- the call
  iapply ((K (F := F)).wp_run (D (F := F)) 𝒱 (EH := EH) (P := PP m GO) κ d 0) $$ [Hst Hi Htok Ho Ha0 Ha1]
  isplitr; · iexact Hctx
  isplitl [Hst]; · iexact Hst
  isplitl [Hi Htok Ho]
  · rw [st0_eq]
    isplitl [Hi]; · iexact Hi
    isplitl [Htok]; · iexact Htok
    iexact Ho
  iintro ⟨Hst, Hdn⟩
  ihave Hdn' := (Entails.of_eq (dn0_eq (F := F) (VI m) (VW m) (VO m) GO d)) $$ Hdn
  icases Hdn' with ⟨-, -, Ho⟩
  imodintro
  isplitl [Hst]; · iexact Hst
  isplitl [Ha0]; · iexact Ha0
  isplitl [Ha1]; · iexact Ha1
  iexact Ho

/-! ## The program's run -/

/-- From one tile's task proved at a symbolic place, the whole program: every weakly fair execution of the
    TensorCore, the two sequencers and the thirty-two tiles terminates, and leaves the result at `GO` and both
    arguments as they were. -/
theorem run_main [∀ e, Nonempty (Elt F e)]
    (htile : (K (F := F)).TileObl (D (F := F)) 𝒱 (P (VI m) (VW m) (VO m) GO) v₀ 0) :
    θ_run (Cert.Kernel.defs (F := F)) (Cert.Kernel.threads (F := F)) ⟨m, fun _ => 0, ρ⟩ (QC m GO) :=
  SparseCore.Cfg.θ_run_sc (K := K (F := F)) (D := D (F := F)) (𝒱 := 𝒱) (EH := EH) (P := PP m GO) facts v₀
    (fun q hq => match q with | 0 => nomatch hq)
    (fun q _ => match q with | 0 => htile)
    (fun q _ => match q with | 0 => vecSplit (VI m) (VW m) (VO m) GO)
    m ρ main (fun _ => iprop(emp)) (FIN m GO) (u₀ (F := F)) (sep_elim_left.trans (hu₀ (VI m) (VW m) (VO m) GO)) (hmain m ρ GO) (fq m GO) (hfin m GO) (QC m GO)
    (hQ m GO)

end Main

end Cert.Proof.KBits

end
-- ==== Proof.KBits.Obl.lean ====
/-
  One tile's task as the launch theorem asks for it.

  The kernel's label on vector subcore (c, s) runs the kernel function at the grid coordinates (c, s) when the grid
  holds them, which it does for every tile the call dispatches to. So the obligation of the call's tile (c, i) is the
  task proved at the symbolic coordinates, read at those of the tile: its parts of the index table and of the result
  are part number 2 i + c, its read token of the padded table the one dealt to (c, i). The kernel owes nothing for a
  protocol of its own, and every wait it records is on a semaphore of its own.
-/
import proofs.«206479_g70076686402233_cont_9to1c4b_78_46_alg».proof.Proof.KBits.Body
import proofs.«206479_g70076686402233_cont_9to1c4b_78_46_alg».proof.Proof.KBits.Launch
import proofs.«206479_g70076686402233_cont_9to1c4b_78_46_alg».proof.Proof.Gath

noncomputable section

namespace Cert.Proof.KBits

open Cert.Kernel Cert.Kernel.Gen

open Idealize.ShloMosaic
open Idealize.ShloMosaic.SparseCore (S V T)
open Idealize.ShloMosaic.SparseCore.Cfg (HIx Pay)
open Idealize.ShloMosaic.Transfers (tileNo shareTok)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (VI : (d : Dev nD) → Buf (Elt F) (iLoc d)) (VW : (d : Dev nD) → Buf (Elt F) (wLoc d))
variable (VO GO : (d : Dev nD) → Buf (Elt F) (oLoc d))
variable [FloatOps F]

/-- The grid coordinates of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The kernel's label on a vector subcore: the kernel function at the subcore's coordinates, on the whole arrays and
    the subcore's own scratch. -/
theorem defs₀_vector (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          cc0_scratch9 cc0_scratch10 cc0_scratch11 cc0_scratch12 cc0_scratch13 cc0_scratch14 cc0_scratch15 cc0_scratch16 cc0_scoped0) ⟨⟩ c s := rfl

omit [FloatOps F] in
/-- Waits on the thread's own semaphores are among those the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem P_x (q : Fin 1) (thr : Thread nD τ) : (P VI VW VO GO).x q thr = iprop(emp) := rfl

/-- The call's obligation for tile (c, i): the task at the tile's coordinates. -/
theorem tileObl (hVI : ∀ d y, (VI d y).toNat < 100000) (hGO : ∀ d, GO d = Cert.Proof.Spec.gath (VI d) (VW d)) :
    (K (F := F)).TileObl (D (F := F)) 𝒱 (P VI VW VO GO) v₀ 0 := by
  intro d c i O W hO _ _
  -- the kernel owes nothing for a protocol of its own
  simp only [show (P VI VW VO GO).ox = fun _ _ => 0 from rfl, add_zero]
  rw [P_x, P_go, P_td]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  exact (tile_body VI VW VO GO d (coordsV ⟨_, hc.1⟩ ⟨_, hc.2⟩) (hVI d) (hGO d) O W hO).trans (wp_mono frame _ _ fun _ => obl_post)

end Cert.Proof.KBits

end
-- ==== Proof.KBits.Final.lean ====
/-
  The program's run at the specification's value.

  Under the input domain every index word is a row number of the table, and so is every word of the re-laid index
  table, which holds the same words in another arrangement. The value the tiles leave in the result — the padded
  table's row named by the re-laid index table, at a column below 64 — is the row gather of the two arguments:
  the reshape keeps row-major positions and the pad keeps every element at its own index. So the program ends with
  the result at the row gather of its arguments, and both arguments as they were.
-/
import proofs.«206479_g70076686402233_cont_9to1c4b_78_46_alg».proof.Proof.KBits.Obl
import proofs.«206479_g70076686402233_cont_9to1c4b_78_46_alg».proof.Proof.Bridge
import proofs.«206479_g70076686402233_cont_9to1c4b_78_46_alg».proof.Proof.IdxRange

noncomputable section

namespace Cert.Proof.KBits

open Cert.Kernel Cert.Kernel.Gen

open Idealize.ShloMosaic Idealize.SL.Sem
open Idealize.ShloMosaic.SparseCore (S V T)

variable {F : FTy → Type} [FloatOps F]
variable (m : (ℓ : Loc nD τ sig) → Buf (Elt F) ℓ) (ρ : Dev nD → PrngReg)

/-- The input domain, of the launch memory's two arguments on every device. -/
abbrev InDomain : Prop :=
  ∀ c : Dev nD, Cert.Pre_input_domain.fn (F := F) (m ((c.tc : Thread nD τ).loc main_arg0)) (m ((c.tc : Thread nD τ).loc main_arg1)) = (fun _ => 1#1)

/-- Every word of the re-laid index table is a word of the index argument, so a row number of the table. -/
theorem hVI_of_pre (hpre : InDomain m) (d : Dev nD) (y : S1024x104.Idx) : (VI m d y).toNat < 100000 := by
  have e : VI m d y = (m (a0Loc d) : S4096x26.Idx → BitVec 32) _ :=
    (congrArg (VI m d) (ValueIdx.eq_ix2 y)).trans
      (Cert.Proof.Bridge.reshape_apply' (m (a0Loc d) : S4096x26.Idx → BitVec 32) Facts₀.shapeCasts_S4096x26_S1024x104 (y 0) (y 1))
  rw [e]
  exact (Cert.Proof.Ref.idx_range _ _ (hpre d) _).1

/-- The gather of the re-laid operands is the row gather of the arguments. -/
theorem gath_eq (d : Dev nD) :
    Cert.Proof.Spec.gath (VI m d) (VW m d) = Cert.Proof.Spec.takeRows (m (a0Loc d)) (m (a1Loc d)) := by
  unfold VI VW
  exact Cert.Proof.Bridge.gath_eq_takeRows _ _ _ _ _ _

/-- The whole program under the input domain: it terminates, the result is the row gather of the arguments, the
    arguments are unchanged. -/
theorem run_spec [∀ e, Nonempty (Elt F e)] (hpre : InDomain m) :
    θ_run (Cert.Kernel.defs (F := F)) (Cert.Kernel.threads (F := F)) ⟨m, fun _ => 0, ρ⟩ (fun r => ∀ c : Dev nD,
      r.2.mem ((c.tc : Thread nD τ).loc main_v2)
          = Cert.Proof.Spec.takeRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ p c => ⟨((p c).1).trans (gath_eq m c), (p c).2⟩)
    (run_main m ρ (fun d => Cert.Proof.Spec.gath (VI m d) (VW m d))
      (tileObl (VI m) (VW m) (VO m) (fun d => Cert.Proof.Spec.gath (VI m d) (VW m d)) (hVI_of_pre m hpre) (fun _ => rfl)))

end Cert.Proof.KBits

end
-- ==== Proof.RefValue.lean ====
/-
  The reference as one function of its arguments, and what it is on the input domain.

  The reference wraps a negative index word by the table's height, gathers the table's rows at
  the wrapped words (the gather clamps every start into `[0, 99999]`), and puts a NaN wherever
  the wrapped word lies outside `[0, 99999]`.  On the input domain every index word `v` has
  `0 ≤ v ≤ 99999` read signed: the wrap keeps `v`, the range test passes everywhere, the clamp
  keeps `v`, and the select takes the gathered row.  What is left is the plain row gather
  `out[b, f, c] = w[idx[b, f], c]`.
-/
import proofs.«206479_g70076686402233_cont_9to1c4b_78_46_alg».proof.ReferenceIdeal
import proofs.«206479_g70076686402233_cont_9to1c4b_78_46_alg».proof.Proof.Gen.ReferenceIdeal
import proofs.«206479_g70076686402233_cont_9to1c4b_78_46_alg».proof.Proof.Spec
import Idealize.ShloMosaic.Lib.ReduceAll
import Idealize.ShloMosaic.Lib.ValueIdx

noncomputable section

namespace Cert.Proof.Ref

open Cert.ReferenceIdeal Idealize.ShloMosaic Idealize.ShloMosaic.ValueIdx
open Cert.ReferenceIdeal.Facts₀

variable {F : FTy → Type} [FloatOps F]

/-! ## The stages -/

/-- The index words with the negative ones wrapped by the table's height. -/
def wrapped (idx : IVec S4096x26 32) : IVec S4096x26 32 :=
  select (cmpi .slt idx (broadcastInDim S4096x26 ![] bcast_S_S4096x26 (constantI S_ 32 0#32)))
    (addi idx (broadcastInDim S4096x26 ![] bcast_S_S4096x26 (constantI S_ 32 100000#32))) idx

/-- The gather's start indices: the wrapped words under a trailing unit axis. -/
def starts (idx : IVec S4096x26 32) : IVec S4096x26x1 32 :=
  broadcastInDim S4096x26x1 ![0, 1] bcast_S4096x26_S4096x26x1_0_1 (wrapped idx)

/-- The range test: 1 where the wrapped word lies in `[0, 99999]`. -/
def mask (idx : IVec S4096x26 32) : IVec S4096x26 1 :=
  Host.reduce IntOp.andi
    (andi (cmpi .sge (starts idx) (broadcastInDim S4096x26x1 ![] bcast_S_S4096x26x1 (constantI S_ 32 0#32)))
      (cmpi .sle (starts idx) (broadcastInDim S4096x26x1 ![0, 1, 2] bcast_S1x1x1_S4096x26x1_0_1_2
        (broadcastInDim S1x1x1 ![2] bcast_S1_S1x1x1_2 (constantI S1 32 99999#32)))))
    (constantI S_ 1 1#1) reducesTo_S4096x26x1_S4096x26_d2 h_S_

/-- The whole reference as one function of its two arguments. -/
def refTerm (idx : IVec S4096x26 32) (w : FVec F S100000x64 .f32) : FVec F S4096x26x64 .f32 :=
  select (broadcastInDim S4096x26x64 ![0, 1] bcast_S4096x26_S4096x26x64_0_1 (mask idx))
    (Host.gather gather_S100000x64_S4096x26x1_S4096x26x64_2_0_n_n_0_2_164 w (starts idx))
    (broadcastInDim S4096x26x64 ![] bcast_S_S4096x26x64 (constant S_ .f32 0x7FC00000#32))

/-! ## Words -/

/-- A word in `[0, 99999]` reads the same signed and unsigned. -/
theorem toInt_of_range {v : BitVec 32} (h : v.toNat < 100000) : v.toInt = v.toNat :=
  BitVec.toInt_eq_toNat_of_lt (by omega)

/-- A nonnegative word is not wrapped. -/
theorem wrap_word {v : BitVec 32} (h0 : 0 ≤ v.toInt) :
    Scalar.select (IntOp.cmpi .slt v 0#32) (IntOp.addi v 100000#32) v = v := by
  unfold Scalar.select
  rw [if_neg]
  intro h
  have := IntOp.cmpi_slt.1 h
  rw [show (0#32 : BitVec 32).toInt = 0 from by decide] at this
  omega

/-- A word in `[0, 99999]` passes the range test. -/
theorem mask_word {v : BitVec 32} (h : v.toNat < 100000) :
    IntOp.andi (IntOp.cmpi .sge v 0#32) (IntOp.cmpi .sle v 99999#32) = 1#1 := by
  refine IntOp.andi_eq_one.2 ⟨IntOp.cmpi_sge.2 ?_, IntOp.cmpi_sle.2 ?_⟩
  · rw [show (0#32 : BitVec 32).toInt = 0 from by decide, toInt_of_range h]; omega
  · rw [show (99999#32 : BitVec 32).toInt = 99999 from by decide, toInt_of_range h]; omega

/-- A fold by `and` from 1 over 1s is 1. -/
theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-! ## The stages on the input domain -/

section Domain

variable (idx : IVec S4096x26 32) (hr : ∀ j, (idx j).toNat < 100000 ∧ 0 ≤ (idx j).toInt)
include hr

theorem wrapped_apply (j : S4096x26.Idx) : wrapped idx j = idx j :=
  wrap_word (hr j).2

theorem starts_apply (b : Fin 4096) (f : Fin 26) (k : Fin 1) : starts idx (ix3 b f k) = idx (ix2 b f) := by
  have e : starts idx (ix3 b f k) = wrapped idx (ix2 b f) := by
    unfold starts broadcastInDim
    refine congrArg (wrapped idx) (funext fun a => ?_)
    match a with
    | ⟨0, _⟩ => rfl
    | ⟨1, _⟩ => rfl
  rw [e, wrapped_apply idx hr]

theorem mask_apply (j : S4096x26.Idx) : mask idx j = 1#1 := by
  unfold mask
  rw [Host.reduce_eq_foldl]
  refine foldl_andi_ones _ (fun i => ?_) _
  obtain ⟨b, f, k, rfl⟩ : ∃ b f k, i = ix3 b f k := ⟨i 0, i 1, i 2, eq_ix3 i⟩
  show IntOp.andi (IntOp.cmpi .sge (starts idx (ix3 b f k)) 0#32) (IntOp.cmpi .sle (starts idx (ix3 b f k)) 99999#32) = 1#1
  rw [starts_apply idx hr]
  exact mask_word (hr _).1

end Domain

/-! ## The gather read at an index -/

section Gather
variable {α : Type}

/-- THE ROW GATHER READ AT `(b, f, c)`: the table at the start word of `(b, f)`, read signed and
    clamped into `[0, 99999]`, at column `c` — the one start component names the collapsed row axis, the
    column is the result's offset coordinate. -/
theorem gather_rows_apply (w : S100000x64.Idx → α) (st : IVec S4096x26x1 32) (b : Fin 4096) (f : Fin 26) (c : Fin 64) :
    Host.gather gather_S100000x64_S4096x26x1_S4096x26x64_2_0_n_n_0_2_164 w st (ix3 b f c)
      = w (ix2 ⟨min (st (ix3 b f 0)).toInt.toNat 99999, by omega⟩ c) := by
  unfold Host.gather
  refine congrArg w (funext fun a => Fin.ext ?_)
  match a with
  | ⟨0, _⟩ =>
    show gather_S100000x64_S4096x26x1_S4096x26x64_2_0_n_n_0_2_164.start (ix3 b f c) st 0
        + gather_S100000x64_S4096x26x1_S4096x26x64_2_0_n_n_0_2_164.batchCoord (ix3 b f c) 0
        + gather_S100000x64_S4096x26x1_S4096x26x64_2_0_n_n_0_2_164.offCoord (ix3 b f c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S4096x26x1_S4096x26x64_2_0_n_n_0_2_164.startIndexMap from List.mem_singleton.mpr rfl)]
    have hsi : gather_S100000x64_S4096x26x1_S4096x26x64_2_0_n_n_0_2_164.siIdx (ix3 b f c)
        ⟨List.idxOf (0 : Fin 2) gather_S100000x64_S4096x26x1_S4096x26x64_2_0_n_n_0_2_164.startIndexMap,
          List.idxOf_lt_length_iff.2 (List.mem_singleton.mpr rfl)⟩ = ix3 b f 0 := by
      funext k; refine Fin.ext ?_
      match k with
      | ⟨0, _⟩ => rfl
      | ⟨1, _⟩ => rfl
      | ⟨2, _⟩ => rfl
    rw [hsi]
    rfl
  | ⟨1, _⟩ =>
    show gather_S100000x64_S4096x26x1_S4096x26x64_2_0_n_n_0_2_164.start (ix3 b f c) st 1
        + gather_S100000x64_S4096x26x1_S4096x26x64_2_0_n_n_0_2_164.batchCoord (ix3 b f c) 1
        + gather_S100000x64_S4096x26x1_S4096x26x64_2_0_n_n_0_2_164.offCoord (ix3 b f c) 1 = c.val
    rw [GatherDims.batchCoord_eq_zero _ _ _ List.not_mem_nil]
    unfold GatherDims.start
    rw [dif_neg (show (1 : Fin 2) ∉ gather_S100000x64_S4096x26x1_S4096x26x64_2_0_n_n_0_2_164.startIndexMap from by decide)]
    unfold GatherDims.offCoord
    rw [dif_pos (show (1 : Fin 2) ∈ gather_S100000x64_S4096x26x1_S4096x26x64_2_0_n_n_0_2_164.sKept from by decide)]
    simp only [Nat.zero_add, Nat.add_zero]
    rfl

end Gather

/-! ## The reference on the input domain -/

/-- ON THE INPUT DOMAIN THE REFERENCE IS THE ROW GATHER. -/
theorem refTerm_eq (idx : IVec S4096x26 32) (w : FVec F S100000x64 .f32)
    (hr : ∀ j, (idx j).toNat < 100000 ∧ 0 ≤ (idx j).toInt) :
    refTerm idx w = Spec.takeRows idx w := by
  funext x
  obtain ⟨b, f, c, rfl⟩ : ∃ b f c, x = ix3 b f c := ⟨x 0, x 1, x 2, eq_ix3 x⟩
  have hm : (broadcastInDim S4096x26x64 ![0, 1] bcast_S4096x26_S4096x26x64_0_1 (mask idx)) (ix3 b f c) = 1#1 := by
    unfold broadcastInDim
    exact mask_apply idx hr _
  unfold refTerm
  rw [select_apply, hm, select_one, gather_rows_apply, Spec.takeRows_apply]
  refine congrArg w ?_
  have h1 := (hr (ix2 b f)).1
  have h2 := toInt_of_range h1
  have hs := starts_apply idx hr b f 0
  funext a
  refine Fin.ext ?_
  match a with
  | ⟨0, _⟩ =>
    show min (starts idx (ix3 b f 0)).toInt.toNat 99999 = (idx (ix2 b f)).toNat % 100000
    rw [hs, h2, Nat.mod_eq_of_lt h1]
    omega
  | ⟨1, _⟩ => rfl

end Cert.Proof.Ref

end
-- ==== Proof.RefRun.lean ====
/-
  The reference's run, by hand.

  @main is one call of `_take`, which calls `_where` once; with the two bodies unfolded at their calls it
  is a straight line of 23 host operations over the buffers of the calls' records.  Every weakly fair
  execution of a straight line terminates with each buffer at the operations' composed result from the
  launch contents; read at the result buffer that composition is `refTerm` of the two argument arrays, and
  no operation writes an argument.  On the input domain `refTerm` is the row gather (RefValue), the index
  range coming from the precondition's integer half (IdxRange).
-/
import proofs.«206479_g70076686402233_cont_9to1c4b_78_46_alg».proof.Proof.RefValue
import proofs.«206479_g70076686402233_cont_9to1c4b_78_46_alg».proof.Proof.IdxRange
import Idealize.ShloMosaic.Lib.StableHlo.Run
import Idealize.ShloMosaic.PureOps.Ideal

noncomputable section

namespace Cert.Proof.Ref

open Cert.ReferenceIdeal Idealize.ShloMosaic Idealize.ShloMosaic.ValueIdx
open Cert.ReferenceIdeal.Facts₀

variable {F : FTy → Type} [FloatOps F]

section Run
open Idealize.ShloMosaic.TcCoe Idealize.SL.Sem Idealize.ShloMosaic.StableHlo

/-- @main's 23 operations in order, the two calls unfolded: `_take`'s 22 with `_where`'s one select in
    its place, each over the buffers of the call's record. -/
abbrev ops : List (HloOp τ sig (Elt F)) :=
  [ TRef.nullary main_call0.c (constantI S_ 32 0#32),
    TRef.unary main_call0.c main_call0.v0 (broadcastInDim S4096x26 ![] bcast_S_S4096x26),
    TRef.binary (.of main_arg0) main_call0.v0 main_call0.v1 (cmpi .slt),
    TRef.nullary main_call0.c_0 (constantI S_ 32 100000#32),
    TRef.unary main_call0.c_0 main_call0.v2 (broadcastInDim S4096x26 ![] bcast_S_S4096x26),
    TRef.binary (.of main_arg0) main_call0.v2 main_call0.v3 addi,
    TRef.ternary main_call0.v1 main_call0.v3 (.of main_arg0) main_call0.call0.v0 select,
    TRef.unary main_call0.call0.v0 main_call0.v5 (broadcastInDim S4096x26x1 ![0, 1] bcast_S4096x26_S4096x26x1_0_1),
    TRef.nullary main_call0.c_1 (constantI S1 32 99999#32),
    TRef.nullary main_call0.c_2 (constantI S_ 32 0#32),
    TRef.unary main_call0.c_2 main_call0.v6 (broadcastInDim S4096x26x1 ![] bcast_S_S4096x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x26x1 ![0, 1, 2] bcast_S1x1x1_S4096x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x26x1_S4096x26_d2 h_S_),
    TRef.binary (.of main_arg1) main_call0.v5 main_call0.v13 (fun x i => Host.gather gather_S100000x64_S4096x26x1_S4096x26x64_2_0_n_n_0_2_164 x i),
    TRef.unary main_call0.v12 main_call0.v14 (broadcastInDim S4096x26x64 ![0, 1] bcast_S4096x26_S4096x26x64_0_1),
    TRef.nullary main_call0.cst (constant S_ .f32 0x7FC00000#32),
    TRef.unary main_call0.cst main_call0.v15 (broadcastInDim S4096x26x64 ![] bcast_S_S4096x26x64),
    TRef.ternary main_call0.v14 main_call0.v13 main_call0.v15 main_call0.v16 select ]

set_option maxRecDepth 1024 in
/-- @main is that straight line: the two functions' bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- The result buffer after the line is the reference's function of the two argument buffers: each
    operation's result read at its own buffer, every other buffer as it was. -/
theorem out_eq (V : Valuation τ sig (Elt F)) :
    after ops V (main_v0 : DevRef τ sig) = refTerm (V (main_arg0 : DevRef τ sig)) (V (main_arg1 : DevRef τ sig)) := by
  after_results
  rfl

/-- No operation writes the index array. -/
theorem arg0_eq (V : Valuation τ sig (Elt F)) :
    after ops V (main_arg0 : DevRef τ sig) = V (main_arg0 : DevRef τ sig) := by
  after_results

/-- No operation writes the table. -/
theorem arg1_eq (V : Valuation τ sig (Elt F)) :
    after ops V (main_arg1 : DevRef τ sig) = V (main_arg1 : DevRef τ sig) := by
  after_results

/-- THE REFERENCE'S RUN on the input domain: every weakly fair execution of @main terminates, the result
    is the row gather of the launch's arguments, and the arguments are unchanged. -/
theorem ref_run (m' : (ℓ : Loc nD τ sig) → Buf (Elt Ideal) ℓ) (g' : Dev nD → PrngReg)
    (hpre : ∀ c : Dev nD, Cert.Pre_input_domain.fn (F := Ideal) (m' ((c.tc : Thread nD τ).loc main_arg0))
      (m' ((c.tc : Thread nD τ).loc main_arg1)) = (fun _ => 1#1)) :
    θ_run (defs (F := Ideal)) (onTc (τ := τ) (main (F := Ideal))) ⟨m', fun _ => 0, g'⟩ (fun r => ∀ c : Dev nD,
      r.2.mem ((c.tc : Thread nD τ).loc main_v0)
          = Spec.takeRows (m' ((c.tc : Thread nD τ).loc main_arg0)) (m' ((c.tc : Thread nD τ).loc main_arg1))
      ∧ r.2.mem ((c.tc : Thread nD τ).loc main_arg0) = m' ((c.tc : Thread nD τ).loc main_arg0)
      ∧ r.2.mem ((c.tc : Thread nD τ).loc main_arg1) = m' ((c.tc : Thread nD τ).loc main_arg1)) :=
  (θ_run defs _ _).mono (fun _ h c =>
      ⟨(h c main_v0).trans ((out_eq _).trans (refTerm_eq _ _ (fun j => idx_range _ _ (hpre c) j))),
        (h c main_arg0).trans (arg0_eq _), (h c main_arg1).trans (arg1_eq _)⟩)
    (run_seq scopedRefs_eq scopedSems_eq defs main (fun _ => ops) main_eq (fun _ => ops_sub) m' g')

end Run

end Cert.Proof.Ref

end
-- ==== Proof.RefAlg.lean ====
/-
  The reference's side of the two claims that name it.

  The frame claim is the run with its first conjunct dropped.  For the equivalence claim the reference is
  run from a memory that agrees with the kernel's on the two arguments: the input domain, stated of the
  kernel's memory, transfers along the agreement, and the reference's result is then the row gather of the
  KERNEL's argument arrays — the common value both programs are compared at.
-/
import proofs.«206479_g70076686402233_cont_9to1c4b_78_46_alg».proof.Defs
import proofs.«206479_g70076686402233_cont_9to1c4b_78_46_alg».proof.Proof.RefRun
import proofs.«206479_g70076686402233_cont_9to1c4b_78_46_alg».proof.Proof.Gen.Pre_input_domain
import proofs.«206479_g70076686402233_cont_9to1c4b_78_46_alg».proof.Proof.Gen.ReferenceIdeal

noncomputable section

namespace Cert.Proof.Ref

open Idealize.ShloMosaic Idealize.SL.Sem

/-- The reference runs and keeps its arguments. -/
theorem frame_ref : Cert.frame_ReferenceIdeal (hReferenceIdeal := Cert.ReferenceIdeal.Gen.facts)
    (hPre_input_domain := Cert.Pre_input_domain.Gen.facts) :=
  fun m g h => (θ_run _ _ _).mono (fun _ p c => (p c).2) (ref_run m g h)

/-- The reference's half of the equivalence: from a memory agreeing with the kernel's on the arguments, the
    reference ends with the row gather of the kernel's argument arrays, its own arguments unchanged. -/
theorem ref_half
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal (hPre_input_domain := Cert.Pre_input_domain.Gen.facts) m)
    (hag : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0)
          = Spec.takeRows (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  have hpre' : ∀ c : Dev Cert.ReferenceIdeal.nD, Cert.Pre_input_domain.fn (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = (fun _ => 1#1) := by
    intro c
    rw [(hag c).1, (hag c).2]
    exact hpre c
  refine (θ_run _ _ _).mono (fun _ p c => ⟨?_, (p c).2⟩) (ref_run m' g' hpre')
  rw [(p c).1, (hag c).1, (hag c).2]

end Cert.Proof.Ref

end
-- ==== Proof.Assemble.lean ====
/-
  The five claims, from the two printed programs' runs and the reference's.

  Each printed program, under the input domain, terminates with its result at the row gather of its two arguments
  and the arguments unchanged; its frame is that run with the result dropped. The reference, from a memory agreeing
  with the kernel's on the arguments, ends with the same row gather; so the two results are equal, element by
  element. The idealization rewrote no operation, and that claim is the trivial one.
-/
import proofs.«206479_g70076686402233_cont_9to1c4b_78_46_alg».proof.Defs
import proofs.«206479_g70076686402233_cont_9to1c4b_78_46_alg».proof.Proof.KIdeal.Final
import proofs.«206479_g70076686402233_cont_9to1c4b_78_46_alg».proof.Proof.KBits.Final
import proofs.«206479_g70076686402233_cont_9to1c4b_78_46_alg».proof.Proof.RefAlg

noncomputable section

namespace Cert.Proof

open Idealize.ShloMosaic Idealize.SL.Sem

/-- The program as printed runs and keeps its arguments. -/
theorem frame_kernel : Cert.frame_Kernel (hKernel := Cert.Kernel.Gen.facts) (hPre_input_domain := Cert.Pre_input_domain.Gen.facts) :=
  fun m g h => (θ_run _ _ _).mono (fun _ p c => (p c).2) (KBits.run_spec (F := Bits) m g h)

/-- So does its idealization. -/
theorem frame_kernelIdeal : Cert.frame_KernelIdeal (hKernelIdeal := Cert.KernelIdeal.Gen.facts) (hPre_input_domain := Cert.Pre_input_domain.Gen.facts) :=
  fun m g h => (θ_run _ _ _).mono (fun _ p c => (p c).2) (KIdeal.run_spec (F := Ideal) m g h)

/-- The idealized kernel and the reference end with the same result: the row gather of the kernel's arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hag =>
    ⟨fun c => Spec.takeRows (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      KIdeal.run_spec (F := Ideal) m g hpre, Ref.ref_half m m' g' hpre hag⟩

/-- The five claims. -/
theorem all :
    Cert.frame_Kernel (hKernel := Cert.Kernel.Gen.facts) (hPre_input_domain := Cert.Pre_input_domain.Gen.facts)
    ∧ Cert.frame_KernelIdeal (hKernelIdeal := Cert.KernelIdeal.Gen.facts) (hPre_input_domain := Cert.Pre_input_domain.Gen.facts)
    ∧ Cert.frame_ReferenceIdeal (hReferenceIdeal := Cert.ReferenceIdeal.Gen.facts) (hPre_input_domain := Cert.Pre_input_domain.Gen.facts)
    ∧ Cert.preserves_Kernel_KernelIdeal
    ∧ Cert.algebraic_KernelIdeal_ReferenceIdeal (hKernelIdeal := Cert.KernelIdeal.Gen.facts)
        (hReferenceIdeal := Cert.ReferenceIdeal.Gen.facts) (hPre_input_domain := Cert.Pre_input_domain.Gen.facts) :=
  ⟨frame_kernel, frame_kernelIdeal, Ref.frame_ref, trivial, algebraic⟩

end Cert.Proof

end
-- ==== Proof.lean ====
/- Both printed programs and the reference run and keep their arguments; the idealized kernel and the reference end
   with the same result, the row gather of the index array over the table, element by element. -/
import proofs.«206479_g70076686402233_cont_9to1c4b_78_46_alg».proof.Defs
import proofs.«206479_g70076686402233_cont_9to1c4b_78_46_alg».proof.Proof.Gen.Kernel
import proofs.«206479_g70076686402233_cont_9to1c4b_78_46_alg».proof.Proof.Gen.Kernel.Skeleton
import proofs.«206479_g70076686402233_cont_9to1c4b_78_46_alg».proof.Proof.Gen.KernelIdeal
import proofs.«206479_g70076686402233_cont_9to1c4b_78_46_alg».proof.Proof.Gen.KernelIdeal.Skeleton
import proofs.«206479_g70076686402233_cont_9to1c4b_78_46_alg».proof.Proof.Gen.ReferenceIdeal
import proofs.«206479_g70076686402233_cont_9to1c4b_78_46_alg».proof.Proof.Gen.Pre_input_domain
import proofs.«206479_g70076686402233_cont_9to1c4b_78_46_alg».proof.Proof.Assemble
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  Cert.Proof.all⟩

end Cert.Proof

end
